-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x256 : Shape := ⟨2, ![8192, 256]⟩
abbrev S4096x256 : Shape := ⟨2, ![4096, 256]⟩
abbrev S409600 : Shape := ⟨1, ![409600]⟩
abbrev S256 : Shape := ⟨1, ![256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S4096x256 : S_.BroadcastsInDim S4096x256 (![] : Fin 0 → Fin S4096x256.rank)
  reducesTo_S4096x256_S_d0_1 : S4096x256.ReducesTo [0, 1] S_
  bcast_S_S409600 : S_.BroadcastsInDim S409600 (![] : Fin 0 → Fin S409600.rank)
  reducesTo_S409600_S_d0 : S409600.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : IVec S409600 32) (main_arg9 : FVec F S256 .f32) (main_arg10 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S409600 32 := broadcastInDim S409600 ![] bcast_S_S409600 main_c_16
  let main_v45 : IVec S409600 1 := cmpi .sge main_arg7 main_v44
  let main_c_17 : IVec S_ 32 := constantI S_ 32 4096#32
  let main_v46 : IVec S409600 32 := broadcastInDim S409600 ![] bcast_S_S409600 main_c_17
  let main_v47 : IVec S409600 1 := cmpi .slt main_arg7 main_v46
  let main_v48 : IVec S409600 1 := andi main_v45 main_v47
  let main_c_18 : IVec S_ 1 := constantI S_ 1 1#1
  let main_v49 : IVec S_ 1 := (fun x v => Host.reduce IntOp.andi x v reducesTo_S409600_S_d0 h_S_) main_v48 main_c_18
  let main_v50 : IVec S_ 1 := andi main_v43 main_v49
  main_v50

def fn_part1 {F : FTy → Type} [FloatOps F] (main_arg4 : FVec F S8192x256 .f32) (main_arg5 : FVec F S4096x256 .f32) (main_arg7 : IVec S409600 32) (main_arg8 : FVec F S409600 .f32) (main_arg9 : FVec F S256 .f32) (main_arg10 : FVec F S256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S409600 .f32 := Host.absf main_arg8
  let main_cst_10 : FVec F S_ .f32 := constant S_ .f32 0x7F800000#32
  let main_v30 : FVec F S409600 .f32 := broadcastInDim S409600 ![] bcast_S_S409600 main_cst_10
  let main_v31 : IVec S409600 1 := cmpf .olt main_v29 main_v30
  let main_c_11 : IVec S_ 1 := constantI S_ 1 1#1
  let main_v32 : IVec S_ 1 := (fun x v => Host.reduce IntOp.andi x v reducesTo_S409600_S_d0 h_S_) main_v31 main_c_11
  let main_v33 : IVec S_ 1 := andi main_v28 main_v32
  fn_part2 (F := F) main_arg7 main_arg9 main_arg10 main_v33

def fn {F : FTy → Type} [FloatOps F] (main_arg0 : FVec F S8192x4096 .f32) (main_arg1 : FVec F S8192x4096 .f32) (main_arg2 : FVec F S8192x256 .f32) (main_arg3 : FVec F S4096x256 .f32) (main_arg4 : FVec F S8192x256 .f32) (main_arg5 : FVec F S4096x256 .f32) (main_arg6 : IVec S409600 32) (main_arg7 : IVec S409600 32) (main_arg8 : FVec F S409600 .f32) (main_arg9 : FVec F S256 .f32) (main_arg10 : FVec F S256 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg7 main_arg8 main_arg9 main_arg10 main_v13 main_v16
-- ==== Kernel.lean ====
abbrev S8192x4096 : Shape := ⟨2, ![8192, 4096]⟩
abbrev S8192x256 : Shape := ⟨2, ![8192, 256]⟩
abbrev S4096x256 : Shape := ⟨2, ![4096, 256]⟩
abbrev S409600 : Shape := ⟨1, ![409600]⟩
abbrev S256 : Shape := ⟨1, ![256]⟩
abbrev S1x256 : Shape := ⟨2, ![1, 256]⟩
abbrev S256x4096 : Shape := ⟨2, ![256, 4096]⟩
abbrev S4096x4096 : Shape := ⟨2, ![4096, 4096]⟩
abbrev S512x256 : Shape := ⟨2, ![512, 256]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S4096 : Shape := ⟨1, ![4096]⟩
abbrev S1x4096 : Shape := ⟨2, ![1, 4096]⟩
abbrev S409600x1 : Shape := ⟨2, ![409600, 1]⟩
abbrev S409600x256 : Shape := ⟨2, ![409600, 256]⟩
abbrev S256x8192 : Shape := ⟨2, ![256, 8192]⟩
abbrev S4096x8192 : Shape := ⟨2, ![4096, 8192]⟩
abbrev S409600x2 : Shape := ⟨2, ![409600, 2]⟩
abbrev S8192 : Shape := ⟨1, ![8192]⟩
abbrev S8192x1 : Shape := ⟨2, ![8192, 1]⟩
abbrev S8192x2 : Shape := ⟨2, ![8192, 2]⟩

abbrev nBuf : Space → Nat
  | .hbm => 290
  | .vmem => 35
  | .smem => 0
  | _ => 0

abbrev hbmTy0_0 (i : Nat) : BufTy := match i % 128 with
  | 0 => ⟨S8192x4096, .f32⟩
  | 1 => ⟨S8192x4096, .f32⟩
  | 2 => ⟨S8192x256, .f32⟩
  | 3 => ⟨S4096x256, .f32⟩
  | 4 => ⟨S8192x256, .f32⟩
  | 5 => ⟨S4096x256, .f32⟩
  | 6 => ⟨S409600, .i32⟩
  | 7 => ⟨S409600, .i32⟩
  | 8 => ⟨S409600, .f32⟩
  | 9 => ⟨S256, .f32⟩
  | 10 => ⟨S256, .f32⟩
  | 11 => ⟨S1x256, .f32⟩
  | 12 => ⟨S4096x256, .f32⟩
  | 13 => ⟨S4096x256, .f32⟩
  | 14 => ⟨S4096x256, .f32⟩
  | 15 => ⟨S256x4096, .f32⟩
  | 16 => ⟨S4096x4096, .f32⟩
  | 17 => ⟨S8192x4096, .f32⟩
  | 18 => ⟨S_, .f32⟩
  | 19 => ⟨S4096, .f32⟩
  | 20 => ⟨S1x4096, .f32⟩
  | 21 => ⟨S8192x4096, .f32⟩
  | 22 => ⟨S8192x4096, .f32⟩
  | 23 => ⟨S_, .f32⟩
  | 24 => ⟨S8192x4096, .f32⟩
  | 25 => ⟨S8192x4096, .f32⟩
  | 26 => ⟨S_, .f32⟩
  | 27 => ⟨S4096, .f32⟩
  | 28 => ⟨S1x4096, .f32⟩
  | 29 => ⟨S8192x4096, .f32⟩
  | 30 => ⟨S8192x4096, .f32⟩
  | 31 => ⟨S409600x1, .f32⟩
  | 32 => ⟨S_, .i32⟩
  | 33 => ⟨S409600, .i32⟩
  | 34 => ⟨S409600, .i1⟩
  | 35 => ⟨S_, .i32⟩
  | 36 => ⟨S409600, .i32⟩
  | 37 => ⟨S409600, .i32⟩
  | 38 => ⟨S409600, .i32⟩
  | 39 => ⟨S409600x1, .i32⟩
  | 40 => ⟨S409600x256, .f32⟩
  | 41 => ⟨S409600x256, .f32⟩
  | 42 => ⟨S409600x256, .f32⟩
  | 43 => ⟨S_, .f32⟩
  | 44 => ⟨S4096x256, .f32⟩
  | 45 => ⟨S409600x1, .i32⟩
  | 46 => ⟨S4096x256, .f32⟩
  | 47 => ⟨S_, .f32⟩
  | 48 => ⟨S4096x256, .f32⟩
  | 49 => ⟨S4096x256, .f32⟩
  | 50 => ⟨S409600x1, .f32⟩
  | 51 => ⟨S_, .i32⟩
  | 52 => ⟨S409600, .i32⟩
  | 53 => ⟨S409600, .i1⟩
  | 54 => ⟨S_, .i32⟩
  | 55 => ⟨S409600, .i32⟩
  | 56 => ⟨S409600, .i32⟩
  | 57 => ⟨S409600, .i32⟩
  | 58 => ⟨S409600x1, .i32⟩
  | 59 => ⟨S409600x256, .f32⟩
  | 60 => ⟨S409600x256, .f32⟩
  | 61 => ⟨S409600x256, .f32⟩
  | 62 => ⟨S_, .f32⟩
  | 63 => ⟨S8192x256, .f32⟩
  | 64 => ⟨S409600x1, .i32⟩
  | 65 => ⟨S8192x256, .f32⟩
  | 66 => ⟨S_, .f32⟩
  | 67 => ⟨S8192x256, .f32⟩
  | 68 => ⟨S8192x256, .f32⟩
  | 69 => ⟨S4096x256, .f32⟩
  | 70 => ⟨S_, .f32⟩
  | 71 => ⟨S4096x256, .f32⟩
  | 72 => ⟨S4096x256, .f32⟩
  | 73 => ⟨S8192x256, .f32⟩
  | 74 => ⟨S_, .f32⟩
  | 75 => ⟨S8192x256, .f32⟩
  | 76 => ⟨S8192x256, .f32⟩
  | 77 => ⟨S1x256, .f32⟩
  | 78 => ⟨S4096x256, .f32⟩
  | 79 => ⟨S4096x256, .f32⟩
  | 80 => ⟨S256x8192, .f32⟩
  | 81 => ⟨S4096x8192, .f32⟩
  | 82 => ⟨S_, .f32⟩
  | 83 => ⟨S8192x4096, .f32⟩
  | 84 => ⟨S_, .i32⟩
  | 85 => ⟨S409600, .i32⟩
  | 86 => ⟨S409600, .i1⟩
  | 87 => ⟨S_, .i32⟩
  | 88 => ⟨S409600, .i32⟩
  | 89 => ⟨S409600, .i32⟩
  | 90 => ⟨S409600, .i32⟩
  | 91 => ⟨S_, .i32⟩
  | 92 => ⟨S409600, .i32⟩
  | 93 => ⟨S409600, .i1⟩
  | 94 => ⟨S_, .i32⟩
  | 95 => ⟨S409600, .i32⟩
  | 96 => ⟨S409600, .i32⟩
  | 97 => ⟨S409600, .i32⟩
  | 98 => ⟨S409600x1, .i32⟩
  | 99 => ⟨S409600x1, .i32⟩
  | 100 => ⟨S409600x2, .i32⟩
  | 101 => ⟨S8192x4096, .f32⟩
  | 102 => ⟨S4096x4096, .f32⟩
  | 103 => ⟨S8192x4096, .f32⟩
  | 104 => ⟨S_, .f32⟩
  | 105 => ⟨S409600, .f32⟩
  | 106 => ⟨S_, .f32⟩
  | 107 => ⟨S8192, .f32⟩
  | 108 => ⟨S409600x1, .i32⟩
  | 109 => ⟨S8192, .f32⟩
  | 110 => ⟨S_, .f32⟩
  | 111 => ⟨S8192, .f32⟩
  | 112 => ⟨S8192, .i1⟩
  | 113 => ⟨S_, .i32⟩
  | 114 => ⟨S409600, .i32⟩
  | 115 => ⟨S409600, .i32⟩
  | 116 => ⟨S409600, .i32⟩
  | 117 => ⟨S409600, .i32⟩
  | 118 => ⟨S_, .i32⟩
  | 119 => ⟨S8192, .i32⟩
  | 120 => ⟨S409600x1, .i32⟩
  | 121 => ⟨S8192, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8192x4096, .f32⟩

abbrev hbmTy0_1 (i : Nat) : BufTy := match i % 128 with
  | 0 => ⟨S8192, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i1⟩
  | 8 => ⟨S_, .i32⟩
  | 9 => ⟨S_, .i1⟩
  | 10 => ⟨S8192, .i1⟩
  | 11 => ⟨S8192, .i1⟩
  | 12 => ⟨S8192, .i1⟩
  | 13 => ⟨S8192, .i32⟩
  | 14 => ⟨S8192, .i32⟩
  | 15 => ⟨S8192, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192, .f32⟩
  | 38 => ⟨S_, .i32⟩
  | 39 => ⟨S8192, .i32⟩
  | 40 => ⟨S8192, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i1⟩
  | 55 => ⟨S_, .i32⟩
  | 56 => ⟨S_, .i1⟩
  | 57 => ⟨S8192, .i1⟩
  | 58 => ⟨S8192, .i1⟩
  | 59 => ⟨S8192, .i1⟩
  | 60 => ⟨S8192, .i32⟩
  | 61 => ⟨S8192, .i32⟩
  | 62 => ⟨S8192, .i32⟩
  | 63 => ⟨S8192, .i32⟩
  | 64 => ⟨S_, .f32⟩
  | 65 => ⟨S8192, .f32⟩
  | 66 => ⟨S8192, .i1⟩
  | 67 => ⟨S_, .f32⟩
  | 68 => ⟨S_, .f32⟩
  | 69 => ⟨S8192, .f32⟩
  | 70 => ⟨S8192, .f32⟩
  | 71 => ⟨S_, .f32⟩
  | 72 => ⟨S8192, .f32⟩
  | 73 => ⟨S8192, .i1⟩
  | 74 => ⟨S8192, .f32⟩
  | 75 => ⟨S_, .f32⟩
  | 76 => ⟨S_, .f32⟩
  | 77 => ⟨S8192, .f32⟩
  | 78 => ⟨S8192, .f32⟩
  | 79 => ⟨S8192, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x1, .i32⟩
  | 96 => ⟨S8192x2, .i32⟩
  | 97 => ⟨S8192, .f32⟩
  | 98 => ⟨S8192, .f32⟩
  | 99 => ⟨S8192, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x1, .i32⟩
  | 116 => ⟨S8192x2, .i32⟩
  | 117 => ⟨S8192, .f32⟩
  | 118 => ⟨S8192, .f32⟩
  | 119 => ⟨S8192, .f32⟩
  | 120 => ⟨S_, .f32⟩
  | 121 => ⟨S8192x4096, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x4096, .f32⟩

abbrev hbmTy0_2 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S8192x1, .i32⟩
  | 10 => ⟨S8192x2, .i32⟩
  | 11 => ⟨S8192x4096, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x1, .i32⟩
  | 28 => ⟨S8192x2, .i32⟩
  | 29 => ⟨S8192x4096, .f32⟩
  | 30 => ⟨S_, .f32⟩
  | 31 => ⟨S8192x4096, .f32⟩
  | 32 => ⟨S8192x4096, .f32⟩
  | 33 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x256, .f32⟩
  | .local _ .vmem, ⟨15, _⟩ => ⟨S512x256, .f32⟩
  | .local _ .vmem, ⟨16, _⟩ => ⟨S256x1024, .f32⟩
  | .local _ .vmem, ⟨17, _⟩ => ⟨S256x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1024x1024, .f32⟩
  | .local _ .vmem, ⟨24, _⟩ => ⟨S1024x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S1024x1024, .f32⟩
  | .local _ .vmem, ⟨31, _⟩ => ⟨S1024x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_c_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_21 : Ref sig .tc := ⟨.hbm, 122, rfl⟩
abbrev main_call0_v0 : Ref sig .tc := ⟨.hbm, 123, rfl⟩
abbrev main_call0_c : Ref sig .tc := ⟨.hbm, 124, rfl⟩
abbrev main_call0_v1 : Ref sig .tc := ⟨.hbm, 125, rfl⟩
abbrev main_call0_c_0 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_call0_c_1 : Ref sig .tc := ⟨.hbm, 130, rfl⟩
abbrev main_call0_v5 : Ref sig .tc := ⟨.hbm, 131, rfl⟩
abbrev main_call0_v6 : Ref sig .tc := ⟨.hbm, 132, rfl⟩
abbrev main_call0_c_2 : Ref sig .tc := ⟨.hbm, 133, rfl⟩
abbrev main_call0_v7 : Ref sig .tc := ⟨.hbm, 134, rfl⟩
abbrev main_call0_v8 : Ref sig .tc := ⟨.hbm, 135, rfl⟩
abbrev main_call0_c_3 : Ref sig .tc := ⟨.hbm, 136, rfl⟩
abbrev main_call0_v9 : Ref sig .tc := ⟨.hbm, 137, rfl⟩
abbrev main_call0_v10 : Ref sig .tc := ⟨.hbm, 138, rfl⟩
abbrev main_call0_v11 : Ref sig .tc := ⟨.hbm, 139, rfl⟩
abbrev main_call0_v12 : Ref sig .tc := ⟨.hbm, 140, rfl⟩
abbrev main_call0_v13 : Ref sig .tc := ⟨.hbm, 141, rfl⟩
abbrev main_call0_v14 : Ref sig .tc := ⟨.hbm, 142, rfl⟩
abbrev main_v88 : Ref sig .tc := ⟨.hbm, 143, rfl⟩
abbrev main_c_22 : Ref sig .tc := ⟨.hbm, 144, rfl⟩
abbrev main_call1_v0 : Ref sig .tc := ⟨.hbm, 145, rfl⟩
abbrev main_call1_v1 : Ref sig .tc := ⟨.hbm, 146, rfl⟩
abbrev main_v89 : Ref sig .tc := ⟨.hbm, 147, rfl⟩
abbrev main_c_23 : Ref sig .tc := ⟨.hbm, 148, rfl⟩
abbrev main_v90 : Ref sig .tc := ⟨.hbm, 149, rfl⟩
abbrev main_v91 : Ref sig .tc := ⟨.hbm, 150, rfl⟩
abbrev main_c_24 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_25 : Ref sig .tc := ⟨.hbm, 157, rfl⟩
abbrev main_v97 : Ref sig .tc := ⟨.hbm, 158, rfl⟩
abbrev main_v98 : Ref sig .tc := ⟨.hbm, 159, rfl⟩
abbrev main_c_26 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_27 : Ref sig .tc := ⟨.hbm, 166, rfl⟩
abbrev main_v104 : Ref sig .tc := ⟨.hbm, 167, rfl⟩
abbrev main_v105 : Ref sig .tc := ⟨.hbm, 168, rfl⟩
abbrev main_c_28 : Ref sig .tc := ⟨.hbm, 169, rfl⟩
abbrev main_call2_v0 : Ref sig .tc := ⟨.hbm, 170, rfl⟩
abbrev main_call2_c : Ref sig .tc := ⟨.hbm, 171, rfl⟩
abbrev main_call2_v1 : Ref sig .tc := ⟨.hbm, 172, rfl⟩
abbrev main_call2_c_0 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_call2_c_1 : Ref sig .tc := ⟨.hbm, 177, rfl⟩
abbrev main_call2_v5 : Ref sig .tc := ⟨.hbm, 178, rfl⟩
abbrev main_call2_v6 : Ref sig .tc := ⟨.hbm, 179, rfl⟩
abbrev main_call2_c_2 : Ref sig .tc := ⟨.hbm, 180, rfl⟩
abbrev main_call2_v7 : Ref sig .tc := ⟨.hbm, 181, rfl⟩
abbrev main_call2_v8 : Ref sig .tc := ⟨.hbm, 182, rfl⟩
abbrev main_call2_c_3 : Ref sig .tc := ⟨.hbm, 183, rfl⟩
abbrev main_call2_v9 : Ref sig .tc := ⟨.hbm, 184, rfl⟩
abbrev main_call2_v10 : Ref sig .tc := ⟨.hbm, 185, rfl⟩
abbrev main_call2_v11 : Ref sig .tc := ⟨.hbm, 186, rfl⟩
abbrev main_call2_v12 : Ref sig .tc := ⟨.hbm, 187, rfl⟩
abbrev main_call2_v13 : Ref sig .tc := ⟨.hbm, 188, rfl⟩
abbrev main_call2_v14 : Ref sig .tc := ⟨.hbm, 189, rfl⟩
abbrev main_v106 : Ref sig .tc := ⟨.hbm, 190, rfl⟩
abbrev main_v107 : Ref sig .tc := ⟨.hbm, 191, rfl⟩
abbrev main_cst_29 : Ref sig .tc := ⟨.hbm, 192, rfl⟩
abbrev main_v108 : Ref sig .tc := ⟨.hbm, 193, rfl⟩
abbrev main_v109 : Ref sig .tc := ⟨.hbm, 194, rfl⟩
abbrev main_cst_30 : Ref sig .tc := ⟨.hbm, 195, rfl⟩
abbrev main_call3_v0 : Ref sig .tc := ⟨.hbm, 196, rfl⟩
abbrev main_call3_v1 : Ref sig .tc := ⟨.hbm, 197, rfl⟩
abbrev main_v110 : Ref sig .tc := ⟨.hbm, 198, rfl⟩
abbrev main_cst_31 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_cst_32 : Ref sig .tc := ⟨.hbm, 203, rfl⟩
abbrev main_call4_v0 : Ref sig .tc := ⟨.hbm, 204, rfl⟩
abbrev main_call4_v1 : Ref sig .tc := ⟨.hbm, 205, rfl⟩
abbrev main_v114 : Ref sig .tc := ⟨.hbm, 206, rfl⟩
abbrev main_v115 : Ref sig .tc := ⟨.hbm, 207, rfl⟩
abbrev main_c_33 : Ref sig .tc := ⟨.hbm, 208, rfl⟩
abbrev main_v116 : Ref sig .tc := ⟨.hbm, 209, rfl⟩
abbrev main_v117 : Ref sig .tc := ⟨.hbm, 210, rfl⟩
abbrev main_c_34 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_c_35 : Ref sig .tc := ⟨.hbm, 215, rfl⟩
abbrev main_v121 : Ref sig .tc := ⟨.hbm, 216, rfl⟩
abbrev main_v122 : Ref sig .tc := ⟨.hbm, 217, rfl⟩
abbrev main_c_36 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_c_37 : Ref sig .tc := ⟨.hbm, 228, rfl⟩
abbrev main_v132 : Ref sig .tc := ⟨.hbm, 229, rfl⟩
abbrev main_v133 : Ref sig .tc := ⟨.hbm, 230, rfl⟩
abbrev main_c_38 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_c_39 : Ref sig .tc := ⟨.hbm, 235, rfl⟩
abbrev main_v137 : Ref sig .tc := ⟨.hbm, 236, rfl⟩
abbrev main_v138 : Ref sig .tc := ⟨.hbm, 237, rfl⟩
abbrev main_c_40 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_cst_41 : Ref sig .tc := ⟨.hbm, 248, rfl⟩
abbrev main_v148 : Ref sig .tc := ⟨.hbm, 249, rfl⟩
abbrev main_c_42 : Ref sig .tc := ⟨.hbm, 250, rfl⟩
abbrev main_v149 : Ref sig .tc := ⟨.hbm, 251, rfl⟩
abbrev main_v150 : Ref sig .tc := ⟨.hbm, 252, rfl⟩
abbrev main_c_43 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_c_44 : Ref sig .tc := ⟨.hbm, 257, rfl⟩
abbrev main_v154 : Ref sig .tc := ⟨.hbm, 258, rfl⟩
abbrev main_v155 : Ref sig .tc := ⟨.hbm, 259, rfl⟩
abbrev main_c_45 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_c_46 : Ref sig .tc := ⟨.hbm, 268, rfl⟩
abbrev main_v163 : Ref sig .tc := ⟨.hbm, 269, rfl⟩
abbrev main_v164 : Ref sig .tc := ⟨.hbm, 270, rfl⟩
abbrev main_c_47 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_c_48 : Ref sig .tc := ⟨.hbm, 275, rfl⟩
abbrev main_v168 : Ref sig .tc := ⟨.hbm, 276, rfl⟩
abbrev main_v169 : Ref sig .tc := ⟨.hbm, 277, rfl⟩
abbrev main_c_49 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_cst_50 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 8, 1], ![false, false, false]⟩

def k2_cond2 (i : grid2.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 8], ![false, false, false]⟩

def k3_cond2 (i : grid3.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![16, 4, 4], ![false, false, false]⟩

def k4_cond2 (i : grid4.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S8192x256_S4096x256_0_0 : S8192x256.Slices ![0, 0] S4096x256
  transposes_S4096x256_S256x4096_1_0 : S4096x256.Transposes [1, 0] S256x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reducesTo_S8192x4096_S4096_d0 : S8192x4096.ReducesTo [0] S4096
  h_S_ : 0 < S_.numel
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S409600_S409600x1_0 : S409600.BroadcastsInDim S409600x1 (![0] : Fin 1 → Fin S409600x1.rank)
  bcast_S_S409600 : S_.BroadcastsInDim S409600 (![] : Fin 0 → Fin S409600.rank)
  bcast_S409600x1_S409600x256_0_1 : S409600x1.BroadcastsInDim S409600x256 (![0, 1] : Fin 2 → Fin S409600x256.rank)
  bcast_S_S4096x256 : S_.BroadcastsInDim S4096x256 (![] : Fin 0 → Fin S4096x256.rank)
  bcast_S_S8192x256 : S_.BroadcastsInDim S8192x256 (![] : Fin 0 → Fin S8192x256.rank)
  transposes_S8192x256_S256x8192_1_0 : S8192x256.Transposes [1, 0] S256x8192
  concatenates_S409600x1_S409600x1_S409600x2_d1 : Shape.Concatenates [S409600x1, S409600x1] S409600x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  gather_S8192x256_S409600x1_S409600x256_1_0_n_n_0_1_1256_wf : GatherDims.WF S8192x256 S409600x1 S409600x256 [1] [0] [] [0] [] 1 ![1, 256]
  scatter_S4096x256_S409600x1_S409600x256_1_0_0_1_wf : ScatterDims.WF S4096x256 S409600x1 S409600x256 [1] [0] [0] 1
  gather_S4096x256_S409600x1_S409600x256_1_0_n_n_0_1_1256_wf : GatherDims.WF S4096x256 S409600x1 S409600x256 [1] [0] [] [0] [] 1 ![1, 256]
  scatter_S8192x256_S409600x1_S409600x256_1_0_0_1_wf : ScatterDims.WF S8192x256 S409600x1 S409600x256 [1] [0] [0] 1
  scatter_S8192x4096_S409600x2_S409600_n_01_01_1_wf : ScatterDims.WF S8192x4096 S409600x2 S409600 [] [0, 1] [0, 1] 1
  scatter_S8192_S409600x1_S409600_n_0_0_1_wf : ScatterDims.WF S8192 S409600x1 S409600 [] [0] [0] 1
  gather_S409600_S8192x1_S8192_n_0_n_n_0_1_1_wf : GatherDims.WF S409600 S8192x1 S8192 [] [0] [] [0] [] 1 ![1]
  gather_S8192x4096_S8192x2_S8192_n_01_n_n_01_1_11_wf : GatherDims.WF S8192x4096 S8192x2 S8192 [] [0, 1] [] [0, 1] [] 1 ![1, 1]
  scatter_S8192x4096_S8192x2_S8192_n_01_01_1_wf : ScatterDims.WF S8192x4096 S8192x2 S8192 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x4096.size a
  hwx0_1 : ∀ i : grid0.Coords, EltTy.bits .f32 = 32 ∨ (Rect.block (s := S256x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x8192.size a
  hwx2_1 : ∀ i : grid2.Coords, EltTy.bits .f32 = 32 ∨ (Rect.block (s := S256x8192) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x8192.size a
  hwx2_2 : ∀ i : grid2.Coords, EltTy.bits .f32 = 32 ∨ (Rect.block (s := S4096x8192) S512x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x8192.size a
  hwx3_0 : ∀ i : grid3.Coords, EltTy.bits .f32 = 32 ∨ (Rect.block (s := S4096x8192) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x4096.size a
  hwx3_1 : ∀ i : grid3.Coords, EltTy.bits .f32 = 32 ∨ (Rect.block (s := S8192x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x4096.size a
  hwx3_2 : ∀ i : grid3.Coords, EltTy.bits .f32 = 32 ∨ (Rect.block (s := S4096x4096) S512x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x4096.size a
  hwx4_0 : ∀ i : grid4.Coords, EltTy.bits .f32 = 32 ∨ (Rect.block (s := S8192x4096) S512x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .f32 = 32 ∨ (Rect.block (s := S4096x4096) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S8192x4096.size a
  hwx4_2 : ∀ i : grid4.Coords, EltTy.bits .f32 = 32 ∨ (Rect.block (s := S8192x4096) S512x1024.size (cc4_transform_2 i) (hinb4_2 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S8192x256_S409600x1_S409600x256_1_0_n_n_0_1_1256 : GatherDims S8192x256 S409600x1 S409600x256 where
  offsetDims := [1]
  collapsedSliceDims := [0]
  operandBatchingDims := []
  startIndicesBatchingDims := []
  startIndexMap := [0]
  indexVectorDim := 1
  sliceSizes := ![1, 256]
  wf := gather_S8192x256_S409600x1_S409600x256_1_0_n_n_0_1_1256_wf
def scatter_S4096x256_S409600x1_S409600x256_1_0_0_1 : ScatterDims S4096x256 S409600x1 S409600x256 where
  updateWindowDims := [1]
  insertedWindowDims := [0]
  scatterDimsToOperandDims := [0]
  indexVectorDim := 1
  wf := scatter_S4096x256_S409600x1_S409600x256_1_0_0_1_wf
def gather_S4096x256_S409600x1_S409600x256_1_0_n_n_0_1_1256 : GatherDims S4096x256 S409600x1 S409600x256 where
  offsetDims := [1]
  collapsedSliceDims := [0]
  operandBatchingDims := []
  startIndicesBatchingDims := []
  startIndexMap := [0]
  indexVectorDim := 1
  sliceSizes := ![1, 256]
  wf := gather_S4096x256_S409600x1_S409600x256_1_0_n_n_0_1_1256_wf
def scatter_S8192x256_S409600x1_S409600x256_1_0_0_1 : ScatterDims S8192x256 S409600x1 S409600x256 where
  updateWindowDims := [1]
  insertedWindowDims := [0]
  scatterDimsToOperandDims := [0]
  indexVectorDim := 1
  wf := scatter_S8192x256_S409600x1_S409600x256_1_0_0_1_wf
def scatter_S8192x4096_S409600x2_S409600_n_01_01_1 : ScatterDims S8192x4096 S409600x2 S409600 where
  updateWindowDims := []
  insertedWindowDims := [0, 1]
  scatterDimsToOperandDims := [0, 1]
  indexVectorDim := 1
  wf := scatter_S8192x4096_S409600x2_S409600_n_01_01_1_wf
def scatter_S8192_S409600x1_S409600_n_0_0_1 : ScatterDims S8192 S409600x1 S409600 where
  updateWindowDims := []
  insertedWindowDims := [0]
  scatterDimsToOperandDims := [0]
  indexVectorDim := 1
  wf := scatter_S8192_S409600x1_S409600_n_0_0_1_wf
def gather_S409600_S8192x1_S8192_n_0_n_n_0_1_1 : GatherDims S409600 S8192x1 S8192 where
  offsetDims := []
  collapsedSliceDims := [0]
  operandBatchingDims := []
  startIndicesBatchingDims := []
  startIndexMap := [0]
  indexVectorDim := 1
  sliceSizes := ![1]
  wf := gather_S409600_S8192x1_S8192_n_0_n_n_0_1_1_wf
def gather_S8192x4096_S8192x2_S8192_n_01_n_n_01_1_11 : GatherDims S8192x4096 S8192x2 S8192 where
  offsetDims := []
  collapsedSliceDims := [0, 1]
  operandBatchingDims := []
  startIndicesBatchingDims := []
  startIndexMap := [0, 1]
  indexVectorDim := 1
  sliceSizes := ![1, 1]
  wf := gather_S8192x4096_S8192x2_S8192_n_01_n_n_01_1_11_wf
def scatter_S8192x4096_S8192x2_S8192_n_01_01_1 : ScatterDims S8192x4096 S8192x2 S8192 where
  updateWindowDims := []
  insertedWindowDims := [0, 1]
  scatterDimsToOperandDims := [0, 1]
  indexVectorDim := 1
  wf := scatter_S8192x4096_S8192x2_S8192_n_01_01_1_wf

abbrev win0_0 : Pipeline.Window sig grid0 :=
  Pipeline.Window.ofSpec (Memref.whole main_v2) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v55) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v57) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg1) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x256 : Shape := ⟨2, ![8192, 256]⟩
abbrev S4096x256 : Shape := ⟨2, ![4096, 256]⟩
abbrev S409600 : Shape := ⟨1, ![409600]⟩
abbrev S256 : Shape := ⟨1, ![256]⟩
abbrev S1x256 : Shape := ⟨2, ![1, 256]⟩
abbrev S256x8192 : Shape := ⟨2, ![256, 8192]⟩
abbrev S4096x8192 : Shape := ⟨2, ![4096, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩
abbrev S409600x1 : Shape := ⟨2, ![409600, 1]⟩
abbrev S409600x256 : Shape := ⟨2, ![409600, 256]⟩
abbrev S409600x2 : Shape := ⟨2, ![409600, 2]⟩
abbrev S4096x4096 : Shape := ⟨2, ![4096, 4096]⟩
abbrev S8192x1 : Shape := ⟨2, ![8192, 1]⟩
abbrev S8192x2 : Shape := ⟨2, ![8192, 2]⟩

abbrev nBuf : Space → Nat
  | .hbm => 289
  | .vmem => 0
  | .smem => 0
  | _ => 0

abbrev hbmTy0_0 (i : Nat) : BufTy := match i % 128 with
  | 0 => ⟨S8192x4096, .f32⟩
  | 1 => ⟨S8192x4096, .f32⟩
  | 2 => ⟨S8192x256, .f32⟩
  | 3 => ⟨S4096x256, .f32⟩
  | 4 => ⟨S8192x256, .f32⟩
  | 5 => ⟨S4096x256, .f32⟩
  | 6 => ⟨S409600, .i32⟩
  | 7 => ⟨S409600, .i32⟩
  | 8 => ⟨S409600, .f32⟩
  | 9 => ⟨S256, .f32⟩
  | 10 => ⟨S256, .f32⟩
  | 11 => ⟨S1x256, .f32⟩
  | 12 => ⟨S4096x256, .f32⟩
  | 13 => ⟨S4096x256, .f32⟩
  | 14 => ⟨S256x8192, .f32⟩
  | 15 => ⟨S4096x8192, .f32⟩
  | 16 => ⟨S8192x8192, .f32⟩
  | 17 => ⟨S_, .f32⟩
  | 18 => ⟨S8192, .f32⟩
  | 19 => ⟨S1x8192, .f32⟩
  | 20 => ⟨S8192x8192, .f32⟩
  | 21 => ⟨S8192x8192, .f32⟩
  | 22 => ⟨S_, .f32⟩
  | 23 => ⟨S8192x8192, .f32⟩
  | 24 => ⟨S8192x8192, .f32⟩
  | 25 => ⟨S_, .f32⟩
  | 26 => ⟨S8192, .f32⟩
  | 27 => ⟨S1x8192, .f32⟩
  | 28 => ⟨S8192x8192, .f32⟩
  | 29 => ⟨S8192x8192, .f32⟩
  | 30 => ⟨S409600x1, .f32⟩
  | 31 => ⟨S_, .i32⟩
  | 32 => ⟨S409600, .i32⟩
  | 33 => ⟨S409600, .i1⟩
  | 34 => ⟨S_, .i32⟩
  | 35 => ⟨S409600, .i32⟩
  | 36 => ⟨S409600, .i32⟩
  | 37 => ⟨S409600, .i32⟩
  | 38 => ⟨S409600x1, .i32⟩
  | 39 => ⟨S409600x256, .f32⟩
  | 40 => ⟨S409600x256, .f32⟩
  | 41 => ⟨S409600x256, .f32⟩
  | 42 => ⟨S_, .f32⟩
  | 43 => ⟨S4096x256, .f32⟩
  | 44 => ⟨S409600x1, .i32⟩
  | 45 => ⟨S4096x256, .f32⟩
  | 46 => ⟨S_, .f32⟩
  | 47 => ⟨S4096x256, .f32⟩
  | 48 => ⟨S4096x256, .f32⟩
  | 49 => ⟨S409600x1, .f32⟩
  | 50 => ⟨S_, .i32⟩
  | 51 => ⟨S409600, .i32⟩
  | 52 => ⟨S409600, .i1⟩
  | 53 => ⟨S_, .i32⟩
  | 54 => ⟨S409600, .i32⟩
  | 55 => ⟨S409600, .i32⟩
  | 56 => ⟨S409600, .i32⟩
  | 57 => ⟨S409600x1, .i32⟩
  | 58 => ⟨S409600x256, .f32⟩
  | 59 => ⟨S409600x256, .f32⟩
  | 60 => ⟨S409600x256, .f32⟩
  | 61 => ⟨S_, .f32⟩
  | 62 => ⟨S8192x256, .f32⟩
  | 63 => ⟨S409600x1, .i32⟩
  | 64 => ⟨S8192x256, .f32⟩
  | 65 => ⟨S_, .f32⟩
  | 66 => ⟨S8192x256, .f32⟩
  | 67 => ⟨S8192x256, .f32⟩
  | 68 => ⟨S4096x256, .f32⟩
  | 69 => ⟨S_, .f32⟩
  | 70 => ⟨S4096x256, .f32⟩
  | 71 => ⟨S4096x256, .f32⟩
  | 72 => ⟨S8192x256, .f32⟩
  | 73 => ⟨S_, .f32⟩
  | 74 => ⟨S8192x256, .f32⟩
  | 75 => ⟨S8192x256, .f32⟩
  | 76 => ⟨S1x256, .f32⟩
  | 77 => ⟨S4096x256, .f32⟩
  | 78 => ⟨S4096x256, .f32⟩
  | 79 => ⟨S256x8192, .f32⟩
  | 80 => ⟨S4096x8192, .f32⟩
  | 81 => ⟨S_, .f32⟩
  | 82 => ⟨S8192x4096, .f32⟩
  | 83 => ⟨S_, .i32⟩
  | 84 => ⟨S409600, .i32⟩
  | 85 => ⟨S409600, .i1⟩
  | 86 => ⟨S_, .i32⟩
  | 87 => ⟨S409600, .i32⟩
  | 88 => ⟨S409600, .i32⟩
  | 89 => ⟨S409600, .i32⟩
  | 90 => ⟨S_, .i32⟩
  | 91 => ⟨S409600, .i32⟩
  | 92 => ⟨S409600, .i1⟩
  | 93 => ⟨S_, .i32⟩
  | 94 => ⟨S409600, .i32⟩
  | 95 => ⟨S409600, .i32⟩
  | 96 => ⟨S409600, .i32⟩
  | 97 => ⟨S409600x1, .i32⟩
  | 98 => ⟨S409600x1, .i32⟩
  | 99 => ⟨S409600x2, .i32⟩
  | 100 => ⟨S8192x4096, .f32⟩
  | 101 => ⟨S4096x4096, .f32⟩
  | 102 => ⟨S8192x4096, .f32⟩
  | 103 => ⟨S_, .f32⟩
  | 104 => ⟨S409600, .f32⟩
  | 105 => ⟨S_, .f32⟩
  | 106 => ⟨S8192, .f32⟩
  | 107 => ⟨S409600x1, .i32⟩
  | 108 => ⟨S8192, .f32⟩
  | 109 => ⟨S_, .f32⟩
  | 110 => ⟨S8192, .f32⟩
  | 111 => ⟨S8192, .i1⟩
  | 112 => ⟨S_, .i32⟩
  | 113 => ⟨S409600, .i32⟩
  | 114 => ⟨S409600, .i32⟩
  | 115 => ⟨S409600, .i32⟩
  | 116 => ⟨S409600, .i32⟩
  | 117 => ⟨S_, .i32⟩
  | 118 => ⟨S8192, .i32⟩
  | 119 => ⟨S409600x1, .i32⟩
  | 120 => ⟨S8192, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S8192, .i32⟩
  | _ => ⟨S8192x4096, .f32⟩

abbrev hbmTy0_1 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i1⟩
  | 7 => ⟨S_, .i32⟩
  | 8 => ⟨S_, .i1⟩
  | 9 => ⟨S8192, .i1⟩
  | 10 => ⟨S8192, .i1⟩
  | 11 => ⟨S8192, .i1⟩
  | 12 => ⟨S8192, .i32⟩
  | 13 => ⟨S8192, .i32⟩
  | 14 => ⟨S8192, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192, .f32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i1⟩
  | 54 => ⟨S_, .i32⟩
  | 55 => ⟨S_, .i1⟩
  | 56 => ⟨S8192, .i1⟩
  | 57 => ⟨S8192, .i1⟩
  | 58 => ⟨S8192, .i1⟩
  | 59 => ⟨S8192, .i32⟩
  | 60 => ⟨S8192, .i32⟩
  | 61 => ⟨S8192, .i32⟩
  | 62 => ⟨S8192, .i32⟩
  | 63 => ⟨S_, .f32⟩
  | 64 => ⟨S8192, .f32⟩
  | 65 => ⟨S8192, .i1⟩
  | 66 => ⟨S_, .f32⟩
  | 67 => ⟨S_, .f32⟩
  | 68 => ⟨S8192, .f32⟩
  | 69 => ⟨S8192, .f32⟩
  | 70 => ⟨S_, .f32⟩
  | 71 => ⟨S8192, .f32⟩
  | 72 => ⟨S8192, .i1⟩
  | 73 => ⟨S8192, .f32⟩
  | 74 => ⟨S_, .f32⟩
  | 75 => ⟨S_, .f32⟩
  | 76 => ⟨S8192, .f32⟩
  | 77 => ⟨S8192, .f32⟩
  | 78 => ⟨S8192, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x1, .i32⟩
  | 95 => ⟨S8192x2, .i32⟩
  | 96 => ⟨S8192, .f32⟩
  | 97 => ⟨S8192, .f32⟩
  | 98 => ⟨S8192, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x1, .i32⟩
  | 115 => ⟨S8192x2, .i32⟩
  | 116 => ⟨S8192, .f32⟩
  | 117 => ⟨S8192, .f32⟩
  | 118 => ⟨S8192, .f32⟩
  | 119 => ⟨S_, .f32⟩
  | 120 => ⟨S8192x4096, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x4096, .f32⟩

abbrev hbmTy0_2 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x1, .i32⟩
  | 9 => ⟨S8192x2, .i32⟩
  | 10 => ⟨S8192x4096, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x1, .i32⟩
  | 27 => ⟨S8192x2, .i32⟩
  | 28 => ⟨S8192x4096, .f32⟩
  | 29 => ⟨S_, .f32⟩
  | 30 => ⟨S8192x4096, .f32⟩
  | 31 => ⟨S8192x4096, .f32⟩
  | 32 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_21 : Ref sig .tc := ⟨.hbm, 121, rfl⟩
abbrev main_call0_v0 : Ref sig .tc := ⟨.hbm, 122, rfl⟩
abbrev main_call0_c : Ref sig .tc := ⟨.hbm, 123, rfl⟩
abbrev main_call0_v1 : Ref sig .tc := ⟨.hbm, 124, rfl⟩
abbrev main_call0_c_0 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_c_1 : Ref sig .tc := ⟨.hbm, 129, rfl⟩
abbrev main_call0_v5 : Ref sig .tc := ⟨.hbm, 130, rfl⟩
abbrev main_call0_v6 : Ref sig .tc := ⟨.hbm, 131, rfl⟩
abbrev main_call0_c_2 : Ref sig .tc := ⟨.hbm, 132, rfl⟩
abbrev main_call0_v7 : Ref sig .tc := ⟨.hbm, 133, rfl⟩
abbrev main_call0_v8 : Ref sig .tc := ⟨.hbm, 134, rfl⟩
abbrev main_call0_c_3 : Ref sig .tc := ⟨.hbm, 135, rfl⟩
abbrev main_call0_v9 : Ref sig .tc := ⟨.hbm, 136, rfl⟩
abbrev main_call0_v10 : Ref sig .tc := ⟨.hbm, 137, rfl⟩
abbrev main_call0_v11 : Ref sig .tc := ⟨.hbm, 138, rfl⟩
abbrev main_call0_v12 : Ref sig .tc := ⟨.hbm, 139, rfl⟩
abbrev main_call0_v13 : Ref sig .tc := ⟨.hbm, 140, rfl⟩
abbrev main_call0_v14 : Ref sig .tc := ⟨.hbm, 141, rfl⟩
abbrev main_v87 : Ref sig .tc := ⟨.hbm, 142, rfl⟩
abbrev main_c_22 : Ref sig .tc := ⟨.hbm, 143, rfl⟩
abbrev main_call1_v0 : Ref sig .tc := ⟨.hbm, 144, rfl⟩
abbrev main_call1_v1 : Ref sig .tc := ⟨.hbm, 145, rfl⟩
abbrev main_v88 : Ref sig .tc := ⟨.hbm, 146, rfl⟩
abbrev main_c_23 : Ref sig .tc := ⟨.hbm, 147, rfl⟩
abbrev main_v89 : Ref sig .tc := ⟨.hbm, 148, rfl⟩
abbrev main_v90 : Ref sig .tc := ⟨.hbm, 149, rfl⟩
abbrev main_c_24 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_25 : Ref sig .tc := ⟨.hbm, 156, rfl⟩
abbrev main_v96 : Ref sig .tc := ⟨.hbm, 157, rfl⟩
abbrev main_v97 : Ref sig .tc := ⟨.hbm, 158, rfl⟩
abbrev main_c_26 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_c_27 : Ref sig .tc := ⟨.hbm, 165, rfl⟩
abbrev main_v103 : Ref sig .tc := ⟨.hbm, 166, rfl⟩
abbrev main_v104 : Ref sig .tc := ⟨.hbm, 167, rfl⟩
abbrev main_c_28 : Ref sig .tc := ⟨.hbm, 168, rfl⟩
abbrev main_call2_v0 : Ref sig .tc := ⟨.hbm, 169, rfl⟩
abbrev main_call2_c : Ref sig .tc := ⟨.hbm, 170, rfl⟩
abbrev main_call2_v1 : Ref sig .tc := ⟨.hbm, 171, rfl⟩
abbrev main_call2_c_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_c_1 : Ref sig .tc := ⟨.hbm, 176, rfl⟩
abbrev main_call2_v5 : Ref sig .tc := ⟨.hbm, 177, rfl⟩
abbrev main_call2_v6 : Ref sig .tc := ⟨.hbm, 178, rfl⟩
abbrev main_call2_c_2 : Ref sig .tc := ⟨.hbm, 179, rfl⟩
abbrev main_call2_v7 : Ref sig .tc := ⟨.hbm, 180, rfl⟩
abbrev main_call2_v8 : Ref sig .tc := ⟨.hbm, 181, rfl⟩
abbrev main_call2_c_3 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_v12 : Ref sig .tc := ⟨.hbm, 186, rfl⟩
abbrev main_call2_v13 : Ref sig .tc := ⟨.hbm, 187, rfl⟩
abbrev main_call2_v14 : Ref sig .tc := ⟨.hbm, 188, rfl⟩
abbrev main_v105 : Ref sig .tc := ⟨.hbm, 189, rfl⟩
abbrev main_v106 : Ref sig .tc := ⟨.hbm, 190, rfl⟩
abbrev main_cst_29 : Ref sig .tc := ⟨.hbm, 191, rfl⟩
abbrev main_v107 : Ref sig .tc := ⟨.hbm, 192, rfl⟩
abbrev main_v108 : Ref sig .tc := ⟨.hbm, 193, rfl⟩
abbrev main_cst_30 : Ref sig .tc := ⟨.hbm, 194, rfl⟩
abbrev main_call3_v0 : Ref sig .tc := ⟨.hbm, 195, rfl⟩
abbrev main_call3_v1 : Ref sig .tc := ⟨.hbm, 196, rfl⟩
abbrev main_v109 : Ref sig .tc := ⟨.hbm, 197, rfl⟩
abbrev main_cst_31 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_cst_32 : Ref sig .tc := ⟨.hbm, 202, rfl⟩
abbrev main_call4_v0 : Ref sig .tc := ⟨.hbm, 203, rfl⟩
abbrev main_call4_v1 : Ref sig .tc := ⟨.hbm, 204, rfl⟩
abbrev main_v113 : Ref sig .tc := ⟨.hbm, 205, rfl⟩
abbrev main_v114 : Ref sig .tc := ⟨.hbm, 206, rfl⟩
abbrev main_c_33 : Ref sig .tc := ⟨.hbm, 207, rfl⟩
abbrev main_v115 : Ref sig .tc := ⟨.hbm, 208, rfl⟩
abbrev main_v116 : Ref sig .tc := ⟨.hbm, 209, rfl⟩
abbrev main_c_34 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_c_35 : Ref sig .tc := ⟨.hbm, 214, rfl⟩
abbrev main_v120 : Ref sig .tc := ⟨.hbm, 215, rfl⟩
abbrev main_v121 : Ref sig .tc := ⟨.hbm, 216, rfl⟩
abbrev main_c_36 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_c_37 : Ref sig .tc := ⟨.hbm, 227, rfl⟩
abbrev main_v131 : Ref sig .tc := ⟨.hbm, 228, rfl⟩
abbrev main_v132 : Ref sig .tc := ⟨.hbm, 229, rfl⟩
abbrev main_c_38 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_c_39 : Ref sig .tc := ⟨.hbm, 234, rfl⟩
abbrev main_v136 : Ref sig .tc := ⟨.hbm, 235, rfl⟩
abbrev main_v137 : Ref sig .tc := ⟨.hbm, 236, rfl⟩
abbrev main_c_40 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_cst_41 : Ref sig .tc := ⟨.hbm, 247, rfl⟩
abbrev main_v147 : Ref sig .tc := ⟨.hbm, 248, rfl⟩
abbrev main_c_42 : Ref sig .tc := ⟨.hbm, 249, rfl⟩
abbrev main_v148 : Ref sig .tc := ⟨.hbm, 250, rfl⟩
abbrev main_v149 : Ref sig .tc := ⟨.hbm, 251, rfl⟩
abbrev main_c_43 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_c_44 : Ref sig .tc := ⟨.hbm, 256, rfl⟩
abbrev main_v153 : Ref sig .tc := ⟨.hbm, 257, rfl⟩
abbrev main_v154 : Ref sig .tc := ⟨.hbm, 258, rfl⟩
abbrev main_c_45 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_c_46 : Ref sig .tc := ⟨.hbm, 267, rfl⟩
abbrev main_v162 : Ref sig .tc := ⟨.hbm, 268, rfl⟩
abbrev main_v163 : Ref sig .tc := ⟨.hbm, 269, rfl⟩
abbrev main_c_47 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_c_48 : Ref sig .tc := ⟨.hbm, 274, rfl⟩
abbrev main_v167 : Ref sig .tc := ⟨.hbm, 275, rfl⟩
abbrev main_v168 : Ref sig .tc := ⟨.hbm, 276, rfl⟩
abbrev main_c_49 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_cst_50 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S8192x256_S256x8192_1_0 : S8192x256.Transposes [1, 0] S256x8192
  reducesTo_S8192x8192_S8192_d0 : S8192x8192.ReducesTo [0] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S409600_S409600x1_0 : S409600.BroadcastsInDim S409600x1 (![0] : Fin 1 → Fin S409600x1.rank)
  bcast_S_S409600 : S_.BroadcastsInDim S409600 (![] : Fin 0 → Fin S409600.rank)
  bcast_S409600x1_S409600x256_0_1 : S409600x1.BroadcastsInDim S409600x256 (![0, 1] : Fin 2 → Fin S409600x256.rank)
  bcast_S_S4096x256 : S_.BroadcastsInDim S4096x256 (![] : Fin 0 → Fin S4096x256.rank)
  bcast_S_S8192x256 : S_.BroadcastsInDim S8192x256 (![] : Fin 0 → Fin S8192x256.rank)
  bcast_S_S8192x4096 : S_.BroadcastsInDim S8192x4096 (![] : Fin 0 → Fin S8192x4096.rank)
  concatenates_S409600x1_S409600x1_S409600x2_d1 : Shape.Concatenates [S409600x1, S409600x1] S409600x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S4096x256_S256x8192_S4096x8192_1_0_0_1_n_n_wf : DotDims.WF S4096x256 S256x8192 S4096x8192 [1] [0] [0] [1] [] []
  dot_S8192x4096_S4096x8192_S8192x8192_1_0_0_1_n_n_wf : DotDims.WF S8192x4096 S4096x8192 S8192x8192 [1] [0] [0] [1] [] []
  gather_S8192x256_S409600x1_S409600x256_1_0_n_n_0_1_1256_wf : GatherDims.WF S8192x256 S409600x1 S409600x256 [1] [0] [] [0] [] 1 ![1, 256]
  scatter_S4096x256_S409600x1_S409600x256_1_0_0_1_wf : ScatterDims.WF S4096x256 S409600x1 S409600x256 [1] [0] [0] 1
  gather_S4096x256_S409600x1_S409600x256_1_0_n_n_0_1_1256_wf : GatherDims.WF S4096x256 S409600x1 S409600x256 [1] [0] [] [0] [] 1 ![1, 256]
  scatter_S8192x256_S409600x1_S409600x256_1_0_0_1_wf : ScatterDims.WF S8192x256 S409600x1 S409600x256 [1] [0] [0] 1
  scatter_S8192x4096_S409600x2_S409600_n_01_01_1_wf : ScatterDims.WF S8192x4096 S409600x2 S409600 [] [0, 1] [0, 1] 1
  dot_S4096x8192_S8192x4096_S4096x4096_1_0_0_1_n_n_wf : DotDims.WF S4096x8192 S8192x4096 S4096x4096 [1] [0] [0] [1] [] []
  dot_S8192x4096_S4096x4096_S8192x4096_1_0_0_1_n_n_wf : DotDims.WF S8192x4096 S4096x4096 S8192x4096 [1] [0] [0] [1] [] []
  scatter_S8192_S409600x1_S409600_n_0_0_1_wf : ScatterDims.WF S8192 S409600x1 S409600 [] [0] [0] 1
  gather_S409600_S8192x1_S8192_n_0_n_n_0_1_1_wf : GatherDims.WF S409600 S8192x1 S8192 [] [0] [] [0] [] 1 ![1]
  gather_S8192x8192_S8192x2_S8192_n_01_n_n_01_1_11_wf : GatherDims.WF S8192x8192 S8192x2 S8192 [] [0, 1] [] [0, 1] [] 1 ![1, 1]
  scatter_S8192x4096_S8192x2_S8192_n_01_01_1_wf : ScatterDims.WF S8192x4096 S8192x2 S8192 [] [0, 1] [0, 1] 1

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def gather_S8192x256_S409600x1_S409600x256_1_0_n_n_0_1_1256 : GatherDims S8192x256 S409600x1 S409600x256 where
  offsetDims := [1]
  collapsedSliceDims := [0]
  operandBatchingDims := []
  startIndicesBatchingDims := []
  startIndexMap := [0]
  indexVectorDim := 1
  sliceSizes := ![1, 256]
  wf := gather_S8192x256_S409600x1_S409600x256_1_0_n_n_0_1_1256_wf
def scatter_S4096x256_S409600x1_S409600x256_1_0_0_1 : ScatterDims S4096x256 S409600x1 S409600x256 where
  updateWindowDims := [1]
  insertedWindowDims := [0]
  scatterDimsToOperandDims := [0]
  indexVectorDim := 1
  wf := scatter_S4096x256_S409600x1_S409600x256_1_0_0_1_wf
def gather_S4096x256_S409600x1_S409600x256_1_0_n_n_0_1_1256 : GatherDims S4096x256 S409600x1 S409600x256 where
  offsetDims := [1]
  collapsedSliceDims := [0]
  operandBatchingDims := []
  startIndicesBatchingDims := []
  startIndexMap := [0]
  indexVectorDim := 1
  sliceSizes := ![1, 256]
  wf := gather_S4096x256_S409600x1_S409600x256_1_0_n_n_0_1_1256_wf
def scatter_S8192x256_S409600x1_S409600x256_1_0_0_1 : ScatterDims S8192x256 S409600x1 S409600x256 where
  updateWindowDims := [1]
  insertedWindowDims := [0]
  scatterDimsToOperandDims := [0]
  indexVectorDim := 1
  wf := scatter_S8192x256_S409600x1_S409600x256_1_0_0_1_wf
def scatter_S8192x4096_S409600x2_S409600_n_01_01_1 : ScatterDims S8192x4096 S409600x2 S409600 where
  updateWindowDims := []
  insertedWindowDims := [0, 1]
  scatterDimsToOperandDims := [0, 1]
  indexVectorDim := 1
  wf := scatter_S8192x4096_S409600x2_S409600_n_01_01_1_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def scatter_S8192_S409600x1_S409600_n_0_0_1 : ScatterDims S8192 S409600x1 S409600 where
  updateWindowDims := []
  insertedWindowDims := [0]
  scatterDimsToOperandDims := [0]
  indexVectorDim := 1
  wf := scatter_S8192_S409600x1_S409600_n_0_0_1_wf
def gather_S409600_S8192x1_S8192_n_0_n_n_0_1_1 : GatherDims S409600 S8192x1 S8192 where
  offsetDims := []
  collapsedSliceDims := [0]
  operandBatchingDims := []
  startIndicesBatchingDims := []
  startIndexMap := [0]
  indexVectorDim := 1
  sliceSizes := ![1]
  wf := gather_S409600_S8192x1_S8192_n_0_n_n_0_1_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192x4096_S8192x2_S8192_n_01_01_1 : ScatterDims S8192x4096 S8192x2 S8192 where
  updateWindowDims := []
  insertedWindowDims := [0, 1]
  scatterDimsToOperandDims := [0, 1]
  indexVectorDim := 1
  wf := scatter_S8192x4096_S8192x2_S8192_n_01_01_1_wf

class Facts : Prop extends Facts₀ where

variable [Facts]
-- ==== Proof.RI.Run.lean ====
/- The reference program's @main read as one straight line of host operations, and its run.

   The four windows of @main are listed operation by operation; where @main calls one of its local
   functions (the floor-remainder of a vector by a scalar, and the three selects against a broadcast
   scalar) the callee's operations stand in the list at the place of the call, over the buffers that
   call owns, exactly as unfolding the call gives them. Sequencing is associative, so @main equals the
   straight line of the concatenated list. No buffer or semaphore of the signature is scoped, every
   operation touches TensorCore buffers only, and none allocates: so every weakly fair execution
   terminates, each buffer ends at the fold of the operations' results over the launch contents, and a
   buffer that no operation writes (each of the eleven arguments) ends as it began. -/
import proofs.«166874_j54296976556804_1_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of the 278: the window `main_part0` of @main, its calls unfolded. -/
abbrev ops_part0 : List (HloOp τ sig (Elt F)) :=
  [ StableHlo.unary main_arg10 main_v0 (broadcastInDim S1x256 ![1] bcast_S256_S1x256_1 : (⟨S256, .f32⟩ : BufTy).Contents (Elt F) → (⟨S1x256, .f32⟩ : BufTy).Contents (Elt F)),
    StableHlo.unary main_v0 main_v1 (broadcastInDim S4096x256 ![0, 1] bcast_S1x256_S4096x256_0_1 : (⟨S1x256, .f32⟩ : BufTy).Contents (Elt F) → (⟨S4096x256, .f32⟩ : BufTy).Contents (Elt F)),
    StableHlo.binary main_arg5 main_v1 main_v2 (Host.divf : (⟨S4096x256, .f32⟩ : BufTy).Contents (Elt F) → (⟨S4096x256, .f32⟩ : BufTy).Contents (Elt F) → (⟨S4096x256, .f32⟩ : BufTy).Contents (Elt F)),
    StableHlo.unary main_arg4 main_v3 ((transpose S256x8192 [1, 0] · transposes_S8192x256_S256x8192_1_0) : (⟨S8192x256, .f32⟩ : BufTy).Contents (Elt F) → (⟨S256x8192, .f32⟩ : BufTy).Contents (Elt F)),
    StableHlo.binary main_v2 main_v3 main_v4 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)),
    StableHlo.binary main_arg0 main_v4 main_v5 ((fun l r => Host.dotGeneral dot_S8192x4096_S4096x8192_S8192x8192_1_0_0_1_n_n none l r) : (⟨S8192x4096, .f32⟩ : BufTy).Contents (Elt F) → (⟨S4096x8192, .f32⟩ : BufTy).Contents (Elt F) → (⟨S8192x8192, .f32⟩ : BufTy).Contents (Elt F)),
    StableHlo.nullary main_cst (constant S_ .f32 0x7F800000#32),
    StableHlo.binary main_v5 main_cst main_v6 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.unary main_v6 main_v7 (broadcastInDim S1x8192 ![1] bcast_S8192_S1x8192_1 : (⟨S8192, .f32⟩ : BufTy).Contents (Elt F) → (⟨S1x8192, .f32⟩ : BufTy).Contents (Elt F)),
    StableHlo.unary main_v7 main_v8 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v8 main_v9 (subf : (⟨S8192x8192, .f32⟩ : BufTy).Contents (Elt F) → (⟨S8192x8192, .f32⟩ : BufTy).Contents (Elt F) → (⟨S8192x8192, .f32⟩ : BufTy).Contents (Elt F)),
    StableHlo.nullary main_cst_0 (constant S_ .f32 0x322BCC77#32),
    StableHlo.unary main_cst_0 main_v10 (broadcastInDim S8192x8192 ![] bcast_S_S8192x8192 : (⟨S_, .f32⟩ : BufTy).Contents (Elt F) → (⟨S8192x8192, .f32⟩ : BufTy).Contents (Elt F)),
    StableHlo.binary main_v9 main_v10 main_v11 (addf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.binary main_v11 main_cst_1 main_v12 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.unary main_v12 main_v13 (broadcastInDim S1x8192 ![1] bcast_S8192_S1x8192_1 : (⟨S8192, .f32⟩ : BufTy).Contents (Elt F) → (⟨S1x8192, .f32⟩ : BufTy).Contents (Elt F)),
    StableHlo.unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v11 main_v14 main_v15 (Host.divf : (⟨S8192x8192, .f32⟩ : BufTy).Contents (Elt F) → (⟨S8192x8192, .f32⟩ : BufTy).Contents (Elt F) → (⟨S8192x8192, .f32⟩ : BufTy).Contents (Elt F)),
    StableHlo.unary main_arg8 main_v16 (broadcastInDim S409600x1 ![0] bcast_S409600_S409600x1_0 : (⟨S409600, .f32⟩ : BufTy).Contents (Elt F) → (⟨S409600x1, .f32⟩ : BufTy).Contents (Elt F)),
    StableHlo.nullary main_c (constantI S_ 32 0#32),
    StableHlo.unary main_c main_v17 (broadcastInDim S409600 ![] bcast_S_S409600 : (⟨S_, .i32⟩ : BufTy).Contents (Elt F) → (⟨S409600, .i32⟩ : BufTy).Contents (Elt F)),
    StableHlo.binary main_arg6 main_v17 main_v18 (cmpi .slt : (⟨S409600, .i32⟩ : BufTy).Contents (Elt F) → (⟨S409600, .i32⟩ : BufTy).Contents (Elt F) → (⟨S409600, .i1⟩ : BufTy).Contents (Elt F)),
    StableHlo.nullary main_c_2 (constantI S_ 32 8192#32),
    StableHlo.unary main_c_2 main_v19 (broadcastInDim S409600 ![] bcast_S_S409600 : (⟨S_, .i32⟩ : BufTy).Contents (Elt F) → (⟨S409600, .i32⟩ : BufTy).Contents (Elt F)),
    StableHlo.binary main_arg6 main_v19 main_v20 (addi : (⟨S409600, .i32⟩ : BufTy).Contents (Elt F) → (⟨S409600, .i32⟩ : BufTy).Contents (Elt F) → (⟨S409600, .i32⟩ : BufTy).Contents (Elt F)),
    StableHlo.ternary main_v18 main_v20 main_arg6 main_v21 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v21 main_v22 (broadcastInDim S409600x1 ![0] bcast_S409600_S409600x1_0 : (⟨S409600, .i32⟩ : BufTy).Contents (Elt F) → (⟨S409600x1, .i32⟩ : BufTy).Contents (Elt F)),
    StableHlo.binary main_arg2 main_v22 main_v23 ((fun x i => Host.gather gather_S8192x256_S409600x1_S409600x256_1_0_n_n_0_1_1256 x i) : (⟨S8192x256, .f32⟩ : BufTy).Contents (Elt F) → (⟨S409600x1, .i32⟩ : BufTy).Contents (Elt F) → (⟨S409600x256, .f32⟩ : BufTy).Contents (Elt F)),
    StableHlo.unary main_v16 main_v24 (broadcastInDim S409600x256 ![0, 1] bcast_S409600x1_S409600x256_0_1 : (⟨S409600x1, .f32⟩ : BufTy).Contents (Elt F) → (⟨S409600x256, .f32⟩ : BufTy).Contents (Elt F)),
    StableHlo.binary main_v24 main_v23 main_v25 (mulf : (⟨S409600x256, .f32⟩ : BufTy).Contents (Elt F) → (⟨S409600x256, .f32⟩ : BufTy).Contents (Elt F) → (⟨S409600x256, .f32⟩ : BufTy).Contents (Elt F)),
    StableHlo.nullary main_cst_3 (constant S_ .f32 0x00000000#32),
    StableHlo.unary main_cst_3 main_v26 (broadcastInDim S4096x256 ![] bcast_S_S4096x256 : (⟨S_, .f32⟩ : BufTy).Contents (Elt F) → (⟨S4096x256, .f32⟩ : BufTy).Contents (Elt F)),
    StableHlo.unary main_arg7 main_v27 (broadcastInDim S409600x1 ![0] bcast_S409600_S409600x1_0 : (⟨S409600, .i32⟩ : BufTy).Contents (Elt F) → (⟨S409600x1, .i32⟩ : BufTy).Contents (Elt F)),
    StableHlo.ternary main_v26 main_v27 main_v25 main_v28 ((fun x i u => Host.scatterAdd scatter_S4096x256_S409600x1_S409600x256_1_0_0_1 x i u) : (⟨S4096x256, .f32⟩ : BufTy).Contents (Elt F) → (⟨S409600x1, .i32⟩ : BufTy).Contents (Elt F) → (⟨S409600x256, .f32⟩ : BufTy).Contents (Elt F) → (⟨S4096x256, .f32⟩ : BufTy).Contents (Elt F)),
    StableHlo.nullary main_cst_4 (constant S_ .f32 0x45B504F3#32),
    StableHlo.unary main_cst_4 main_v29 (broadcastInDim S4096x256 ![] bcast_S_S4096x256 : (⟨S_, .f32⟩ : BufTy).Contents (Elt F) → (⟨S4096x256, .f32⟩ : BufTy).Contents (Elt F)),
    StableHlo.binary main_v28 main_v29 main_v30 (Host.divf : (⟨S4096x256, .f32⟩ : BufTy).Contents (Elt F) → (⟨S4096x256, .f32⟩ : BufTy).Contents (Elt F) → (⟨S4096x256, .f32⟩ : BufTy).Contents (Elt F)),
    StableHlo.unary main_arg8 main_v31 (broadcastInDim S409600x1 ![0] bcast_S409600_S409600x1_0 : (⟨S409600, .f32⟩ : BufTy).Contents (Elt F) → (⟨S409600x1, .f32⟩ : BufTy).Contents (Elt F)),
    StableHlo.nullary main_c_5 (constantI S_ 32 0#32),
    StableHlo.unary main_c_5 main_v32 (broadcastInDim S409600 ![] bcast_S_S409600 : (⟨S_, .i32⟩ : BufTy).Contents (Elt F) → (⟨S409600, .i32⟩ : BufTy).Contents (Elt F)),
    StableHlo.binary main_arg7 main_v32 main_v33 (cmpi .slt : (⟨S409600, .i32⟩ : BufTy).Contents (Elt F) → (⟨S409600, .i32⟩ : BufTy).Contents (Elt F) → (⟨S409600, .i1⟩ : BufTy).Contents (Elt F)),
    StableHlo.nullary main_c_6 (constantI S_ 32 4096#32),
    StableHlo.unary main_c_6 main_v34 (broadcastInDim S409600 ![] bcast_S_S409600 : (⟨S_, .i32⟩ : BufTy).Contents (Elt F) → (⟨S409600, .i32⟩ : BufTy).Contents (Elt F)),
    StableHlo.binary main_arg7 main_v34 main_v35 (addi : (⟨S409600, .i32⟩ : BufTy).Contents (Elt F) → (⟨S409600, .i32⟩ : BufTy).Contents (Elt F) → (⟨S409600, .i32⟩ : BufTy).Contents (Elt F)),
    StableHlo.ternary main_v33 main_v35 main_arg7 main_v36 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v36 main_v37 (broadcastInDim S409600x1 ![0] bcast_S409600_S409600x1_0 : (⟨S409600, .i32⟩ : BufTy).Contents (Elt F) → (⟨S409600x1, .i32⟩ : BufTy).Contents (Elt F)),
    StableHlo.binary main_arg3 main_v37 main_v38 ((fun x i => Host.gather gather_S4096x256_S409600x1_S409600x256_1_0_n_n_0_1_1256 x i) : (⟨S4096x256, .f32⟩ : BufTy).Contents (Elt F) → (⟨S409600x1, .i32⟩ : BufTy).Contents (Elt F) → (⟨S409600x256, .f32⟩ : BufTy).Contents (Elt F)),
    StableHlo.unary main_v31 main_v39 (broadcastInDim S409600x256 ![0, 1] bcast_S409600x1_S409600x256_0_1 : (⟨S409600x1, .f32⟩ : BufTy).Contents (Elt F) → (⟨S409600x256, .f32⟩ : BufTy).Contents (Elt F)),
    StableHlo.binary main_v39 main_v38 main_v40 (mulf : (⟨S409600x256, .f32⟩ : BufTy).Contents (Elt F) → (⟨S409600x256, .f32⟩ : BufTy).Contents (Elt F) → (⟨S409600x256, .f32⟩ : BufTy).Contents (Elt F)),
    StableHlo.nullary main_cst_7 (constant S_ .f32 0x00000000#32),
    StableHlo.unary main_cst_7 main_v41 (broadcastInDim S8192x256 ![] bcast_S_S8192x256 : (⟨S_, .f32⟩ : BufTy).Contents (Elt F) → (⟨S8192x256, .f32⟩ : BufTy).Contents (Elt F)),
    StableHlo.unary main_arg6 main_v42 (broadcastInDim S409600x1 ![0] bcast_S409600_S409600x1_0 : (⟨S409600, .i32⟩ : BufTy).Contents (Elt F) → (⟨S409600x1, .i32⟩ : BufTy).Contents (Elt F)),
    StableHlo.ternary main_v41 main_v42 main_v40 main_v43 ((fun x i u => Host.scatterAdd scatter_S8192x256_S409600x1_S409600x256_1_0_0_1 x i u) : (⟨S8192x256, .f32⟩ : BufTy).Contents (Elt F) → (⟨S409600x1, .i32⟩ : BufTy).Contents (Elt F) → (⟨S409600x256, .f32⟩ : BufTy).Contents (Elt F) → (⟨S8192x256, .f32⟩ : BufTy).Contents (Elt F)),
    StableHlo.nullary main_cst_8 (constant S_ .f32 0x45B504F3#32),
    StableHlo.unary main_cst_8 main_v44 (broadcastInDim S8192x256 ![] bcast_S_S8192x256 : (⟨S_, .f32⟩ : BufTy).Contents (Elt F) → (⟨S8192x256, .f32⟩ : BufTy).Contents (Elt F)),
    StableHlo.binary main_v43 main_v44 main_v45 (Host.divf : (⟨S8192x256, .f32⟩ : BufTy).Contents (Elt F) → (⟨S8192x256, .f32⟩ : BufTy).Contents (Elt F) → (⟨S8192x256, .f32⟩ : BufTy).Contents (Elt F)),
    StableHlo.binary main_v30 main_arg3 main_v46 (addf : (⟨S4096x256, .f32⟩ : BufTy).Contents (Elt F) → (⟨S4096x256, .f32⟩ : BufTy).Contents (Elt F) → (⟨S4096x256, .f32⟩ : BufTy).Contents (Elt F)),
    StableHlo.nullary main_cst_9 (constant S_ .f32 0x3F000000#32),
    StableHlo.unary main_cst_9 main_v47 (broadcastInDim S4096x256 ![] bcast_S_S4096x256 : (⟨S_, .f32⟩ : BufTy).Contents (Elt F) → (⟨S4096x256, .f32⟩ : BufTy).Contents (Elt F)) ]

/-- Operations 61 … 142 of the 278: the window `main_part1` of @main, its calls unfolded. -/
abbrev ops_part1 : List (HloOp τ sig (Elt F)) :=
  [ StableHlo.binary main_v46 main_v47 main_v48 (mulf : (⟨S4096x256, .f32⟩ : BufTy).Contents (Elt F) → (⟨S4096x256, .f32⟩ : BufTy).Contents (Elt F) → (⟨S4096x256, .f32⟩ : BufTy).Contents (Elt F)),
    StableHlo.binary main_v45 main_arg2 main_v49 (addf : (⟨S8192x256, .f32⟩ : BufTy).Contents (Elt F) → (⟨S8192x256, .f32⟩ : BufTy).Contents (Elt F) → (⟨S8192x256, .f32⟩ : BufTy).Contents (Elt F)),
    StableHlo.nullary main_cst_10 (constant S_ .f32 0x3F000000#32),
    StableHlo.unary main_cst_10 main_v50 (broadcastInDim S8192x256 ![] bcast_S_S8192x256 : (⟨S_, .f32⟩ : BufTy).Contents (Elt F) → (⟨S8192x256, .f32⟩ : BufTy).Contents (Elt F)),
    StableHlo.binary main_v49 main_v50 main_v51 (mulf : (⟨S8192x256, .f32⟩ : BufTy).Contents (Elt F) → (⟨S8192x256, .f32⟩ : BufTy).Contents (Elt F) → (⟨S8192x256, .f32⟩ : BufTy).Contents (Elt F)),
    StableHlo.unary main_arg9 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S4096x256 ![0, 1] bcast_S1x256_S4096x256_0_1 : (⟨S1x256, .f32⟩ : BufTy).Contents (Elt F) → (⟨S4096x256, .f32⟩ : BufTy).Contents (Elt F)),
    StableHlo.binary main_v48 main_v53 main_v54 (Host.divf : (⟨S4096x256, .f32⟩ : BufTy).Contents (Elt F) → (⟨S4096x256, .f32⟩ : BufTy).Contents (Elt F) → (⟨S4096x256, .f32⟩ : BufTy).Contents (Elt F)),
    StableHlo.unary main_v51 main_v55 ((transpose S256x8192 [1, 0] · transposes_S8192x256_S256x8192_1_0) : (⟨S8192x256, .f32⟩ : BufTy).Contents (Elt F) → (⟨S256x8192, .f32⟩ : BufTy).Contents (Elt F)),
    StableHlo.binary main_v54 main_v55 main_v56 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)),
    StableHlo.nullary main_cst_11 (constant S_ .f32 0x00000000#32),
    StableHlo.unary main_cst_11 main_v57 (broadcastInDim S8192x4096 ![] bcast_S_S8192x4096 : (⟨S_, .f32⟩ : BufTy).Contents (Elt F) → (⟨S8192x4096, .f32⟩ : BufTy).Contents (Elt F)),
    StableHlo.nullary main_c_12 (constantI S_ 32 0#32),
    StableHlo.unary main_c_12 main_v58 (broadcastInDim S409600 ![] bcast_S_S409600 : (⟨S_, .i32⟩ : BufTy).Contents (Elt F) → (⟨S409600, .i32⟩ : BufTy).Contents (Elt F)),
    StableHlo.binary main_arg6 main_v58 main_v59 (cmpi .slt : (⟨S409600, .i32⟩ : BufTy).Contents (Elt F) → (⟨S409600, .i32⟩ : BufTy).Contents (Elt F) → (⟨S409600, .i1⟩ : BufTy).Contents (Elt F)),
    StableHlo.nullary main_c_13 (constantI S_ 32 8192#32),
    StableHlo.unary main_c_13 main_v60 (broadcastInDim S409600 ![] bcast_S_S409600 : (⟨S_, .i32⟩ : BufTy).Contents (Elt F) → (⟨S409600, .i32⟩ : BufTy).Contents (Elt F)),
    StableHlo.binary main_arg6 main_v60 main_v61 (addi : (⟨S409600, .i32⟩ : BufTy).Contents (Elt F) → (⟨S409600, .i32⟩ : BufTy).Contents (Elt F) → (⟨S409600, .i32⟩ : BufTy).Contents (Elt F)),
    StableHlo.ternary main_v59 main_v61 main_arg6 main_v62 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.nullary main_c_14 (constantI S_ 32 0#32),
    StableHlo.unary main_c_14 main_v63 (broadcastInDim S409600 ![] bcast_S_S409600 : (⟨S_, .i32⟩ : BufTy).Contents (Elt F) → (⟨S409600, .i32⟩ : BufTy).Contents (Elt F)),
    StableHlo.binary main_arg7 main_v63 main_v64 (cmpi .slt : (⟨S409600, .i32⟩ : BufTy).Contents (Elt F) → (⟨S409600, .i32⟩ : BufTy).Contents (Elt F) → (⟨S409600, .i1⟩ : BufTy).Contents (Elt F)),
    StableHlo.nullary main_c_15 (constantI S_ 32 4096#32),
    StableHlo.unary main_c_15 main_v65 (broadcastInDim S409600 ![] bcast_S_S409600 : (⟨S_, .i32⟩ : BufTy).Contents (Elt F) → (⟨S409600, .i32⟩ : BufTy).Contents (Elt F)),
    StableHlo.binary main_arg7 main_v65 main_v66 (addi : (⟨S409600, .i32⟩ : BufTy).Contents (Elt F) → (⟨S409600, .i32⟩ : BufTy).Contents (Elt F) → (⟨S409600, .i32⟩ : BufTy).Contents (Elt F)),
    StableHlo.ternary main_v64 main_v66 main_arg7 main_v67 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v62 main_v68 (broadcastInDim S409600x1 ![0] bcast_S409600_S409600x1_0 : (⟨S409600, .i32⟩ : BufTy).Contents (Elt F) → (⟨S409600x1, .i32⟩ : BufTy).Contents (Elt F)),
    StableHlo.unary main_v67 main_v69 (broadcastInDim S409600x1 ![0] bcast_S409600_S409600x1_0 : (⟨S409600, .i32⟩ : BufTy).Contents (Elt F) → (⟨S409600x1, .i32⟩ : BufTy).Contents (Elt F)),
    StableHlo.binary main_v68 main_v69 main_v70 ((fun a b => concatenate S409600x2 1 [⟨S409600x1, a⟩, ⟨S409600x1, b⟩] concatenates_S409600x1_S409600x1_S409600x2_d1) : (⟨S409600x1, .i32⟩ : BufTy).Contents (Elt F) → (⟨S409600x1, .i32⟩ : BufTy).Contents (Elt F) → (⟨S409600x2, .i32⟩ : BufTy).Contents (Elt F)),
    StableHlo.ternary main_v57 main_v70 main_arg8 main_v71 ((fun x i u => Host.scatterAdd scatter_S8192x4096_S409600x2_S409600_n_01_01_1 x i u) : (⟨S8192x4096, .f32⟩ : BufTy).Contents (Elt F) → (⟨S409600x2, .i32⟩ : BufTy).Contents (Elt F) → (⟨S409600, .f32⟩ : BufTy).Contents (Elt F) → (⟨S8192x4096, .f32⟩ : BufTy).Contents (Elt F)),
    StableHlo.binary main_v56 main_v71 main_v72 ((fun l r => Host.dotGeneral dot_S4096x8192_S8192x4096_S4096x4096_1_0_0_1_n_n none l r) : (⟨S4096x8192, .f32⟩ : BufTy).Contents (Elt F) → (⟨S8192x4096, .f32⟩ : BufTy).Contents (Elt F) → (⟨S4096x4096, .f32⟩ : BufTy).Contents (Elt F)),
    StableHlo.binary main_arg1 main_v72 main_v73 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.nullary main_cst_16 (constant S_ .f32 0x3F800000#32),
    StableHlo.unary main_cst_16 main_v74 (broadcastInDim S409600 ![] bcast_S_S409600 : (⟨S_, .f32⟩ : BufTy).Contents (Elt F) → (⟨S409600, .f32⟩ : BufTy).Contents (Elt F)),
    StableHlo.nullary main_cst_17 (constant S_ .f32 0x00000000#32),
    StableHlo.unary main_cst_17 main_v75 (broadcastInDim S8192 ![] bcast_S_S8192 : (⟨S_, .f32⟩ : BufTy).Contents (Elt F) → (⟨S8192, .f32⟩ : BufTy).Contents (Elt F)),
    StableHlo.unary main_arg6 main_v76 (broadcastInDim S409600x1 ![0] bcast_S409600_S409600x1_0 : (⟨S409600, .i32⟩ : BufTy).Contents (Elt F) → (⟨S409600x1, .i32⟩ : BufTy).Contents (Elt F)),
    StableHlo.ternary main_v75 main_v76 main_v74 main_v77 ((fun x i u => Host.scatterAdd scatter_S8192_S409600x1_S409600_n_0_0_1 x i u) : (⟨S8192, .f32⟩ : BufTy).Contents (Elt F) → (⟨S409600x1, .i32⟩ : BufTy).Contents (Elt F) → (⟨S409600, .f32⟩ : BufTy).Contents (Elt F) → (⟨S8192, .f32⟩ : BufTy).Contents (Elt F)),
    StableHlo.nullary main_cst_18 (constant S_ .f32 0x00000000#32),
    StableHlo.unary main_cst_18 main_v78 (broadcastInDim S8192 ![] bcast_S_S8192 : (⟨S_, .f32⟩ : BufTy).Contents (Elt F) → (⟨S8192, .f32⟩ : BufTy).Contents (Elt F)),
    StableHlo.binary main_v77 main_v78 main_v79 (cmpf .ogt : (⟨S8192, .f32⟩ : BufTy).Contents (Elt F) → (⟨S8192, .f32⟩ : BufTy).Contents (Elt F) → (⟨S8192, .i1⟩ : BufTy).Contents (Elt F)),
    StableHlo.nullary main_c_19 (constantI S_ 32 409600#32),
    StableHlo.unary main_c_19 main_v80 (broadcastInDim S409600 ![] bcast_S_S409600 : (⟨S_, .i32⟩ : BufTy).Contents (Elt F) → (⟨S409600, .i32⟩ : BufTy).Contents (Elt F)),
    StableHlo.binary main_arg7 main_v80 main_v81 (muli : (⟨S409600, .i32⟩ : BufTy).Contents (Elt F) → (⟨S409600, .i32⟩ : BufTy).Contents (Elt F) → (⟨S409600, .i32⟩ : BufTy).Contents (Elt F)),
    StableHlo.nullary main_v82 (iotaInDim S409600 32 0),
    StableHlo.binary main_v81 main_v82 main_v83 (addi : (⟨S409600, .i32⟩ : BufTy).Contents (Elt F) → (⟨S409600, .i32⟩ : BufTy).Contents (Elt F) → (⟨S409600, .i32⟩ : BufTy).Contents (Elt F)),
    StableHlo.nullary main_c_20 (constantI S_ 32 2147483647#32),
    StableHlo.unary main_c_20 main_v84 (broadcastInDim S8192 ![] bcast_S_S8192 : (⟨S_, .i32⟩ : BufTy).Contents (Elt F) → (⟨S8192, .i32⟩ : BufTy).Contents (Elt F)),
    StableHlo.unary main_arg6 main_v85 (broadcastInDim S409600x1 ![0] bcast_S409600_S409600x1_0 : (⟨S409600, .i32⟩ : BufTy).Contents (Elt F) → (⟨S409600x1, .i32⟩ : BufTy).Contents (Elt F)),
    StableHlo.ternary main_v84 main_v85 main_v83 main_v86 ((fun x i u => Host.scatter scatter_S8192_S409600x1_S409600_n_0_0_1 IntOp.minsi x i u) : (⟨S8192, .i32⟩ : BufTy).Contents (Elt F) → (⟨S409600x1, .i32⟩ : BufTy).Contents (Elt F) → (⟨S409600, .i32⟩ : BufTy).Contents (Elt F) → (⟨S8192, .i32⟩ : BufTy).Contents (Elt F)),
    StableHlo.nullary main_c_21 (constantI S_ 32 409600#32),
    StableHlo.TRef.unary (StableHlo.TRef.of main_c_21 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (StableHlo.TRef.of main_v86 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_22 (constantI S_ 32 0#32),
    StableHlo.TRef.unary (StableHlo.TRef.of main_c_22 : StableHlo.TRef sig ⟨S_, .i32⟩) main_call1.v0 id,
    StableHlo.TRef.unary main_call1.v0 main_call1.v1 (broadcastInDim S8192 ![] bcast_S_S8192),
    StableHlo.TRef.ternary (StableHlo.TRef.of main_v79 : StableHlo.TRef sig ⟨S8192, .i1⟩) (StableHlo.TRef.of main_v87 : StableHlo.TRef sig ⟨S8192, .i32⟩) main_call1.v1 main_call1.v2 select,
    StableHlo.nullary main_c_23 (constantI S_ 32 0#32),
    StableHlo.unary main_c_23 main_v89 (broadcastInDim S8192 ![] bcast_S_S8192 : (⟨S_, .i32⟩ : BufTy).Contents (Elt F) → (⟨S8192, .i32⟩ : BufTy).Contents (Elt F)),
    StableHlo.binary main_v88 main_v89 main_v90 (cmpi .slt : (⟨S8192, .i32⟩ : BufTy).Contents (Elt F) → (⟨S8192, .i32⟩ : BufTy).Contents (Elt F) → (⟨S8192, .i1⟩ : BufTy).Contents (Elt F)),
    StableHlo.nullary main_c_24 (constantI S_ 32 409600#32),
    StableHlo.unary main_c_24 main_v91 (broadcastInDim S8192 ![] bcast_S_S8192 : (⟨S_, .i32⟩ : BufTy).Contents (Elt F) → (⟨S8192, .i32⟩ : BufTy).Contents (Elt F)),
    StableHlo.binary main_v88 main_v91 main_v92 (addi : (⟨S8192, .i32⟩ : BufTy).Contents (Elt F) → (⟨S8192, .i32⟩ : BufTy).Contents (Elt F) → (⟨S8192, .i32⟩ : BufTy).Contents (Elt F)) ]

/-- Operations 143 … 226 of the 278: the window `main_part2` of @main, its calls unfolded. -/
abbrev ops_part2 : List (HloOp τ sig (Elt F)) :=
  [ StableHlo.ternary main_v90 main_v92 main_v88 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v93 main_v94 (broadcastInDim S8192x1 ![0] bcast_S8192_S8192x1_0 : (⟨S8192, .i32⟩ : BufTy).Contents (Elt F) → (⟨S8192x1, .i32⟩ : BufTy).Contents (Elt F)),
    StableHlo.binary main_arg7 main_v94 main_v95 ((fun x i => Host.gather gather_S409600_S8192x1_S8192_n_0_n_n_0_1_1 x i) : (⟨S409600, .i32⟩ : BufTy).Contents (Elt F) → (⟨S8192x1, .i32⟩ : BufTy).Contents (Elt F) → (⟨S8192, .i32⟩ : BufTy).Contents (Elt F)),
    StableHlo.nullary main_c_25 (constantI S_ 32 0#32),
    StableHlo.unary main_c_25 main_v96 (broadcastInDim S8192 ![] bcast_S_S8192 : (⟨S_, .i32⟩ : BufTy).Contents (Elt F) → (⟨S8192, .i32⟩ : BufTy).Contents (Elt F)),
    StableHlo.binary main_v88 main_v96 main_v97 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 409600#32),
    StableHlo.unary main_c_26 main_v98 (broadcastInDim S8192 ![] bcast_S_S8192 : (⟨S_, .i32⟩ : BufTy).Contents (Elt F) → (⟨S8192, .i32⟩ : BufTy).Contents (Elt F)),
    StableHlo.binary main_v88 main_v98 main_v99 (addi : (⟨S8192, .i32⟩ : BufTy).Contents (Elt F) → (⟨S8192, .i32⟩ : BufTy).Contents (Elt F) → (⟨S8192, .i32⟩ : BufTy).Contents (Elt F)),
    StableHlo.ternary main_v97 main_v99 main_v88 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v100 main_v101 (broadcastInDim S8192x1 ![0] bcast_S8192_S8192x1_0 : (⟨S8192, .i32⟩ : BufTy).Contents (Elt F) → (⟨S8192x1, .i32⟩ : BufTy).Contents (Elt F)),
    StableHlo.binary main_arg8 main_v101 main_v102 ((fun x i => Host.gather gather_S409600_S8192x1_S8192_n_0_n_n_0_1_1 x i) : (⟨S409600, .f32⟩ : BufTy).Contents (Elt F) → (⟨S8192x1, .i32⟩ : BufTy).Contents (Elt F) → (⟨S8192, .f32⟩ : BufTy).Contents (Elt F)),
    StableHlo.nullary main_c_27 (constantI S_ 32 1#32),
    StableHlo.unary main_c_27 main_v103 (broadcastInDim S8192 ![] bcast_S_S8192 : (⟨S_, .i32⟩ : BufTy).Contents (Elt F) → (⟨S8192, .i32⟩ : BufTy).Contents (Elt F)),
    StableHlo.binary main_v95 main_v103 main_v104 (addi : (⟨S8192, .i32⟩ : BufTy).Contents (Elt F) → (⟨S8192, .i32⟩ : BufTy).Contents (Elt F) → (⟨S8192, .i32⟩ : BufTy).Contents (Elt F)),
    StableHlo.nullary main_c_28 (constantI S_ 32 4096#32),
    StableHlo.TRef.unary (StableHlo.TRef.of main_c_28 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (StableHlo.TRef.of main_v104 : StableHlo.TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_v106 (iotaInDim S8192 32 0),
    StableHlo.nullary main_cst_29 (constant S_ .f32 0x00000000#32),
    StableHlo.unary main_cst_29 main_v107 (broadcastInDim S8192 ![] bcast_S_S8192 : (⟨S_, .f32⟩ : BufTy).Contents (Elt F) → (⟨S8192, .f32⟩ : BufTy).Contents (Elt F)),
    StableHlo.binary main_v102 main_v107 main_v108 (cmpf .oeq : (⟨S8192, .f32⟩ : BufTy).Contents (Elt F) → (⟨S8192, .f32⟩ : BufTy).Contents (Elt F) → (⟨S8192, .i1⟩ : BufTy).Contents (Elt F)),
    StableHlo.nullary main_cst_30 (constant S_ .f32 0x3727C5AC#32),
    StableHlo.TRef.unary (StableHlo.TRef.of main_cst_30 : StableHlo.TRef sig ⟨S_, .f32⟩) main_call3.v0 id,
    StableHlo.TRef.unary main_call3.v0 main_call3.v1 (broadcastInDim S8192 ![] bcast_S_S8192),
    StableHlo.TRef.ternary (StableHlo.TRef.of main_v108 : StableHlo.TRef sig ⟨S8192, .i1⟩) main_call3.v1 (StableHlo.TRef.of main_v102 : StableHlo.TRef sig ⟨S8192, .f32⟩) main_call3.v2 select,
    StableHlo.nullary main_cst_31 (constant S_ .f32 0x00000000#32),
    StableHlo.unary main_cst_31 main_v110 (broadcastInDim S8192 ![] bcast_S_S8192 : (⟨S_, .f32⟩ : BufTy).Contents (Elt F) → (⟨S8192, .f32⟩ : BufTy).Contents (Elt F)),
    StableHlo.binary main_v102 main_v110 main_v111 (cmpf .oeq : (⟨S8192, .f32⟩ : BufTy).Contents (Elt F) → (⟨S8192, .f32⟩ : BufTy).Contents (Elt F) → (⟨S8192, .i1⟩ : BufTy).Contents (Elt F)),
    StableHlo.unary main_v102 main_v112 (Host.negf : (⟨S8192, .f32⟩ : BufTy).Contents (Elt F) → (⟨S8192, .f32⟩ : BufTy).Contents (Elt F)),
    StableHlo.nullary main_cst_32 (constant S_ .f32 0x3727C5AC#32),
    StableHlo.TRef.unary (StableHlo.TRef.of main_cst_32 : StableHlo.TRef sig ⟨S_, .f32⟩) main_call4.v0 id,
    StableHlo.TRef.unary main_call4.v0 main_call4.v1 (broadcastInDim S8192 ![] bcast_S_S8192),
    StableHlo.TRef.ternary (StableHlo.TRef.of main_v111 : StableHlo.TRef sig ⟨S8192, .i1⟩) main_call4.v1 (StableHlo.TRef.of main_v112 : StableHlo.TRef sig ⟨S8192, .f32⟩) main_call4.v2 select,
    StableHlo.unary main_v79 main_v114 (uitofp .f32 : (⟨S8192, .i1⟩ : BufTy).Contents (Elt F) → (⟨S8192, .f32⟩ : BufTy).Contents (Elt F)),
    StableHlo.nullary main_c_33 (constantI S_ 32 0#32),
    StableHlo.unary main_c_33 main_v115 (broadcastInDim S8192 ![] bcast_S_S8192 : (⟨S_, .i32⟩ : BufTy).Contents (Elt F) → (⟨S8192, .i32⟩ : BufTy).Contents (Elt F)),
    StableHlo.binary main_v106 main_v115 main_v116 (cmpi .slt : (⟨S8192, .i32⟩ : BufTy).Contents (Elt F) → (⟨S8192, .i32⟩ : BufTy).Contents (Elt F) → (⟨S8192, .i1⟩ : BufTy).Contents (Elt F)),
    StableHlo.nullary main_c_34 (constantI S_ 32 8192#32),
    StableHlo.unary main_c_34 main_v117 (broadcastInDim S8192 ![] bcast_S_S8192 : (⟨S_, .i32⟩ : BufTy).Contents (Elt F) → (⟨S8192, .i32⟩ : BufTy).Contents (Elt F)),
    StableHlo.binary main_v106 main_v117 main_v118 (addi : (⟨S8192, .i32⟩ : BufTy).Contents (Elt F) → (⟨S8192, .i32⟩ : BufTy).Contents (Elt F) → (⟨S8192, .i32⟩ : BufTy).Contents (Elt F)),
    StableHlo.ternary main_v116 main_v118 main_v106 main_v119 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_35 (constantI S_ 32 0#32),
    StableHlo.unary main_c_35 main_v120 (broadcastInDim S8192 ![] bcast_S_S8192 : (⟨S_, .i32⟩ : BufTy).Contents (Elt F) → (⟨S8192, .i32⟩ : BufTy).Contents (Elt F)),
    StableHlo.binary main_v95 main_v120 main_v121 (cmpi .slt : (⟨S8192, .i32⟩ : BufTy).Contents (Elt F) → (⟨S8192, .i32⟩ : BufTy).Contents (Elt F) → (⟨S8192, .i1⟩ : BufTy).Contents (Elt F)),
    StableHlo.nullary main_c_36 (constantI S_ 32 8192#32),
    StableHlo.unary main_c_36 main_v122 (broadcastInDim S8192 ![] bcast_S_S8192 : (⟨S_, .i32⟩ : BufTy).Contents (Elt F) → (⟨S8192, .i32⟩ : BufTy).Contents (Elt F)),
    StableHlo.binary main_v95 main_v122 main_v123 (addi : (⟨S8192, .i32⟩ : BufTy).Contents (Elt F) → (⟨S8192, .i32⟩ : BufTy).Contents (Elt F) → (⟨S8192, .i32⟩ : BufTy).Contents (Elt F)),
    StableHlo.ternary main_v121 main_v123 main_v95 main_v124 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v119 main_v125 (broadcastInDim S8192x1 ![0] bcast_S8192_S8192x1_0 : (⟨S8192, .i32⟩ : BufTy).Contents (Elt F) → (⟨S8192x1, .i32⟩ : BufTy).Contents (Elt F)),
    StableHlo.unary main_v124 main_v126 (broadcastInDim S8192x1 ![0] bcast_S8192_S8192x1_0 : (⟨S8192, .i32⟩ : BufTy).Contents (Elt F) → (⟨S8192x1, .i32⟩ : BufTy).Contents (Elt F)),
    StableHlo.binary main_v125 main_v126 main_v127 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v127 main_v128 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v128 main_v109 main_v129 (Host.divf : (⟨S8192, .f32⟩ : BufTy).Contents (Elt F) → (⟨S8192, .f32⟩ : BufTy).Contents (Elt F) → (⟨S8192, .f32⟩ : BufTy).Contents (Elt F)),
    StableHlo.binary main_v129 main_v114 main_v130 (mulf : (⟨S8192, .f32⟩ : BufTy).Contents (Elt F) → (⟨S8192, .f32⟩ : BufTy).Contents (Elt F) → (⟨S8192, .f32⟩ : BufTy).Contents (Elt F)),
    StableHlo.nullary main_c_37 (constantI S_ 32 0#32),
    StableHlo.unary main_c_37 main_v131 (broadcastInDim S8192 ![] bcast_S_S8192 : (⟨S_, .i32⟩ : BufTy).Contents (Elt F) → (⟨S8192, .i32⟩ : BufTy).Contents (Elt F)),
    StableHlo.binary main_v106 main_v131 main_v132 (cmpi .slt : (⟨S8192, .i32⟩ : BufTy).Contents (Elt F) → (⟨S8192, .i32⟩ : BufTy).Contents (Elt F) → (⟨S8192, .i1⟩ : BufTy).Contents (Elt F)),
    StableHlo.nullary main_c_38 (constantI S_ 32 8192#32),
    StableHlo.unary main_c_38 main_v133 (broadcastInDim S8192 ![] bcast_S_S8192 : (⟨S_, .i32⟩ : BufTy).Contents (Elt F) → (⟨S8192, .i32⟩ : BufTy).Contents (Elt F)),
    StableHlo.binary main_v106 main_v133 main_v134 (addi : (⟨S8192, .i32⟩ : BufTy).Contents (Elt F) → (⟨S8192, .i32⟩ : BufTy).Contents (Elt F) → (⟨S8192, .i32⟩ : BufTy).Contents (Elt F)),
    StableHlo.ternary main_v132 main_v134 main_v106 main_v135 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_39 (constantI S_ 32 0#32),
    StableHlo.unary main_c_39 main_v136 (broadcastInDim S8192 ![] bcast_S_S8192 : (⟨S_, .i32⟩ : BufTy).Contents (Elt F) → (⟨S8192, .i32⟩ : BufTy).Contents (Elt F)),
    StableHlo.binary main_v105 main_v136 main_v137 (cmpi .slt : (⟨S8192, .i32⟩ : BufTy).Contents (Elt F) → (⟨S8192, .i32⟩ : BufTy).Contents (Elt F) → (⟨S8192, .i1⟩ : BufTy).Contents (Elt F)) ]

/-- Operations 227 … 278 of the 278: the window `main_part3` of @main, its calls unfolded. -/
abbrev ops_part3 : List (HloOp τ sig (Elt F)) :=
  [ StableHlo.nullary main_c_40 (constantI S_ 32 8192#32),
    StableHlo.unary main_c_40 main_v138 (broadcastInDim S8192 ![] bcast_S_S8192 : (⟨S_, .i32⟩ : BufTy).Contents (Elt F) → (⟨S8192, .i32⟩ : BufTy).Contents (Elt F)),
    StableHlo.binary main_v105 main_v138 main_v139 (addi : (⟨S8192, .i32⟩ : BufTy).Contents (Elt F) → (⟨S8192, .i32⟩ : BufTy).Contents (Elt F) → (⟨S8192, .i32⟩ : BufTy).Contents (Elt F)),
    StableHlo.ternary main_v137 main_v139 main_v105 main_v140 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v135 main_v141 (broadcastInDim S8192x1 ![0] bcast_S8192_S8192x1_0 : (⟨S8192, .i32⟩ : BufTy).Contents (Elt F) → (⟨S8192x1, .i32⟩ : BufTy).Contents (Elt F)),
    StableHlo.unary main_v140 main_v142 (broadcastInDim S8192x1 ![0] bcast_S8192_S8192x1_0 : (⟨S8192, .i32⟩ : BufTy).Contents (Elt F) → (⟨S8192x1, .i32⟩ : BufTy).Contents (Elt F)),
    StableHlo.binary main_v141 main_v142 main_v143 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v143 main_v144 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v144 main_v113 main_v145 (Host.divf : (⟨S8192, .f32⟩ : BufTy).Contents (Elt F) → (⟨S8192, .f32⟩ : BufTy).Contents (Elt F) → (⟨S8192, .f32⟩ : BufTy).Contents (Elt F)),
    StableHlo.binary main_v145 main_v114 main_v146 (mulf : (⟨S8192, .f32⟩ : BufTy).Contents (Elt F) → (⟨S8192, .f32⟩ : BufTy).Contents (Elt F) → (⟨S8192, .f32⟩ : BufTy).Contents (Elt F)),
    StableHlo.nullary main_cst_41 (constant S_ .f32 0x00000000#32),
    StableHlo.unary main_cst_41 main_v147 (broadcastInDim S8192x4096 ![] bcast_S_S8192x4096 : (⟨S_, .f32⟩ : BufTy).Contents (Elt F) → (⟨S8192x4096, .f32⟩ : BufTy).Contents (Elt F)),
    StableHlo.nullary main_c_42 (constantI S_ 32 0#32),
    StableHlo.unary main_c_42 main_v148 (broadcastInDim S8192 ![] bcast_S_S8192 : (⟨S_, .i32⟩ : BufTy).Contents (Elt F) → (⟨S8192, .i32⟩ : BufTy).Contents (Elt F)),
    StableHlo.binary main_v106 main_v148 main_v149 (cmpi .slt : (⟨S8192, .i32⟩ : BufTy).Contents (Elt F) → (⟨S8192, .i32⟩ : BufTy).Contents (Elt F) → (⟨S8192, .i1⟩ : BufTy).Contents (Elt F)),
    StableHlo.nullary main_c_43 (constantI S_ 32 8192#32),
    StableHlo.unary main_c_43 main_v150 (broadcastInDim S8192 ![] bcast_S_S8192 : (⟨S_, .i32⟩ : BufTy).Contents (Elt F) → (⟨S8192, .i32⟩ : BufTy).Contents (Elt F)),
    StableHlo.binary main_v106 main_v150 main_v151 (addi : (⟨S8192, .i32⟩ : BufTy).Contents (Elt F) → (⟨S8192, .i32⟩ : BufTy).Contents (Elt F) → (⟨S8192, .i32⟩ : BufTy).Contents (Elt F)),
    StableHlo.ternary main_v149 main_v151 main_v106 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_44 (constantI S_ 32 0#32),
    StableHlo.unary main_c_44 main_v153 (broadcastInDim S8192 ![] bcast_S_S8192 : (⟨S_, .i32⟩ : BufTy).Contents (Elt F) → (⟨S8192, .i32⟩ : BufTy).Contents (Elt F)),
    StableHlo.binary main_v95 main_v153 main_v154 (cmpi .slt : (⟨S8192, .i32⟩ : BufTy).Contents (Elt F) → (⟨S8192, .i32⟩ : BufTy).Contents (Elt F) → (⟨S8192, .i1⟩ : BufTy).Contents (Elt F)),
    StableHlo.nullary main_c_45 (constantI S_ 32 4096#32),
    StableHlo.unary main_c_45 main_v155 (broadcastInDim S8192 ![] bcast_S_S8192 : (⟨S_, .i32⟩ : BufTy).Contents (Elt F) → (⟨S8192, .i32⟩ : BufTy).Contents (Elt F)),
    StableHlo.binary main_v95 main_v155 main_v156 (addi : (⟨S8192, .i32⟩ : BufTy).Contents (Elt F) → (⟨S8192, .i32⟩ : BufTy).Contents (Elt F) → (⟨S8192, .i32⟩ : BufTy).Contents (Elt F)),
    StableHlo.ternary main_v154 main_v156 main_v95 main_v157 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v152 main_v158 (broadcastInDim S8192x1 ![0] bcast_S8192_S8192x1_0 : (⟨S8192, .i32⟩ : BufTy).Contents (Elt F) → (⟨S8192x1, .i32⟩ : BufTy).Contents (Elt F)),
    StableHlo.unary main_v157 main_v159 (broadcastInDim S8192x1 ![0] bcast_S8192_S8192x1_0 : (⟨S8192, .i32⟩ : BufTy).Contents (Elt F) → (⟨S8192x1, .i32⟩ : BufTy).Contents (Elt F)),
    StableHlo.binary main_v158 main_v159 main_v160 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v147 main_v160 main_v130 main_v161 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_c_46 (constantI S_ 32 0#32),
    StableHlo.unary main_c_46 main_v162 (broadcastInDim S8192 ![] bcast_S_S8192 : (⟨S_, .i32⟩ : BufTy).Contents (Elt F) → (⟨S8192, .i32⟩ : BufTy).Contents (Elt F)),
    StableHlo.binary main_v106 main_v162 main_v163 (cmpi .slt : (⟨S8192, .i32⟩ : BufTy).Contents (Elt F) → (⟨S8192, .i32⟩ : BufTy).Contents (Elt F) → (⟨S8192, .i1⟩ : BufTy).Contents (Elt F)),
    StableHlo.nullary main_c_47 (constantI S_ 32 8192#32),
    StableHlo.unary main_c_47 main_v164 (broadcastInDim S8192 ![] bcast_S_S8192 : (⟨S_, .i32⟩ : BufTy).Contents (Elt F) → (⟨S8192, .i32⟩ : BufTy).Contents (Elt F)),
    StableHlo.binary main_v106 main_v164 main_v165 (addi : (⟨S8192, .i32⟩ : BufTy).Contents (Elt F) → (⟨S8192, .i32⟩ : BufTy).Contents (Elt F) → (⟨S8192, .i32⟩ : BufTy).Contents (Elt F)),
    StableHlo.ternary main_v163 main_v165 main_v106 main_v166 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_48 (constantI S_ 32 0#32),
    StableHlo.unary main_c_48 main_v167 (broadcastInDim S8192 ![] bcast_S_S8192 : (⟨S_, .i32⟩ : BufTy).Contents (Elt F) → (⟨S8192, .i32⟩ : BufTy).Contents (Elt F)),
    StableHlo.binary main_v105 main_v167 main_v168 (cmpi .slt : (⟨S8192, .i32⟩ : BufTy).Contents (Elt F) → (⟨S8192, .i32⟩ : BufTy).Contents (Elt F) → (⟨S8192, .i1⟩ : BufTy).Contents (Elt F)),
    StableHlo.nullary main_c_49 (constantI S_ 32 4096#32),
    StableHlo.unary main_c_49 main_v169 (broadcastInDim S8192 ![] bcast_S_S8192 : (⟨S_, .i32⟩ : BufTy).Contents (Elt F) → (⟨S8192, .i32⟩ : BufTy).Contents (Elt F)),
    StableHlo.binary main_v105 main_v169 main_v170 (addi : (⟨S8192, .i32⟩ : BufTy).Contents (Elt F) → (⟨S8192, .i32⟩ : BufTy).Contents (Elt F) → (⟨S8192, .i32⟩ : BufTy).Contents (Elt F)),
    StableHlo.ternary main_v168 main_v170 main_v105 main_v171 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v166 main_v172 (broadcastInDim S8192x1 ![0] bcast_S8192_S8192x1_0 : (⟨S8192, .i32⟩ : BufTy).Contents (Elt F) → (⟨S8192x1, .i32⟩ : BufTy).Contents (Elt F)),
    StableHlo.unary main_v171 main_v173 (broadcastInDim S8192x1 ![0] bcast_S8192_S8192x1_0 : (⟨S8192, .i32⟩ : BufTy).Contents (Elt F) → (⟨S8192x1, .i32⟩ : BufTy).Contents (Elt F)),
    StableHlo.binary main_v172 main_v173 main_v174 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v161 main_v174 main_v146 main_v175 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_cst_50 (constant S_ .f32 0x3E4CCCCD#32),
    StableHlo.unary main_cst_50 main_v176 (broadcastInDim S8192x4096 ![] bcast_S_S8192x4096 : (⟨S_, .f32⟩ : BufTy).Contents (Elt F) → (⟨S8192x4096, .f32⟩ : BufTy).Contents (Elt F)),
    StableHlo.binary main_v176 main_v175 main_v177 (mulf : (⟨S8192x4096, .f32⟩ : BufTy).Contents (Elt F) → (⟨S8192x4096, .f32⟩ : BufTy).Contents (Elt F) → (⟨S8192x4096, .f32⟩ : BufTy).Contents (Elt F)),
    StableHlo.binary main_v73 main_v177 main_v178 (addf : (⟨S8192x4096, .f32⟩ : BufTy).Contents (Elt F) → (⟨S8192x4096, .f32⟩ : BufTy).Contents (Elt F) → (⟨S8192x4096, .f32⟩ : BufTy).Contents (Elt F)) ]

/-- @main's 278 operations, in order, the calls unfolded. -/
abbrev ops : List (HloOp τ sig (Elt F)) :=
  ops_part0 ++ (ops_part1 ++ (ops_part2 ++ (ops_part3)))

set_option maxRecDepth 8192 in
set_option maxHeartbeats 4000000 in
/-- The window is its operations in a line: the calls unfold to their callees' operations and sequencing reassociates, by computation. -/
theorem main_part0_eq (c : Dev nD) : main_part0 (F := F) c = seq ops_part0 := rfl

set_option maxRecDepth 8192 in
set_option maxHeartbeats 4000000 in
/-- The window is its operations in a line: the calls unfold to their callees' operations and sequencing reassociates, by computation. -/
theorem main_part1_eq (c : Dev nD) : main_part1 (F := F) c = seq ops_part1 := rfl

set_option maxRecDepth 8192 in
set_option maxHeartbeats 4000000 in
/-- The window is its operations in a line: the calls unfold to their callees' operations and sequencing reassociates, by computation. -/
theorem main_part2_eq (c : Dev nD) : main_part2 (F := F) c = seq ops_part2 := rfl

set_option maxRecDepth 8192 in
set_option maxHeartbeats 4000000 in
/-- The window is its operations in a line: the calls unfold to their callees' operations and sequencing reassociates, by computation. -/
theorem main_part3_eq (c : Dev nD) : main_part3 (F := F) c = seq ops_part3 := rfl

set_option maxRecDepth 8192 in
/-- @main is the straight line of all its operations: the windows in order, a line after a line being the line of the concatenation. -/
theorem main_eq (c : Dev nD) : main (F := F) c = seq ops := by
  simp only [ops, seq_append, ← main_part0_eq c, ← main_part1_eq c, ← main_part2_eq c, ← main_part3_eq c]
  rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub ..⟩

set_option maxRecDepth 8192 in
theorem ops_part1_sub : (ops_part1 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
theorem ops_part2_sub : (ops_part2 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxRecDepth 8192 in
theorem ops_part3_sub : (ops_part3 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h, List.forall_iff_forall_mem.mp ops_part2_sub op h, List.forall_iff_forall_mem.mp ops_part3_sub op h]

/-! ## The contents window by window, and what a window leaves alone -/

/-- The device's buffer contents before the first window. -/
def val0 (V0 : Valuation τ sig (Elt F)) : Valuation τ sig (Elt F) := V0

/-- The device's buffer contents after the first 1 window. -/
def val1 (V0 : Valuation τ sig (Elt F)) : Valuation τ sig (Elt F) := after ops_part0 (val0 V0)
/-- The buffers that the operations of window `main_part0` write, one each. -/
abbrev ops_part0_W : List (Ref sig .tc) := [main_v0, main_v1, main_v2, main_v3, main_v4, main_v5, main_cst, main_v6, main_v7, main_v8, main_v9, main_cst_0, main_v10, main_v11, main_cst_1, main_v12, main_v13, main_v14, main_v15, main_v16, main_c, main_v17, main_v18, main_c_2, main_v19, main_v20, main_v21, main_v22, main_v23, main_v24, main_v25, main_cst_3, main_v26, main_v27, main_v28, main_cst_4, main_v29, main_v30, main_v31, main_c_5, main_v32, main_v33, main_c_6, main_v34, main_v35, main_v36, main_v37, main_v38, main_v39, main_v40, main_cst_7, main_v41, main_v42, main_v43, main_cst_8, main_v44, main_v45, main_v46, main_cst_9, main_v47]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h

/-- The device's buffer contents after the first 2 windows. -/
def val2 (V0 : Valuation τ sig (Elt F)) : Valuation τ sig (Elt F) := after ops_part1 (val1 V0)
/-- The buffers that the operations of window `main_part1` write, one each. -/
abbrev ops_part1_W : List (Ref sig .tc) := [main_v48, main_v49, main_cst_10, main_v50, main_v51, main_v52, main_v53, main_v54, main_v55, main_v56, main_cst_11, main_v57, main_c_12, main_v58, main_v59, main_c_13, main_v60, main_v61, main_v62, main_c_14, main_v63, main_v64, main_c_15, main_v65, main_v66, main_v67, main_v68, main_v69, main_v70, main_v71, main_v72, main_v73, main_cst_16, main_v74, main_cst_17, main_v75, main_v76, main_v77, main_cst_18, main_v78, main_v79, main_c_19, main_v80, main_v81, main_v82, main_v83, main_c_20, main_v84, main_v85, main_v86, main_c_21, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_c_22, main_call1.v0.ref, main_call1.v1.ref, main_call1.v2.ref, main_c_23, main_v89, main_v90, main_c_24, main_v91, main_v92]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h

/-- The device's buffer contents after the first 3 windows. -/
def val3 (V0 : Valuation τ sig (Elt F)) : Valuation τ sig (Elt F) := after ops_part2 (val2 V0)
/-- The buffers that the operations of window `main_part2` write, one each. -/
abbrev ops_part2_W : List (Ref sig .tc) := [main_v93, main_v94, main_v95, main_c_25, main_v96, main_v97, main_c_26, main_v98, main_v99, main_v100, main_v101, main_v102, main_c_27, main_v103, main_v104, main_c_28, main_call2.v0.ref, main_call2.c.ref, main_call2.v1.ref, main_call2.c_0.ref, main_call2.call0.v0.ref, main_call2.v3.ref, main_call2.v4.ref, main_call2.c_1.ref, main_call2.v5.ref, main_call2.v6.ref, main_call2.c_2.ref, main_call2.v7.ref, main_call2.v8.ref, main_call2.c_3.ref, main_call2.v9.ref, main_call2.v10.ref, main_call2.v11.ref, main_call2.v12.ref, main_call2.v13.ref, main_call2.v14.ref, main_call2.v15.ref, main_v106, main_cst_29, main_v107, main_v108, main_cst_30, main_call3.v0.ref, main_call3.v1.ref, main_call3.v2.ref, main_cst_31, main_v110, main_v111, main_v112, main_cst_32, main_call4.v0.ref, main_call4.v1.ref, main_call4.v2.ref, main_v114, main_c_33, main_v115, main_v116, main_c_34, main_v117, main_v118, main_v119, main_c_35, main_v120, main_v121, main_c_36, main_v122, main_v123, main_v124, main_v125, main_v126, main_v127, main_v128, main_v129, main_v130, main_c_37, main_v131, main_v132, main_c_38, main_v133, main_v134, main_v135, main_c_39, main_v136, main_v137]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h

/-- The device's buffer contents after the first 4 windows. -/
def val4 (V0 : Valuation τ sig (Elt F)) : Valuation τ sig (Elt F) := after ops_part3 (val3 V0)
/-- The buffers that the operations of window `main_part3` write, one each. -/
abbrev ops_part3_W : List (Ref sig .tc) := [main_c_40, main_v138, main_v139, main_v140, main_v141, main_v142, main_v143, main_v144, main_v145, main_v146, main_cst_41, main_v147, main_c_42, main_v148, main_v149, main_c_43, main_v150, main_v151, main_v152, main_c_44, main_v153, main_v154, main_c_45, main_v155, main_v156, main_v157, main_v158, main_v159, main_v160, main_v161, main_c_46, main_v162, main_v163, main_c_47, main_v164, main_v165, main_v166, main_c_48, main_v167, main_v168, main_c_49, main_v169, main_v170, main_v171, main_v172, main_v173, main_v174, main_v175, main_cst_50, main_v176, main_v177, main_v178]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h

/-- The fold over the whole list is the fold window by window. -/
theorem after_ops (V0 : Valuation τ sig (Elt F)) : after ops V0 = val4 V0 := by
  simp only [ops, after_append]
  rfl

/-- A buffer that no window writes keeps its contents through the whole line. -/
theorem after_ops_keep (V0 : Valuation τ sig (Elt F)) (r : Ref sig .tc)
    (h0 : r ∉ ops_part0_W) (h1 : r ∉ ops_part1_W) (h2 : r ∉ ops_part2_W) (h3 : r ∉ ops_part3_W) :
    after ops V0 (Proc.devRef .tc r) = V0 (Proc.devRef .tc r) := by
  rw [after_ops]
  exact (val4_keep V0 r h3).trans ((val3_keep V0 r h2).trans ((val2_keep V0 r h1).trans (val1_keep V0 r h0)))

/-! ## The run -/

/-- On every device, for any float values, from any memory with zero counters: every weakly fair execution of @main
    terminates, and every final state has each TensorCore buffer at the fold of the operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The same, read at the result and at the arguments: the result ends at the fold of the operations over the launch
    contents, and each argument, which no operation writes, ends unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = after ops (launchContents m c) (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v178,
      (h c main_arg0).trans (after_ops_keep _ main_arg0 (by decide) (by decide) (by decide) (by decide)),
      (h c main_arg1).trans (after_ops_keep _ main_arg1 (by decide) (by decide) (by decide) (by decide)),
      (h c main_arg2).trans (after_ops_keep _ main_arg2 (by decide) (by decide) (by decide) (by decide)),
      (h c main_arg3).trans (after_ops_keep _ main_arg3 (by decide) (by decide) (by decide) (by decide)),
      (h c main_arg4).trans (after_ops_keep _ main_arg4 (by decide) (by decide) (by decide) (by decide)),
      (h c main_arg5).trans (after_ops_keep _ main_arg5 (by decide) (by decide) (by decide) (by decide)),
      (h c main_arg6).trans (after_ops_keep _ main_arg6 (by decide) (by decide) (by decide) (by decide)),
      (h c main_arg7).trans (after_ops_keep _ main_arg7 (by decide) (by decide) (by decide) (by decide)),
      (h c main_arg8).trans (after_ops_keep _ main_arg8 (by decide) (by decide) (by decide) (by decide)),
      (h c main_arg9).trans (after_ops_keep _ main_arg9 (by decide) (by decide) (by decide) (by decide)),
      (h c main_arg10).trans (after_ops_keep _ main_arg10 (by decide) (by decide) (by decide) (by decide))⟩)
    (run_all m ρ)

end Cert.ReferenceIdeal.Hand

end
-- ==== Proof.KI.Region0.lean ====
import proofs.«166874_j54296976556804_1_alg».proof.Proof.Gen.KernelIdeal.Launch
import proofs.«166874_j54296976556804_1_alg».proof.Proof.Gen.KernelIdeal.Skeleton
import proofs.«166874_j54296976556804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: one tiled matrix product whose grid has a single point along the contraction axis

Every point zeroes the accumulator, adds the product of its two input blocks, and copies the accumulator into the
output block, which is written back at once. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (the contraction coordinate is zero: reset the accumulator), from the grid coordinates. -/
abbrev cond0_0 (i : grid0.Coords) : Prop := (Scalar.cmpi .ne (Scalar.extui (Scalar.cmpi .eq (BitVec.ofNat 32 (i 2).val) 0#32)) 0#32) = 1#1
/-- It holds at every point: the contraction axis has one point. -/
theorem hcond0_0 : ∀ t : Fin cfg0.N, cond0_0 (grid0.coords t) :=
  (by decide +kernel : ∀ t : Fin grid0.N, cond0_0 (grid0.coords t))
/-- The second conditional (the contraction coordinate is the last: copy the accumulator out). -/
abbrev cond0_1 (i : grid0.Coords) : Prop := k0_cond2 i = 1#1
/-- It holds at every point. -/
theorem hcond0_1 : ∀ t : Fin cfg0.N, cond0_1 (grid0.coords t) :=
  (by decide +kernel : ∀ t : Fin grid0.N, cond0_1 (grid0.coords t))

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The kernel body on any staging memrefs -/

/-- One staging buffer of the output window, through which its contents are stated. -/
abbrev VO0_2 : View sig .tc .vmem S512x1024 .f32 := (Memref.whole cc0_stg2_0 : Memref sig .tc .vmem S512x1024 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S512x1024 .f32 := Memref.whole cc0_scratch0
abbrev VS0_0 : View sig .tc .vmem S512x1024 .f32 := scM0_0.view

/-- The class invariant with the accumulator as a memref owned at some contents, the other scoped buffers unopened. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; try rfl

set_option maxHeartbeats 1000000 in
/-- What the body's stores leave in the output's staging memref and in the accumulator, as pieces (last first), with the
    proof that on whole memrefs — the inputs' at their contents, the output's and the accumulator's at anything — the body
    runs to the continuation holding the inputs' as they were and the other two with their pieces written. -/
noncomputable def kernelRun0 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The run's pieces for the output tile its block, so they cover it. -/
theorem cover0_2 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) (y : S512x1024.Idx) :
    ∃ pc ∈ (kernelRun0 c i arg3 harg3 arg4 harg4 arg5 harg5 arg6 harg6 hc0 hc1 x0 x1).1, y ∈ pc.1.set :=
  View.cover_of_tiledL (kernelRun0 c i arg3 harg3 arg4 harg4 arg5 harg5 arg6 harg6 hc0 hc1 x0 x1).1 S512x1024.size (by sl_kernel_rfl) y

/-- What the run leaves in the output's staging buffer: its pieces read back over junk. -/
def out0_2 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) : Vec F S512x1024 .f32 :=
  VO0_2.read (Elt F) (VO0_2.writes (Elt F) VO0_2.junk (kernelRun0 c i arg3 harg3 arg4 harg4 arg5 harg5 arg6 harg6 hc0 hc1 x0 x1).1)

theorem hz2 : (![0, 0] : Fin 2 → Nat) = fun _ => 0 := funext fun a => by fin_cases a <;> rfl

/-- The output block after the body: the zero block plus the product of the two input blocks (the accumulator's one
    update, copied out). -/
theorem out0_2_eq (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) :
    out0_2 c i arg3 harg3 arg4 harg4 arg5 harg5 arg6 harg6 hc0 hc1 x0 x1 = k0_pay2 x0 x1 k0_pay1 := by
  unfold out0_2
  rw [View.read_writes_eq_canon _ _ _ (cover0_2 c i arg3 harg3 arg4 harg4 arg5 harg5 arg6 harg6 hc0 hc1 x0 x1)]
  unfold kernelRun0
  dsimp only
  sl_unfold_words
  rw [View.canon_unit_zero (S := S512x1024) hz2, View.readCov_cons_toLoadRect, View.readCov_unit_zero (S := S512x1024) _ hz2]
  simp only [View.readAt_eq_ld, harg3.read_unread, harg4.read_unread, View.ld_unit_zero (S := S512x256) hz2, View.ld_unit_zero (S := S256x1024) hz2]

/-! ## What the output holds after each point -/

/-- The output's staging buffer after the body at point `t`: the run's contents at the point's memrefs and input blocks. -/
def outsAt0 (c : Dev nD) (t : Fin cfg0.N) : Vec F S512x1024 .f32 :=
  out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)

/-! ## The pipeline's proof data -/

/-- The proof data of the pipeline on core `c`: the arrays as the region finds them (`V`); after the body at point `t`
    each input's buffer at its block and the output's at `outsAt0`; the invariant the class's (every point resets the
    accumulator before reading it, so nothing is carried); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The output block after point `t`, from the input blocks there. -/
theorem out_eq0 (c : Dev nD) (t : Fin cfg0.N) : (dat0 V c).after 2 t = k0_pay2 (iblk0 V c 0 t) (iblk0 V c 1 t) k0_pay1 := by
  rw [after0_2]; unfold outsAt0; exact out0_2_eq ..

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks, the invariant hands the body the accumulator at some
    contents and takes it back at some contents; the output's buffer comes back with the run's pieces written, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold outsAt0 out0_2
  iintro ⟨⟨⟨HS0, HR⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _, _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The region's entry and exit -/

/-- What a region entry supplies and an exit gives back: the scoped buffers that are no staging buffer at some
    contents each (the accumulator among them), the generator register at some state. -/
def PhiIn0 (c : Dev nD) : sProp 𝕄 := Pipeline.ΦA spec0 c

theorem Phi_first0 (c : Dev nD) : (dat0 V c).Φ 0 = PhiIn0 c := rfl

theorem Phi_last0 (c : Dev nD) : (dat0 V c).Φ (Fin.last _) ⊢ PhiIn0 c :=
  Idealize.SL.BI.Entails.refl _

end Cert.KernelIdeal.Hand

end
-- ==== Proof.KI.Region1.lean ====
import proofs.«166874_j54296976556804_1_alg».proof.Proof.Gen.KernelIdeal.Launch
import proofs.«166874_j54296976556804_1_alg».proof.Proof.Gen.KernelIdeal.Skeleton
import proofs.«166874_j54296976556804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: one tiled matrix product whose grid has 4 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional (the contraction coordinate is zero: reset the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (the contraction coordinate is the last: copy the accumulator out). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, exactly where the second
    conditional fails. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The kernel body on any staging memrefs -/

/-- One staging buffer of the output window, through which its contents are stated. -/
abbrev VO1_2 : View sig .tc .vmem S512x1024 .f32 := (Memref.whole cc1_stg2_0 : Memref sig .tc .vmem S512x1024 .f32).view
/-- Each window's current staging memref at point `t`, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S512x1024 .f32 := Memref.whole cc1_scratch0
abbrev VS1_0 : View sig .tc .vmem S512x1024 .f32 := scM1_0.view

/-- The class invariant with the accumulator as a memref owned at some contents, the other scoped buffers unopened. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) (y : S512x1024.Idx) : ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S512x1024.size (by sl_kernel_rfl) y
theorem scover1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) (y : S512x1024.Idx) : ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S512x1024.size (by sl_kernel_rfl) y
theorem scover1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) (y : S512x1024.Idx) : ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x1024.size (by sl_kernel_rfl) y
theorem cover1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) (y : S512x1024.Idx) : ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x1024.size (by sl_kernel_rfl) y

/-- The first point leaves the accumulator at the zero block plus the product of the input blocks. -/
theorem sout1_A_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) :
    VS1_0.read (Elt F) (VS1_0.writes (Elt F) VS1_0.junk (kernelRun1_A c i arg3 harg3 arg4 harg4 arg5 harg5 arg6 harg6 hc0 hc1 x0 x1).1) = k1_pay2 x0 x1 k1_pay1 := by
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout1_B_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) :
    VS1_0.read (Elt F) (VS1_0.writes (Elt F) VS1_0.junk (kernelRun1_B c i arg3 harg3 arg4 harg4 arg5 harg5 arg6 harg6 hc0 hc1 x0 x1 xs0).1) = k1_pay2 x0 x1 xs0 := by
  rw [View.read_writes_eq_canon _ _ _ (scover1_B c i arg3 harg3 arg4 harg4 arg5 harg5 arg6 harg6 hc0 hc1 x0 x1 xs0)]
  unfold kernelRun1_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout1_C_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    VS1_0.read (Elt F) (VS1_0.writes (Elt F) VS1_0.junk (kernelRun1_C c i arg3 harg3 arg4 harg4 arg5 harg5 arg6 harg6 hc0 hc1 x0 x1 xs0).2.1) = k1_pay2 x0 x1 xs0 := by
  rw [View.read_writes_eq_canon _ _ _ (scover1_C c i arg3 harg3 arg4 harg4 arg5 harg5 arg6 harg6 hc0 hc1 x0 x1 xs0)]
  unfold kernelRun1_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out1_C_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    VO1_2.read (Elt F) (VO1_2.writes (Elt F) VO1_2.junk (kernelRun1_C c i arg3 harg3 arg4 harg4 arg5 harg5 arg6 harg6 hc0 hc1 x0 x1 xs0).1) = k1_pay2 x0 x1 xs0 := by
  rw [View.read_writes_eq_canon _ _ _ (cover1_C c i arg3 harg3 arg4 harg4 arg5 harg5 arg6 harg6 hc0 hc1 x0 x1 xs0)]
  unfold kernelRun1_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN1 (c : Dev nD) : (n : ℕ) → n < cfg1.N → Vec F S512x1024 .f32
  | 0, h => k1_pay2 (iblk1 V c 0 ⟨0, h⟩) (iblk1 V c 1 ⟨0, h⟩) k1_pay1
  | n + 1, h =>
    if (n + 1) % 4 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (accN1 c n (Nat.lt_of_succ_lt h))

/-- At a first contraction point. -/
theorem accN1_first (c : Dev nD) (t : Fin cfg1.N) (h0 : t.val % 4 = 0) :
    accN1 V c t.val t.isLt = k1_pay2 (iblk1 V c 0 t) (iblk1 V c 1 t) k1_pay1 := by
  obtain ⟨n, hn⟩ := t
  cases n with
  | zero => rfl
  | succ n => exact if_pos h0

/-- At a later one. -/
theorem accN1_next (c : Dev nD) (t : Fin cfg1.N) (h0 : ¬t.val % 4 = 0) :
    accN1 V c t.val t.isLt = k1_pay2 (iblk1 V c 0 t) (iblk1 V c 1 t) (accN1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (accN1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accN1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accN1 V c (n - 1) (by omega)) ∗ Pipeline.scopedRestBut spec1 c [cc1_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => accN1 V c t.val t.isLt
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accN1 V c t.val t.isLt := by dsimp only [dat1]

/-- The accumulator's contents after point `t`. -/
def acc1 (c : Dev nD) (t : Fin cfg1.N) : FVec F S512x1024 .f32 := accN1 V c t.val t.isLt

theorem acc1_first (c : Dev nD) (t : Fin cfg1.N) (h : t.val % 4 = 0) :
    acc1 V c t = k1_pay2 (iblk1 V c 0 t) (iblk1 V c 1 t) k1_pay1 := accN1_first V c t h

theorem acc1_next (c : Dev nD) (t : Fin cfg1.N) (h : t.val % 4 ≠ 0) (h' : t.val - 1 < cfg1.N) :
    acc1 V c t = k1_pay2 (iblk1 V c 0 t) (iblk1 V c 1 t) (acc1 V c ⟨t.val - 1, h'⟩) := accN1_next V c t h

/-- The output block after a last contraction point is the accumulator's contents there. -/
theorem out_eq1 (c : Dev nD) (t : Fin cfg1.N) (hf : t.val % 4 = 3) : (dat1 V c).after 2 t = acc1 V c t := after1_2 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [accN1_first V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_A c _ _ _ _ _ _ _ _ _ _ _ _ _)).trans (sout1_A_eq c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_A c _ _ _ _ _ _ _ _ _ _ _ _ _)).trans (sout1_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN1_next V c t h0]
    rw [PhiS1_castSucc V c t, PhiS1_pos V c _ _ hz]
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2, accN1_next V c t h0]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_C c _ _ _ _ _ _ _ _ _ _ _ _ _ _)).trans (sout1_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c _ _ _ _ _ _ _ _ _ _ _ _ _ _)).trans (out1_C_eq c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_B c _ _ _ _ _ _ _ _ _ _ _ _ _ _)).trans (sout1_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's entry and exit -/

/-- What a region entry supplies and an exit gives back: the scoped buffers that are no staging buffer at some
    contents each (the accumulator among them), the generator register at some state. -/
def PhiIn1 (c : Dev nD) : sProp 𝕄 := Pipeline.ΦA spec1 c

/-- Before the first point the invariant is the entry's. -/
theorem Phi_first1 (c : Dev nD) : (dat1 V c).Φ 0 = PhiIn1 c := by
  rw [show (dat1 V c).Φ 0 = PhiS1 V c 0 (Nat.zero_le _) from rfl, PhiS1_zero V c 0 _ rfl]; rfl

/-- After the last point it gives the entry's back: the accumulator's named contents are forgotten. -/
theorem Phi_last1 (c : Dev nD) : (dat1 V c).Φ (Fin.last _) ⊢ PhiIn1 c := by
  have hN : cfg1.N = 256 := N_1
  rw [show (dat1 V c).Φ (Fin.last _) = PhiS1 V c (Fin.last cfg1.N).val (Nat.le_of_lt_succ (Fin.last cfg1.N).isLt) from rfl,
    PhiS1_pos V c _ _ (by rw [Fin.val_last]; omega)]
  unfold PhiIn1; rw [PhiA1_eq]
  iintro ⟨⟨HS0, HR⟩, Hg⟩
  isplitl [HS0 HR]
  · isplitl [HS0]
    · iexists _; iexact HS0
    iexact HR
  iexact Hg

end Cert.KernelIdeal.Hand

end
-- ==== Proof.KI.Region2.lean ====
import proofs.«166874_j54296976556804_1_alg».proof.Proof.Gen.KernelIdeal.Launch
import proofs.«166874_j54296976556804_1_alg».proof.Proof.Gen.KernelIdeal.Skeleton
import proofs.«166874_j54296976556804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: one tiled matrix product whose grid has a single point along the contraction axis

Every point zeroes the accumulator, adds the product of its two input blocks, and copies the accumulator into the
output block, which is written back at once. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first conditional (the contraction coordinate is zero: reset the accumulator), from the grid coordinates. -/
abbrev cond2_0 (i : grid2.Coords) : Prop := (Scalar.cmpi .ne (Scalar.extui (Scalar.cmpi .eq (BitVec.ofNat 32 (i 2).val) 0#32)) 0#32) = 1#1
/-- It holds at every point: the contraction axis has one point. -/
theorem hcond2_0 : ∀ t : Fin cfg2.N, cond2_0 (grid2.coords t) :=
  (by decide +kernel : ∀ t : Fin grid2.N, cond2_0 (grid2.coords t))
/-- The second conditional (the contraction coordinate is the last: copy the accumulator out). -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-- No window is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-! ## The kernel body on any staging memrefs -/

/-- One staging buffer of the output window, through which its contents are stated. -/
abbrev VO2_2 : View sig .tc .vmem S512x1024 .f32 := (Memref.whole cc2_stg2_0 : Memref sig .tc .vmem S512x1024 .f32).view
/-- Each window's current staging memref at point `t`, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S512x1024 .f32 := Memref.whole cc2_scratch0
abbrev VS2_0 : View sig .tc .vmem S512x1024 .f32 := scM2_0.view

/-- The class invariant with the accumulator as a memref owned at some contents, the other scoped buffers unopened. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_split]; simp only [scM2_0, owns_whole]; try rfl

set_option maxHeartbeats 1000000 in
/-- What the body's stores leave in the output's staging memref and in the accumulator, as pieces (last first), with the
    proof that on whole memrefs — the inputs' at their contents, the output's and the accumulator's at anything — the body
    runs to the continuation holding the inputs' as they were and the other two with their pieces written. -/
noncomputable def kernelRun2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The run's pieces for the output tile its block, so they cover it. -/
theorem cover2_2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) (y : S512x1024.Idx) :
    ∃ pc ∈ (kernelRun2 c i arg3 harg3 arg4 harg4 arg5 harg5 arg6 harg6 hc0 hc1 x0 x1).1, y ∈ pc.1.set :=
  View.cover_of_tiledL (kernelRun2 c i arg3 harg3 arg4 harg4 arg5 harg5 arg6 harg6 hc0 hc1 x0 x1).1 S512x1024.size (by sl_kernel_rfl) y

/-- What the run leaves in the output's staging buffer: its pieces read back over junk. -/
def out2_2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) : Vec F S512x1024 .f32 :=
  VO2_2.read (Elt F) (VO2_2.writes (Elt F) VO2_2.junk (kernelRun2 c i arg3 harg3 arg4 harg4 arg5 harg5 arg6 harg6 hc0 hc1 x0 x1).1)

theorem hz2 : (![0, 0] : Fin 2 → Nat) = fun _ => 0 := funext fun a => by fin_cases a <;> rfl

/-- The output block after the body: the zero block plus the product of the two input blocks (the accumulator's one
    update, copied out). -/
theorem out2_2_eq (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) :
    out2_2 c i arg3 harg3 arg4 harg4 arg5 harg5 arg6 harg6 hc0 hc1 x0 x1 = k2_pay2 x0 x1 k2_pay1 := by
  unfold out2_2
  rw [View.read_writes_eq_canon _ _ _ (cover2_2 c i arg3 harg3 arg4 harg4 arg5 harg5 arg6 harg6 hc0 hc1 x0 x1)]
  unfold kernelRun2
  dsimp only
  sl_unfold_words
  rw [View.canon_unit_zero (S := S512x1024) hz2, View.readCov_cons_toLoadRect, View.readCov_unit_zero (S := S512x1024) _ hz2]
  simp only [View.readAt_eq_ld, harg3.read_unread, harg4.read_unread, View.ld_unit_zero (S := S512x256) hz2, View.ld_unit_zero (S := S256x1024) hz2]

/-! ## What the output holds after each point -/

/-- The output's staging buffer after the body at point `t`: the run's contents at the point's memrefs and input blocks. -/
def outsAt2 (c : Dev nD) (t : Fin cfg2.N) : Vec F S512x1024 .f32 :=
  out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)

/-! ## The pipeline's proof data -/

/-- The proof data of the pipeline on core `c`: the arrays as the region finds them (`V`); after the body at point `t`
    each input's buffer at its block and the output's at `outsAt2`; the invariant the class's (every point resets the
    accumulator before reading it, so nothing is carried); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The output block after point `t`, from the input blocks there. -/
theorem out_eq2 (c : Dev nD) (t : Fin cfg2.N) : (dat2 V c).after 2 t = k2_pay2 (iblk2 V c 0 t) (iblk2 V c 1 t) k2_pay1 := by
  rw [after2_2]; unfold outsAt2; exact out2_2_eq ..

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' memrefs hold their blocks, the invariant hands the body the accumulator at some
    contents and takes it back at some contents; the output's buffer comes back with the run's pieces written, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold outsAt2 out2_2
  iintro ⟨⟨⟨HS0, HR⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _, _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The region's entry and exit -/

/-- What a region entry supplies and an exit gives back: the scoped buffers that are no staging buffer at some
    contents each (the accumulator among them), the generator register at some state. -/
def PhiIn2 (c : Dev nD) : sProp 𝕄 := Pipeline.ΦA spec2 c

theorem Phi_first2 (c : Dev nD) : (dat2 V c).Φ 0 = PhiIn2 c := rfl

theorem Phi_last2 (c : Dev nD) : (dat2 V c).Φ (Fin.last _) ⊢ PhiIn2 c :=
  Idealize.SL.BI.Entails.refl _

end Cert.KernelIdeal.Hand

end
-- ==== Proof.KI.Region3.lean ====
import proofs.«166874_j54296976556804_1_alg».proof.Proof.Gen.KernelIdeal.Launch
import proofs.«166874_j54296976556804_1_alg».proof.Proof.Gen.KernelIdeal.Skeleton
import proofs.«166874_j54296976556804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 3: one tiled matrix product whose grid has 8 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The first conditional (the contraction coordinate is zero: reset the accumulator), from the grid coordinates. -/
abbrev cond3_0 (i : grid3.Coords) : Prop := (Scalar.cmpi .ne (Scalar.extui (Scalar.cmpi .eq (BitVec.ofNat 32 (i 2).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- The second conditional (the contraction coordinate is the last: copy the accumulator out). -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle; the output window is idle, and not written back, exactly where the second
    conditional fails. -/
theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The kernel body on any staging memrefs -/

/-- One staging buffer of the output window, through which its contents are stated. -/
abbrev VO3_2 : View sig .tc .vmem S512x1024 .f32 := (Memref.whole cc3_stg2_0 : Memref sig .tc .vmem S512x1024 .f32).view
/-- Each window's current staging memref at point `t`, and its wholeness. -/
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S512x1024 .f32 := Memref.whole cc3_scratch0
abbrev VS3_0 : View sig .tc .vmem S512x1024 .f32 := scM3_0.view

/-- The class invariant with the accumulator as a memref owned at some contents, the other scoped buffers unopened. -/
theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_split]; simp only [scM3_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun3_A (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun3_B (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover3_A (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) (y : S512x1024.Idx) : ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S512x1024.size (by sl_kernel_rfl) y
theorem scover3_B (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) (y : S512x1024.Idx) : ∃ pc ∈ (kernelRun3_B c i arg3 harg3 arg4 harg4 arg5 harg5 arg6 harg6 hc0 hc1 x0 x1 xs0).1, y ∈ pc.1.set :=
  View.cover_of_tiledL (kernelRun3_B c i arg3 harg3 arg4 harg4 arg5 harg5 arg6 harg6 hc0 hc1 x0 x1 xs0).1 S512x1024.size (by sl_kernel_rfl) y
theorem scover3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) (y : S512x1024.Idx) : ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S512x1024.size (by sl_kernel_rfl) y
theorem cover3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) (y : S512x1024.Idx) : ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S512x1024.size (by sl_kernel_rfl) y

/-- The first point leaves the accumulator at the zero block plus the product of the input blocks. -/
theorem sout3_A_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) :
    VS3_0.read (Elt F) (VS3_0.writes (Elt F) VS3_0.junk (kernelRun3_A c i arg3 harg3 arg4 harg4 arg5 harg5 arg6 harg6 hc0 hc1 x0 x1).1) = k3_pay2 x0 x1 k3_pay1 := by
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout3_B_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) :
    VS3_0.read (Elt F) (VS3_0.writes (Elt F) VS3_0.junk (kernelRun3_B c i arg3 harg3 arg4 harg4 arg5 harg5 arg6 harg6 hc0 hc1 x0 x1 xs0).1) = k3_pay2 x0 x1 xs0 := by
  rw [View.read_writes_eq_canon _ _ _ (scover3_B c i arg3 harg3 arg4 harg4 arg5 harg5 arg6 harg6 hc0 hc1 x0 x1 xs0)]
  unfold kernelRun3_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout3_C_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    VS3_0.read (Elt F) (VS3_0.writes (Elt F) VS3_0.junk (kernelRun3_C c i arg3 harg3 arg4 harg4 arg5 harg5 arg6 harg6 hc0 hc1 x0 x1 xs0).2.1) = k3_pay2 x0 x1 xs0 := by
  rw [View.read_writes_eq_canon _ _ _ (scover3_C c i arg3 harg3 arg4 harg4 arg5 harg5 arg6 harg6 hc0 hc1 x0 x1 xs0)]
  unfold kernelRun3_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out3_C_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    VO3_2.read (Elt F) (VO3_2.writes (Elt F) VO3_2.junk (kernelRun3_C c i arg3 harg3 arg4 harg4 arg5 harg5 arg6 harg6 hc0 hc1 x0 x1 xs0).1) = k3_pay2 x0 x1 xs0 := by
  rw [View.read_writes_eq_canon _ _ _ (cover3_C c i arg3 harg3 arg4 harg4 arg5 harg5 arg6 harg6 hc0 hc1 x0 x1 xs0)]
  unfold kernelRun3_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN3 (c : Dev nD) : (n : ℕ) → n < cfg3.N → Vec F S512x1024 .f32
  | 0, h => k3_pay2 (iblk3 V c 0 ⟨0, h⟩) (iblk3 V c 1 ⟨0, h⟩) k3_pay1
  | n + 1, h =>
    if (n + 1) % 8 = 0 then k3_pay2 (iblk3 V c 0 ⟨n + 1, h⟩) (iblk3 V c 1 ⟨n + 1, h⟩) k3_pay1
    else k3_pay2 (iblk3 V c 0 ⟨n + 1, h⟩) (iblk3 V c 1 ⟨n + 1, h⟩) (accN3 c n (Nat.lt_of_succ_lt h))

/-- At a first contraction point. -/
theorem accN3_first (c : Dev nD) (t : Fin cfg3.N) (h0 : t.val % 8 = 0) :
    accN3 V c t.val t.isLt = k3_pay2 (iblk3 V c 0 t) (iblk3 V c 1 t) k3_pay1 := by
  obtain ⟨n, hn⟩ := t
  cases n with
  | zero => rfl
  | succ n => exact if_pos h0

/-- At a later one. -/
theorem accN3_next (c : Dev nD) (t : Fin cfg3.N) (h0 : ¬t.val % 8 = 0) :
    accN3 V c t.val t.isLt = k3_pay2 (iblk3 V c 0 t) (iblk3 V c 1 t) (accN3 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare (accN3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accN3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accN3 V c (n - 1) (by omega)) ∗ Pipeline.scopedRestBut spec3 c [cc3_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS3`;
    nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => accN3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accN3 V c t.val t.isLt := by dsimp only [dat3]

/-- The accumulator's contents after point `t`. -/
def acc3 (c : Dev nD) (t : Fin cfg3.N) : FVec F S512x1024 .f32 := accN3 V c t.val t.isLt

theorem acc3_first (c : Dev nD) (t : Fin cfg3.N) (h : t.val % 8 = 0) :
    acc3 V c t = k3_pay2 (iblk3 V c 0 t) (iblk3 V c 1 t) k3_pay1 := accN3_first V c t h

theorem acc3_next (c : Dev nD) (t : Fin cfg3.N) (h : t.val % 8 ≠ 0) (h' : t.val - 1 < cfg3.N) :
    acc3 V c t = k3_pay2 (iblk3 V c 0 t) (iblk3 V c 1 t) (acc3 V c ⟨t.val - 1, h'⟩) := accN3_next V c t h

/-- The output block after a last contraction point is the accumulator's contents there. -/
theorem out_eq3 (c : Dev nD) (t : Fin cfg3.N) (hf : t.val % 8 = 7) : (dat3 V c).after 2 t = acc3 V c t := after3_2 V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 256 := lt_of_lt_of_eq t.isLt (show cfg3.N = 256 from N_3)
  by_cases h0 : t.val % 8 = 0
  · have h1 : ¬t.val % 8 = 7 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [Dat.leavesExact_idle (dat3 V c) 2 t (idleAt3_2 t (fun h => h1 ((hcond3_1 t).mp h))) (noFlush3_2 t (fun h => h1 ((hcond3_1 t).mp h)))]
    rw [accN3_first V c t h0]
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_A c _ _ _ _ _ _ _ _ _ _ _ _ _)).trans (sout3_A_eq c _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_A c _ _ _ _ _ _ _ _ _ _ _ _ _)).trans (sout3_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN3_next V c t h0]
    rw [PhiS3_castSucc V c t, PhiS3_pos V c _ _ hz]
    by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t ((hcond3_1 t).mpr h1)], after3_2, accN3_next V c t h0]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_C c _ _ _ _ _ _ _ _ _ _ _ _ _ _)).trans (sout3_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover3_C c _ _ _ _ _ _ _ _ _ _ _ _ _ _)).trans (out3_C_eq c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_B c _ _ _ _ _ _ _ _ _ _ _ _ _ _)).trans (sout3_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's entry and exit -/

/-- What a region entry supplies and an exit gives back: the scoped buffers that are no staging buffer at some
    contents each (the accumulator among them), the generator register at some state. -/
def PhiIn3 (c : Dev nD) : sProp 𝕄 := Pipeline.ΦA spec3 c

/-- Before the first point the invariant is the entry's. -/
theorem Phi_first3 (c : Dev nD) : (dat3 V c).Φ 0 = PhiIn3 c := by
  rw [show (dat3 V c).Φ 0 = PhiS3 V c 0 (Nat.zero_le _) from rfl, PhiS3_zero V c 0 _ rfl]; rfl

/-- After the last point it gives the entry's back: the accumulator's named contents are forgotten. -/
theorem Phi_last3 (c : Dev nD) : (dat3 V c).Φ (Fin.last _) ⊢ PhiIn3 c := by
  have hN : cfg3.N = 256 := N_3
  rw [show (dat3 V c).Φ (Fin.last _) = PhiS3 V c (Fin.last cfg3.N).val (Nat.le_of_lt_succ (Fin.last cfg3.N).isLt) from rfl,
    PhiS3_pos V c _ _ (by rw [Fin.val_last]; omega)]
  unfold PhiIn3; rw [PhiA3_eq]
  iintro ⟨⟨HS0, HR⟩, Hg⟩
  isplitl [HS0 HR]
  · isplitl [HS0]
    · iexists _; iexact HS0
    iexact HR
  iexact Hg

end Cert.KernelIdeal.Hand

end
-- ==== Proof.KI.Region4.lean ====
import proofs.«166874_j54296976556804_1_alg».proof.Proof.Gen.KernelIdeal.Launch
import proofs.«166874_j54296976556804_1_alg».proof.Proof.Gen.KernelIdeal.Skeleton
import proofs.«166874_j54296976556804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: one tiled matrix product whose grid has 4 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional (the contraction coordinate is zero: reset the accumulator), from the grid coordinates. -/
abbrev cond4_0 (i : grid4.Coords) : Prop := (Scalar.cmpi .ne (Scalar.extui (Scalar.cmpi .eq (BitVec.ofNat 32 (i 2).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)
/-- The second conditional (the contraction coordinate is the last: copy the accumulator out). -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-- The input windows are never idle; the output window is idle, and not written back, exactly where the second
    conditional fails. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The kernel body on any staging memrefs -/

/-- One staging buffer of the output window, through which its contents are stated. -/
abbrev VO4_2 : View sig .tc .vmem S512x1024 .f32 := (Memref.whole cc4_stg2_0 : Memref sig .tc .vmem S512x1024 .f32).view
/-- Each window's current staging memref at point `t`, and its wholeness. -/
abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1024 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S512x1024 .f32 := Memref.whole cc4_scratch0
abbrev VS4_0 : View sig .tc .vmem S512x1024 .f32 := scM4_0.view

/-- The class invariant with the accumulator as a memref owned at some contents, the other scoped buffers unopened. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_split]; simp only [scM4_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun4_A (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun4_B (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover4_A (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) (y : S512x1024.Idx) : ∃ pc ∈ (kernelRun4_A c i arg3 harg3 arg4 harg4 arg5 harg5 arg6 harg6 hc0 hc1 x0 x1).1, y ∈ pc.1.set :=
  View.cover_of_tiledL (kernelRun4_A c i arg3 harg3 arg4 harg4 arg5 harg5 arg6 harg6 hc0 hc1 x0 x1).1 S512x1024.size (by sl_kernel_rfl) y
theorem scover4_B (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) (y : S512x1024.Idx) : ∃ pc ∈ (kernelRun4_B c i arg3 harg3 arg4 harg4 arg5 harg5 arg6 harg6 hc0 hc1 x0 x1 xs0).1, y ∈ pc.1.set :=
  View.cover_of_tiledL (kernelRun4_B c i arg3 harg3 arg4 harg4 arg5 harg5 arg6 harg6 hc0 hc1 x0 x1 xs0).1 S512x1024.size (by sl_kernel_rfl) y
theorem scover4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) (y : S512x1024.Idx) : ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S512x1024.size (by sl_kernel_rfl) y
theorem cover4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) (y : S512x1024.Idx) : ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S512x1024.size (by sl_kernel_rfl) y

/-- The first point leaves the accumulator at the zero block plus the product of the input blocks. -/
theorem sout4_A_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) :
    VS4_0.read (Elt F) (VS4_0.writes (Elt F) VS4_0.junk (kernelRun4_A c i arg3 harg3 arg4 harg4 arg5 harg5 arg6 harg6 hc0 hc1 x0 x1).1) = k4_pay2 x0 x1 k4_pay1 := by
  rw [View.read_writes_eq_canon _ _ _ (scover4_A c i arg3 harg3 arg4 harg4 arg5 harg5 arg6 harg6 hc0 hc1 x0 x1)]
  unfold kernelRun4_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout4_B_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) :
    VS4_0.read (Elt F) (VS4_0.writes (Elt F) VS4_0.junk (kernelRun4_B c i arg3 harg3 arg4 harg4 arg5 harg5 arg6 harg6 hc0 hc1 x0 x1 xs0).1) = k4_pay2 x0 x1 xs0 := by
  rw [View.read_writes_eq_canon _ _ _ (scover4_B c i arg3 harg3 arg4 harg4 arg5 harg5 arg6 harg6 hc0 hc1 x0 x1 xs0)]
  unfold kernelRun4_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout4_C_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    VS4_0.read (Elt F) (VS4_0.writes (Elt F) VS4_0.junk (kernelRun4_C c i arg3 harg3 arg4 harg4 arg5 harg5 arg6 harg6 hc0 hc1 x0 x1 xs0).2.1) = k4_pay2 x0 x1 xs0 := by
  rw [View.read_writes_eq_canon _ _ _ (scover4_C c i arg3 harg3 arg4 harg4 arg5 harg5 arg6 harg6 hc0 hc1 x0 x1 xs0)]
  unfold kernelRun4_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out4_C_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    VO4_2.read (Elt F) (VO4_2.writes (Elt F) VO4_2.junk (kernelRun4_C c i arg3 harg3 arg4 harg4 arg5 harg5 arg6 harg6 hc0 hc1 x0 x1 xs0).1) = k4_pay2 x0 x1 xs0 := by
  rw [View.read_writes_eq_canon _ _ _ (cover4_C c i arg3 harg3 arg4 harg4 arg5 harg5 arg6 harg6 hc0 hc1 x0 x1 xs0)]
  unfold kernelRun4_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN4 (c : Dev nD) : (n : ℕ) → n < cfg4.N → Vec F S512x1024 .f32
  | 0, h => k4_pay2 (iblk4 V c 0 ⟨0, h⟩) (iblk4 V c 1 ⟨0, h⟩) k4_pay1
  | n + 1, h =>
    if (n + 1) % 4 = 0 then k4_pay2 (iblk4 V c 0 ⟨n + 1, h⟩) (iblk4 V c 1 ⟨n + 1, h⟩) k4_pay1
    else k4_pay2 (iblk4 V c 0 ⟨n + 1, h⟩) (iblk4 V c 1 ⟨n + 1, h⟩) (accN4 c n (Nat.lt_of_succ_lt h))

/-- At a first contraction point. -/
theorem accN4_first (c : Dev nD) (t : Fin cfg4.N) (h0 : t.val % 4 = 0) :
    accN4 V c t.val t.isLt = k4_pay2 (iblk4 V c 0 t) (iblk4 V c 1 t) k4_pay1 := by
  obtain ⟨n, hn⟩ := t
  cases n with
  | zero => rfl
  | succ n => exact if_pos h0

/-- At a later one. -/
theorem accN4_next (c : Dev nD) (t : Fin cfg4.N) (h0 : ¬t.val % 4 = 0) :
    accN4 V c t.val t.isLt = k4_pay2 (iblk4 V c 0 t) (iblk4 V c 1 t) (accN4 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4_0 fullShare (accN4 V c n hn) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare (accN4 V c n hn) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare (accN4 V c (n - 1) (by omega)) ∗ Pipeline.scopedRestBut spec4 c [cc4_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS4`;
    nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => accN4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accN4 V c t.val t.isLt := by dsimp only [dat4]

/-- The accumulator's contents after point `t`. -/
def acc4 (c : Dev nD) (t : Fin cfg4.N) : FVec F S512x1024 .f32 := accN4 V c t.val t.isLt

theorem acc4_first (c : Dev nD) (t : Fin cfg4.N) (h : t.val % 4 = 0) :
    acc4 V c t = k4_pay2 (iblk4 V c 0 t) (iblk4 V c 1 t) k4_pay1 := accN4_first V c t h

theorem acc4_next (c : Dev nD) (t : Fin cfg4.N) (h : t.val % 4 ≠ 0) (h' : t.val - 1 < cfg4.N) :
    acc4 V c t = k4_pay2 (iblk4 V c 0 t) (iblk4 V c 1 t) (acc4 V c ⟨t.val - 1, h'⟩) := accN4_next V c t h

/-- The output block after a last contraction point is the accumulator's contents there. -/
theorem out_eq4 (c : Dev nD) (t : Fin cfg4.N) (hf : t.val % 4 = 3) : (dat4 V c).after 2 t = acc4 V c t := after4_2 V c t

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 256 := lt_of_lt_of_eq t.isLt (show cfg4.N = 256 from N_4)
  by_cases h0 : t.val % 4 = 0
  · have h1 : ¬t.val % 4 = 3 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [Dat.leavesExact_idle (dat4 V c) 2 t (idleAt4_2 t (fun h => h1 ((hcond4_1 t).mp h))) (noFlush4_2 t (fun h => h1 ((hcond4_1 t).mp h)))]
    rw [accN4_first V c t h0]
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_A c _ _ _ _ _ _ _ _ _ _ _ _ _)).trans (sout4_A_eq c _ _ _ _ _ _ _ _ _ _ _ _ _)
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_A c _ _ _ _ _ _ _ _ _ _ _ _ _)).trans (sout4_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN4_next V c t h0]
    rw [PhiS4_castSucc V c t, PhiS4_pos V c _ _ hz]
    by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t ((hcond4_1 t).mpr h1)], after4_2, accN4_next V c t h0]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_C c _ _ _ _ _ _ _ _ _ _ _ _ _ _)).trans (sout4_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover4_C c _ _ _ _ _ _ _ _ _ _ _ _ _ _)).trans (out4_C_eq c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_B c _ _ _ _ _ _ _ _ _ _ _ _ _ _)).trans (sout4_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's entry and exit -/

/-- What a region entry supplies and an exit gives back: the scoped buffers that are no staging buffer at some
    contents each (the accumulator among them), the generator register at some state. -/
def PhiIn4 (c : Dev nD) : sProp 𝕄 := Pipeline.ΦA spec4 c

/-- Before the first point the invariant is the entry's. -/
theorem Phi_first4 (c : Dev nD) : (dat4 V c).Φ 0 = PhiIn4 c := by
  rw [show (dat4 V c).Φ 0 = PhiS4 V c 0 (Nat.zero_le _) from rfl, PhiS4_zero V c 0 _ rfl]; rfl

/-- After the last point it gives the entry's back: the accumulator's named contents are forgotten. -/
theorem Phi_last4 (c : Dev nD) : (dat4 V c).Φ (Fin.last _) ⊢ PhiIn4 c := by
  have hN : cfg4.N = 256 := N_4
  rw [show (dat4 V c).Φ (Fin.last _) = PhiS4 V c (Fin.last cfg4.N).val (Nat.le_of_lt_succ (Fin.last cfg4.N).isLt) from rfl,
    PhiS4_pos V c _ _ (by rw [Fin.val_last]; omega)]
  unfold PhiIn4; rw [PhiA4_eq]
  iintro ⟨⟨HS0, HR⟩, Hg⟩
  isplitl [HS0 HR]
  · isplitl [HS0]
    · iexists _; iexact HS0
    iexact HR
  iexact Hg

end Cert.KernelIdeal.Hand

end
-- ==== Proof.KI.Run.lean ====
import proofs.«166874_j54296976556804_1_alg».proof.Proof.KI.Region0
import proofs.«166874_j54296976556804_1_alg».proof.Proof.KI.Region1
import proofs.«166874_j54296976556804_1_alg».proof.Proof.KI.Region2
import proofs.«166874_j54296976556804_1_alg».proof.Proof.KI.Region3
import proofs.«166874_j54296976556804_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: five tiled products among stretches of host operations

The buffer contents at every boundary between two segments of @main, as a fold from the launch memory; every
argument array read back through the fold to its launch contents; each product as a region over the thread state
"every unscoped buffer at the boundary's contents, the generator register at some state, nothing owed"; and the
run itself: every weakly fair execution terminates, the result buffer ends at the fold's last contents and the
arguments end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host stretches: none allocates a buffer, none writes an argument array -/

/-- The argument arrays. -/
abbrev argRefs : List (Ref sig .tc) :=
  [main_arg0, main_arg1, main_arg2, main_arg3, main_arg4, main_arg5, main_arg6, main_arg7, main_arg8, main_arg9, main_arg10]

/-- No operation of `hostOps0` allocates a buffer. -/
theorem hostOps0_fresh : (hostOps0 : List (HloOp τ sig (Elt F))).Forall fun op => op.fresh = ∅ := by
  simp only [List.Forall]; repeat' constructor
/-- Each operation of `hostOps0` writes its one result buffer, which is no argument array. -/
theorem hostOps0_keeps (b : Ref sig .tc) (hb : b ∈ argRefs) :
    ∀ op ∈ (hostOps0 : List (HloOp τ sig (Elt F))), Proc.devRef .tc b ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps2` allocates a buffer. -/
theorem hostOps2_fresh : (hostOps2 : List (HloOp τ sig (Elt F))).Forall fun op => op.fresh = ∅ := by
  simp only [List.Forall]; repeat' constructor
/-- Each operation of `hostOps2` writes its one result buffer, which is no argument array. -/
theorem hostOps2_keeps (b : Ref sig .tc) (hb : b ∈ argRefs) :
    ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps3` allocates a buffer. -/
theorem hostOps3_fresh : (hostOps3 : List (HloOp τ sig (Elt F))).Forall fun op => op.fresh = ∅ := by
  simp only [List.Forall]; repeat' constructor
/-- Each operation of `hostOps3` writes its one result buffer, which is no argument array. -/
theorem hostOps3_keeps (b : Ref sig .tc) (hb : b ∈ argRefs) :
    ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5` allocates a buffer. -/
theorem hostOps5_fresh : (hostOps5 : List (HloOp τ sig (Elt F))).Forall fun op => op.fresh = ∅ := by
  simp only [List.Forall]; repeat' constructor
/-- Each operation of `hostOps5` writes its one result buffer, which is no argument array. -/
theorem hostOps5_keeps (b : Ref sig .tc) (hb : b ∈ argRefs) :
    ∀ op ∈ (hostOps5 : List (HloOp τ sig (Elt F))), Proc.devRef .tc b ∉ op.writes :=
  List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_1` allocates a buffer. -/
theorem hostOps5_1_fresh : (hostOps5_1 : List (HloOp τ sig (Elt F))).Forall fun op => op.fresh = ∅ := by
  simp only [List.Forall]; repeat' constructor
/-- Each operation of `hostOps5_1` writes its one result buffer, which is no argument array. -/
theorem hostOps5_1_keeps (b : Ref sig .tc) (hb : b ∈ argRefs) :
    ∀ op ∈ (hostOps5_1 : List (HloOp τ sig (Elt F))), Proc.devRef .tc b ∉ op.writes :=
  List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_2` allocates a buffer. -/
theorem hostOps5_2_fresh : (hostOps5_2 : List (HloOp τ sig (Elt F))).Forall fun op => op.fresh = ∅ := by
  simp only [List.Forall]; repeat' constructor
/-- Each operation of `hostOps5_2` writes its one result buffer, which is no argument array. -/
theorem hostOps5_2_keeps (b : Ref sig .tc) (hb : b ∈ argRefs) :
    ∀ op ∈ (hostOps5_2 : List (HloOp τ sig (Elt F))), Proc.devRef .tc b ∉ op.writes :=
  List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_3` allocates a buffer. -/
theorem hostOps5_3_fresh : (hostOps5_3 : List (HloOp τ sig (Elt F))).Forall fun op => op.fresh = ∅ := by
  simp only [List.Forall]; repeat' constructor
/-- Each operation of `hostOps5_3` writes its one result buffer, which is no argument array. -/
theorem hostOps5_3_keeps (b : Ref sig .tc) (hb : b ∈ argRefs) :
    ∀ op ∈ (hostOps5_3 : List (HloOp τ sig (Elt F))), Proc.devRef .tc b ∉ op.writes :=
  List.forall_iff_forall_mem.mp (by
    simp only [hostOps5_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_4` allocates a buffer. -/
theorem hostOps5_4_fresh : (hostOps5_4 : List (HloOp τ sig (Elt F))).Forall fun op => op.fresh = ∅ := by
  simp only [List.Forall]; repeat' constructor
/-- Each operation of `hostOps5_4` writes its one result buffer, which is no argument array. -/
theorem hostOps5_4_keeps (b : Ref sig .tc) (hb : b ∈ argRefs) :
    ∀ op ∈ (hostOps5_4 : List (HloOp τ sig (Elt F))), Proc.devRef .tc b ∉ op.writes :=
  List.forall_iff_forall_mem.mp (by
    simp only [hostOps5_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_5` allocates a buffer. -/
theorem hostOps5_5_fresh : (hostOps5_5 : List (HloOp τ sig (Elt F))).Forall fun op => op.fresh = ∅ := by
  simp only [List.Forall]; repeat' constructor
/-- Each operation of `hostOps5_5` writes its one result buffer, which is no argument array. -/
theorem hostOps5_5_keeps (b : Ref sig .tc) (hb : b ∈ argRefs) :
    ∀ op ∈ (hostOps5_5 : List (HloOp τ sig (Elt F))), Proc.devRef .tc b ∉ op.writes :=
  List.forall_iff_forall_mem.mp (by
    simp only [hostOps5_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_6` allocates a buffer. -/
theorem hostOps5_6_fresh : (hostOps5_6 : List (HloOp τ sig (Elt F))).Forall fun op => op.fresh = ∅ := by
  simp only [List.Forall]; repeat' constructor
/-- Each operation of `hostOps5_6` writes its one result buffer, which is no argument array. -/
theorem hostOps5_6_keeps (b : Ref sig .tc) (hb : b ∈ argRefs) :
    ∀ op ∈ (hostOps5_6 : List (HloOp τ sig (Elt F))), Proc.devRef .tc b ∉ op.writes :=
  List.forall_iff_forall_mem.mp (by
    simp only [hostOps5_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_7` allocates a buffer. -/
theorem hostOps5_7_fresh : (hostOps5_7 : List (HloOp τ sig (Elt F))).Forall fun op => op.fresh = ∅ := by
  simp only [List.Forall]; repeat' constructor
/-- Each operation of `hostOps5_7` writes its one result buffer, which is no argument array. -/
theorem hostOps5_7_keeps (b : Ref sig .tc) (hb : b ∈ argRefs) :
    ∀ op ∈ (hostOps5_7 : List (HloOp τ sig (Elt F))), Proc.devRef .tc b ∉ op.writes :=
  List.forall_iff_forall_mem.mp (by
    simp only [hostOps5_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_8` allocates a buffer. -/
theorem hostOps5_8_fresh : (hostOps5_8 : List (HloOp τ sig (Elt F))).Forall fun op => op.fresh = ∅ := by
  simp only [List.Forall]; repeat' constructor
/-- Each operation of `hostOps5_8` writes its one result buffer, which is no argument array. -/
theorem hostOps5_8_keeps (b : Ref sig .tc) (hb : b ∈ argRefs) :
    ∀ op ∈ (hostOps5_8 : List (HloOp τ sig (Elt F))), Proc.devRef .tc b ∉ op.writes :=
  List.forall_iff_forall_mem.mp (by
    simp only [hostOps5_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_9` allocates a buffer. -/
theorem hostOps5_9_fresh : (hostOps5_9 : List (HloOp τ sig (Elt F))).Forall fun op => op.fresh = ∅ := by
  simp only [List.Forall]; repeat' constructor
/-- Each operation of `hostOps5_9` writes its one result buffer, which is no argument array. -/
theorem hostOps5_9_keeps (b : Ref sig .tc) (hb : b ∈ argRefs) :
    ∀ op ∈ (hostOps5_9 : List (HloOp τ sig (Elt F))), Proc.devRef .tc b ∉ op.writes :=
  List.forall_iff_forall_mem.mp (by
    simp only [hostOps5_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

set_option maxHeartbeats 40000000 in
/-- No operation of `hostOps5_10` allocates a buffer. -/
theorem hostOps5_10_fresh : (hostOps5_10 : List (HloOp τ sig (Elt F))).Forall fun op => op.fresh = ∅ := by
  simp only [List.Forall]; repeat' constructor
set_option maxHeartbeats 40000000 in
/-- Each operation of `hostOps5_10` writes its one result buffer, which is no argument array. -/
theorem hostOps5_10_keeps (b : Ref sig .tc) (hb : b ∈ argRefs) :
    ∀ op ∈ (hostOps5_10 : List (HloOp τ sig (Elt F))), Proc.devRef .tc b ∉ op.writes :=
  List.forall_iff_forall_mem.mp (by
    simp only [hostOps5_10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references (what product 0's proof data take). -/
abbrev V1 : (c : Dev nD) → (b : Ref sig .tc) → Buf (Elt F) ((c : Thread nD τ).loc b) := fun c b => W1 m ρ c b
/-- At product 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (product 0's exit contents). -/
abbrev V2 : (c : Dev nD) → (b : Ref sig .tc) → Buf (Elt F) ((c : Thread nD τ).loc b) := fun c b => W2 m ρ c b
/-- At product 0's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At product 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (product 1's exit contents). -/
abbrev V3 : (c : Dev nD) → (b : Ref sig .tc) → Buf (Elt F) ((c : Thread nD τ).loc b) := fun c b => W3 m ρ c b
/-- At product 1's exit each of its arrays holds what the pipeline leaves and every other buffer what it held
    at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- The same read at the TensorCore's references (what product 2's proof data take). -/
abbrev V4 : (c : Dev nD) → (b : Ref sig .tc) → Buf (Elt F) ((c : Thread nD τ).loc b) := fun c b => W4 m ρ c b
/-- At product 2's exit: its arrays at what the pipeline leaves (the inputs as entered, the output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references (product 2's exit contents). -/
abbrev V5 : (c : Dev nD) → (b : Ref sig .tc) → Buf (Elt F) ((c : Thread nD τ).loc b) := fun c b => W5 m ρ c b
/-- At product 2's exit each of its arrays holds what the pipeline leaves and every other buffer what it held
    at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- The same read at the TensorCore's references (what product 3's proof data take). -/
abbrev V6 : (c : Dev nD) → (b : Ref sig .tc) → Buf (Elt F) ((c : Thread nD τ).loc b) := fun c b => W6 m ρ c b
/-- At product 3's exit: its arrays at what the pipeline leaves (the inputs as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (product 3's exit contents). -/
abbrev V7 : (c : Dev nD) → (b : Ref sig .tc) → Buf (Elt F) ((c : Thread nD τ).loc b) := fun c b => W7 m ρ c b
/-- At product 3's exit each of its arrays holds what the pipeline leaves and every other buffer what it held
    at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At product 4's exit: its arrays at what the pipeline leaves (the inputs as entered, the output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (product 4's exit contents). -/
abbrev V8 : (c : Dev nD) → (b : Ref sig .tc) → Buf (Elt F) ((c : Thread nD τ).loc b) := fun c b => W8 m ρ c b
/-- At product 4's exit each of its arrays holds what the pipeline leaves and every other buffer what it held
    at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`. -/
abbrev W9 : Dev nD → Valuation τ sig (Elt F) := fun c => StableHlo.after hostOps5 (W8 m ρ c)
/-- After `hostOps5_1`. -/
abbrev W10 : Dev nD → Valuation τ sig (Elt F) := fun c => StableHlo.after hostOps5_1 (W9 m ρ c)
/-- After `hostOps5_2`. -/
abbrev W11 : Dev nD → Valuation τ sig (Elt F) := fun c => StableHlo.after hostOps5_2 (W10 m ρ c)
/-- After `hostOps5_3`. -/
abbrev W12 : Dev nD → Valuation τ sig (Elt F) := fun c => StableHlo.after hostOps5_3 (W11 m ρ c)
/-- After `hostOps5_4`. -/
abbrev W13 : Dev nD → Valuation τ sig (Elt F) := fun c => StableHlo.after hostOps5_4 (W12 m ρ c)
/-- After `hostOps5_5`. -/
abbrev W14 : Dev nD → Valuation τ sig (Elt F) := fun c => StableHlo.after hostOps5_5 (W13 m ρ c)
/-- After `hostOps5_6`. -/
abbrev W15 : Dev nD → Valuation τ sig (Elt F) := fun c => StableHlo.after hostOps5_6 (W14 m ρ c)
/-- After `hostOps5_7`. -/
abbrev W16 : Dev nD → Valuation τ sig (Elt F) := fun c => StableHlo.after hostOps5_7 (W15 m ρ c)
/-- After `hostOps5_8`. -/
abbrev W17 : Dev nD → Valuation τ sig (Elt F) := fun c => StableHlo.after hostOps5_8 (W16 m ρ c)
/-- After `hostOps5_9`. -/
abbrev W18 : Dev nD → Valuation τ sig (Elt F) := fun c => StableHlo.after hostOps5_9 (W17 m ρ c)
/-- After `hostOps5_10`. -/
abbrev W19 : Dev nD → Valuation τ sig (Elt F) := fun c => StableHlo.after hostOps5_10 (W18 m ρ c)
/-! ### The arguments end as launched: no host operation and no product writes one (a product reads it through an
    input window or bypasses it), so the fold at an argument's buffer walks back to the launch memory -/

theorem W19_main_arg0 (c : Dev nD) : W19 m ρ c (Proc.devRef .tc main_arg0) = m ((c : Thread nD τ).loc main_arg0) :=
  calc W19 m ρ c (Proc.devRef .tc main_arg0)
    _ = W18 m ρ c (Proc.devRef .tc main_arg0) := StableHlo.after_of_forall_not_mem (b := Proc.devRef .tc main_arg0) _ _ (hostOps5_10_keeps main_arg0 (by decide))
    _ = W17 m ρ c (Proc.devRef .tc main_arg0) := StableHlo.after_of_forall_not_mem (b := Proc.devRef .tc main_arg0) _ _ (hostOps5_9_keeps main_arg0 (by decide))
    _ = W16 m ρ c (Proc.devRef .tc main_arg0) := StableHlo.after_of_forall_not_mem (b := Proc.devRef .tc main_arg0) _ _ (hostOps5_8_keeps main_arg0 (by decide))
    _ = W15 m ρ c (Proc.devRef .tc main_arg0) := StableHlo.after_of_forall_not_mem (b := Proc.devRef .tc main_arg0) _ _ (hostOps5_7_keeps main_arg0 (by decide))
    _ = W14 m ρ c (Proc.devRef .tc main_arg0) := StableHlo.after_of_forall_not_mem (b := Proc.devRef .tc main_arg0) _ _ (hostOps5_6_keeps main_arg0 (by decide))
    _ = W13 m ρ c (Proc.devRef .tc main_arg0) := StableHlo.after_of_forall_not_mem (b := Proc.devRef .tc main_arg0) _ _ (hostOps5_5_keeps main_arg0 (by decide))
    _ = W12 m ρ c (Proc.devRef .tc main_arg0) := StableHlo.after_of_forall_not_mem (b := Proc.devRef .tc main_arg0) _ _ (hostOps5_4_keeps main_arg0 (by decide))
    _ = W11 m ρ c (Proc.devRef .tc main_arg0) := StableHlo.after_of_forall_not_mem (b := Proc.devRef .tc main_arg0) _ _ (hostOps5_3_keeps main_arg0 (by decide))
    _ = W10 m ρ c (Proc.devRef .tc main_arg0) := StableHlo.after_of_forall_not_mem (b := Proc.devRef .tc main_arg0) _ _ (hostOps5_2_keeps main_arg0 (by decide))
    _ = W9 m ρ c (Proc.devRef .tc main_arg0) := StableHlo.after_of_forall_not_mem (b := Proc.devRef .tc main_arg0) _ _ (hostOps5_1_keeps main_arg0 (by decide))
    _ = W8 m ρ c (Proc.devRef .tc main_arg0) := StableHlo.after_of_forall_not_mem (b := Proc.devRef .tc main_arg0) _ _ (hostOps5_keeps main_arg0 (by decide))
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (hostOps3_keeps main_arg0 (by decide))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (hostOps2_keeps main_arg0 (by decide))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c : Thread nD τ).loc main_arg0) := rfl
theorem W19_main_arg1 (c : Dev nD) : W19 m ρ c (Proc.devRef .tc main_arg1) = m ((c : Thread nD τ).loc main_arg1) :=
  calc W19 m ρ c (Proc.devRef .tc main_arg1)
    _ = W18 m ρ c (Proc.devRef .tc main_arg1) := StableHlo.after_of_forall_not_mem (b := Proc.devRef .tc main_arg1) _ _ (hostOps5_10_keeps main_arg1 (by decide))
    _ = W17 m ρ c (Proc.devRef .tc main_arg1) := StableHlo.after_of_forall_not_mem (b := Proc.devRef .tc main_arg1) _ _ (hostOps5_9_keeps main_arg1 (by decide))
    _ = W16 m ρ c (Proc.devRef .tc main_arg1) := StableHlo.after_of_forall_not_mem (b := Proc.devRef .tc main_arg1) _ _ (hostOps5_8_keeps main_arg1 (by decide))
    _ = W15 m ρ c (Proc.devRef .tc main_arg1) := StableHlo.after_of_forall_not_mem (b := Proc.devRef .tc main_arg1) _ _ (hostOps5_7_keeps main_arg1 (by decide))
    _ = W14 m ρ c (Proc.devRef .tc main_arg1) := StableHlo.after_of_forall_not_mem (b := Proc.devRef .tc main_arg1) _ _ (hostOps5_6_keeps main_arg1 (by decide))
    _ = W13 m ρ c (Proc.devRef .tc main_arg1) := StableHlo.after_of_forall_not_mem (b := Proc.devRef .tc main_arg1) _ _ (hostOps5_5_keeps main_arg1 (by decide))
    _ = W12 m ρ c (Proc.devRef .tc main_arg1) := StableHlo.after_of_forall_not_mem (b := Proc.devRef .tc main_arg1) _ _ (hostOps5_4_keeps main_arg1 (by decide))
    _ = W11 m ρ c (Proc.devRef .tc main_arg1) := StableHlo.after_of_forall_not_mem (b := Proc.devRef .tc main_arg1) _ _ (hostOps5_3_keeps main_arg1 (by decide))
    _ = W10 m ρ c (Proc.devRef .tc main_arg1) := StableHlo.after_of_forall_not_mem (b := Proc.devRef .tc main_arg1) _ _ (hostOps5_2_keeps main_arg1 (by decide))
    _ = W9 m ρ c (Proc.devRef .tc main_arg1) := StableHlo.after_of_forall_not_mem (b := Proc.devRef .tc main_arg1) _ _ (hostOps5_1_keeps main_arg1 (by decide))
    _ = W8 m ρ c (Proc.devRef .tc main_arg1) := StableHlo.after_of_forall_not_mem (b := Proc.devRef .tc main_arg1) _ _ (hostOps5_keeps main_arg1 (by decide))
    _ = W7 m ρ c (Proc.devRef .tc main_arg1) := (W8_arr m ρ c 0).trans (((dat4 (V7 m ρ) c).arrAt_in 0 rfl _).trans (A_eq4 (V7 m ρ) c 0))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (hostOps3_keeps main_arg1 (by decide))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (hostOps2_keeps main_arg1 (by decide))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c : Thread nD τ).loc main_arg1) := rfl
theorem W19_main_arg2 (c : Dev nD) : W19 m ρ c (Proc.devRef .tc main_arg2) = m ((c : Thread nD τ).loc main_arg2) :=
  calc W19 m ρ c (Proc.devRef .tc main_arg2)
    _ = W18 m ρ c (Proc.devRef .tc main_arg2) := StableHlo.after_of_forall_not_mem (b := Proc.devRef .tc main_arg2) _ _ (hostOps5_10_keeps main_arg2 (by decide))
    _ = W17 m ρ c (Proc.devRef .tc main_arg2) := StableHlo.after_of_forall_not_mem (b := Proc.devRef .tc main_arg2) _ _ (hostOps5_9_keeps main_arg2 (by decide))
    _ = W16 m ρ c (Proc.devRef .tc main_arg2) := StableHlo.after_of_forall_not_mem (b := Proc.devRef .tc main_arg2) _ _ (hostOps5_8_keeps main_arg2 (by decide))
    _ = W15 m ρ c (Proc.devRef .tc main_arg2) := StableHlo.after_of_forall_not_mem (b := Proc.devRef .tc main_arg2) _ _ (hostOps5_7_keeps main_arg2 (by decide))
    _ = W14 m ρ c (Proc.devRef .tc main_arg2) := StableHlo.after_of_forall_not_mem (b := Proc.devRef .tc main_arg2) _ _ (hostOps5_6_keeps main_arg2 (by decide))
    _ = W13 m ρ c (Proc.devRef .tc main_arg2) := StableHlo.after_of_forall_not_mem (b := Proc.devRef .tc main_arg2) _ _ (hostOps5_5_keeps main_arg2 (by decide))
    _ = W12 m ρ c (Proc.devRef .tc main_arg2) := StableHlo.after_of_forall_not_mem (b := Proc.devRef .tc main_arg2) _ _ (hostOps5_4_keeps main_arg2 (by decide))
    _ = W11 m ρ c (Proc.devRef .tc main_arg2) := StableHlo.after_of_forall_not_mem (b := Proc.devRef .tc main_arg2) _ _ (hostOps5_3_keeps main_arg2 (by decide))
    _ = W10 m ρ c (Proc.devRef .tc main_arg2) := StableHlo.after_of_forall_not_mem (b := Proc.devRef .tc main_arg2) _ _ (hostOps5_2_keeps main_arg2 (by decide))
    _ = W9 m ρ c (Proc.devRef .tc main_arg2) := StableHlo.after_of_forall_not_mem (b := Proc.devRef .tc main_arg2) _ _ (hostOps5_1_keeps main_arg2 (by decide))
    _ = W8 m ρ c (Proc.devRef .tc main_arg2) := StableHlo.after_of_forall_not_mem (b := Proc.devRef .tc main_arg2) _ _ (hostOps5_keeps main_arg2 (by decide))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (hostOps3_keeps main_arg2 (by decide))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (hostOps2_keeps main_arg2 (by decide))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c : Thread nD τ).loc main_arg2) := rfl
theorem W19_main_arg3 (c : Dev nD) : W19 m ρ c (Proc.devRef .tc main_arg3) = m ((c : Thread nD τ).loc main_arg3) :=
  calc W19 m ρ c (Proc.devRef .tc main_arg3)
    _ = W18 m ρ c (Proc.devRef .tc main_arg3) := StableHlo.after_of_forall_not_mem (b := Proc.devRef .tc main_arg3) _ _ (hostOps5_10_keeps main_arg3 (by decide))
    _ = W17 m ρ c (Proc.devRef .tc main_arg3) := StableHlo.after_of_forall_not_mem (b := Proc.devRef .tc main_arg3) _ _ (hostOps5_9_keeps main_arg3 (by decide))
    _ = W16 m ρ c (Proc.devRef .tc main_arg3) := StableHlo.after_of_forall_not_mem (b := Proc.devRef .tc main_arg3) _ _ (hostOps5_8_keeps main_arg3 (by decide))
    _ = W15 m ρ c (Proc.devRef .tc main_arg3) := StableHlo.after_of_forall_not_mem (b := Proc.devRef .tc main_arg3) _ _ (hostOps5_7_keeps main_arg3 (by decide))
    _ = W14 m ρ c (Proc.devRef .tc main_arg3) := StableHlo.after_of_forall_not_mem (b := Proc.devRef .tc main_arg3) _ _ (hostOps5_6_keeps main_arg3 (by decide))
    _ = W13 m ρ c (Proc.devRef .tc main_arg3) := StableHlo.after_of_forall_not_mem (b := Proc.devRef .tc main_arg3) _ _ (hostOps5_5_keeps main_arg3 (by decide))
    _ = W12 m ρ c (Proc.devRef .tc main_arg3) := StableHlo.after_of_forall_not_mem (b := Proc.devRef .tc main_arg3) _ _ (hostOps5_4_keeps main_arg3 (by decide))
    _ = W11 m ρ c (Proc.devRef .tc main_arg3) := StableHlo.after_of_forall_not_mem (b := Proc.devRef .tc main_arg3) _ _ (hostOps5_3_keeps main_arg3 (by decide))
    _ = W10 m ρ c (Proc.devRef .tc main_arg3) := StableHlo.after_of_forall_not_mem (b := Proc.devRef .tc main_arg3) _ _ (hostOps5_2_keeps main_arg3 (by decide))
    _ = W9 m ρ c (Proc.devRef .tc main_arg3) := StableHlo.after_of_forall_not_mem (b := Proc.devRef .tc main_arg3) _ _ (hostOps5_1_keeps main_arg3 (by decide))
    _ = W8 m ρ c (Proc.devRef .tc main_arg3) := StableHlo.after_of_forall_not_mem (b := Proc.devRef .tc main_arg3) _ _ (hostOps5_keeps main_arg3 (by decide))
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (hostOps3_keeps main_arg3 (by decide))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (hostOps2_keeps main_arg3 (by decide))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c : Thread nD τ).loc main_arg3) := rfl
theorem W19_main_arg4 (c : Dev nD) : W19 m ρ c (Proc.devRef .tc main_arg4) = m ((c : Thread nD τ).loc main_arg4) :=
  calc W19 m ρ c (Proc.devRef .tc main_arg4)
    _ = W18 m ρ c (Proc.devRef .tc main_arg4) := StableHlo.after_of_forall_not_mem (b := Proc.devRef .tc main_arg4) _ _ (hostOps5_10_keeps main_arg4 (by decide))
    _ = W17 m ρ c (Proc.devRef .tc main_arg4) := StableHlo.after_of_forall_not_mem (b := Proc.devRef .tc main_arg4) _ _ (hostOps5_9_keeps main_arg4 (by decide))
    _ = W16 m ρ c (Proc.devRef .tc main_arg4) := StableHlo.after_of_forall_not_mem (b := Proc.devRef .tc main_arg4) _ _ (hostOps5_8_keeps main_arg4 (by decide))
    _ = W15 m ρ c (Proc.devRef .tc main_arg4) := StableHlo.after_of_forall_not_mem (b := Proc.devRef .tc main_arg4) _ _ (hostOps5_7_keeps main_arg4 (by decide))
    _ = W14 m ρ c (Proc.devRef .tc main_arg4) := StableHlo.after_of_forall_not_mem (b := Proc.devRef .tc main_arg4) _ _ (hostOps5_6_keeps main_arg4 (by decide))
    _ = W13 m ρ c (Proc.devRef .tc main_arg4) := StableHlo.after_of_forall_not_mem (b := Proc.devRef .tc main_arg4) _ _ (hostOps5_5_keeps main_arg4 (by decide))
    _ = W12 m ρ c (Proc.devRef .tc main_arg4) := StableHlo.after_of_forall_not_mem (b := Proc.devRef .tc main_arg4) _ _ (hostOps5_4_keeps main_arg4 (by decide))
    _ = W11 m ρ c (Proc.devRef .tc main_arg4) := StableHlo.after_of_forall_not_mem (b := Proc.devRef .tc main_arg4) _ _ (hostOps5_3_keeps main_arg4 (by decide))
    _ = W10 m ρ c (Proc.devRef .tc main_arg4) := StableHlo.after_of_forall_not_mem (b := Proc.devRef .tc main_arg4) _ _ (hostOps5_2_keeps main_arg4 (by decide))
    _ = W9 m ρ c (Proc.devRef .tc main_arg4) := StableHlo.after_of_forall_not_mem (b := Proc.devRef .tc main_arg4) _ _ (hostOps5_1_keeps main_arg4 (by decide))
    _ = W8 m ρ c (Proc.devRef .tc main_arg4) := StableHlo.after_of_forall_not_mem (b := Proc.devRef .tc main_arg4) _ _ (hostOps5_keeps main_arg4 (by decide))
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (hostOps3_keeps main_arg4 (by decide))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (hostOps2_keeps main_arg4 (by decide))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c : Thread nD τ).loc main_arg4) := rfl
theorem W19_main_arg5 (c : Dev nD) : W19 m ρ c (Proc.devRef .tc main_arg5) = m ((c : Thread nD τ).loc main_arg5) :=
  calc W19 m ρ c (Proc.devRef .tc main_arg5)
    _ = W18 m ρ c (Proc.devRef .tc main_arg5) := StableHlo.after_of_forall_not_mem (b := Proc.devRef .tc main_arg5) _ _ (hostOps5_10_keeps main_arg5 (by decide))
    _ = W17 m ρ c (Proc.devRef .tc main_arg5) := StableHlo.after_of_forall_not_mem (b := Proc.devRef .tc main_arg5) _ _ (hostOps5_9_keeps main_arg5 (by decide))
    _ = W16 m ρ c (Proc.devRef .tc main_arg5) := StableHlo.after_of_forall_not_mem (b := Proc.devRef .tc main_arg5) _ _ (hostOps5_8_keeps main_arg5 (by decide))
    _ = W15 m ρ c (Proc.devRef .tc main_arg5) := StableHlo.after_of_forall_not_mem (b := Proc.devRef .tc main_arg5) _ _ (hostOps5_7_keeps main_arg5 (by decide))
    _ = W14 m ρ c (Proc.devRef .tc main_arg5) := StableHlo.after_of_forall_not_mem (b := Proc.devRef .tc main_arg5) _ _ (hostOps5_6_keeps main_arg5 (by decide))
    _ = W13 m ρ c (Proc.devRef .tc main_arg5) := StableHlo.after_of_forall_not_mem (b := Proc.devRef .tc main_arg5) _ _ (hostOps5_5_keeps main_arg5 (by decide))
    _ = W12 m ρ c (Proc.devRef .tc main_arg5) := StableHlo.after_of_forall_not_mem (b := Proc.devRef .tc main_arg5) _ _ (hostOps5_4_keeps main_arg5 (by decide))
    _ = W11 m ρ c (Proc.devRef .tc main_arg5) := StableHlo.after_of_forall_not_mem (b := Proc.devRef .tc main_arg5) _ _ (hostOps5_3_keeps main_arg5 (by decide))
    _ = W10 m ρ c (Proc.devRef .tc main_arg5) := StableHlo.after_of_forall_not_mem (b := Proc.devRef .tc main_arg5) _ _ (hostOps5_2_keeps main_arg5 (by decide))
    _ = W9 m ρ c (Proc.devRef .tc main_arg5) := StableHlo.after_of_forall_not_mem (b := Proc.devRef .tc main_arg5) _ _ (hostOps5_1_keeps main_arg5 (by decide))
    _ = W8 m ρ c (Proc.devRef .tc main_arg5) := StableHlo.after_of_forall_not_mem (b := Proc.devRef .tc main_arg5) _ _ (hostOps5_keeps main_arg5 (by decide))
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (hostOps3_keeps main_arg5 (by decide))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (hostOps2_keeps main_arg5 (by decide))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c : Thread nD τ).loc main_arg5) := rfl
theorem W19_main_arg6 (c : Dev nD) : W19 m ρ c (Proc.devRef .tc main_arg6) = m ((c : Thread nD τ).loc main_arg6) :=
  calc W19 m ρ c (Proc.devRef .tc main_arg6)
    _ = W18 m ρ c (Proc.devRef .tc main_arg6) := StableHlo.after_of_forall_not_mem (b := Proc.devRef .tc main_arg6) _ _ (hostOps5_10_keeps main_arg6 (by decide))
    _ = W17 m ρ c (Proc.devRef .tc main_arg6) := StableHlo.after_of_forall_not_mem (b := Proc.devRef .tc main_arg6) _ _ (hostOps5_9_keeps main_arg6 (by decide))
    _ = W16 m ρ c (Proc.devRef .tc main_arg6) := StableHlo.after_of_forall_not_mem (b := Proc.devRef .tc main_arg6) _ _ (hostOps5_8_keeps main_arg6 (by decide))
    _ = W15 m ρ c (Proc.devRef .tc main_arg6) := StableHlo.after_of_forall_not_mem (b := Proc.devRef .tc main_arg6) _ _ (hostOps5_7_keeps main_arg6 (by decide))
    _ = W14 m ρ c (Proc.devRef .tc main_arg6) := StableHlo.after_of_forall_not_mem (b := Proc.devRef .tc main_arg6) _ _ (hostOps5_6_keeps main_arg6 (by decide))
    _ = W13 m ρ c (Proc.devRef .tc main_arg6) := StableHlo.after_of_forall_not_mem (b := Proc.devRef .tc main_arg6) _ _ (hostOps5_5_keeps main_arg6 (by decide))
    _ = W12 m ρ c (Proc.devRef .tc main_arg6) := StableHlo.after_of_forall_not_mem (b := Proc.devRef .tc main_arg6) _ _ (hostOps5_4_keeps main_arg6 (by decide))
    _ = W11 m ρ c (Proc.devRef .tc main_arg6) := StableHlo.after_of_forall_not_mem (b := Proc.devRef .tc main_arg6) _ _ (hostOps5_3_keeps main_arg6 (by decide))
    _ = W10 m ρ c (Proc.devRef .tc main_arg6) := StableHlo.after_of_forall_not_mem (b := Proc.devRef .tc main_arg6) _ _ (hostOps5_2_keeps main_arg6 (by decide))
    _ = W9 m ρ c (Proc.devRef .tc main_arg6) := StableHlo.after_of_forall_not_mem (b := Proc.devRef .tc main_arg6) _ _ (hostOps5_1_keeps main_arg6 (by decide))
    _ = W8 m ρ c (Proc.devRef .tc main_arg6) := StableHlo.after_of_forall_not_mem (b := Proc.devRef .tc main_arg6) _ _ (hostOps5_keeps main_arg6 (by decide))
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (hostOps3_keeps main_arg6 (by decide))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (hostOps2_keeps main_arg6 (by decide))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c : Thread nD τ).loc main_arg6) := rfl
theorem W19_main_arg7 (c : Dev nD) : W19 m ρ c (Proc.devRef .tc main_arg7) = m ((c : Thread nD τ).loc main_arg7) :=
  calc W19 m ρ c (Proc.devRef .tc main_arg7)
    _ = W18 m ρ c (Proc.devRef .tc main_arg7) := StableHlo.after_of_forall_not_mem (b := Proc.devRef .tc main_arg7) _ _ (hostOps5_10_keeps main_arg7 (by decide))
    _ = W17 m ρ c (Proc.devRef .tc main_arg7) := StableHlo.after_of_forall_not_mem (b := Proc.devRef .tc main_arg7) _ _ (hostOps5_9_keeps main_arg7 (by decide))
    _ = W16 m ρ c (Proc.devRef .tc main_arg7) := StableHlo.after_of_forall_not_mem (b := Proc.devRef .tc main_arg7) _ _ (hostOps5_8_keeps main_arg7 (by decide))
    _ = W15 m ρ c (Proc.devRef .tc main_arg7) := StableHlo.after_of_forall_not_mem (b := Proc.devRef .tc main_arg7) _ _ (hostOps5_7_keeps main_arg7 (by decide))
    _ = W14 m ρ c (Proc.devRef .tc main_arg7) := StableHlo.after_of_forall_not_mem (b := Proc.devRef .tc main_arg7) _ _ (hostOps5_6_keeps main_arg7 (by decide))
    _ = W13 m ρ c (Proc.devRef .tc main_arg7) := StableHlo.after_of_forall_not_mem (b := Proc.devRef .tc main_arg7) _ _ (hostOps5_5_keeps main_arg7 (by decide))
    _ = W12 m ρ c (Proc.devRef .tc main_arg7) := StableHlo.after_of_forall_not_mem (b := Proc.devRef .tc main_arg7) _ _ (hostOps5_4_keeps main_arg7 (by decide))
    _ = W11 m ρ c (Proc.devRef .tc main_arg7) := StableHlo.after_of_forall_not_mem (b := Proc.devRef .tc main_arg7) _ _ (hostOps5_3_keeps main_arg7 (by decide))
    _ = W10 m ρ c (Proc.devRef .tc main_arg7) := StableHlo.after_of_forall_not_mem (b := Proc.devRef .tc main_arg7) _ _ (hostOps5_2_keeps main_arg7 (by decide))
    _ = W9 m ρ c (Proc.devRef .tc main_arg7) := StableHlo.after_of_forall_not_mem (b := Proc.devRef .tc main_arg7) _ _ (hostOps5_1_keeps main_arg7 (by decide))
    _ = W8 m ρ c (Proc.devRef .tc main_arg7) := StableHlo.after_of_forall_not_mem (b := Proc.devRef .tc main_arg7) _ _ (hostOps5_keeps main_arg7 (by decide))
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (hostOps3_keeps main_arg7 (by decide))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (hostOps2_keeps main_arg7 (by decide))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c : Thread nD τ).loc main_arg7) := rfl
theorem W19_main_arg8 (c : Dev nD) : W19 m ρ c (Proc.devRef .tc main_arg8) = m ((c : Thread nD τ).loc main_arg8) :=
  calc W19 m ρ c (Proc.devRef .tc main_arg8)
    _ = W18 m ρ c (Proc.devRef .tc main_arg8) := StableHlo.after_of_forall_not_mem (b := Proc.devRef .tc main_arg8) _ _ (hostOps5_10_keeps main_arg8 (by decide))
    _ = W17 m ρ c (Proc.devRef .tc main_arg8) := StableHlo.after_of_forall_not_mem (b := Proc.devRef .tc main_arg8) _ _ (hostOps5_9_keeps main_arg8 (by decide))
    _ = W16 m ρ c (Proc.devRef .tc main_arg8) := StableHlo.after_of_forall_not_mem (b := Proc.devRef .tc main_arg8) _ _ (hostOps5_8_keeps main_arg8 (by decide))
    _ = W15 m ρ c (Proc.devRef .tc main_arg8) := StableHlo.after_of_forall_not_mem (b := Proc.devRef .tc main_arg8) _ _ (hostOps5_7_keeps main_arg8 (by decide))
    _ = W14 m ρ c (Proc.devRef .tc main_arg8) := StableHlo.after_of_forall_not_mem (b := Proc.devRef .tc main_arg8) _ _ (hostOps5_6_keeps main_arg8 (by decide))
    _ = W13 m ρ c (Proc.devRef .tc main_arg8) := StableHlo.after_of_forall_not_mem (b := Proc.devRef .tc main_arg8) _ _ (hostOps5_5_keeps main_arg8 (by decide))
    _ = W12 m ρ c (Proc.devRef .tc main_arg8) := StableHlo.after_of_forall_not_mem (b := Proc.devRef .tc main_arg8) _ _ (hostOps5_4_keeps main_arg8 (by decide))
    _ = W11 m ρ c (Proc.devRef .tc main_arg8) := StableHlo.after_of_forall_not_mem (b := Proc.devRef .tc main_arg8) _ _ (hostOps5_3_keeps main_arg8 (by decide))
    _ = W10 m ρ c (Proc.devRef .tc main_arg8) := StableHlo.after_of_forall_not_mem (b := Proc.devRef .tc main_arg8) _ _ (hostOps5_2_keeps main_arg8 (by decide))
    _ = W9 m ρ c (Proc.devRef .tc main_arg8) := StableHlo.after_of_forall_not_mem (b := Proc.devRef .tc main_arg8) _ _ (hostOps5_1_keeps main_arg8 (by decide))
    _ = W8 m ρ c (Proc.devRef .tc main_arg8) := StableHlo.after_of_forall_not_mem (b := Proc.devRef .tc main_arg8) _ _ (hostOps5_keeps main_arg8 (by decide))
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (hostOps3_keeps main_arg8 (by decide))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (hostOps2_keeps main_arg8 (by decide))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c : Thread nD τ).loc main_arg8) := rfl
theorem W19_main_arg9 (c : Dev nD) : W19 m ρ c (Proc.devRef .tc main_arg9) = m ((c : Thread nD τ).loc main_arg9) :=
  calc W19 m ρ c (Proc.devRef .tc main_arg9)
    _ = W18 m ρ c (Proc.devRef .tc main_arg9) := StableHlo.after_of_forall_not_mem (b := Proc.devRef .tc main_arg9) _ _ (hostOps5_10_keeps main_arg9 (by decide))
    _ = W17 m ρ c (Proc.devRef .tc main_arg9) := StableHlo.after_of_forall_not_mem (b := Proc.devRef .tc main_arg9) _ _ (hostOps5_9_keeps main_arg9 (by decide))
    _ = W16 m ρ c (Proc.devRef .tc main_arg9) := StableHlo.after_of_forall_not_mem (b := Proc.devRef .tc main_arg9) _ _ (hostOps5_8_keeps main_arg9 (by decide))
    _ = W15 m ρ c (Proc.devRef .tc main_arg9) := StableHlo.after_of_forall_not_mem (b := Proc.devRef .tc main_arg9) _ _ (hostOps5_7_keeps main_arg9 (by decide))
    _ = W14 m ρ c (Proc.devRef .tc main_arg9) := StableHlo.after_of_forall_not_mem (b := Proc.devRef .tc main_arg9) _ _ (hostOps5_6_keeps main_arg9 (by decide))
    _ = W13 m ρ c (Proc.devRef .tc main_arg9) := StableHlo.after_of_forall_not_mem (b := Proc.devRef .tc main_arg9) _ _ (hostOps5_5_keeps main_arg9 (by decide))
    _ = W12 m ρ c (Proc.devRef .tc main_arg9) := StableHlo.after_of_forall_not_mem (b := Proc.devRef .tc main_arg9) _ _ (hostOps5_4_keeps main_arg9 (by decide))
    _ = W11 m ρ c (Proc.devRef .tc main_arg9) := StableHlo.after_of_forall_not_mem (b := Proc.devRef .tc main_arg9) _ _ (hostOps5_3_keeps main_arg9 (by decide))
    _ = W10 m ρ c (Proc.devRef .tc main_arg9) := StableHlo.after_of_forall_not_mem (b := Proc.devRef .tc main_arg9) _ _ (hostOps5_2_keeps main_arg9 (by decide))
    _ = W9 m ρ c (Proc.devRef .tc main_arg9) := StableHlo.after_of_forall_not_mem (b := Proc.devRef .tc main_arg9) _ _ (hostOps5_1_keeps main_arg9 (by decide))
    _ = W8 m ρ c (Proc.devRef .tc main_arg9) := StableHlo.after_of_forall_not_mem (b := Proc.devRef .tc main_arg9) _ _ (hostOps5_keeps main_arg9 (by decide))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (hostOps3_keeps main_arg9 (by decide))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (hostOps2_keeps main_arg9 (by decide))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c : Thread nD τ).loc main_arg9) := rfl
theorem W19_main_arg10 (c : Dev nD) : W19 m ρ c (Proc.devRef .tc main_arg10) = m ((c : Thread nD τ).loc main_arg10) :=
  calc W19 m ρ c (Proc.devRef .tc main_arg10)
    _ = W18 m ρ c (Proc.devRef .tc main_arg10) := StableHlo.after_of_forall_not_mem (b := Proc.devRef .tc main_arg10) _ _ (hostOps5_10_keeps main_arg10 (by decide))
    _ = W17 m ρ c (Proc.devRef .tc main_arg10) := StableHlo.after_of_forall_not_mem (b := Proc.devRef .tc main_arg10) _ _ (hostOps5_9_keeps main_arg10 (by decide))
    _ = W16 m ρ c (Proc.devRef .tc main_arg10) := StableHlo.after_of_forall_not_mem (b := Proc.devRef .tc main_arg10) _ _ (hostOps5_8_keeps main_arg10 (by decide))
    _ = W15 m ρ c (Proc.devRef .tc main_arg10) := StableHlo.after_of_forall_not_mem (b := Proc.devRef .tc main_arg10) _ _ (hostOps5_7_keeps main_arg10 (by decide))
    _ = W14 m ρ c (Proc.devRef .tc main_arg10) := StableHlo.after_of_forall_not_mem (b := Proc.devRef .tc main_arg10) _ _ (hostOps5_6_keeps main_arg10 (by decide))
    _ = W13 m ρ c (Proc.devRef .tc main_arg10) := StableHlo.after_of_forall_not_mem (b := Proc.devRef .tc main_arg10) _ _ (hostOps5_5_keeps main_arg10 (by decide))
    _ = W12 m ρ c (Proc.devRef .tc main_arg10) := StableHlo.after_of_forall_not_mem (b := Proc.devRef .tc main_arg10) _ _ (hostOps5_4_keeps main_arg10 (by decide))
    _ = W11 m ρ c (Proc.devRef .tc main_arg10) := StableHlo.after_of_forall_not_mem (b := Proc.devRef .tc main_arg10) _ _ (hostOps5_3_keeps main_arg10 (by decide))
    _ = W10 m ρ c (Proc.devRef .tc main_arg10) := StableHlo.after_of_forall_not_mem (b := Proc.devRef .tc main_arg10) _ _ (hostOps5_2_keeps main_arg10 (by decide))
    _ = W9 m ρ c (Proc.devRef .tc main_arg10) := StableHlo.after_of_forall_not_mem (b := Proc.devRef .tc main_arg10) _ _ (hostOps5_1_keeps main_arg10 (by decide))
    _ = W8 m ρ c (Proc.devRef .tc main_arg10) := StableHlo.after_of_forall_not_mem (b := Proc.devRef .tc main_arg10) _ _ (hostOps5_keeps main_arg10 (by decide))
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (hostOps3_keeps main_arg10 (by decide))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (hostOps2_keeps main_arg10 (by decide))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c : Thread nD τ).loc main_arg10) := rfl

/-! ## The proof data family and the thread state -/

/-- The prefetched tables' admissible contents: no pipeline has a table. -/
abbrev adm : (p : Fin 5) → (pcfgs (F := F) p).Adm := fun p => (cfgs p).toPCfg_adm
/-- Every pipeline's proof data, each at its product's entry contents. -/
def pdats : (p : Fin 5) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-! ## The products as segments -/

set_option backward.isDefEq.respectTransparency.types false in
/-- PRODUCT 0 over the thread state: entered from every unscoped buffer at `W1`, left at `W2`. Its arrays split out
    of the unscoped buffers and put back at the exit contents; the generator register and the scoped rest (the
    accumulator among it, at whatever it holds) into the invariant's first point and out of its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiIn0 c from Phi_first0 (V1 m ρ) c]; unfold PhiIn0 Pipeline.ΦA
    iintro ⟨Hp, -, Hr⟩
    isplitl [Hr]; · iexact Hr
    iexact Hp
  hout c := by
    rw [Pipeline.ownSems0_none]
    refine (show (pdats m ρ 0 c).Φ (Fin.last _) ⊢ PhiIn0 c from Phi_last0 (V1 m ρ) c).trans ?_
    unfold PhiIn0 Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 1 over the thread state: entered from every unscoped buffer at `W2`, left at `W3`. Its arrays split out
    of the unscoped buffers and put back at the exit contents; the generator register and the scoped rest (the
    accumulator among it, at whatever it holds) into the invariant's first point and out of its last; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiIn1 c from Phi_first1 (V2 m ρ) c]; unfold PhiIn1 Pipeline.ΦA
    iintro ⟨Hp, -, Hr⟩
    isplitl [Hr]; · iexact Hr
    iexact Hp
  hout c := by
    rw [Pipeline.ownSems0_none]
    refine (show (pdats m ρ 1 c).Φ (Fin.last _) ⊢ PhiIn1 c from Phi_last1 (V2 m ρ) c).trans ?_
    unfold PhiIn1 Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 2 over the thread state: entered from every unscoped buffer at `W4`, left at `W5`. Its arrays split out
    of the unscoped buffers and put back at the exit contents; the generator register and the scoped rest (the
    accumulator among it, at whatever it holds) into the invariant's first point and out of its last; nothing owed; no
    semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiIn2 c from Phi_first2 (V4 m ρ) c]; unfold PhiIn2 Pipeline.ΦA
    iintro ⟨Hp, -, Hr⟩
    isplitl [Hr]; · iexact Hr
    iexact Hp
  hout c := by
    rw [Pipeline.ownSems0_none]
    refine (show (pdats m ρ 2 c).Φ (Fin.last _) ⊢ PhiIn2 c from Phi_last2 (V4 m ρ) c).trans ?_
    unfold PhiIn2 Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 3 over the thread state: entered from every unscoped buffer at `W6`, left at `W7`. Its arrays split out
    of the unscoped buffers and put back at the exit contents; the generator register and the scoped rest (the
    accumulator among it, at whatever it holds) into the invariant's first point and out of its last; nothing owed; no
    semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = PhiIn3 c from Phi_first3 (V6 m ρ) c]; unfold PhiIn3 Pipeline.ΦA
    iintro ⟨Hp, -, Hr⟩
    isplitl [Hr]; · iexact Hr
    iexact Hp
  hout c := by
    rw [Pipeline.ownSems0_none]
    refine (show (pdats m ρ 3 c).Φ (Fin.last _) ⊢ PhiIn3 c from Phi_last3 (V6 m ρ) c).trans ?_
    unfold PhiIn3 Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 4 over the thread state: entered from every unscoped buffer at `W7`, left at `W8`. Its arrays split out
    of the unscoped buffers and put back at the exit contents; the generator register and the scoped rest (the
    accumulator among it, at whatever it holds) into the invariant's first point and out of its last; nothing owed; no
    semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = PhiIn4 c from Phi_first4 (V7 m ρ) c]; unfold PhiIn4 Pipeline.ΦA
    iintro ⟨Hp, -, Hr⟩
    isplitl [Hr]; · iexact Hr
    iexact Hp
  hout c := by
    rw [Pipeline.ownSems0_none]
    refine (show (pdats m ρ 4 c).Φ (Fin.last _) ⊢ PhiIn4 c from Phi_last4 (V7 m ρ) c).trans ?_
    unfold PhiIn4 Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per product. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .host (hseg hostOps5_1 hostOps5_1_sub hostOps5_1_fresh (W9 m ρ)),
    .host (hseg hostOps5_2 hostOps5_2_sub hostOps5_2_fresh (W10 m ρ)),
    .host (hseg hostOps5_3 hostOps5_3_sub hostOps5_3_fresh (W11 m ρ)),
    .host (hseg hostOps5_4 hostOps5_4_sub hostOps5_4_fresh (W12 m ρ)),
    .host (hseg hostOps5_5 hostOps5_5_sub hostOps5_5_fresh (W13 m ρ)),
    .host (hseg hostOps5_6 hostOps5_6_sub hostOps5_6_fresh (W14 m ρ)),
    .host (hseg hostOps5_7 hostOps5_7_sub hostOps5_7_fresh (W15 m ρ)),
    .host (hseg hostOps5_8 hostOps5_8_sub hostOps5_8_fresh (W16 m ρ)),
    .host (hseg hostOps5_9 hostOps5_9_sub hostOps5_9_fresh (W17 m ρ)),
    .host (hseg hostOps5_10 hostOps5_10_sub hostOps5_10_fresh (W18 m ρ)) ]
/-- @main is the run of the segments: the chain of its items, then the segments' run against that chain by
    definitional unfolding. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the fold's last contents
    and the argument arrays as launched. -/
theorem run_main : θ_run defs (onTc (τ := τ) (main (F := F))) ⟨m, fun _ => 0, ρ⟩ (fun r => ∀ c : Dev nD,
      r.2.mem ((c.tc : Thread nD τ).loc main_v179) = W19 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v179 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.Hand

end
-- ==== Proof.K.Region0.lean ====
import proofs.«166874_j54296976556804_1_alg».proof.Proof.Gen.Kernel.Launch
import proofs.«166874_j54296976556804_1_alg».proof.Proof.Gen.Kernel.Skeleton
import proofs.«166874_j54296976556804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: one tiled matrix product whose grid has a single point along the contraction axis

Every point zeroes the accumulator, adds the product of its two input blocks, and copies the accumulator into the
output block, which is written back at once. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (the contraction coordinate is zero: reset the accumulator), from the grid coordinates. -/
abbrev cond0_0 (i : grid0.Coords) : Prop := (Scalar.cmpi .ne (Scalar.extui (Scalar.cmpi .eq (BitVec.ofNat 32 (i 2).val) 0#32)) 0#32) = 1#1
/-- It holds at every point: the contraction axis has one point. -/
theorem hcond0_0 : ∀ t : Fin cfg0.N, cond0_0 (grid0.coords t) :=
  (by decide +kernel : ∀ t : Fin grid0.N, cond0_0 (grid0.coords t))
/-- The second conditional (the contraction coordinate is the last: copy the accumulator out). -/
abbrev cond0_1 (i : grid0.Coords) : Prop := k0_cond2 i = 1#1
/-- It holds at every point. -/
theorem hcond0_1 : ∀ t : Fin cfg0.N, cond0_1 (grid0.coords t) :=
  (by decide +kernel : ∀ t : Fin grid0.N, cond0_1 (grid0.coords t))

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The kernel body on any staging memrefs -/

/-- One staging buffer of the output window, through which its contents are stated. -/
abbrev VO0_2 : View sig .tc .vmem S512x1024 .f32 := (Memref.whole cc0_stg2_0 : Memref sig .tc .vmem S512x1024 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S512x1024 .f32 := Memref.whole cc0_scratch0
abbrev VS0_0 : View sig .tc .vmem S512x1024 .f32 := scM0_0.view

/-- The class invariant with the accumulator as a memref owned at some contents, the other scoped buffers unopened. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; try rfl

set_option maxHeartbeats 1000000 in
/-- What the body's stores leave in the output's staging memref and in the accumulator, as pieces (last first), with the
    proof that on whole memrefs — the inputs' at their contents, the output's and the accumulator's at anything — the body
    runs to the continuation holding the inputs' as they were and the other two with their pieces written. -/
noncomputable def kernelRun0 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The run's pieces for the output tile its block, so they cover it. -/
theorem cover0_2 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) (y : S512x1024.Idx) :
    ∃ pc ∈ (kernelRun0 c i arg3 harg3 arg4 harg4 arg5 harg5 arg6 harg6 hc0 hc1 x0 x1).1, y ∈ pc.1.set :=
  View.cover_of_tiledL (kernelRun0 c i arg3 harg3 arg4 harg4 arg5 harg5 arg6 harg6 hc0 hc1 x0 x1).1 S512x1024.size (by sl_kernel_rfl) y

/-- What the run leaves in the output's staging buffer: its pieces read back over junk. -/
def out0_2 (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) : Vec F S512x1024 .f32 :=
  VO0_2.read (Elt F) (VO0_2.writes (Elt F) VO0_2.junk (kernelRun0 c i arg3 harg3 arg4 harg4 arg5 harg5 arg6 harg6 hc0 hc1 x0 x1).1)

theorem hz2 : (![0, 0] : Fin 2 → Nat) = fun _ => 0 := funext fun a => by fin_cases a <;> rfl

/-- The output block after the body: the zero block plus the product of the two input blocks (the accumulator's one
    update, copied out). -/
theorem out0_2_eq (c : Dev nD) (i : grid0.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : cond0_1 i)
    (x0 : Vec F S512x256 .f32) (x1 : Vec F S256x1024 .f32) :
    out0_2 c i arg3 harg3 arg4 harg4 arg5 harg5 arg6 harg6 hc0 hc1 x0 x1 = k0_pay2 x0 x1 k0_pay1 := by
  unfold out0_2
  rw [View.read_writes_eq_canon _ _ _ (cover0_2 c i arg3 harg3 arg4 harg4 arg5 harg5 arg6 harg6 hc0 hc1 x0 x1)]
  unfold kernelRun0
  dsimp only
  sl_unfold_words
  rw [View.canon_unit_zero (S := S512x1024) hz2, View.readCov_cons_toLoadRect, View.readCov_unit_zero (S := S512x1024) _ hz2]
  simp only [View.readAt_eq_ld, harg3.read_unread, harg4.read_unread, View.ld_unit_zero (S := S512x256) hz2, View.ld_unit_zero (S := S256x1024) hz2]

/-! ## What the output holds after each point -/

/-- The output's staging buffer after the body at point `t`: the run's contents at the point's memrefs and input blocks. -/
def outsAt0 (c : Dev nD) (t : Fin cfg0.N) : Vec F S512x1024 .f32 :=
  out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)

/-! ## The pipeline's proof data -/

/-- The proof data of the pipeline on core `c`: the arrays as the region finds them (`V`); after the body at point `t`
    each input's buffer at its block and the output's at `outsAt0`; the invariant the class's (every point resets the
    accumulator before reading it, so nothing is carried); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The output block after point `t`, from the input blocks there. -/
theorem out_eq0 (c : Dev nD) (t : Fin cfg0.N) : (dat0 V c).after 2 t = k0_pay2 (iblk0 V c 0 t) (iblk0 V c 1 t) k0_pay1 := by
  rw [after0_2]; unfold outsAt0; exact out0_2_eq ..

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks, the invariant hands the body the accumulator at some
    contents and takes it back at some contents; the output's buffer comes back with the run's pieces written, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold outsAt0 out0_2
  iintro ⟨⟨⟨HS0, HR⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _, _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The region's entry and exit -/

/-- What a region entry supplies and an exit gives back: the scoped buffers that are no staging buffer at some
    contents each (the accumulator among them), the generator register at some state. -/
def PhiIn0 (c : Dev nD) : sProp 𝕄 := Pipeline.ΦA spec0 c

theorem Phi_first0 (c : Dev nD) : (dat0 V c).Φ 0 = PhiIn0 c := rfl

theorem Phi_last0 (c : Dev nD) : (dat0 V c).Φ (Fin.last _) ⊢ PhiIn0 c :=
  Idealize.SL.BI.Entails.refl _

end Cert.Kernel.Hand

end
-- ==== Proof.K.Region1.lean ====
import proofs.«166874_j54296976556804_1_alg».proof.Proof.Gen.Kernel.Launch
import proofs.«166874_j54296976556804_1_alg».proof.Proof.Gen.Kernel.Skeleton
import proofs.«166874_j54296976556804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: one tiled matrix product whose grid has 4 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional (the contraction coordinate is zero: reset the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (the contraction coordinate is the last: copy the accumulator out). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, exactly where the second
    conditional fails. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The kernel body on any staging memrefs -/

/-- One staging buffer of the output window, through which its contents are stated. -/
abbrev VO1_2 : View sig .tc .vmem S512x1024 .f32 := (Memref.whole cc1_stg2_0 : Memref sig .tc .vmem S512x1024 .f32).view
/-- Each window's current staging memref at point `t`, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S512x1024 .f32 := Memref.whole cc1_scratch0
abbrev VS1_0 : View sig .tc .vmem S512x1024 .f32 := scM1_0.view

/-- The class invariant with the accumulator as a memref owned at some contents, the other scoped buffers unopened. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) (y : S512x1024.Idx) : ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S512x1024.size (by sl_kernel_rfl) y
theorem scover1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) (y : S512x1024.Idx) : ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S512x1024.size (by sl_kernel_rfl) y
theorem scover1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) (y : S512x1024.Idx) : ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x1024.size (by sl_kernel_rfl) y
theorem cover1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) (y : S512x1024.Idx) : ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x1024.size (by sl_kernel_rfl) y

/-- The first point leaves the accumulator at the zero block plus the product of the input blocks. -/
theorem sout1_A_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .f32) (x1 : Vec F S1024x1024 .f32) :
    VS1_0.read (Elt F) (VS1_0.writes (Elt F) VS1_0.junk (kernelRun1_A c i arg3 harg3 arg4 harg4 arg5 harg5 arg6 harg6 hc0 hc1 x0 x1).1) = k1_pay2 x0 x1 k1_pay1 := by
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout1_B_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .f32) (x1 : Vec F S1024x1024 .f32) (xs0 : Vec F S512x1024 .f32) :
    VS1_0.read (Elt F) (VS1_0.writes (Elt F) VS1_0.junk (kernelRun1_B c i arg3 harg3 arg4 harg4 arg5 harg5 arg6 harg6 hc0 hc1 x0 x1 xs0).1) = k1_pay2 x0 x1 xs0 := by
  rw [View.read_writes_eq_canon _ _ _ (scover1_B c i arg3 harg3 arg4 harg4 arg5 harg5 arg6 harg6 hc0 hc1 x0 x1 xs0)]
  unfold kernelRun1_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout1_C_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    VS1_0.read (Elt F) (VS1_0.writes (Elt F) VS1_0.junk (kernelRun1_C c i arg3 harg3 arg4 harg4 arg5 harg5 arg6 harg6 hc0 hc1 x0 x1 xs0).2.1) = k1_pay2 x0 x1 xs0 := by
  rw [View.read_writes_eq_canon _ _ _ (scover1_C c i arg3 harg3 arg4 harg4 arg5 harg5 arg6 harg6 hc0 hc1 x0 x1 xs0)]
  unfold kernelRun1_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out1_C_eq (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .f32) (x1 : Vec F S1024x1024 .f32) (xs0 : Vec F S512x1024 .f32) :
    VO1_2.read (Elt F) (VO1_2.writes (Elt F) VO1_2.junk (kernelRun1_C c i arg3 harg3 arg4 harg4 arg5 harg5 arg6 harg6 hc0 hc1 x0 x1 xs0).1) = k1_pay2 x0 x1 xs0 := by
  rw [View.read_writes_eq_canon _ _ _ (cover1_C c i arg3 harg3 arg4 harg4 arg5 harg5 arg6 harg6 hc0 hc1 x0 x1 xs0)]
  unfold kernelRun1_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN1 (c : Dev nD) : (n : ℕ) → n < cfg1.N → Vec F S512x1024 .f32
  | 0, h => k1_pay2 (iblk1 V c 0 ⟨0, h⟩) (iblk1 V c 1 ⟨0, h⟩) k1_pay1
  | n + 1, h =>
    if (n + 1) % 4 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (accN1 c n (Nat.lt_of_succ_lt h))

/-- At a first contraction point. -/
theorem accN1_first (c : Dev nD) (t : Fin cfg1.N) (h0 : t.val % 4 = 0) :
    accN1 V c t.val t.isLt = k1_pay2 (iblk1 V c 0 t) (iblk1 V c 1 t) k1_pay1 := by
  obtain ⟨n, hn⟩ := t
  cases n with
  | zero => rfl
  | succ n => exact if_pos h0

/-- At a later one. -/
theorem accN1_next (c : Dev nD) (t : Fin cfg1.N) (h0 : ¬t.val % 4 = 0) :
    accN1 V c t.val t.isLt = k1_pay2 (iblk1 V c 0 t) (iblk1 V c 1 t) (accN1 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (accN1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accN1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accN1 V c (n - 1) (by omega)) ∗ Pipeline.scopedRestBut spec1 c [cc1_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => accN1 V c t.val t.isLt
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accN1 V c t.val t.isLt := by dsimp only [dat1]

/-- The accumulator's contents after point `t`. -/
def acc1 (c : Dev nD) (t : Fin cfg1.N) : FVec F S512x1024 .f32 := accN1 V c t.val t.isLt

theorem acc1_first (c : Dev nD) (t : Fin cfg1.N) (h : t.val % 4 = 0) :
    acc1 V c t = k1_pay2 (iblk1 V c 0 t) (iblk1 V c 1 t) k1_pay1 := accN1_first V c t h

theorem acc1_next (c : Dev nD) (t : Fin cfg1.N) (h : t.val % 4 ≠ 0) (h' : t.val - 1 < cfg1.N) :
    acc1 V c t = k1_pay2 (iblk1 V c 0 t) (iblk1 V c 1 t) (acc1 V c ⟨t.val - 1, h'⟩) := accN1_next V c t h

/-- The output block after a last contraction point is the accumulator's contents there. -/
theorem out_eq1 (c : Dev nD) (t : Fin cfg1.N) (hf : t.val % 4 = 3) : (dat1 V c).after 2 t = acc1 V c t := after1_2 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [accN1_first V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_A c _ _ _ _ _ _ _ _ _ _ _ _ _)).trans (sout1_A_eq c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_A c _ _ _ _ _ _ _ _ _ _ _ _ _)).trans (sout1_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN1_next V c t h0]
    rw [PhiS1_castSucc V c t, PhiS1_pos V c _ _ hz]
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2, accN1_next V c t h0]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_C c _ _ _ _ _ _ _ _ _ _ _ _ _ _)).trans (sout1_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c _ _ _ _ _ _ _ _ _ _ _ _ _ _)).trans (out1_C_eq c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover1_B c _ _ _ _ _ _ _ _ _ _ _ _ _ _)).trans (sout1_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's entry and exit -/

/-- What a region entry supplies and an exit gives back: the scoped buffers that are no staging buffer at some
    contents each (the accumulator among them), the generator register at some state. -/
def PhiIn1 (c : Dev nD) : sProp 𝕄 := Pipeline.ΦA spec1 c

/-- Before the first point the invariant is the entry's. -/
theorem Phi_first1 (c : Dev nD) : (dat1 V c).Φ 0 = PhiIn1 c := by
  rw [show (dat1 V c).Φ 0 = PhiS1 V c 0 (Nat.zero_le _) from rfl, PhiS1_zero V c 0 _ rfl]; rfl

/-- After the last point it gives the entry's back: the accumulator's named contents are forgotten. -/
theorem Phi_last1 (c : Dev nD) : (dat1 V c).Φ (Fin.last _) ⊢ PhiIn1 c := by
  have hN : cfg1.N = 256 := N_1
  rw [show (dat1 V c).Φ (Fin.last _) = PhiS1 V c (Fin.last cfg1.N).val (Nat.le_of_lt_succ (Fin.last cfg1.N).isLt) from rfl,
    PhiS1_pos V c _ _ (by rw [Fin.val_last]; omega)]
  unfold PhiIn1; rw [PhiA1_eq]
  iintro ⟨⟨HS0, HR⟩, Hg⟩
  isplitl [HS0 HR]
  · isplitl [HS0]
    · iexists _; iexact HS0
    iexact HR
  iexact Hg

end Cert.Kernel.Hand

end
-- ==== Proof.K.Region2.lean ====
import proofs.«166874_j54296976556804_1_alg».proof.Proof.Gen.Kernel.Launch
import proofs.«166874_j54296976556804_1_alg».proof.Proof.Gen.Kernel.Skeleton
import proofs.«166874_j54296976556804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: one tiled matrix product whose grid has a single point along the contraction axis

Every point zeroes the accumulator, adds the product of its two input blocks, and copies the accumulator into the
output block, which is written back at once. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The first conditional (the contraction coordinate is zero: reset the accumulator), from the grid coordinates. -/
abbrev cond2_0 (i : grid2.Coords) : Prop := (Scalar.cmpi .ne (Scalar.extui (Scalar.cmpi .eq (BitVec.ofNat 32 (i 2).val) 0#32)) 0#32) = 1#1
/-- It holds at every point: the contraction axis has one point. -/
theorem hcond2_0 : ∀ t : Fin cfg2.N, cond2_0 (grid2.coords t) :=
  (by decide +kernel : ∀ t : Fin grid2.N, cond2_0 (grid2.coords t))
/-- The second conditional (the contraction coordinate is the last: copy the accumulator out). -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-- No window is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-! ## The kernel body on any staging memrefs -/

/-- One staging buffer of the output window, through which its contents are stated. -/
abbrev VO2_2 : View sig .tc .vmem S512x1024 .f32 := (Memref.whole cc2_stg2_0 : Memref sig .tc .vmem S512x1024 .f32).view
/-- Each window's current staging memref at point `t`, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows. -/
abbrev scM2_0 : Memref sig .tc .vmem S512x1024 .f32 := Memref.whole cc2_scratch0
abbrev VS2_0 : View sig .tc .vmem S512x1024 .f32 := scM2_0.view

/-- The class invariant with the accumulator as a memref owned at some contents, the other scoped buffers unopened. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_split]; simp only [scM2_0, owns_whole]; try rfl

set_option maxHeartbeats 1000000 in
/-- What the body's stores leave in the output's staging memref and in the accumulator, as pieces (last first), with the
    proof that on whole memrefs — the inputs' at their contents, the output's and the accumulator's at anything — the body
    runs to the continuation holding the inputs' as they were and the other two with their pieces written. -/
noncomputable def kernelRun2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- The run's pieces for the output tile its block, so they cover it. -/
theorem cover2_2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) (y : S512x1024.Idx) :
    ∃ pc ∈ (kernelRun2 c i arg3 harg3 arg4 harg4 arg5 harg5 arg6 harg6 hc0 hc1 x0 x1).1, y ∈ pc.1.set :=
  View.cover_of_tiledL (kernelRun2 c i arg3 harg3 arg4 harg4 arg5 harg5 arg6 harg6 hc0 hc1 x0 x1).1 S512x1024.size (by sl_kernel_rfl) y

/-- What the run leaves in the output's staging buffer: its pieces read back over junk. -/
def out2_2 (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) : Vec F S512x1024 .f32 :=
  VO2_2.read (Elt F) (VO2_2.writes (Elt F) VO2_2.junk (kernelRun2 c i arg3 harg3 arg4 harg4 arg5 harg5 arg6 harg6 hc0 hc1 x0 x1).1)

theorem hz2 : (![0, 0] : Fin 2 → Nat) = fun _ => 0 := funext fun a => by fin_cases a <;> rfl

/-- The output block after the body: the zero block plus the product of the two input blocks (the accumulator's one
    update, copied out). -/
theorem out2_2_eq (c : Dev nD) (i : grid2.Coords) (arg3 : Memref sig .tc .vmem S512x256 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : cond2_1 i)
    (x0 : Vec F S512x256 .f32) (x1 : Vec F S256x1024 .f32) :
    out2_2 c i arg3 harg3 arg4 harg4 arg5 harg5 arg6 harg6 hc0 hc1 x0 x1 = k2_pay2 x0 x1 k2_pay1 := by
  unfold out2_2
  rw [View.read_writes_eq_canon _ _ _ (cover2_2 c i arg3 harg3 arg4 harg4 arg5 harg5 arg6 harg6 hc0 hc1 x0 x1)]
  unfold kernelRun2
  dsimp only
  sl_unfold_words
  rw [View.canon_unit_zero (S := S512x1024) hz2, View.readCov_cons_toLoadRect, View.readCov_unit_zero (S := S512x1024) _ hz2]
  simp only [View.readAt_eq_ld, harg3.read_unread, harg4.read_unread, View.ld_unit_zero (S := S512x256) hz2, View.ld_unit_zero (S := S256x1024) hz2]

/-! ## What the output holds after each point -/

/-- The output's staging buffer after the body at point `t`: the run's contents at the point's memrefs and input blocks. -/
def outsAt2 (c : Dev nD) (t : Fin cfg2.N) : Vec F S512x1024 .f32 :=
  out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)

/-! ## The pipeline's proof data -/

/-- The proof data of the pipeline on core `c`: the arrays as the region finds them (`V`); after the body at point `t`
    each input's buffer at its block and the output's at `outsAt2`; the invariant the class's (every point resets the
    accumulator before reading it, so nothing is carried); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The output block after point `t`, from the input blocks there. -/
theorem out_eq2 (c : Dev nD) (t : Fin cfg2.N) : (dat2 V c).after 2 t = k2_pay2 (iblk2 V c 0 t) (iblk2 V c 1 t) k2_pay1 := by
  rw [after2_2]; unfold outsAt2; exact out2_2_eq ..

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' memrefs hold their blocks, the invariant hands the body the accumulator at some
    contents and takes it back at some contents; the output's buffer comes back with the run's pieces written, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold outsAt2 out2_2
  iintro ⟨⟨⟨HS0, HR⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _, _; isplitr
        swap; · iexact HS0
        ipureintro; rfl
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The region's entry and exit -/

/-- What a region entry supplies and an exit gives back: the scoped buffers that are no staging buffer at some
    contents each (the accumulator among them), the generator register at some state. -/
def PhiIn2 (c : Dev nD) : sProp 𝕄 := Pipeline.ΦA spec2 c

theorem Phi_first2 (c : Dev nD) : (dat2 V c).Φ 0 = PhiIn2 c := rfl

theorem Phi_last2 (c : Dev nD) : (dat2 V c).Φ (Fin.last _) ⊢ PhiIn2 c :=
  Idealize.SL.BI.Entails.refl _

end Cert.Kernel.Hand

end
-- ==== Proof.K.Region3.lean ====
import proofs.«166874_j54296976556804_1_alg».proof.Proof.Gen.Kernel.Launch
import proofs.«166874_j54296976556804_1_alg».proof.Proof.Gen.Kernel.Skeleton
import proofs.«166874_j54296976556804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 3: one tiled matrix product whose grid has 8 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The first conditional (the contraction coordinate is zero: reset the accumulator), from the grid coordinates. -/
abbrev cond3_0 (i : grid3.Coords) : Prop := (Scalar.cmpi .ne (Scalar.extui (Scalar.cmpi .eq (BitVec.ofNat 32 (i 2).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- The second conditional (the contraction coordinate is the last: copy the accumulator out). -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle; the output window is idle, and not written back, exactly where the second
    conditional fails. -/
theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The kernel body on any staging memrefs -/

/-- One staging buffer of the output window, through which its contents are stated. -/
abbrev VO3_2 : View sig .tc .vmem S512x1024 .f32 := (Memref.whole cc3_stg2_0 : Memref sig .tc .vmem S512x1024 .f32).view
/-- Each window's current staging memref at point `t`, and its wholeness. -/
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S512x1024 .f32 := Memref.whole cc3_scratch0
abbrev VS3_0 : View sig .tc .vmem S512x1024 .f32 := scM3_0.view

/-- The class invariant with the accumulator as a memref owned at some contents, the other scoped buffers unopened. -/
theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_split]; simp only [scM3_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun3_A (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun3_B (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover3_A (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) (y : S512x1024.Idx) : ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S512x1024.size (by sl_kernel_rfl) y
theorem scover3_B (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) (y : S512x1024.Idx) : ∃ pc ∈ (kernelRun3_B c i arg3 harg3 arg4 harg4 arg5 harg5 arg6 harg6 hc0 hc1 x0 x1 xs0).1, y ∈ pc.1.set :=
  View.cover_of_tiledL (kernelRun3_B c i arg3 harg3 arg4 harg4 arg5 harg5 arg6 harg6 hc0 hc1 x0 x1 xs0).1 S512x1024.size (by sl_kernel_rfl) y
theorem scover3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) (y : S512x1024.Idx) : ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S512x1024.size (by sl_kernel_rfl) y
theorem cover3_C (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) (y : S512x1024.Idx) : ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S512x1024.size (by sl_kernel_rfl) y

/-- The first point leaves the accumulator at the zero block plus the product of the input blocks. -/
theorem sout3_A_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond3_0 i) (hc1 : ¬cond3_1 i)
    (x0 : Vec F S512x1024 .f32) (x1 : Vec F S1024x1024 .f32) :
    VS3_0.read (Elt F) (VS3_0.writes (Elt F) VS3_0.junk (kernelRun3_A c i arg3 harg3 arg4 harg4 arg5 harg5 arg6 harg6 hc0 hc1 x0 x1).1) = k3_pay2 x0 x1 k3_pay1 := by
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout3_B_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : ¬cond3_1 i)
    (x0 : Vec F S512x1024 .f32) (x1 : Vec F S1024x1024 .f32) (xs0 : Vec F S512x1024 .f32) :
    VS3_0.read (Elt F) (VS3_0.writes (Elt F) VS3_0.junk (kernelRun3_B c i arg3 harg3 arg4 harg4 arg5 harg5 arg6 harg6 hc0 hc1 x0 x1 xs0).1) = k3_pay2 x0 x1 xs0 := by
  rw [View.read_writes_eq_canon _ _ _ (scover3_B c i arg3 harg3 arg4 harg4 arg5 harg5 arg6 harg6 hc0 hc1 x0 x1 xs0)]
  unfold kernelRun3_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout3_C_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    VS3_0.read (Elt F) (VS3_0.writes (Elt F) VS3_0.junk (kernelRun3_C c i arg3 harg3 arg4 harg4 arg5 harg5 arg6 harg6 hc0 hc1 x0 x1 xs0).2.1) = k3_pay2 x0 x1 xs0 := by
  rw [View.read_writes_eq_canon _ _ _ (scover3_C c i arg3 harg3 arg4 harg4 arg5 harg5 arg6 harg6 hc0 hc1 x0 x1 xs0)]
  unfold kernelRun3_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out3_C_eq (c : Dev nD) (i : grid3.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond3_0 i) (hc1 : cond3_1 i)
    (x0 : Vec F S512x1024 .f32) (x1 : Vec F S1024x1024 .f32) (xs0 : Vec F S512x1024 .f32) :
    VO3_2.read (Elt F) (VO3_2.writes (Elt F) VO3_2.junk (kernelRun3_C c i arg3 harg3 arg4 harg4 arg5 harg5 arg6 harg6 hc0 hc1 x0 x1 xs0).1) = k3_pay2 x0 x1 xs0 := by
  rw [View.read_writes_eq_canon _ _ _ (cover3_C c i arg3 harg3 arg4 harg4 arg5 harg5 arg6 harg6 hc0 hc1 x0 x1 xs0)]
  unfold kernelRun3_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN3 (c : Dev nD) : (n : ℕ) → n < cfg3.N → Vec F S512x1024 .f32
  | 0, h => k3_pay2 (iblk3 V c 0 ⟨0, h⟩) (iblk3 V c 1 ⟨0, h⟩) k3_pay1
  | n + 1, h =>
    if (n + 1) % 8 = 0 then k3_pay2 (iblk3 V c 0 ⟨n + 1, h⟩) (iblk3 V c 1 ⟨n + 1, h⟩) k3_pay1
    else k3_pay2 (iblk3 V c 0 ⟨n + 1, h⟩) (iblk3 V c 1 ⟨n + 1, h⟩) (accN3 c n (Nat.lt_of_succ_lt h))

/-- At a first contraction point. -/
theorem accN3_first (c : Dev nD) (t : Fin cfg3.N) (h0 : t.val % 8 = 0) :
    accN3 V c t.val t.isLt = k3_pay2 (iblk3 V c 0 t) (iblk3 V c 1 t) k3_pay1 := by
  obtain ⟨n, hn⟩ := t
  cases n with
  | zero => rfl
  | succ n => exact if_pos h0

/-- At a later one. -/
theorem accN3_next (c : Dev nD) (t : Fin cfg3.N) (h0 : ¬t.val % 8 = 0) :
    accN3 V c t.val t.isLt = k3_pay2 (iblk3 V c 0 t) (iblk3 V c 1 t) (accN3 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare (accN3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accN3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accN3 V c (n - 1) (by omega)) ∗ Pipeline.scopedRestBut spec3 c [cc3_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS3`;
    nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => accN3 V c t.val t.isLt
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accN3 V c t.val t.isLt := by dsimp only [dat3]

/-- The accumulator's contents after point `t`. -/
def acc3 (c : Dev nD) (t : Fin cfg3.N) : FVec F S512x1024 .f32 := accN3 V c t.val t.isLt

theorem acc3_first (c : Dev nD) (t : Fin cfg3.N) (h : t.val % 8 = 0) :
    acc3 V c t = k3_pay2 (iblk3 V c 0 t) (iblk3 V c 1 t) k3_pay1 := accN3_first V c t h

theorem acc3_next (c : Dev nD) (t : Fin cfg3.N) (h : t.val % 8 ≠ 0) (h' : t.val - 1 < cfg3.N) :
    acc3 V c t = k3_pay2 (iblk3 V c 0 t) (iblk3 V c 1 t) (acc3 V c ⟨t.val - 1, h'⟩) := accN3_next V c t h

/-- The output block after a last contraction point is the accumulator's contents there. -/
theorem out_eq3 (c : Dev nD) (t : Fin cfg3.N) (hf : t.val % 8 = 7) : (dat3 V c).after 2 t = acc3 V c t := after3_2 V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 256 := lt_of_lt_of_eq t.isLt (show cfg3.N = 256 from N_3)
  by_cases h0 : t.val % 8 = 0
  · have h1 : ¬t.val % 8 = 7 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [Dat.leavesExact_idle (dat3 V c) 2 t (idleAt3_2 t (fun h => h1 ((hcond3_1 t).mp h))) (noFlush3_2 t (fun h => h1 ((hcond3_1 t).mp h)))]
    rw [accN3_first V c t h0]
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_A c _ _ _ _ _ _ _ _ _ _ _ _ _)).trans (sout3_A_eq c _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_A c _ _ _ _ _ _ _ _ _ _ _ _ _)).trans (sout3_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN3_next V c t h0]
    rw [PhiS3_castSucc V c t, PhiS3_pos V c _ _ hz]
    by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t ((hcond3_1 t).mpr h1)], after3_2, accN3_next V c t h0]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_C c _ _ _ _ _ _ _ _ _ _ _ _ _ _)).trans (sout3_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover3_C c _ _ _ _ _ _ _ _ _ _ _ _ _ _)).trans (out3_C_eq c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond3_1 t).mp h))) (noFlush3_2 t (fun h => h1 ((hcond3_1 t).mp h)))]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover3_B c _ _ _ _ _ _ _ _ _ _ _ _ _ _)).trans (sout3_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's entry and exit -/

/-- What a region entry supplies and an exit gives back: the scoped buffers that are no staging buffer at some
    contents each (the accumulator among them), the generator register at some state. -/
def PhiIn3 (c : Dev nD) : sProp 𝕄 := Pipeline.ΦA spec3 c

/-- Before the first point the invariant is the entry's. -/
theorem Phi_first3 (c : Dev nD) : (dat3 V c).Φ 0 = PhiIn3 c := by
  rw [show (dat3 V c).Φ 0 = PhiS3 V c 0 (Nat.zero_le _) from rfl, PhiS3_zero V c 0 _ rfl]; rfl

/-- After the last point it gives the entry's back: the accumulator's named contents are forgotten. -/
theorem Phi_last3 (c : Dev nD) : (dat3 V c).Φ (Fin.last _) ⊢ PhiIn3 c := by
  have hN : cfg3.N = 256 := N_3
  rw [show (dat3 V c).Φ (Fin.last _) = PhiS3 V c (Fin.last cfg3.N).val (Nat.le_of_lt_succ (Fin.last cfg3.N).isLt) from rfl,
    PhiS3_pos V c _ _ (by rw [Fin.val_last]; omega)]
  unfold PhiIn3; rw [PhiA3_eq]
  iintro ⟨⟨HS0, HR⟩, Hg⟩
  isplitl [HS0 HR]
  · isplitl [HS0]
    · iexists _; iexact HS0
    iexact HR
  iexact Hg

end Cert.Kernel.Hand

end
-- ==== Proof.K.Region4.lean ====
import proofs.«166874_j54296976556804_1_alg».proof.Proof.Gen.Kernel.Launch
import proofs.«166874_j54296976556804_1_alg».proof.Proof.Gen.Kernel.Skeleton
import proofs.«166874_j54296976556804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: one tiled matrix product whose grid has 4 points along the contraction axis

At the first of them the body zeroes the accumulator; at every one it adds the product of its two input blocks to it; at
the last it copies the accumulator into the output block, which is written back there and only there. The accumulator is a
scoped buffer of the kernel's own that the invariant tracks from point to point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional (the contraction coordinate is zero: reset the accumulator), from the grid coordinates. -/
abbrev cond4_0 (i : grid4.Coords) : Prop := (Scalar.cmpi .ne (Scalar.extui (Scalar.cmpi .eq (BitVec.ofNat 32 (i 2).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)
/-- The second conditional (the contraction coordinate is the last: copy the accumulator out). -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-- The input windows are never idle; the output window is idle, and not written back, exactly where the second
    conditional fails. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The kernel body on any staging memrefs -/

/-- One staging buffer of the output window, through which its contents are stated. -/
abbrev VO4_2 : View sig .tc .vmem S512x1024 .f32 := (Memref.whole cc4_stg2_0 : Memref sig .tc .vmem S512x1024 .f32).view
/-- Each window's current staging memref at point `t`, and its wholeness. -/
abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1024 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S512x1024 .f32 := Memref.whole cc4_scratch0
abbrev VS4_0 : View sig .tc .vmem S512x1024 .f32 := scM4_0.view

/-- The class invariant with the accumulator as a memref owned at some contents, the other scoped buffers unopened. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_split]; simp only [scM4_0, owns_whole]; try rfl

theorem hz2 : (![0, 0] : Fin 2 → Nat) = fun _ => 0 := funext fun a => by fin_cases a <;> rfl

set_option maxHeartbeats 1000000 in
/-- FIRST contraction point (reset, no copy-out): the accumulator's pieces (last first), with the proof that on whole
    memrefs — the inputs' at their contents, the output's handed back untouched, the accumulator at anything — the body
    runs to the continuation holding the accumulator with its pieces written. -/
noncomputable def kernelRun4_A (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE contraction point (no reset, no copy-out): the accumulator comes in at `xs0`. -/
noncomputable def kernelRun4_B (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- The LAST contraction point (no reset, copy-out): the output's pieces and the accumulator's. -/
noncomputable def kernelRun4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the cases leave, as values -/

theorem scover4_A (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) (y : S512x1024.Idx) : ∃ pc ∈ (kernelRun4_A c i arg3 harg3 arg4 harg4 arg5 harg5 arg6 harg6 hc0 hc1 x0 x1).1, y ∈ pc.1.set :=
  View.cover_of_tiledL (kernelRun4_A c i arg3 harg3 arg4 harg4 arg5 harg5 arg6 harg6 hc0 hc1 x0 x1).1 S512x1024.size (by sl_kernel_rfl) y
theorem scover4_B (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) (y : S512x1024.Idx) : ∃ pc ∈ (kernelRun4_B c i arg3 harg3 arg4 harg4 arg5 harg5 arg6 harg6 hc0 hc1 x0 x1 xs0).1, y ∈ pc.1.set :=
  View.cover_of_tiledL (kernelRun4_B c i arg3 harg3 arg4 harg4 arg5 harg5 arg6 harg6 hc0 hc1 x0 x1 xs0).1 S512x1024.size (by sl_kernel_rfl) y
theorem scover4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) (y : S512x1024.Idx) : ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S512x1024.size (by sl_kernel_rfl) y
theorem cover4_C (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) (y : S512x1024.Idx) : ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S512x1024.size (by sl_kernel_rfl) y

/-- The first point leaves the accumulator at the zero block plus the product of the input blocks. -/
theorem sout4_A_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x1024 .f32) (x1 : Vec F S1024x1024 .f32) :
    VS4_0.read (Elt F) (VS4_0.writes (Elt F) VS4_0.junk (kernelRun4_A c i arg3 harg3 arg4 harg4 arg5 harg5 arg6 harg6 hc0 hc1 x0 x1).1) = k4_pay2 x0 x1 k4_pay1 := by
  rw [View.read_writes_eq_canon _ _ _ (scover4_A c i arg3 harg3 arg4 harg4 arg5 harg5 arg6 harg6 hc0 hc1 x0 x1)]
  unfold kernelRun4_A
  dsimp only
  sl_unfold_words
  rw [View.canon_cons_unit_zero (S := S512x1024) hz2, View.readCov_unit_zero (S := S512x1024) _ hz2]
  simp only [View.readAt_eq_ld, harg3.read_unread, harg4.read_unread, harg6.read_unread, View.ld_unit_zero (S := S512x1024) hz2, View.ld_unit_zero (S := S1024x1024) hz2, View.ld_unit_zero (S := S512x1024) hz2]

/-- A middle point adds the product of the input blocks to what the accumulator held. -/
theorem sout4_B_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x1024 .f32) (x1 : Vec F S1024x1024 .f32) (xs0 : Vec F S512x1024 .f32) :
    VS4_0.read (Elt F) (VS4_0.writes (Elt F) VS4_0.junk (kernelRun4_B c i arg3 harg3 arg4 harg4 arg5 harg5 arg6 harg6 hc0 hc1 x0 x1 xs0).1) = k4_pay2 x0 x1 xs0 := by
  rw [View.read_writes_eq_canon _ _ _ (scover4_B c i arg3 harg3 arg4 harg4 arg5 harg5 arg6 harg6 hc0 hc1 x0 x1 xs0)]
  unfold kernelRun4_B
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- So does the last, -/
theorem sout4_C_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    VS4_0.read (Elt F) (VS4_0.writes (Elt F) VS4_0.junk (kernelRun4_C c i arg3 harg3 arg4 harg4 arg5 harg5 arg6 harg6 hc0 hc1 x0 x1 xs0).2.1) = k4_pay2 x0 x1 xs0 := by
  rw [View.read_writes_eq_canon _ _ _ (scover4_C c i arg3 harg3 arg4 harg4 arg5 harg5 arg6 harg6 hc0 hc1 x0 x1 xs0)]
  unfold kernelRun4_C
  dsimp only
  sl_unfold_words
  rw [View.canon_cons_unit_zero (S := S512x1024) hz2]
  simp only [View.readAt_eq_ld, harg3.read_unread, harg4.read_unread, harg6.read_unread, View.ld_unit_zero (S := S512x1024) hz2, View.ld_unit_zero (S := S1024x1024) hz2, View.ld_unit_zero (S := S512x1024) hz2]

/-- which then copies the accumulator into the output block. -/
theorem out4_C_eq (c : Dev nD) (i : grid4.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x1024 .f32) (x1 : Vec F S1024x1024 .f32) (xs0 : Vec F S512x1024 .f32) :
    VO4_2.read (Elt F) (VO4_2.writes (Elt F) VO4_2.junk (kernelRun4_C c i arg3 harg3 arg4 harg4 arg5 harg5 arg6 harg6 hc0 hc1 x0 x1 xs0).1) = k4_pay2 x0 x1 xs0 := by
  rw [View.read_writes_eq_canon _ _ _ (cover4_C c i arg3 harg3 arg4 harg4 arg5 harg5 arg6 harg6 hc0 hc1 x0 x1 xs0)]
  unfold kernelRun4_C
  dsimp only
  sl_unfold_words
  rw [View.canon_unit_zero (S := S512x1024) hz2, View.readCov_cons_toLoadRect]
  simp only [View.readAt_eq_ld, harg3.read_unread, harg4.read_unread, harg6.read_unread, View.ld_unit_zero (S := S512x1024) hz2, View.ld_unit_zero (S := S1024x1024) hz2, View.ld_unit_zero (S := S512x1024) hz2]

/-! ## THE ACCUMULATOR, point by point -/

/-- The accumulator's contents after point `n`: at a first contraction point the zero block plus the product of the
    point's input blocks; at a later one what the point before left plus that product. -/
def accN4 (c : Dev nD) : (n : ℕ) → n < cfg4.N → Vec F S512x1024 .f32
  | 0, h => k4_pay2 (iblk4 V c 0 ⟨0, h⟩) (iblk4 V c 1 ⟨0, h⟩) k4_pay1
  | n + 1, h =>
    if (n + 1) % 4 = 0 then k4_pay2 (iblk4 V c 0 ⟨n + 1, h⟩) (iblk4 V c 1 ⟨n + 1, h⟩) k4_pay1
    else k4_pay2 (iblk4 V c 0 ⟨n + 1, h⟩) (iblk4 V c 1 ⟨n + 1, h⟩) (accN4 c n (Nat.lt_of_succ_lt h))

/-- At a first contraction point. -/
theorem accN4_first (c : Dev nD) (t : Fin cfg4.N) (h0 : t.val % 4 = 0) :
    accN4 V c t.val t.isLt = k4_pay2 (iblk4 V c 0 t) (iblk4 V c 1 t) k4_pay1 := by
  obtain ⟨n, hn⟩ := t
  cases n with
  | zero => rfl
  | succ n => exact if_pos h0

/-- At a later one. -/
theorem accN4_next (c : Dev nD) (t : Fin cfg4.N) (h0 : ¬t.val % 4 = 0) :
    accN4 V c t.val t.isLt = k4_pay2 (iblk4 V c 0 t) (iblk4 V c 1 t) (accN4 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point the class's (the accumulator at anything);
    afterwards the accumulator at what the point before left in it, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4_0 fullShare (accN4 V c n hn) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare (accN4 V c n hn) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare (accN4 V c (n - 1) (by omega)) ∗ Pipeline.scopedRestBut spec4 c [cc4_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at the accumulator's contents there (which the body copies out at
    the last contraction point; at the others the window is idle and this is never consulted); the invariant `PhiS4`;
    nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => accN4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accN4 V c t.val t.isLt := by dsimp only [dat4]

/-- The accumulator's contents after point `t`. -/
def acc4 (c : Dev nD) (t : Fin cfg4.N) : FVec F S512x1024 .f32 := accN4 V c t.val t.isLt

theorem acc4_first (c : Dev nD) (t : Fin cfg4.N) (h : t.val % 4 = 0) :
    acc4 V c t = k4_pay2 (iblk4 V c 0 t) (iblk4 V c 1 t) k4_pay1 := accN4_first V c t h

theorem acc4_next (c : Dev nD) (t : Fin cfg4.N) (h : t.val % 4 ≠ 0) (h' : t.val - 1 < cfg4.N) :
    acc4 V c t = k4_pay2 (iblk4 V c 0 t) (iblk4 V c 1 t) (acc4 V c ⟨t.val - 1, h'⟩) := accN4_next V c t h

/-- The output block after a last contraction point is the accumulator's contents there. -/
theorem out_eq4 (c : Dev nD) (t : Fin cfg4.N) (hf : t.val % 4 = 3) : (dat4 V c).after 2 t = acc4 V c t := after4_2 V c t

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point, by the case the point is in: the inputs' memrefs hold their blocks; the invariant hands the
    body the accumulator at what the point before left (at anything where it is about to be reset) and takes it back at
    this point's contents; where the output window is idle its buffer goes back as found, and at the last contraction point
    it comes back holding the accumulator's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 256 := lt_of_lt_of_eq t.isLt (show cfg4.N = 256 from N_4)
  by_cases h0 : t.val % 4 = 0
  · have h1 : ¬t.val % 4 = 3 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [Dat.leavesExact_idle (dat4 V c) 2 t (idleAt4_2 t (fun h => h1 ((hcond4_1 t).mp h))) (noFlush4_2 t (fun h => h1 ((hcond4_1 t).mp h)))]
    rw [accN4_first V c t h0]
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_A c _ _ _ _ _ _ _ _ _ _ _ _ _)).trans (sout4_A_eq c _ _ _ _ _ _ _ _ _ _ _ _ _)
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_A c _ _ _ _ _ _ _ _ _ _ _ _ _)).trans (sout4_A_eq c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    rw [accN4_next V c t h0]
    rw [PhiS4_castSucc V c t, PhiS4_pos V c _ _ hz]
    by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t ((hcond4_1 t).mpr h1)], after4_2, accN4_next V c t h0]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_C c _ _ _ _ _ _ _ _ _ _ _ _ _ _)).trans (sout4_C_eq c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover4_C c _ _ _ _ _ _ _ _ _ _ _ _ _ _)).trans (out4_C_eq c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro
            exact (View.read_writes_of_cover _ _ _ _ _ (scover4_B c _ _ _ _ _ _ _ _ _ _ _ _ _ _)).trans (sout4_B_eq c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's entry and exit -/

/-- What a region entry supplies and an exit gives back: the scoped buffers that are no staging buffer at some
    contents each (the accumulator among them), the generator register at some state. -/
def PhiIn4 (c : Dev nD) : sProp 𝕄 := Pipeline.ΦA spec4 c

/-- Before the first point the invariant is the entry's. -/
theorem Phi_first4 (c : Dev nD) : (dat4 V c).Φ 0 = PhiIn4 c := by
  rw [show (dat4 V c).Φ 0 = PhiS4 V c 0 (Nat.zero_le _) from rfl, PhiS4_zero V c 0 _ rfl]; rfl

/-- After the last point it gives the entry's back: the accumulator's named contents are forgotten. -/
theorem Phi_last4 (c : Dev nD) : (dat4 V c).Φ (Fin.last _) ⊢ PhiIn4 c := by
  have hN : cfg4.N = 256 := N_4
  rw [show (dat4 V c).Φ (Fin.last _) = PhiS4 V c (Fin.last cfg4.N).val (Nat.le_of_lt_succ (Fin.last cfg4.N).isLt) from rfl,
    PhiS4_pos V c _ _ (by rw [Fin.val_last]; omega)]
  unfold PhiIn4; rw [PhiA4_eq]
  iintro ⟨⟨HS0, HR⟩, Hg⟩
  isplitl [HS0 HR]
  · isplitl [HS0]
    · iexists _; iexact HS0
    iexact HR
  iexact Hg

end Cert.Kernel.Hand

end
-- ==== Proof.K.Run.lean ====
import proofs.«166874_j54296976556804_1_alg».proof.Proof.K.Region0
import proofs.«166874_j54296976556804_1_alg».proof.Proof.K.Region1
import proofs.«166874_j54296976556804_1_alg».proof.Proof.K.Region2
import proofs.«166874_j54296976556804_1_alg».proof.Proof.K.Region3
import proofs.«166874_j54296976556804_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: five tiled products among stretches of host operations

The buffer contents at every boundary between two segments of @main, as a fold from the launch memory; every
argument array read back through the fold to its launch contents; each product as a region over the thread state
"every unscoped buffer at the boundary's contents, the generator register at some state, nothing owed"; and the
run itself: every weakly fair execution terminates, the result buffer ends at the fold's last contents and the
arguments end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host stretches: none allocates a buffer, none writes an argument array -/

/-- The argument arrays. -/
abbrev argRefs : List (Ref sig .tc) :=
  [main_arg0, main_arg1, main_arg2, main_arg3, main_arg4, main_arg5, main_arg6, main_arg7, main_arg8, main_arg9, main_arg10]

/-- No operation of `hostOps0` allocates a buffer. -/
theorem hostOps0_fresh : (hostOps0 : List (HloOp τ sig (Elt F))).Forall fun op => op.fresh = ∅ := by
  simp only [List.Forall]; repeat' constructor
/-- Each operation of `hostOps0` writes its one result buffer, which is no argument array. -/
theorem hostOps0_keeps (b : Ref sig .tc) (hb : b ∈ argRefs) :
    ∀ op ∈ (hostOps0 : List (HloOp τ sig (Elt F))), Proc.devRef .tc b ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps2` allocates a buffer. -/
theorem hostOps2_fresh : (hostOps2 : List (HloOp τ sig (Elt F))).Forall fun op => op.fresh = ∅ := by
  simp only [List.Forall]; repeat' constructor
/-- Each operation of `hostOps2` writes its one result buffer, which is no argument array. -/
theorem hostOps2_keeps (b : Ref sig .tc) (hb : b ∈ argRefs) :
    ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps3` allocates a buffer. -/
theorem hostOps3_fresh : (hostOps3 : List (HloOp τ sig (Elt F))).Forall fun op => op.fresh = ∅ := by
  simp only [List.Forall]; repeat' constructor
/-- Each operation of `hostOps3` writes its one result buffer, which is no argument array. -/
theorem hostOps3_keeps (b : Ref sig .tc) (hb : b ∈ argRefs) :
    ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5` allocates a buffer. -/
theorem hostOps5_fresh : (hostOps5 : List (HloOp τ sig (Elt F))).Forall fun op => op.fresh = ∅ := by
  simp only [List.Forall]; repeat' constructor
/-- Each operation of `hostOps5` writes its one result buffer, which is no argument array. -/
theorem hostOps5_keeps (b : Ref sig .tc) (hb : b ∈ argRefs) :
    ∀ op ∈ (hostOps5 : List (HloOp τ sig (Elt F))), Proc.devRef .tc b ∉ op.writes :=
  List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_1` allocates a buffer. -/
theorem hostOps5_1_fresh : (hostOps5_1 : List (HloOp τ sig (Elt F))).Forall fun op => op.fresh = ∅ := by
  simp only [List.Forall]; repeat' constructor
/-- Each operation of `hostOps5_1` writes its one result buffer, which is no argument array. -/
theorem hostOps5_1_keeps (b : Ref sig .tc) (hb : b ∈ argRefs) :
    ∀ op ∈ (hostOps5_1 : List (HloOp τ sig (Elt F))), Proc.devRef .tc b ∉ op.writes :=
  List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_2` allocates a buffer. -/
theorem hostOps5_2_fresh : (hostOps5_2 : List (HloOp τ sig (Elt F))).Forall fun op => op.fresh = ∅ := by
  simp only [List.Forall]; repeat' constructor
/-- Each operation of `hostOps5_2` writes its one result buffer, which is no argument array. -/
theorem hostOps5_2_keeps (b : Ref sig .tc) (hb : b ∈ argRefs) :
    ∀ op ∈ (hostOps5_2 : List (HloOp τ sig (Elt F))), Proc.devRef .tc b ∉ op.writes :=
  List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_3` allocates a buffer. -/
theorem hostOps5_3_fresh : (hostOps5_3 : List (HloOp τ sig (Elt F))).Forall fun op => op.fresh = ∅ := by
  simp only [List.Forall]; repeat' constructor
/-- Each operation of `hostOps5_3` writes its one result buffer, which is no argument array. -/
theorem hostOps5_3_keeps (b : Ref sig .tc) (hb : b ∈ argRefs) :
    ∀ op ∈ (hostOps5_3 : List (HloOp τ sig (Elt F))), Proc.devRef .tc b ∉ op.writes :=
  List.forall_iff_forall_mem.mp (by
    simp only [hostOps5_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_4` allocates a buffer. -/
theorem hostOps5_4_fresh : (hostOps5_4 : List (HloOp τ sig (Elt F))).Forall fun op => op.fresh = ∅ := by
  simp only [List.Forall]; repeat' constructor
/-- Each operation of `hostOps5_4` writes its one result buffer, which is no argument array. -/
theorem hostOps5_4_keeps (b : Ref sig .tc) (hb : b ∈ argRefs) :
    ∀ op ∈ (hostOps5_4 : List (HloOp τ sig (Elt F))), Proc.devRef .tc b ∉ op.writes :=
  List.forall_iff_forall_mem.mp (by
    simp only [hostOps5_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_5` allocates a buffer. -/
theorem hostOps5_5_fresh : (hostOps5_5 : List (HloOp τ sig (Elt F))).Forall fun op => op.fresh = ∅ := by
  simp only [List.Forall]; repeat' constructor
/-- Each operation of `hostOps5_5` writes its one result buffer, which is no argument array. -/
theorem hostOps5_5_keeps (b : Ref sig .tc) (hb : b ∈ argRefs) :
    ∀ op ∈ (hostOps5_5 : List (HloOp τ sig (Elt F))), Proc.devRef .tc b ∉ op.writes :=
  List.forall_iff_forall_mem.mp (by
    simp only [hostOps5_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_6` allocates a buffer. -/
theorem hostOps5_6_fresh : (hostOps5_6 : List (HloOp τ sig (Elt F))).Forall fun op => op.fresh = ∅ := by
  simp only [List.Forall]; repeat' constructor
/-- Each operation of `hostOps5_6` writes its one result buffer, which is no argument array. -/
theorem hostOps5_6_keeps (b : Ref sig .tc) (hb : b ∈ argRefs) :
    ∀ op ∈ (hostOps5_6 : List (HloOp τ sig (Elt F))), Proc.devRef .tc b ∉ op.writes :=
  List.forall_iff_forall_mem.mp (by
    simp only [hostOps5_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_7` allocates a buffer. -/
theorem hostOps5_7_fresh : (hostOps5_7 : List (HloOp τ sig (Elt F))).Forall fun op => op.fresh = ∅ := by
  simp only [List.Forall]; repeat' constructor
/-- Each operation of `hostOps5_7` writes its one result buffer, which is no argument array. -/
theorem hostOps5_7_keeps (b : Ref sig .tc) (hb : b ∈ argRefs) :
    ∀ op ∈ (hostOps5_7 : List (HloOp τ sig (Elt F))), Proc.devRef .tc b ∉ op.writes :=
  List.forall_iff_forall_mem.mp (by
    simp only [hostOps5_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_8` allocates a buffer. -/
theorem hostOps5_8_fresh : (hostOps5_8 : List (HloOp τ sig (Elt F))).Forall fun op => op.fresh = ∅ := by
  simp only [List.Forall]; repeat' constructor
/-- Each operation of `hostOps5_8` writes its one result buffer, which is no argument array. -/
theorem hostOps5_8_keeps (b : Ref sig .tc) (hb : b ∈ argRefs) :
    ∀ op ∈ (hostOps5_8 : List (HloOp τ sig (Elt F))), Proc.devRef .tc b ∉ op.writes :=
  List.forall_iff_forall_mem.mp (by
    simp only [hostOps5_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

/-- No operation of `hostOps5_9` allocates a buffer. -/
theorem hostOps5_9_fresh : (hostOps5_9 : List (HloOp τ sig (Elt F))).Forall fun op => op.fresh = ∅ := by
  simp only [List.Forall]; repeat' constructor
/-- Each operation of `hostOps5_9` writes its one result buffer, which is no argument array. -/
theorem hostOps5_9_keeps (b : Ref sig .tc) (hb : b ∈ argRefs) :
    ∀ op ∈ (hostOps5_9 : List (HloOp τ sig (Elt F))), Proc.devRef .tc b ∉ op.writes :=
  List.forall_iff_forall_mem.mp (by
    simp only [hostOps5_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

set_option maxHeartbeats 40000000 in
/-- No operation of `hostOps5_10` allocates a buffer. -/
theorem hostOps5_10_fresh : (hostOps5_10 : List (HloOp τ sig (Elt F))).Forall fun op => op.fresh = ∅ := by
  simp only [List.Forall]; repeat' constructor
set_option maxHeartbeats 40000000 in
/-- Each operation of `hostOps5_10` writes its one result buffer, which is no argument array. -/
theorem hostOps5_10_keeps (b : Ref sig .tc) (hb : b ∈ argRefs) :
    ∀ op ∈ (hostOps5_10 : List (HloOp τ sig (Elt F))), Proc.devRef .tc b ∉ op.writes :=
  List.forall_iff_forall_mem.mp (by
    simp only [hostOps5_10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide)))

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references (what product 0's proof data take). -/
abbrev V1 : (c : Dev nD) → (b : Ref sig .tc) → Buf (Elt F) ((c : Thread nD τ).loc b) := fun c b => W1 m ρ c b
/-- At product 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (product 0's exit contents). -/
abbrev V2 : (c : Dev nD) → (b : Ref sig .tc) → Buf (Elt F) ((c : Thread nD τ).loc b) := fun c b => W2 m ρ c b
/-- At product 0's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At product 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (product 1's exit contents). -/
abbrev V3 : (c : Dev nD) → (b : Ref sig .tc) → Buf (Elt F) ((c : Thread nD τ).loc b) := fun c b => W3 m ρ c b
/-- At product 1's exit each of its arrays holds what the pipeline leaves and every other buffer what it held
    at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- The same read at the TensorCore's references (what product 2's proof data take). -/
abbrev V4 : (c : Dev nD) → (b : Ref sig .tc) → Buf (Elt F) ((c : Thread nD τ).loc b) := fun c b => W4 m ρ c b
/-- At product 2's exit: its arrays at what the pipeline leaves (the inputs as entered, the output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references (product 2's exit contents). -/
abbrev V5 : (c : Dev nD) → (b : Ref sig .tc) → Buf (Elt F) ((c : Thread nD τ).loc b) := fun c b => W5 m ρ c b
/-- At product 2's exit each of its arrays holds what the pipeline leaves and every other buffer what it held
    at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- The same read at the TensorCore's references (what product 3's proof data take). -/
abbrev V6 : (c : Dev nD) → (b : Ref sig .tc) → Buf (Elt F) ((c : Thread nD τ).loc b) := fun c b => W6 m ρ c b
/-- At product 3's exit: its arrays at what the pipeline leaves (the inputs as entered, the output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (product 3's exit contents). -/
abbrev V7 : (c : Dev nD) → (b : Ref sig .tc) → Buf (Elt F) ((c : Thread nD τ).loc b) := fun c b => W7 m ρ c b
/-- At product 3's exit each of its arrays holds what the pipeline leaves and every other buffer what it held
    at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At product 4's exit: its arrays at what the pipeline leaves (the inputs as entered, the output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (product 4's exit contents). -/
abbrev V8 : (c : Dev nD) → (b : Ref sig .tc) → Buf (Elt F) ((c : Thread nD τ).loc b) := fun c b => W8 m ρ c b
/-- At product 4's exit each of its arrays holds what the pipeline leaves and every other buffer what it held
    at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`. -/
abbrev W9 : Dev nD → Valuation τ sig (Elt F) := fun c => StableHlo.after hostOps5 (W8 m ρ c)
/-- After `hostOps5_1`. -/
abbrev W10 : Dev nD → Valuation τ sig (Elt F) := fun c => StableHlo.after hostOps5_1 (W9 m ρ c)
/-- After `hostOps5_2`. -/
abbrev W11 : Dev nD → Valuation τ sig (Elt F) := fun c => StableHlo.after hostOps5_2 (W10 m ρ c)
/-- After `hostOps5_3`. -/
abbrev W12 : Dev nD → Valuation τ sig (Elt F) := fun c => StableHlo.after hostOps5_3 (W11 m ρ c)
/-- After `hostOps5_4`. -/
abbrev W13 : Dev nD → Valuation τ sig (Elt F) := fun c => StableHlo.after hostOps5_4 (W12 m ρ c)
/-- After `hostOps5_5`. -/
abbrev W14 : Dev nD → Valuation τ sig (Elt F) := fun c => StableHlo.after hostOps5_5 (W13 m ρ c)
/-- After `hostOps5_6`. -/
abbrev W15 : Dev nD → Valuation τ sig (Elt F) := fun c => StableHlo.after hostOps5_6 (W14 m ρ c)
/-- After `hostOps5_7`. -/
abbrev W16 : Dev nD → Valuation τ sig (Elt F) := fun c => StableHlo.after hostOps5_7 (W15 m ρ c)
/-- After `hostOps5_8`. -/
abbrev W17 : Dev nD → Valuation τ sig (Elt F) := fun c => StableHlo.after hostOps5_8 (W16 m ρ c)
/-- After `hostOps5_9`. -/
abbrev W18 : Dev nD → Valuation τ sig (Elt F) := fun c => StableHlo.after hostOps5_9 (W17 m ρ c)
/-- After `hostOps5_10`. -/
abbrev W19 : Dev nD → Valuation τ sig (Elt F) := fun c => StableHlo.after hostOps5_10 (W18 m ρ c)
/-! ### The arguments end as launched: no host operation and no product writes one (a product reads it through an
    input window or bypasses it), so the fold at an argument's buffer walks back to the launch memory -/

theorem W19_main_arg0 (c : Dev nD) : W19 m ρ c (Proc.devRef .tc main_arg0) = m ((c : Thread nD τ).loc main_arg0) :=
  calc W19 m ρ c (Proc.devRef .tc main_arg0)
    _ = W18 m ρ c (Proc.devRef .tc main_arg0) := StableHlo.after_of_forall_not_mem (b := Proc.devRef .tc main_arg0) _ _ (hostOps5_10_keeps main_arg0 (by decide))
    _ = W17 m ρ c (Proc.devRef .tc main_arg0) := StableHlo.after_of_forall_not_mem (b := Proc.devRef .tc main_arg0) _ _ (hostOps5_9_keeps main_arg0 (by decide))
    _ = W16 m ρ c (Proc.devRef .tc main_arg0) := StableHlo.after_of_forall_not_mem (b := Proc.devRef .tc main_arg0) _ _ (hostOps5_8_keeps main_arg0 (by decide))
    _ = W15 m ρ c (Proc.devRef .tc main_arg0) := StableHlo.after_of_forall_not_mem (b := Proc.devRef .tc main_arg0) _ _ (hostOps5_7_keeps main_arg0 (by decide))
    _ = W14 m ρ c (Proc.devRef .tc main_arg0) := StableHlo.after_of_forall_not_mem (b := Proc.devRef .tc main_arg0) _ _ (hostOps5_6_keeps main_arg0 (by decide))
    _ = W13 m ρ c (Proc.devRef .tc main_arg0) := StableHlo.after_of_forall_not_mem (b := Proc.devRef .tc main_arg0) _ _ (hostOps5_5_keeps main_arg0 (by decide))
    _ = W12 m ρ c (Proc.devRef .tc main_arg0) := StableHlo.after_of_forall_not_mem (b := Proc.devRef .tc main_arg0) _ _ (hostOps5_4_keeps main_arg0 (by decide))
    _ = W11 m ρ c (Proc.devRef .tc main_arg0) := StableHlo.after_of_forall_not_mem (b := Proc.devRef .tc main_arg0) _ _ (hostOps5_3_keeps main_arg0 (by decide))
    _ = W10 m ρ c (Proc.devRef .tc main_arg0) := StableHlo.after_of_forall_not_mem (b := Proc.devRef .tc main_arg0) _ _ (hostOps5_2_keeps main_arg0 (by decide))
    _ = W9 m ρ c (Proc.devRef .tc main_arg0) := StableHlo.after_of_forall_not_mem (b := Proc.devRef .tc main_arg0) _ _ (hostOps5_1_keeps main_arg0 (by decide))
    _ = W8 m ρ c (Proc.devRef .tc main_arg0) := StableHlo.after_of_forall_not_mem (b := Proc.devRef .tc main_arg0) _ _ (hostOps5_keeps main_arg0 (by decide))
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (hostOps3_keeps main_arg0 (by decide))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (hostOps2_keeps main_arg0 (by decide))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c : Thread nD τ).loc main_arg0) := rfl
theorem W19_main_arg1 (c : Dev nD) : W19 m ρ c (Proc.devRef .tc main_arg1) = m ((c : Thread nD τ).loc main_arg1) :=
  calc W19 m ρ c (Proc.devRef .tc main_arg1)
    _ = W18 m ρ c (Proc.devRef .tc main_arg1) := StableHlo.after_of_forall_not_mem (b := Proc.devRef .tc main_arg1) _ _ (hostOps5_10_keeps main_arg1 (by decide))
    _ = W17 m ρ c (Proc.devRef .tc main_arg1) := StableHlo.after_of_forall_not_mem (b := Proc.devRef .tc main_arg1) _ _ (hostOps5_9_keeps main_arg1 (by decide))
    _ = W16 m ρ c (Proc.devRef .tc main_arg1) := StableHlo.after_of_forall_not_mem (b := Proc.devRef .tc main_arg1) _ _ (hostOps5_8_keeps main_arg1 (by decide))
    _ = W15 m ρ c (Proc.devRef .tc main_arg1) := StableHlo.after_of_forall_not_mem (b := Proc.devRef .tc main_arg1) _ _ (hostOps5_7_keeps main_arg1 (by decide))
    _ = W14 m ρ c (Proc.devRef .tc main_arg1) := StableHlo.after_of_forall_not_mem (b := Proc.devRef .tc main_arg1) _ _ (hostOps5_6_keeps main_arg1 (by decide))
    _ = W13 m ρ c (Proc.devRef .tc main_arg1) := StableHlo.after_of_forall_not_mem (b := Proc.devRef .tc main_arg1) _ _ (hostOps5_5_keeps main_arg1 (by decide))
    _ = W12 m ρ c (Proc.devRef .tc main_arg1) := StableHlo.after_of_forall_not_mem (b := Proc.devRef .tc main_arg1) _ _ (hostOps5_4_keeps main_arg1 (by decide))
    _ = W11 m ρ c (Proc.devRef .tc main_arg1) := StableHlo.after_of_forall_not_mem (b := Proc.devRef .tc main_arg1) _ _ (hostOps5_3_keeps main_arg1 (by decide))
    _ = W10 m ρ c (Proc.devRef .tc main_arg1) := StableHlo.after_of_forall_not_mem (b := Proc.devRef .tc main_arg1) _ _ (hostOps5_2_keeps main_arg1 (by decide))
    _ = W9 m ρ c (Proc.devRef .tc main_arg1) := StableHlo.after_of_forall_not_mem (b := Proc.devRef .tc main_arg1) _ _ (hostOps5_1_keeps main_arg1 (by decide))
    _ = W8 m ρ c (Proc.devRef .tc main_arg1) := StableHlo.after_of_forall_not_mem (b := Proc.devRef .tc main_arg1) _ _ (hostOps5_keeps main_arg1 (by decide))
    _ = W7 m ρ c (Proc.devRef .tc main_arg1) := (W8_arr m ρ c 0).trans (((dat4 (V7 m ρ) c).arrAt_in 0 rfl _).trans (A_eq4 (V7 m ρ) c 0))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (hostOps3_keeps main_arg1 (by decide))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (hostOps2_keeps main_arg1 (by decide))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c : Thread nD τ).loc main_arg1) := rfl
theorem W19_main_arg2 (c : Dev nD) : W19 m ρ c (Proc.devRef .tc main_arg2) = m ((c : Thread nD τ).loc main_arg2) :=
  calc W19 m ρ c (Proc.devRef .tc main_arg2)
    _ = W18 m ρ c (Proc.devRef .tc main_arg2) := StableHlo.after_of_forall_not_mem (b := Proc.devRef .tc main_arg2) _ _ (hostOps5_10_keeps main_arg2 (by decide))
    _ = W17 m ρ c (Proc.devRef .tc main_arg2) := StableHlo.after_of_forall_not_mem (b := Proc.devRef .tc main_arg2) _ _ (hostOps5_9_keeps main_arg2 (by decide))
    _ = W16 m ρ c (Proc.devRef .tc main_arg2) := StableHlo.after_of_forall_not_mem (b := Proc.devRef .tc main_arg2) _ _ (hostOps5_8_keeps main_arg2 (by decide))
    _ = W15 m ρ c (Proc.devRef .tc main_arg2) := StableHlo.after_of_forall_not_mem (b := Proc.devRef .tc main_arg2) _ _ (hostOps5_7_keeps main_arg2 (by decide))
    _ = W14 m ρ c (Proc.devRef .tc main_arg2) := StableHlo.after_of_forall_not_mem (b := Proc.devRef .tc main_arg2) _ _ (hostOps5_6_keeps main_arg2 (by decide))
    _ = W13 m ρ c (Proc.devRef .tc main_arg2) := StableHlo.after_of_forall_not_mem (b := Proc.devRef .tc main_arg2) _ _ (hostOps5_5_keeps main_arg2 (by decide))
    _ = W12 m ρ c (Proc.devRef .tc main_arg2) := StableHlo.after_of_forall_not_mem (b := Proc.devRef .tc main_arg2) _ _ (hostOps5_4_keeps main_arg2 (by decide))
    _ = W11 m ρ c (Proc.devRef .tc main_arg2) := StableHlo.after_of_forall_not_mem (b := Proc.devRef .tc main_arg2) _ _ (hostOps5_3_keeps main_arg2 (by decide))
    _ = W10 m ρ c (Proc.devRef .tc main_arg2) := StableHlo.after_of_forall_not_mem (b := Proc.devRef .tc main_arg2) _ _ (hostOps5_2_keeps main_arg2 (by decide))
    _ = W9 m ρ c (Proc.devRef .tc main_arg2) := StableHlo.after_of_forall_not_mem (b := Proc.devRef .tc main_arg2) _ _ (hostOps5_1_keeps main_arg2 (by decide))
    _ = W8 m ρ c (Proc.devRef .tc main_arg2) := StableHlo.after_of_forall_not_mem (b := Proc.devRef .tc main_arg2) _ _ (hostOps5_keeps main_arg2 (by decide))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (hostOps3_keeps main_arg2 (by decide))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (hostOps2_keeps main_arg2 (by decide))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c : Thread nD τ).loc main_arg2) := rfl
theorem W19_main_arg3 (c : Dev nD) : W19 m ρ c (Proc.devRef .tc main_arg3) = m ((c : Thread nD τ).loc main_arg3) :=
  calc W19 m ρ c (Proc.devRef .tc main_arg3)
    _ = W18 m ρ c (Proc.devRef .tc main_arg3) := StableHlo.after_of_forall_not_mem (b := Proc.devRef .tc main_arg3) _ _ (hostOps5_10_keeps main_arg3 (by decide))
    _ = W17 m ρ c (Proc.devRef .tc main_arg3) := StableHlo.after_of_forall_not_mem (b := Proc.devRef .tc main_arg3) _ _ (hostOps5_9_keeps main_arg3 (by decide))
    _ = W16 m ρ c (Proc.devRef .tc main_arg3) := StableHlo.after_of_forall_not_mem (b := Proc.devRef .tc main_arg3) _ _ (hostOps5_8_keeps main_arg3 (by decide))
    _ = W15 m ρ c (Proc.devRef .tc main_arg3) := StableHlo.after_of_forall_not_mem (b := Proc.devRef .tc main_arg3) _ _ (hostOps5_7_keeps main_arg3 (by decide))
    _ = W14 m ρ c (Proc.devRef .tc main_arg3) := StableHlo.after_of_forall_not_mem (b := Proc.devRef .tc main_arg3) _ _ (hostOps5_6_keeps main_arg3 (by decide))
    _ = W13 m ρ c (Proc.devRef .tc main_arg3) := StableHlo.after_of_forall_not_mem (b := Proc.devRef .tc main_arg3) _ _ (hostOps5_5_keeps main_arg3 (by decide))
    _ = W12 m ρ c (Proc.devRef .tc main_arg3) := StableHlo.after_of_forall_not_mem (b := Proc.devRef .tc main_arg3) _ _ (hostOps5_4_keeps main_arg3 (by decide))
    _ = W11 m ρ c (Proc.devRef .tc main_arg3) := StableHlo.after_of_forall_not_mem (b := Proc.devRef .tc main_arg3) _ _ (hostOps5_3_keeps main_arg3 (by decide))
    _ = W10 m ρ c (Proc.devRef .tc main_arg3) := StableHlo.after_of_forall_not_mem (b := Proc.devRef .tc main_arg3) _ _ (hostOps5_2_keeps main_arg3 (by decide))
    _ = W9 m ρ c (Proc.devRef .tc main_arg3) := StableHlo.after_of_forall_not_mem (b := Proc.devRef .tc main_arg3) _ _ (hostOps5_1_keeps main_arg3 (by decide))
    _ = W8 m ρ c (Proc.devRef .tc main_arg3) := StableHlo.after_of_forall_not_mem (b := Proc.devRef .tc main_arg3) _ _ (hostOps5_keeps main_arg3 (by decide))
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (hostOps3_keeps main_arg3 (by decide))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (hostOps2_keeps main_arg3 (by decide))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c : Thread nD τ).loc main_arg3) := rfl
theorem W19_main_arg4 (c : Dev nD) : W19 m ρ c (Proc.devRef .tc main_arg4) = m ((c : Thread nD τ).loc main_arg4) :=
  calc W19 m ρ c (Proc.devRef .tc main_arg4)
    _ = W18 m ρ c (Proc.devRef .tc main_arg4) := StableHlo.after_of_forall_not_mem (b := Proc.devRef .tc main_arg4) _ _ (hostOps5_10_keeps main_arg4 (by decide))
    _ = W17 m ρ c (Proc.devRef .tc main_arg4) := StableHlo.after_of_forall_not_mem (b := Proc.devRef .tc main_arg4) _ _ (hostOps5_9_keeps main_arg4 (by decide))
    _ = W16 m ρ c (Proc.devRef .tc main_arg4) := StableHlo.after_of_forall_not_mem (b := Proc.devRef .tc main_arg4) _ _ (hostOps5_8_keeps main_arg4 (by decide))
    _ = W15 m ρ c (Proc.devRef .tc main_arg4) := StableHlo.after_of_forall_not_mem (b := Proc.devRef .tc main_arg4) _ _ (hostOps5_7_keeps main_arg4 (by decide))
    _ = W14 m ρ c (Proc.devRef .tc main_arg4) := StableHlo.after_of_forall_not_mem (b := Proc.devRef .tc main_arg4) _ _ (hostOps5_6_keeps main_arg4 (by decide))
    _ = W13 m ρ c (Proc.devRef .tc main_arg4) := StableHlo.after_of_forall_not_mem (b := Proc.devRef .tc main_arg4) _ _ (hostOps5_5_keeps main_arg4 (by decide))
    _ = W12 m ρ c (Proc.devRef .tc main_arg4) := StableHlo.after_of_forall_not_mem (b := Proc.devRef .tc main_arg4) _ _ (hostOps5_4_keeps main_arg4 (by decide))
    _ = W11 m ρ c (Proc.devRef .tc main_arg4) := StableHlo.after_of_forall_not_mem (b := Proc.devRef .tc main_arg4) _ _ (hostOps5_3_keeps main_arg4 (by decide))
    _ = W10 m ρ c (Proc.devRef .tc main_arg4) := StableHlo.after_of_forall_not_mem (b := Proc.devRef .tc main_arg4) _ _ (hostOps5_2_keeps main_arg4 (by decide))
    _ = W9 m ρ c (Proc.devRef .tc main_arg4) := StableHlo.after_of_forall_not_mem (b := Proc.devRef .tc main_arg4) _ _ (hostOps5_1_keeps main_arg4 (by decide))
    _ = W8 m ρ c (Proc.devRef .tc main_arg4) := StableHlo.after_of_forall_not_mem (b := Proc.devRef .tc main_arg4) _ _ (hostOps5_keeps main_arg4 (by decide))
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (hostOps3_keeps main_arg4 (by decide))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (hostOps2_keeps main_arg4 (by decide))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c : Thread nD τ).loc main_arg4) := rfl
theorem W19_main_arg5 (c : Dev nD) : W19 m ρ c (Proc.devRef .tc main_arg5) = m ((c : Thread nD τ).loc main_arg5) :=
  calc W19 m ρ c (Proc.devRef .tc main_arg5)
    _ = W18 m ρ c (Proc.devRef .tc main_arg5) := StableHlo.after_of_forall_not_mem (b := Proc.devRef .tc main_arg5) _ _ (hostOps5_10_keeps main_arg5 (by decide))
    _ = W17 m ρ c (Proc.devRef .tc main_arg5) := StableHlo.after_of_forall_not_mem (b := Proc.devRef .tc main_arg5) _ _ (hostOps5_9_keeps main_arg5 (by decide))
    _ = W16 m ρ c (Proc.devRef .tc main_arg5) := StableHlo.after_of_forall_not_mem (b := Proc.devRef .tc main_arg5) _ _ (hostOps5_8_keeps main_arg5 (by decide))
    _ = W15 m ρ c (Proc.devRef .tc main_arg5) := StableHlo.after_of_forall_not_mem (b := Proc.devRef .tc main_arg5) _ _ (hostOps5_7_keeps main_arg5 (by decide))
    _ = W14 m ρ c (Proc.devRef .tc main_arg5) := StableHlo.after_of_forall_not_mem (b := Proc.devRef .tc main_arg5) _ _ (hostOps5_6_keeps main_arg5 (by decide))
    _ = W13 m ρ c (Proc.devRef .tc main_arg5) := StableHlo.after_of_forall_not_mem (b := Proc.devRef .tc main_arg5) _ _ (hostOps5_5_keeps main_arg5 (by decide))
    _ = W12 m ρ c (Proc.devRef .tc main_arg5) := StableHlo.after_of_forall_not_mem (b := Proc.devRef .tc main_arg5) _ _ (hostOps5_4_keeps main_arg5 (by decide))
    _ = W11 m ρ c (Proc.devRef .tc main_arg5) := StableHlo.after_of_forall_not_mem (b := Proc.devRef .tc main_arg5) _ _ (hostOps5_3_keeps main_arg5 (by decide))
    _ = W10 m ρ c (Proc.devRef .tc main_arg5) := StableHlo.after_of_forall_not_mem (b := Proc.devRef .tc main_arg5) _ _ (hostOps5_2_keeps main_arg5 (by decide))
    _ = W9 m ρ c (Proc.devRef .tc main_arg5) := StableHlo.after_of_forall_not_mem (b := Proc.devRef .tc main_arg5) _ _ (hostOps5_1_keeps main_arg5 (by decide))
    _ = W8 m ρ c (Proc.devRef .tc main_arg5) := StableHlo.after_of_forall_not_mem (b := Proc.devRef .tc main_arg5) _ _ (hostOps5_keeps main_arg5 (by decide))
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (hostOps3_keeps main_arg5 (by decide))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (hostOps2_keeps main_arg5 (by decide))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c : Thread nD τ).loc main_arg5) := rfl
theorem W19_main_arg6 (c : Dev nD) : W19 m ρ c (Proc.devRef .tc main_arg6) = m ((c : Thread nD τ).loc main_arg6) :=
  calc W19 m ρ c (Proc.devRef .tc main_arg6)
    _ = W18 m ρ c (Proc.devRef .tc main_arg6) := StableHlo.after_of_forall_not_mem (b := Proc.devRef .tc main_arg6) _ _ (hostOps5_10_keeps main_arg6 (by decide))
    _ = W17 m ρ c (Proc.devRef .tc main_arg6) := StableHlo.after_of_forall_not_mem (b := Proc.devRef .tc main_arg6) _ _ (hostOps5_9_keeps main_arg6 (by decide))
    _ = W16 m ρ c (Proc.devRef .tc main_arg6) := StableHlo.after_of_forall_not_mem (b := Proc.devRef .tc main_arg6) _ _ (hostOps5_8_keeps main_arg6 (by decide))
    _ = W15 m ρ c (Proc.devRef .tc main_arg6) := StableHlo.after_of_forall_not_mem (b := Proc.devRef .tc main_arg6) _ _ (hostOps5_7_keeps main_arg6 (by decide))
    _ = W14 m ρ c (Proc.devRef .tc main_arg6) := StableHlo.after_of_forall_not_mem (b := Proc.devRef .tc main_arg6) _ _ (hostOps5_6_keeps main_arg6 (by decide))
    _ = W13 m ρ c (Proc.devRef .tc main_arg6) := StableHlo.after_of_forall_not_mem (b := Proc.devRef .tc main_arg6) _ _ (hostOps5_5_keeps main_arg6 (by decide))
    _ = W12 m ρ c (Proc.devRef .tc main_arg6) := StableHlo.after_of_forall_not_mem (b := Proc.devRef .tc main_arg6) _ _ (hostOps5_4_keeps main_arg6 (by decide))
    _ = W11 m ρ c (Proc.devRef .tc main_arg6) := StableHlo.after_of_forall_not_mem (b := Proc.devRef .tc main_arg6) _ _ (hostOps5_3_keeps main_arg6 (by decide))
    _ = W10 m ρ c (Proc.devRef .tc main_arg6) := StableHlo.after_of_forall_not_mem (b := Proc.devRef .tc main_arg6) _ _ (hostOps5_2_keeps main_arg6 (by decide))
    _ = W9 m ρ c (Proc.devRef .tc main_arg6) := StableHlo.after_of_forall_not_mem (b := Proc.devRef .tc main_arg6) _ _ (hostOps5_1_keeps main_arg6 (by decide))
    _ = W8 m ρ c (Proc.devRef .tc main_arg6) := StableHlo.after_of_forall_not_mem (b := Proc.devRef .tc main_arg6) _ _ (hostOps5_keeps main_arg6 (by decide))
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (hostOps3_keeps main_arg6 (by decide))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (hostOps2_keeps main_arg6 (by decide))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c : Thread nD τ).loc main_arg6) := rfl
theorem W19_main_arg7 (c : Dev nD) : W19 m ρ c (Proc.devRef .tc main_arg7) = m ((c : Thread nD τ).loc main_arg7) :=
  calc W19 m ρ c (Proc.devRef .tc main_arg7)
    _ = W18 m ρ c (Proc.devRef .tc main_arg7) := StableHlo.after_of_forall_not_mem (b := Proc.devRef .tc main_arg7) _ _ (hostOps5_10_keeps main_arg7 (by decide))
    _ = W17 m ρ c (Proc.devRef .tc main_arg7) := StableHlo.after_of_forall_not_mem (b := Proc.devRef .tc main_arg7) _ _ (hostOps5_9_keeps main_arg7 (by decide))
    _ = W16 m ρ c (Proc.devRef .tc main_arg7) := StableHlo.after_of_forall_not_mem (b := Proc.devRef .tc main_arg7) _ _ (hostOps5_8_keeps main_arg7 (by decide))
    _ = W15 m ρ c (Proc.devRef .tc main_arg7) := StableHlo.after_of_forall_not_mem (b := Proc.devRef .tc main_arg7) _ _ (hostOps5_7_keeps main_arg7 (by decide))
    _ = W14 m ρ c (Proc.devRef .tc main_arg7) := StableHlo.after_of_forall_not_mem (b := Proc.devRef .tc main_arg7) _ _ (hostOps5_6_keeps main_arg7 (by decide))
    _ = W13 m ρ c (Proc.devRef .tc main_arg7) := StableHlo.after_of_forall_not_mem (b := Proc.devRef .tc main_arg7) _ _ (hostOps5_5_keeps main_arg7 (by decide))
    _ = W12 m ρ c (Proc.devRef .tc main_arg7) := StableHlo.after_of_forall_not_mem (b := Proc.devRef .tc main_arg7) _ _ (hostOps5_4_keeps main_arg7 (by decide))
    _ = W11 m ρ c (Proc.devRef .tc main_arg7) := StableHlo.after_of_forall_not_mem (b := Proc.devRef .tc main_arg7) _ _ (hostOps5_3_keeps main_arg7 (by decide))
    _ = W10 m ρ c (Proc.devRef .tc main_arg7) := StableHlo.after_of_forall_not_mem (b := Proc.devRef .tc main_arg7) _ _ (hostOps5_2_keeps main_arg7 (by decide))
    _ = W9 m ρ c (Proc.devRef .tc main_arg7) := StableHlo.after_of_forall_not_mem (b := Proc.devRef .tc main_arg7) _ _ (hostOps5_1_keeps main_arg7 (by decide))
    _ = W8 m ρ c (Proc.devRef .tc main_arg7) := StableHlo.after_of_forall_not_mem (b := Proc.devRef .tc main_arg7) _ _ (hostOps5_keeps main_arg7 (by decide))
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (hostOps3_keeps main_arg7 (by decide))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (hostOps2_keeps main_arg7 (by decide))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c : Thread nD τ).loc main_arg7) := rfl
theorem W19_main_arg8 (c : Dev nD) : W19 m ρ c (Proc.devRef .tc main_arg8) = m ((c : Thread nD τ).loc main_arg8) :=
  calc W19 m ρ c (Proc.devRef .tc main_arg8)
    _ = W18 m ρ c (Proc.devRef .tc main_arg8) := StableHlo.after_of_forall_not_mem (b := Proc.devRef .tc main_arg8) _ _ (hostOps5_10_keeps main_arg8 (by decide))
    _ = W17 m ρ c (Proc.devRef .tc main_arg8) := StableHlo.after_of_forall_not_mem (b := Proc.devRef .tc main_arg8) _ _ (hostOps5_9_keeps main_arg8 (by decide))
    _ = W16 m ρ c (Proc.devRef .tc main_arg8) := StableHlo.after_of_forall_not_mem (b := Proc.devRef .tc main_arg8) _ _ (hostOps5_8_keeps main_arg8 (by decide))
    _ = W15 m ρ c (Proc.devRef .tc main_arg8) := StableHlo.after_of_forall_not_mem (b := Proc.devRef .tc main_arg8) _ _ (hostOps5_7_keeps main_arg8 (by decide))
    _ = W14 m ρ c (Proc.devRef .tc main_arg8) := StableHlo.after_of_forall_not_mem (b := Proc.devRef .tc main_arg8) _ _ (hostOps5_6_keeps main_arg8 (by decide))
    _ = W13 m ρ c (Proc.devRef .tc main_arg8) := StableHlo.after_of_forall_not_mem (b := Proc.devRef .tc main_arg8) _ _ (hostOps5_5_keeps main_arg8 (by decide))
    _ = W12 m ρ c (Proc.devRef .tc main_arg8) := StableHlo.after_of_forall_not_mem (b := Proc.devRef .tc main_arg8) _ _ (hostOps5_4_keeps main_arg8 (by decide))
    _ = W11 m ρ c (Proc.devRef .tc main_arg8) := StableHlo.after_of_forall_not_mem (b := Proc.devRef .tc main_arg8) _ _ (hostOps5_3_keeps main_arg8 (by decide))
    _ = W10 m ρ c (Proc.devRef .tc main_arg8) := StableHlo.after_of_forall_not_mem (b := Proc.devRef .tc main_arg8) _ _ (hostOps5_2_keeps main_arg8 (by decide))
    _ = W9 m ρ c (Proc.devRef .tc main_arg8) := StableHlo.after_of_forall_not_mem (b := Proc.devRef .tc main_arg8) _ _ (hostOps5_1_keeps main_arg8 (by decide))
    _ = W8 m ρ c (Proc.devRef .tc main_arg8) := StableHlo.after_of_forall_not_mem (b := Proc.devRef .tc main_arg8) _ _ (hostOps5_keeps main_arg8 (by decide))
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (hostOps3_keeps main_arg8 (by decide))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (hostOps2_keeps main_arg8 (by decide))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c : Thread nD τ).loc main_arg8) := rfl
theorem W19_main_arg9 (c : Dev nD) : W19 m ρ c (Proc.devRef .tc main_arg9) = m ((c : Thread nD τ).loc main_arg9) :=
  calc W19 m ρ c (Proc.devRef .tc main_arg9)
    _ = W18 m ρ c (Proc.devRef .tc main_arg9) := StableHlo.after_of_forall_not_mem (b := Proc.devRef .tc main_arg9) _ _ (hostOps5_10_keeps main_arg9 (by decide))
    _ = W17 m ρ c (Proc.devRef .tc main_arg9) := StableHlo.after_of_forall_not_mem (b := Proc.devRef .tc main_arg9) _ _ (hostOps5_9_keeps main_arg9 (by decide))
    _ = W16 m ρ c (Proc.devRef .tc main_arg9) := StableHlo.after_of_forall_not_mem (b := Proc.devRef .tc main_arg9) _ _ (hostOps5_8_keeps main_arg9 (by decide))
    _ = W15 m ρ c (Proc.devRef .tc main_arg9) := StableHlo.after_of_forall_not_mem (b := Proc.devRef .tc main_arg9) _ _ (hostOps5_7_keeps main_arg9 (by decide))
    _ = W14 m ρ c (Proc.devRef .tc main_arg9) := StableHlo.after_of_forall_not_mem (b := Proc.devRef .tc main_arg9) _ _ (hostOps5_6_keeps main_arg9 (by decide))
    _ = W13 m ρ c (Proc.devRef .tc main_arg9) := StableHlo.after_of_forall_not_mem (b := Proc.devRef .tc main_arg9) _ _ (hostOps5_5_keeps main_arg9 (by decide))
    _ = W12 m ρ c (Proc.devRef .tc main_arg9) := StableHlo.after_of_forall_not_mem (b := Proc.devRef .tc main_arg9) _ _ (hostOps5_4_keeps main_arg9 (by decide))
    _ = W11 m ρ c (Proc.devRef .tc main_arg9) := StableHlo.after_of_forall_not_mem (b := Proc.devRef .tc main_arg9) _ _ (hostOps5_3_keeps main_arg9 (by decide))
    _ = W10 m ρ c (Proc.devRef .tc main_arg9) := StableHlo.after_of_forall_not_mem (b := Proc.devRef .tc main_arg9) _ _ (hostOps5_2_keeps main_arg9 (by decide))
    _ = W9 m ρ c (Proc.devRef .tc main_arg9) := StableHlo.after_of_forall_not_mem (b := Proc.devRef .tc main_arg9) _ _ (hostOps5_1_keeps main_arg9 (by decide))
    _ = W8 m ρ c (Proc.devRef .tc main_arg9) := StableHlo.after_of_forall_not_mem (b := Proc.devRef .tc main_arg9) _ _ (hostOps5_keeps main_arg9 (by decide))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (hostOps3_keeps main_arg9 (by decide))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (hostOps2_keeps main_arg9 (by decide))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c : Thread nD τ).loc main_arg9) := rfl
theorem W19_main_arg10 (c : Dev nD) : W19 m ρ c (Proc.devRef .tc main_arg10) = m ((c : Thread nD τ).loc main_arg10) :=
  calc W19 m ρ c (Proc.devRef .tc main_arg10)
    _ = W18 m ρ c (Proc.devRef .tc main_arg10) := StableHlo.after_of_forall_not_mem (b := Proc.devRef .tc main_arg10) _ _ (hostOps5_10_keeps main_arg10 (by decide))
    _ = W17 m ρ c (Proc.devRef .tc main_arg10) := StableHlo.after_of_forall_not_mem (b := Proc.devRef .tc main_arg10) _ _ (hostOps5_9_keeps main_arg10 (by decide))
    _ = W16 m ρ c (Proc.devRef .tc main_arg10) := StableHlo.after_of_forall_not_mem (b := Proc.devRef .tc main_arg10) _ _ (hostOps5_8_keeps main_arg10 (by decide))
    _ = W15 m ρ c (Proc.devRef .tc main_arg10) := StableHlo.after_of_forall_not_mem (b := Proc.devRef .tc main_arg10) _ _ (hostOps5_7_keeps main_arg10 (by decide))
    _ = W14 m ρ c (Proc.devRef .tc main_arg10) := StableHlo.after_of_forall_not_mem (b := Proc.devRef .tc main_arg10) _ _ (hostOps5_6_keeps main_arg10 (by decide))
    _ = W13 m ρ c (Proc.devRef .tc main_arg10) := StableHlo.after_of_forall_not_mem (b := Proc.devRef .tc main_arg10) _ _ (hostOps5_5_keeps main_arg10 (by decide))
    _ = W12 m ρ c (Proc.devRef .tc main_arg10) := StableHlo.after_of_forall_not_mem (b := Proc.devRef .tc main_arg10) _ _ (hostOps5_4_keeps main_arg10 (by decide))
    _ = W11 m ρ c (Proc.devRef .tc main_arg10) := StableHlo.after_of_forall_not_mem (b := Proc.devRef .tc main_arg10) _ _ (hostOps5_3_keeps main_arg10 (by decide))
    _ = W10 m ρ c (Proc.devRef .tc main_arg10) := StableHlo.after_of_forall_not_mem (b := Proc.devRef .tc main_arg10) _ _ (hostOps5_2_keeps main_arg10 (by decide))
    _ = W9 m ρ c (Proc.devRef .tc main_arg10) := StableHlo.after_of_forall_not_mem (b := Proc.devRef .tc main_arg10) _ _ (hostOps5_1_keeps main_arg10 (by decide))
    _ = W8 m ρ c (Proc.devRef .tc main_arg10) := StableHlo.after_of_forall_not_mem (b := Proc.devRef .tc main_arg10) _ _ (hostOps5_keeps main_arg10 (by decide))
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (hostOps3_keeps main_arg10 (by decide))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (hostOps2_keeps main_arg10 (by decide))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c : Thread nD τ).loc main_arg10) := rfl

/-! ## The proof data family and the thread state -/

/-- The prefetched tables' admissible contents: no pipeline has a table. -/
abbrev adm : (p : Fin 5) → (pcfgs (F := F) p).Adm := fun p => (cfgs p).toPCfg_adm
/-- Every pipeline's proof data, each at its product's entry contents. -/
def pdats : (p : Fin 5) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-! ## The products as segments -/

set_option backward.isDefEq.respectTransparency.types false in
/-- PRODUCT 0 over the thread state: entered from every unscoped buffer at `W1`, left at `W2`. Its arrays split out
    of the unscoped buffers and put back at the exit contents; the generator register and the scoped rest (the
    accumulator among it, at whatever it holds) into the invariant's first point and out of its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiIn0 c from Phi_first0 (V1 m ρ) c]; unfold PhiIn0 Pipeline.ΦA
    iintro ⟨Hp, -, Hr⟩
    isplitl [Hr]; · iexact Hr
    iexact Hp
  hout c := by
    rw [Pipeline.ownSems0_none]
    refine (show (pdats m ρ 0 c).Φ (Fin.last _) ⊢ PhiIn0 c from Phi_last0 (V1 m ρ) c).trans ?_
    unfold PhiIn0 Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 1 over the thread state: entered from every unscoped buffer at `W2`, left at `W3`. Its arrays split out
    of the unscoped buffers and put back at the exit contents; the generator register and the scoped rest (the
    accumulator among it, at whatever it holds) into the invariant's first point and out of its last; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiIn1 c from Phi_first1 (V2 m ρ) c]; unfold PhiIn1 Pipeline.ΦA
    iintro ⟨Hp, -, Hr⟩
    isplitl [Hr]; · iexact Hr
    iexact Hp
  hout c := by
    rw [Pipeline.ownSems0_none]
    refine (show (pdats m ρ 1 c).Φ (Fin.last _) ⊢ PhiIn1 c from Phi_last1 (V2 m ρ) c).trans ?_
    unfold PhiIn1 Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 2 over the thread state: entered from every unscoped buffer at `W4`, left at `W5`. Its arrays split out
    of the unscoped buffers and put back at the exit contents; the generator register and the scoped rest (the
    accumulator among it, at whatever it holds) into the invariant's first point and out of its last; nothing owed; no
    semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiIn2 c from Phi_first2 (V4 m ρ) c]; unfold PhiIn2 Pipeline.ΦA
    iintro ⟨Hp, -, Hr⟩
    isplitl [Hr]; · iexact Hr
    iexact Hp
  hout c := by
    rw [Pipeline.ownSems0_none]
    refine (show (pdats m ρ 2 c).Φ (Fin.last _) ⊢ PhiIn2 c from Phi_last2 (V4 m ρ) c).trans ?_
    unfold PhiIn2 Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 3 over the thread state: entered from every unscoped buffer at `W6`, left at `W7`. Its arrays split out
    of the unscoped buffers and put back at the exit contents; the generator register and the scoped rest (the
    accumulator among it, at whatever it holds) into the invariant's first point and out of its last; nothing owed; no
    semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = PhiIn3 c from Phi_first3 (V6 m ρ) c]; unfold PhiIn3 Pipeline.ΦA
    iintro ⟨Hp, -, Hr⟩
    isplitl [Hr]; · iexact Hr
    iexact Hp
  hout c := by
    rw [Pipeline.ownSems0_none]
    refine (show (pdats m ρ 3 c).Φ (Fin.last _) ⊢ PhiIn3 c from Phi_last3 (V6 m ρ) c).trans ?_
    unfold PhiIn3 Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PRODUCT 4 over the thread state: entered from every unscoped buffer at `W7`, left at `W8`. Its arrays split out
    of the unscoped buffers and put back at the exit contents; the generator register and the scoped rest (the
    accumulator among it, at whatever it holds) into the invariant's first point and out of its last; nothing owed; no
    semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = PhiIn4 c from Phi_first4 (V7 m ρ) c]; unfold PhiIn4 Pipeline.ΦA
    iintro ⟨Hp, -, Hr⟩
    isplitl [Hr]; · iexact Hr
    iexact Hp
  hout c := by
    rw [Pipeline.ownSems0_none]
    refine (show (pdats m ρ 4 c).Φ (Fin.last _) ⊢ PhiIn4 c from Phi_last4 (V7 m ρ) c).trans ?_
    unfold PhiIn4 Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per product. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .host (hseg hostOps5_1 hostOps5_1_sub hostOps5_1_fresh (W9 m ρ)),
    .host (hseg hostOps5_2 hostOps5_2_sub hostOps5_2_fresh (W10 m ρ)),
    .host (hseg hostOps5_3 hostOps5_3_sub hostOps5_3_fresh (W11 m ρ)),
    .host (hseg hostOps5_4 hostOps5_4_sub hostOps5_4_fresh (W12 m ρ)),
    .host (hseg hostOps5_5 hostOps5_5_sub hostOps5_5_fresh (W13 m ρ)),
    .host (hseg hostOps5_6 hostOps5_6_sub hostOps5_6_fresh (W14 m ρ)),
    .host (hseg hostOps5_7 hostOps5_7_sub hostOps5_7_fresh (W15 m ρ)),
    .host (hseg hostOps5_8 hostOps5_8_sub hostOps5_8_fresh (W16 m ρ)),
    .host (hseg hostOps5_9 hostOps5_9_sub hostOps5_9_fresh (W17 m ρ)),
    .host (hseg hostOps5_10 hostOps5_10_sub hostOps5_10_fresh (W18 m ρ)) ]
/-- @main is the run of the segments: the chain of its items, then the segments' run against that chain by
    definitional unfolding. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the fold's last contents
    and the argument arrays as launched. -/
theorem run_main : θ_run defs (onTc (τ := τ) (main (F := F))) ⟨m, fun _ => 0, ρ⟩ (fun r => ∀ c : Dev nD,
      r.2.mem ((c.tc : Thread nD τ).loc main_v179) = W19 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v179 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.Kernel.Hand

end
-- ==== Proof.RI.Ops.lean ====
/- The reference program's host operations in named stretches, cut at its five matrix products.

   @main's operations in order, the calls of its local functions unfolded at their call sites over the
   buffers each call owns. The five matrix products stand alone as one-operation lists; between them lie
   the pointwise, reduction, gather and scatter stretches. The stretch after the last product is also
   given in three consecutive parts. -/
import proofs.«166874_j54296976556804_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 of the 278 — %0 … %3: the broadcast of the second scale row, the quotient of the item factors by it, and the transpose of the user factors — everything before the first product. -/
abbrev opsA : List (HloOp τ sig (Elt F)) :=
  [ StableHlo.unary main_arg10 main_v0 (broadcastInDim S1x256 ![1] bcast_S256_S1x256_1 : (⟨S256, .f32⟩ : BufTy).Contents (Elt F) → (⟨S1x256, .f32⟩ : BufTy).Contents (Elt F)),
    StableHlo.unary main_v0 main_v1 (broadcastInDim S4096x256 ![0, 1] bcast_S1x256_S4096x256_0_1 : (⟨S1x256, .f32⟩ : BufTy).Contents (Elt F) → (⟨S4096x256, .f32⟩ : BufTy).Contents (Elt F)),
    StableHlo.binary main_arg5 main_v1 main_v2 (Host.divf : (⟨S4096x256, .f32⟩ : BufTy).Contents (Elt F) → (⟨S4096x256, .f32⟩ : BufTy).Contents (Elt F) → (⟨S4096x256, .f32⟩ : BufTy).Contents (Elt F)),
    StableHlo.unary main_arg4 main_v3 ((transpose S256x8192 [1, 0] · transposes_S8192x256_S256x8192_1_0) : (⟨S8192x256, .f32⟩ : BufTy).Contents (Elt F) → (⟨S256x8192, .f32⟩ : BufTy).Contents (Elt F)) ]

/-- Operations 5 … 5 of the 278 — %4: the first matrix product (scaled item factors by the transposed user factors). -/
abbrev opsDot4 : List (HloOp τ sig (Elt F)) :=
  [ StableHlo.binary main_v2 main_v3 main_v4 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)) ]

/-- Operations 6 … 6 of the 278 — %5: the second matrix product (the first argument by %4), 8192 columns wide. -/
abbrev opsDot5 : List (HloOp τ sig (Elt F)) :=
  [ StableHlo.binary main_arg0 main_v4 main_v5 ((fun l r => Host.dotGeneral dot_S8192x4096_S4096x8192_S8192x8192_1_0_0_1_n_n none l r) : (⟨S8192x4096, .f32⟩ : BufTy).Contents (Elt F) → (⟨S4096x8192, .f32⟩ : BufTy).Contents (Elt F) → (⟨S8192x8192, .f32⟩ : BufTy).Contents (Elt F)) ]

/-- Operations 7 … 69 of the 278 — %cst … %55: the column-wise minimum and sum normalisation of %5, the two segment sums of gathered factor rows, and the smoothed and rescaled factors, up to the transpose that feeds the next product. -/
abbrev opsB : List (HloOp τ sig (Elt F)) :=
  [ StableHlo.nullary main_cst (constant S_ .f32 0x7F800000#32),
    StableHlo.binary main_v5 main_cst main_v6 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.unary main_v6 main_v7 (broadcastInDim S1x8192 ![1] bcast_S8192_S1x8192_1 : (⟨S8192, .f32⟩ : BufTy).Contents (Elt F) → (⟨S1x8192, .f32⟩ : BufTy).Contents (Elt F)),
    StableHlo.unary main_v7 main_v8 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v8 main_v9 (subf : (⟨S8192x8192, .f32⟩ : BufTy).Contents (Elt F) → (⟨S8192x8192, .f32⟩ : BufTy).Contents (Elt F) → (⟨S8192x8192, .f32⟩ : BufTy).Contents (Elt F)),
    StableHlo.nullary main_cst_0 (constant S_ .f32 0x322BCC77#32),
    StableHlo.unary main_cst_0 main_v10 (broadcastInDim S8192x8192 ![] bcast_S_S8192x8192 : (⟨S_, .f32⟩ : BufTy).Contents (Elt F) → (⟨S8192x8192, .f32⟩ : BufTy).Contents (Elt F)),
    StableHlo.binary main_v9 main_v10 main_v11 (addf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.binary main_v11 main_cst_1 main_v12 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.unary main_v12 main_v13 (broadcastInDim S1x8192 ![1] bcast_S8192_S1x8192_1 : (⟨S8192, .f32⟩ : BufTy).Contents (Elt F) → (⟨S1x8192, .f32⟩ : BufTy).Contents (Elt F)),
    StableHlo.unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v11 main_v14 main_v15 (Host.divf : (⟨S8192x8192, .f32⟩ : BufTy).Contents (Elt F) → (⟨S8192x8192, .f32⟩ : BufTy).Contents (Elt F) → (⟨S8192x8192, .f32⟩ : BufTy).Contents (Elt F)),
    StableHlo.unary main_arg8 main_v16 (broadcastInDim S409600x1 ![0] bcast_S409600_S409600x1_0 : (⟨S409600, .f32⟩ : BufTy).Contents (Elt F) → (⟨S409600x1, .f32⟩ : BufTy).Contents (Elt F)),
    StableHlo.nullary main_c (constantI S_ 32 0#32),
    StableHlo.unary main_c main_v17 (broadcastInDim S409600 ![] bcast_S_S409600 : (⟨S_, .i32⟩ : BufTy).Contents (Elt F) → (⟨S409600, .i32⟩ : BufTy).Contents (Elt F)),
    StableHlo.binary main_arg6 main_v17 main_v18 (cmpi .slt : (⟨S409600, .i32⟩ : BufTy).Contents (Elt F) → (⟨S409600, .i32⟩ : BufTy).Contents (Elt F) → (⟨S409600, .i1⟩ : BufTy).Contents (Elt F)),
    StableHlo.nullary main_c_2 (constantI S_ 32 8192#32),
    StableHlo.unary main_c_2 main_v19 (broadcastInDim S409600 ![] bcast_S_S409600 : (⟨S_, .i32⟩ : BufTy).Contents (Elt F) → (⟨S409600, .i32⟩ : BufTy).Contents (Elt F)),
    StableHlo.binary main_arg6 main_v19 main_v20 (addi : (⟨S409600, .i32⟩ : BufTy).Contents (Elt F) → (⟨S409600, .i32⟩ : BufTy).Contents (Elt F) → (⟨S409600, .i32⟩ : BufTy).Contents (Elt F)),
    StableHlo.ternary main_v18 main_v20 main_arg6 main_v21 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v21 main_v22 (broadcastInDim S409600x1 ![0] bcast_S409600_S409600x1_0 : (⟨S409600, .i32⟩ : BufTy).Contents (Elt F) → (⟨S409600x1, .i32⟩ : BufTy).Contents (Elt F)),
    StableHlo.binary main_arg2 main_v22 main_v23 ((fun x i => Host.gather gather_S8192x256_S409600x1_S409600x256_1_0_n_n_0_1_1256 x i) : (⟨S8192x256, .f32⟩ : BufTy).Contents (Elt F) → (⟨S409600x1, .i32⟩ : BufTy).Contents (Elt F) → (⟨S409600x256, .f32⟩ : BufTy).Contents (Elt F)),
    StableHlo.unary main_v16 main_v24 (broadcastInDim S409600x256 ![0, 1] bcast_S409600x1_S409600x256_0_1 : (⟨S409600x1, .f32⟩ : BufTy).Contents (Elt F) → (⟨S409600x256, .f32⟩ : BufTy).Contents (Elt F)),
    StableHlo.binary main_v24 main_v23 main_v25 (mulf : (⟨S409600x256, .f32⟩ : BufTy).Contents (Elt F) → (⟨S409600x256, .f32⟩ : BufTy).Contents (Elt F) → (⟨S409600x256, .f32⟩ : BufTy).Contents (Elt F)),
    StableHlo.nullary main_cst_3 (constant S_ .f32 0x00000000#32),
    StableHlo.unary main_cst_3 main_v26 (broadcastInDim S4096x256 ![] bcast_S_S4096x256 : (⟨S_, .f32⟩ : BufTy).Contents (Elt F) → (⟨S4096x256, .f32⟩ : BufTy).Contents (Elt F)),
    StableHlo.unary main_arg7 main_v27 (broadcastInDim S409600x1 ![0] bcast_S409600_S409600x1_0 : (⟨S409600, .i32⟩ : BufTy).Contents (Elt F) → (⟨S409600x1, .i32⟩ : BufTy).Contents (Elt F)),
    StableHlo.ternary main_v26 main_v27 main_v25 main_v28 ((fun x i u => Host.scatterAdd scatter_S4096x256_S409600x1_S409600x256_1_0_0_1 x i u) : (⟨S4096x256, .f32⟩ : BufTy).Contents (Elt F) → (⟨S409600x1, .i32⟩ : BufTy).Contents (Elt F) → (⟨S409600x256, .f32⟩ : BufTy).Contents (Elt F) → (⟨S4096x256, .f32⟩ : BufTy).Contents (Elt F)),
    StableHlo.nullary main_cst_4 (constant S_ .f32 0x45B504F3#32),
    StableHlo.unary main_cst_4 main_v29 (broadcastInDim S4096x256 ![] bcast_S_S4096x256 : (⟨S_, .f32⟩ : BufTy).Contents (Elt F) → (⟨S4096x256, .f32⟩ : BufTy).Contents (Elt F)),
    StableHlo.binary main_v28 main_v29 main_v30 (Host.divf : (⟨S4096x256, .f32⟩ : BufTy).Contents (Elt F) → (⟨S4096x256, .f32⟩ : BufTy).Contents (Elt F) → (⟨S4096x256, .f32⟩ : BufTy).Contents (Elt F)),
    StableHlo.unary main_arg8 main_v31 (broadcastInDim S409600x1 ![0] bcast_S409600_S409600x1_0 : (⟨S409600, .f32⟩ : BufTy).Contents (Elt F) → (⟨S409600x1, .f32⟩ : BufTy).Contents (Elt F)),
    StableHlo.nullary main_c_5 (constantI S_ 32 0#32),
    StableHlo.unary main_c_5 main_v32 (broadcastInDim S409600 ![] bcast_S_S409600 : (⟨S_, .i32⟩ : BufTy).Contents (Elt F) → (⟨S409600, .i32⟩ : BufTy).Contents (Elt F)),
    StableHlo.binary main_arg7 main_v32 main_v33 (cmpi .slt : (⟨S409600, .i32⟩ : BufTy).Contents (Elt F) → (⟨S409600, .i32⟩ : BufTy).Contents (Elt F) → (⟨S409600, .i1⟩ : BufTy).Contents (Elt F)),
    StableHlo.nullary main_c_6 (constantI S_ 32 4096#32),
    StableHlo.unary main_c_6 main_v34 (broadcastInDim S409600 ![] bcast_S_S409600 : (⟨S_, .i32⟩ : BufTy).Contents (Elt F) → (⟨S409600, .i32⟩ : BufTy).Contents (Elt F)),
    StableHlo.binary main_arg7 main_v34 main_v35 (addi : (⟨S409600, .i32⟩ : BufTy).Contents (Elt F) → (⟨S409600, .i32⟩ : BufTy).Contents (Elt F) → (⟨S409600, .i32⟩ : BufTy).Contents (Elt F)),
    StableHlo.ternary main_v33 main_v35 main_arg7 main_v36 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v36 main_v37 (broadcastInDim S409600x1 ![0] bcast_S409600_S409600x1_0 : (⟨S409600, .i32⟩ : BufTy).Contents (Elt F) → (⟨S409600x1, .i32⟩ : BufTy).Contents (Elt F)),
    StableHlo.binary main_arg3 main_v37 main_v38 ((fun x i => Host.gather gather_S4096x256_S409600x1_S409600x256_1_0_n_n_0_1_1256 x i) : (⟨S4096x256, .f32⟩ : BufTy).Contents (Elt F) → (⟨S409600x1, .i32⟩ : BufTy).Contents (Elt F) → (⟨S409600x256, .f32⟩ : BufTy).Contents (Elt F)),
    StableHlo.unary main_v31 main_v39 (broadcastInDim S409600x256 ![0, 1] bcast_S409600x1_S409600x256_0_1 : (⟨S409600x1, .f32⟩ : BufTy).Contents (Elt F) → (⟨S409600x256, .f32⟩ : BufTy).Contents (Elt F)),
    StableHlo.binary main_v39 main_v38 main_v40 (mulf : (⟨S409600x256, .f32⟩ : BufTy).Contents (Elt F) → (⟨S409600x256, .f32⟩ : BufTy).Contents (Elt F) → (⟨S409600x256, .f32⟩ : BufTy).Contents (Elt F)),
    StableHlo.nullary main_cst_7 (constant S_ .f32 0x00000000#32),
    StableHlo.unary main_cst_7 main_v41 (broadcastInDim S8192x256 ![] bcast_S_S8192x256 : (⟨S_, .f32⟩ : BufTy).Contents (Elt F) → (⟨S8192x256, .f32⟩ : BufTy).Contents (Elt F)),
    StableHlo.unary main_arg6 main_v42 (broadcastInDim S409600x1 ![0] bcast_S409600_S409600x1_0 : (⟨S409600, .i32⟩ : BufTy).Contents (Elt F) → (⟨S409600x1, .i32⟩ : BufTy).Contents (Elt F)),
    StableHlo.ternary main_v41 main_v42 main_v40 main_v43 ((fun x i u => Host.scatterAdd scatter_S8192x256_S409600x1_S409600x256_1_0_0_1 x i u) : (⟨S8192x256, .f32⟩ : BufTy).Contents (Elt F) → (⟨S409600x1, .i32⟩ : BufTy).Contents (Elt F) → (⟨S409600x256, .f32⟩ : BufTy).Contents (Elt F) → (⟨S8192x256, .f32⟩ : BufTy).Contents (Elt F)),
    StableHlo.nullary main_cst_8 (constant S_ .f32 0x45B504F3#32),
    StableHlo.unary main_cst_8 main_v44 (broadcastInDim S8192x256 ![] bcast_S_S8192x256 : (⟨S_, .f32⟩ : BufTy).Contents (Elt F) → (⟨S8192x256, .f32⟩ : BufTy).Contents (Elt F)),
    StableHlo.binary main_v43 main_v44 main_v45 (Host.divf : (⟨S8192x256, .f32⟩ : BufTy).Contents (Elt F) → (⟨S8192x256, .f32⟩ : BufTy).Contents (Elt F) → (⟨S8192x256, .f32⟩ : BufTy).Contents (Elt F)),
    StableHlo.binary main_v30 main_arg3 main_v46 (addf : (⟨S4096x256, .f32⟩ : BufTy).Contents (Elt F) → (⟨S4096x256, .f32⟩ : BufTy).Contents (Elt F) → (⟨S4096x256, .f32⟩ : BufTy).Contents (Elt F)),
    StableHlo.nullary main_cst_9 (constant S_ .f32 0x3F000000#32),
    StableHlo.unary main_cst_9 main_v47 (broadcastInDim S4096x256 ![] bcast_S_S4096x256 : (⟨S_, .f32⟩ : BufTy).Contents (Elt F) → (⟨S4096x256, .f32⟩ : BufTy).Contents (Elt F)),
    StableHlo.binary main_v46 main_v47 main_v48 (mulf : (⟨S4096x256, .f32⟩ : BufTy).Contents (Elt F) → (⟨S4096x256, .f32⟩ : BufTy).Contents (Elt F) → (⟨S4096x256, .f32⟩ : BufTy).Contents (Elt F)),
    StableHlo.binary main_v45 main_arg2 main_v49 (addf : (⟨S8192x256, .f32⟩ : BufTy).Contents (Elt F) → (⟨S8192x256, .f32⟩ : BufTy).Contents (Elt F) → (⟨S8192x256, .f32⟩ : BufTy).Contents (Elt F)),
    StableHlo.nullary main_cst_10 (constant S_ .f32 0x3F000000#32),
    StableHlo.unary main_cst_10 main_v50 (broadcastInDim S8192x256 ![] bcast_S_S8192x256 : (⟨S_, .f32⟩ : BufTy).Contents (Elt F) → (⟨S8192x256, .f32⟩ : BufTy).Contents (Elt F)),
    StableHlo.binary main_v49 main_v50 main_v51 (mulf : (⟨S8192x256, .f32⟩ : BufTy).Contents (Elt F) → (⟨S8192x256, .f32⟩ : BufTy).Contents (Elt F) → (⟨S8192x256, .f32⟩ : BufTy).Contents (Elt F)),
    StableHlo.unary main_arg9 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S4096x256 ![0, 1] bcast_S1x256_S4096x256_0_1 : (⟨S1x256, .f32⟩ : BufTy).Contents (Elt F) → (⟨S4096x256, .f32⟩ : BufTy).Contents (Elt F)),
    StableHlo.binary main_v48 main_v53 main_v54 (Host.divf : (⟨S4096x256, .f32⟩ : BufTy).Contents (Elt F) → (⟨S4096x256, .f32⟩ : BufTy).Contents (Elt F) → (⟨S4096x256, .f32⟩ : BufTy).Contents (Elt F)),
    StableHlo.unary main_v51 main_v55 ((transpose S256x8192 [1, 0] · transposes_S8192x256_S256x8192_1_0) : (⟨S8192x256, .f32⟩ : BufTy).Contents (Elt F) → (⟨S256x8192, .f32⟩ : BufTy).Contents (Elt F)) ]

/-- Operations 70 … 70 of the 278 — %56: the third matrix product (smoothed item factors by the transposed smoothed user factors). -/
abbrev opsDot56 : List (HloOp τ sig (Elt F)) :=
  [ StableHlo.binary main_v54 main_v55 main_v56 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)) ]

/-- Operations 71 … 90 of the 278 — %cst_11 … %71: the index normalisation of the two coordinate vectors and the dense scatter-add of the values at them. -/
abbrev opsC : List (HloOp τ sig (Elt F)) :=
  [ StableHlo.nullary main_cst_11 (constant S_ .f32 0x00000000#32),
    StableHlo.unary main_cst_11 main_v57 (broadcastInDim S8192x4096 ![] bcast_S_S8192x4096 : (⟨S_, .f32⟩ : BufTy).Contents (Elt F) → (⟨S8192x4096, .f32⟩ : BufTy).Contents (Elt F)),
    StableHlo.nullary main_c_12 (constantI S_ 32 0#32),
    StableHlo.unary main_c_12 main_v58 (broadcastInDim S409600 ![] bcast_S_S409600 : (⟨S_, .i32⟩ : BufTy).Contents (Elt F) → (⟨S409600, .i32⟩ : BufTy).Contents (Elt F)),
    StableHlo.binary main_arg6 main_v58 main_v59 (cmpi .slt : (⟨S409600, .i32⟩ : BufTy).Contents (Elt F) → (⟨S409600, .i32⟩ : BufTy).Contents (Elt F) → (⟨S409600, .i1⟩ : BufTy).Contents (Elt F)),
    StableHlo.nullary main_c_13 (constantI S_ 32 8192#32),
    StableHlo.unary main_c_13 main_v60 (broadcastInDim S409600 ![] bcast_S_S409600 : (⟨S_, .i32⟩ : BufTy).Contents (Elt F) → (⟨S409600, .i32⟩ : BufTy).Contents (Elt F)),
    StableHlo.binary main_arg6 main_v60 main_v61 (addi : (⟨S409600, .i32⟩ : BufTy).Contents (Elt F) → (⟨S409600, .i32⟩ : BufTy).Contents (Elt F) → (⟨S409600, .i32⟩ : BufTy).Contents (Elt F)),
    StableHlo.ternary main_v59 main_v61 main_arg6 main_v62 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.nullary main_c_14 (constantI S_ 32 0#32),
    StableHlo.unary main_c_14 main_v63 (broadcastInDim S409600 ![] bcast_S_S409600 : (⟨S_, .i32⟩ : BufTy).Contents (Elt F) → (⟨S409600, .i32⟩ : BufTy).Contents (Elt F)),
    StableHlo.binary main_arg7 main_v63 main_v64 (cmpi .slt : (⟨S409600, .i32⟩ : BufTy).Contents (Elt F) → (⟨S409600, .i32⟩ : BufTy).Contents (Elt F) → (⟨S409600, .i1⟩ : BufTy).Contents (Elt F)),
    StableHlo.nullary main_c_15 (constantI S_ 32 4096#32),
    StableHlo.unary main_c_15 main_v65 (broadcastInDim S409600 ![] bcast_S_S409600 : (⟨S_, .i32⟩ : BufTy).Contents (Elt F) → (⟨S409600, .i32⟩ : BufTy).Contents (Elt F)),
    StableHlo.binary main_arg7 main_v65 main_v66 (addi : (⟨S409600, .i32⟩ : BufTy).Contents (Elt F) → (⟨S409600, .i32⟩ : BufTy).Contents (Elt F) → (⟨S409600, .i32⟩ : BufTy).Contents (Elt F)),
    StableHlo.ternary main_v64 main_v66 main_arg7 main_v67 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    StableHlo.unary main_v62 main_v68 (broadcastInDim S409600x1 ![0] bcast_S409600_S409600x1_0 : (⟨S409600, .i32⟩ : BufTy).Contents (Elt F) → (⟨S409600x1, .i32⟩ : BufTy).Contents (Elt F)),
    StableHlo.unary main_v67 main_v69 (broadcastInDim S409600x1 ![0] bcast_S409600_S409600x1_0 : (⟨S409600, .i32⟩ : BufTy).Contents (Elt F) → (⟨S409600x1, .i32⟩ : BufTy).Contents (Elt F)),
    StableHlo.binary main_v68 main_v69 main_v70 ((fun a b => concatenate S409600x2 1 [⟨S409600x1, a⟩, ⟨S409600x1, b⟩] concatenates_S409600x1_S409600x1_S409600x2_d1) : (⟨S409600x1, .i32⟩ : BufTy).Contents (Elt F) → (⟨S409600x1, .i32⟩ : BufTy).Contents (Elt F) → (⟨S409600x2, .i32⟩ : BufTy).Contents (Elt F)),
    StableHlo.ternary main_v57 main_v70 main_arg8 main_v71 ((fun x i u => Host.scatterAdd scatter_S8192x4096_S409600x2_S409600_n_01_01_1 x i u) : (⟨S8192x4096, .f32⟩ : BufTy).Contents (Elt F) → (⟨S409600x2, .i32⟩ : BufTy).Contents (Elt F) → (⟨S409600, .f32⟩ : BufTy).Contents (Elt F) → (⟨S8192x4096, .f32⟩ : BufTy).Contents (Elt F)) ]

/-- Operations 91 … 91 of the 278 — %72: the fourth matrix product (%56 by the dense scatter). -/
abbrev opsDot72 : List (HloOp τ sig (Elt F)) :=
  [ StableHlo.binary main_v56 main_v71 main_v72 ((fun l r => Host.dotGeneral dot_S4096x8192_S8192x4096_S4096x4096_1_0_0_1_n_n none l r) : (⟨S4096x8192, .f32⟩ : BufTy).Contents (Elt F) → (⟨S8192x4096, .f32⟩ : BufTy).Contents (Elt F) → (⟨S4096x4096, .f32⟩ : BufTy).Contents (Elt F)) ]

/-- Operations 92 … 92 of the 278 — %73: the fifth matrix product (the second argument by %72). -/
abbrev opsDot73 : List (HloOp τ sig (Elt F)) :=
  [ StableHlo.binary main_arg1 main_v72 main_v73 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) ]

/-- Operations 93 … 278 of the 278 — everything after %73, to the result %178. -/
abbrev opsD : List (HloOp τ sig (Elt F)) :=
  [ StableHlo.nullary main_cst_16 (constant S_ .f32 0x3F800000#32),
    StableHlo.unary main_cst_16 main_v74 (broadcastInDim S409600 ![] bcast_S_S409600 : (⟨S_, .f32⟩ : BufTy).Contents (Elt F) → (⟨S409600, .f32⟩ : BufTy).Contents (Elt F)),
    StableHlo.nullary main_cst_17 (constant S_ .f32 0x00000000#32),
    StableHlo.unary main_cst_17 main_v75 (broadcastInDim S8192 ![] bcast_S_S8192 : (⟨S_, .f32⟩ : BufTy).Contents (Elt F) → (⟨S8192, .f32⟩ : BufTy).Contents (Elt F)),
    StableHlo.unary main_arg6 main_v76 (broadcastInDim S409600x1 ![0] bcast_S409600_S409600x1_0 : (⟨S409600, .i32⟩ : BufTy).Contents (Elt F) → (⟨S409600x1, .i32⟩ : BufTy).Contents (Elt F)),
    StableHlo.ternary main_v75 main_v76 main_v74 main_v77 ((fun x i u => Host.scatterAdd scatter_S8192_S409600x1_S409600_n_0_0_1 x i u) : (⟨S8192, .f32⟩ : BufTy).Contents (Elt F) → (⟨S409600x1, .i32⟩ : BufTy).Contents (Elt F) → (⟨S409600, .f32⟩ : BufTy).Contents (Elt F) → (⟨S8192, .f32⟩ : BufTy).Contents (Elt F)),
    StableHlo.nullary main_cst_18 (constant S_ .f32 0x00000000#32),
    StableHlo.unary main_cst_18 main_v78 (broadcastInDim S8192 ![] bcast_S_S8192 : (⟨S_, .f32⟩ : BufTy).Contents (Elt F) → (⟨S8192, .f32⟩ : BufTy).Contents (Elt F)),
    StableHlo.binary main_v77 main_v78 main_v79 (cmpf .ogt : (⟨S8192, .f32⟩ : BufTy).Contents (Elt F) → (⟨S8192, .f32⟩ : BufTy).Contents (Elt F) → (⟨S8192, .i1⟩ : BufTy).Contents (Elt F)),
    StableHlo.nullary main_c_19 (constantI S_ 32 409600#32),
    StableHlo.unary main_c_19 main_v80 (broadcastInDim S409600 ![] bcast_S_S409600 : (⟨S_, .i32⟩ : BufTy).Contents (Elt F) → (⟨S409600, .i32⟩ : BufTy).Contents (Elt F)),
    StableHlo.binary main_arg7 main_v80 main_v81 (muli : (⟨S409600, .i32⟩ : BufTy).Contents (Elt F) → (⟨S409600, .i32⟩ : BufTy).Contents (Elt F) → (⟨S409600, .i32⟩ : BufTy).Contents (Elt F)),
    StableHlo.nullary main_v82 (iotaInDim S409600 32 0),
    StableHlo.binary main_v81 main_v82 main_v83 (addi : (⟨S409600, .i32⟩ : BufTy).Contents (Elt F) → (⟨S409600, .i32⟩ : BufTy).Contents (Elt F) → (⟨S409600, .i32⟩ : BufTy).Contents (Elt F)),
    StableHlo.nullary main_c_20 (constantI S_ 32 2147483647#32),
    StableHlo.unary main_c_20 main_v84 (broadcastInDim S8192 ![] bcast_S_S8192 : (⟨S_, .i32⟩ : BufTy).Contents (Elt F) → (⟨S8192, .i32⟩ : BufTy).Contents (Elt F)),
    StableHlo.unary main_arg6 main_v85 (broadcastInDim S409600x1 ![0] bcast_S409600_S409600x1_0 : (⟨S409600, .i32⟩ : BufTy).Contents (Elt F) → (⟨S409600x1, .i32⟩ : BufTy).Contents (Elt F)),
    StableHlo.ternary main_v84 main_v85 main_v83 main_v86 ((fun x i u => Host.scatter scatter_S8192_S409600x1_S409600_n_0_0_1 IntOp.minsi x i u) : (⟨S8192, .i32⟩ : BufTy).Contents (Elt F) → (⟨S409600x1, .i32⟩ : BufTy).Contents (Elt F) → (⟨S409600, .i32⟩ : BufTy).Contents (Elt F) → (⟨S8192, .i32⟩ : BufTy).Contents (Elt F)),
    StableHlo.nullary main_c_21 (constantI S_ 32 409600#32),
    StableHlo.TRef.unary (StableHlo.TRef.of main_c_21 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (StableHlo.TRef.of main_v86 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_22 (constantI S_ 32 0#32),
    StableHlo.TRef.unary (StableHlo.TRef.of main_c_22 : StableHlo.TRef sig ⟨S_, .i32⟩) main_call1.v0 id,
    StableHlo.TRef.unary main_call1.v0 main_call1.v1 (broadcastInDim S8192 ![] bcast_S_S8192),
    StableHlo.TRef.ternary (StableHlo.TRef.of main_v79 : StableHlo.TRef sig ⟨S8192, .i1⟩) (StableHlo.TRef.of main_v87 : StableHlo.TRef sig ⟨S8192, .i32⟩) main_call1.v1 main_call1.v2 select,
    StableHlo.nullary main_c_23 (constantI S_ 32 0#32),
    StableHlo.unary main_c_23 main_v89 (broadcastInDim S8192 ![] bcast_S_S8192 : (⟨S_, .i32⟩ : BufTy).Contents (Elt F) → (⟨S8192, .i32⟩ : BufTy).Contents (Elt F)),
    StableHlo.binary main_v88 main_v89 main_v90 (cmpi .slt : (⟨S8192, .i32⟩ : BufTy).Contents (Elt F) → (⟨S8192, .i32⟩ : BufTy).Contents (Elt F) → (⟨S8192, .i1⟩ : BufTy).Contents (Elt F)),
    StableHlo.nullary main_c_24 (constantI S_ 32 409600#32),
    StableHlo.unary main_c_24 main_v91 (broadcastInDim S8192 ![] bcast_S_S8192 : (⟨S_, .i32⟩ : BufTy).Contents (Elt F) → (⟨S8192, .i32⟩ : BufTy).Contents (Elt F)),
    StableHlo.binary main_v88 main_v91 main_v92 (addi : (⟨S8192, .i32⟩ : BufTy).Contents (Elt F) → (⟨S8192, .i32⟩ : BufTy).Contents (Elt F) → (⟨S8192, .i32⟩ : BufTy).Contents (Elt F)),
    StableHlo.ternary main_v90 main_v92 main_v88 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v93 main_v94 (broadcastInDim S8192x1 ![0] bcast_S8192_S8192x1_0 : (⟨S8192, .i32⟩ : BufTy).Contents (Elt F) → (⟨S8192x1, .i32⟩ : BufTy).Contents (Elt F)),
    StableHlo.binary main_arg7 main_v94 main_v95 ((fun x i => Host.gather gather_S409600_S8192x1_S8192_n_0_n_n_0_1_1 x i) : (⟨S409600, .i32⟩ : BufTy).Contents (Elt F) → (⟨S8192x1, .i32⟩ : BufTy).Contents (Elt F) → (⟨S8192, .i32⟩ : BufTy).Contents (Elt F)),
    StableHlo.nullary main_c_25 (constantI S_ 32 0#32),
    StableHlo.unary main_c_25 main_v96 (broadcastInDim S8192 ![] bcast_S_S8192 : (⟨S_, .i32⟩ : BufTy).Contents (Elt F) → (⟨S8192, .i32⟩ : BufTy).Contents (Elt F)),
    StableHlo.binary main_v88 main_v96 main_v97 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 409600#32),
    StableHlo.unary main_c_26 main_v98 (broadcastInDim S8192 ![] bcast_S_S8192 : (⟨S_, .i32⟩ : BufTy).Contents (Elt F) → (⟨S8192, .i32⟩ : BufTy).Contents (Elt F)),
    StableHlo.binary main_v88 main_v98 main_v99 (addi : (⟨S8192, .i32⟩ : BufTy).Contents (Elt F) → (⟨S8192, .i32⟩ : BufTy).Contents (Elt F) → (⟨S8192, .i32⟩ : BufTy).Contents (Elt F)),
    StableHlo.ternary main_v97 main_v99 main_v88 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v100 main_v101 (broadcastInDim S8192x1 ![0] bcast_S8192_S8192x1_0 : (⟨S8192, .i32⟩ : BufTy).Contents (Elt F) → (⟨S8192x1, .i32⟩ : BufTy).Contents (Elt F)),
    StableHlo.binary main_arg8 main_v101 main_v102 ((fun x i => Host.gather gather_S409600_S8192x1_S8192_n_0_n_n_0_1_1 x i) : (⟨S409600, .f32⟩ : BufTy).Contents (Elt F) → (⟨S8192x1, .i32⟩ : BufTy).Contents (Elt F) → (⟨S8192, .f32⟩ : BufTy).Contents (Elt F)),
    StableHlo.nullary main_c_27 (constantI S_ 32 1#32),
    StableHlo.unary main_c_27 main_v103 (broadcastInDim S8192 ![] bcast_S_S8192 : (⟨S_, .i32⟩ : BufTy).Contents (Elt F) → (⟨S8192, .i32⟩ : BufTy).Contents (Elt F)),
    StableHlo.binary main_v95 main_v103 main_v104 (addi : (⟨S8192, .i32⟩ : BufTy).Contents (Elt F) → (⟨S8192, .i32⟩ : BufTy).Contents (Elt F) → (⟨S8192, .i32⟩ : BufTy).Contents (Elt F)),
    StableHlo.nullary main_c_28 (constantI S_ 32 4096#32),
    StableHlo.TRef.unary (StableHlo.TRef.of main_c_28 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (StableHlo.TRef.of main_v104 : StableHlo.TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_v106 (iotaInDim S8192 32 0),
    StableHlo.nullary main_cst_29 (constant S_ .f32 0x00000000#32),
    StableHlo.unary main_cst_29 main_v107 (broadcastInDim S8192 ![] bcast_S_S8192 : (⟨S_, .f32⟩ : BufTy).Contents (Elt F) → (⟨S8192, .f32⟩ : BufTy).Contents (Elt F)),
    StableHlo.binary main_v102 main_v107 main_v108 (cmpf .oeq : (⟨S8192, .f32⟩ : BufTy).Contents (Elt F) → (⟨S8192, .f32⟩ : BufTy).Contents (Elt F) → (⟨S8192, .i1⟩ : BufTy).Contents (Elt F)),
    StableHlo.nullary main_cst_30 (constant S_ .f32 0x3727C5AC#32),
    StableHlo.TRef.unary (StableHlo.TRef.of main_cst_30 : StableHlo.TRef sig ⟨S_, .f32⟩) main_call3.v0 id,
    StableHlo.TRef.unary main_call3.v0 main_call3.v1 (broadcastInDim S8192 ![] bcast_S_S8192),
    StableHlo.TRef.ternary (StableHlo.TRef.of main_v108 : StableHlo.TRef sig ⟨S8192, .i1⟩) main_call3.v1 (StableHlo.TRef.of main_v102 : StableHlo.TRef sig ⟨S8192, .f32⟩) main_call3.v2 select,
    StableHlo.nullary main_cst_31 (constant S_ .f32 0x00000000#32),
    StableHlo.unary main_cst_31 main_v110 (broadcastInDim S8192 ![] bcast_S_S8192 : (⟨S_, .f32⟩ : BufTy).Contents (Elt F) → (⟨S8192, .f32⟩ : BufTy).Contents (Elt F)),
    StableHlo.binary main_v102 main_v110 main_v111 (cmpf .oeq : (⟨S8192, .f32⟩ : BufTy).Contents (Elt F) → (⟨S8192, .f32⟩ : BufTy).Contents (Elt F) → (⟨S8192, .i1⟩ : BufTy).Contents (Elt F)),
    StableHlo.unary main_v102 main_v112 (Host.negf : (⟨S8192, .f32⟩ : BufTy).Contents (Elt F) → (⟨S8192, .f32⟩ : BufTy).Contents (Elt F)),
    StableHlo.nullary main_cst_32 (constant S_ .f32 0x3727C5AC#32),
    StableHlo.TRef.unary (StableHlo.TRef.of main_cst_32 : StableHlo.TRef sig ⟨S_, .f32⟩) main_call4.v0 id,
    StableHlo.TRef.unary main_call4.v0 main_call4.v1 (broadcastInDim S8192 ![] bcast_S_S8192),
    StableHlo.TRef.ternary (StableHlo.TRef.of main_v111 : StableHlo.TRef sig ⟨S8192, .i1⟩) main_call4.v1 (StableHlo.TRef.of main_v112 : StableHlo.TRef sig ⟨S8192, .f32⟩) main_call4.v2 select,
    StableHlo.unary main_v79 main_v114 (uitofp .f32 : (⟨S8192, .i1⟩ : BufTy).Contents (Elt F) → (⟨S8192, .f32⟩ : BufTy).Contents (Elt F)),
    StableHlo.nullary main_c_33 (constantI S_ 32 0#32),
    StableHlo.unary main_c_33 main_v115 (broadcastInDim S8192 ![] bcast_S_S8192 : (⟨S_, .i32⟩ : BufTy).Contents (Elt F) → (⟨S8192, .i32⟩ : BufTy).Contents (Elt F)),
    StableHlo.binary main_v106 main_v115 main_v116 (cmpi .slt : (⟨S8192, .i32⟩ : BufTy).Contents (Elt F) → (⟨S8192, .i32⟩ : BufTy).Contents (Elt F) → (⟨S8192, .i1⟩ : BufTy).Contents (Elt F)),
    StableHlo.nullary main_c_34 (constantI S_ 32 8192#32),
    StableHlo.unary main_c_34 main_v117 (broadcastInDim S8192 ![] bcast_S_S8192 : (⟨S_, .i32⟩ : BufTy).Contents (Elt F) → (⟨S8192, .i32⟩ : BufTy).Contents (Elt F)),
    StableHlo.binary main_v106 main_v117 main_v118 (addi : (⟨S8192, .i32⟩ : BufTy).Contents (Elt F) → (⟨S8192, .i32⟩ : BufTy).Contents (Elt F) → (⟨S8192, .i32⟩ : BufTy).Contents (Elt F)),
    StableHlo.ternary main_v116 main_v118 main_v106 main_v119 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_35 (constantI S_ 32 0#32),
    StableHlo.unary main_c_35 main_v120 (broadcastInDim S8192 ![] bcast_S_S8192 : (⟨S_, .i32⟩ : BufTy).Contents (Elt F) → (⟨S8192, .i32⟩ : BufTy).Contents (Elt F)),
    StableHlo.binary main_v95 main_v120 main_v121 (cmpi .slt : (⟨S8192, .i32⟩ : BufTy).Contents (Elt F) → (⟨S8192, .i32⟩ : BufTy).Contents (Elt F) → (⟨S8192, .i1⟩ : BufTy).Contents (Elt F)),
    StableHlo.nullary main_c_36 (constantI S_ 32 8192#32),
    StableHlo.unary main_c_36 main_v122 (broadcastInDim S8192 ![] bcast_S_S8192 : (⟨S_, .i32⟩ : BufTy).Contents (Elt F) → (⟨S8192, .i32⟩ : BufTy).Contents (Elt F)),
    StableHlo.binary main_v95 main_v122 main_v123 (addi : (⟨S8192, .i32⟩ : BufTy).Contents (Elt F) → (⟨S8192, .i32⟩ : BufTy).Contents (Elt F) → (⟨S8192, .i32⟩ : BufTy).Contents (Elt F)),
    StableHlo.ternary main_v121 main_v123 main_v95 main_v124 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v119 main_v125 (broadcastInDim S8192x1 ![0] bcast_S8192_S8192x1_0 : (⟨S8192, .i32⟩ : BufTy).Contents (Elt F) → (⟨S8192x1, .i32⟩ : BufTy).Contents (Elt F)),
    StableHlo.unary main_v124 main_v126 (broadcastInDim S8192x1 ![0] bcast_S8192_S8192x1_0 : (⟨S8192, .i32⟩ : BufTy).Contents (Elt F) → (⟨S8192x1, .i32⟩ : BufTy).Contents (Elt F)),
    StableHlo.binary main_v125 main_v126 main_v127 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v127 main_v128 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v128 main_v109 main_v129 (Host.divf : (⟨S8192, .f32⟩ : BufTy).Contents (Elt F) → (⟨S8192, .f32⟩ : BufTy).Contents (Elt F) → (⟨S8192, .f32⟩ : BufTy).Contents (Elt F)),
    StableHlo.binary main_v129 main_v114 main_v130 (mulf : (⟨S8192, .f32⟩ : BufTy).Contents (Elt F) → (⟨S8192, .f32⟩ : BufTy).Contents (Elt F) → (⟨S8192, .f32⟩ : BufTy).Contents (Elt F)),
    StableHlo.nullary main_c_37 (constantI S_ 32 0#32),
    StableHlo.unary main_c_37 main_v131 (broadcastInDim S8192 ![] bcast_S_S8192 : (⟨S_, .i32⟩ : BufTy).Contents (Elt F) → (⟨S8192, .i32⟩ : BufTy).Contents (Elt F)),
    StableHlo.binary main_v106 main_v131 main_v132 (cmpi .slt : (⟨S8192, .i32⟩ : BufTy).Contents (Elt F) → (⟨S8192, .i32⟩ : BufTy).Contents (Elt F) → (⟨S8192, .i1⟩ : BufTy).Contents (Elt F)),
    StableHlo.nullary main_c_38 (constantI S_ 32 8192#32),
    StableHlo.unary main_c_38 main_v133 (broadcastInDim S8192 ![] bcast_S_S8192 : (⟨S_, .i32⟩ : BufTy).Contents (Elt F) → (⟨S8192, .i32⟩ : BufTy).Contents (Elt F)),
    StableHlo.binary main_v106 main_v133 main_v134 (addi : (⟨S8192, .i32⟩ : BufTy).Contents (Elt F) → (⟨S8192, .i32⟩ : BufTy).Contents (Elt F) → (⟨S8192, .i32⟩ : BufTy).Contents (Elt F)),
    StableHlo.ternary main_v132 main_v134 main_v106 main_v135 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_39 (constantI S_ 32 0#32),
    StableHlo.unary main_c_39 main_v136 (broadcastInDim S8192 ![] bcast_S_S8192 : (⟨S_, .i32⟩ : BufTy).Contents (Elt F) → (⟨S8192, .i32⟩ : BufTy).Contents (Elt F)),
    StableHlo.binary main_v105 main_v136 main_v137 (cmpi .slt : (⟨S8192, .i32⟩ : BufTy).Contents (Elt F) → (⟨S8192, .i32⟩ : BufTy).Contents (Elt F) → (⟨S8192, .i1⟩ : BufTy).Contents (Elt F)),
    StableHlo.nullary main_c_40 (constantI S_ 32 8192#32),
    StableHlo.unary main_c_40 main_v138 (broadcastInDim S8192 ![] bcast_S_S8192 : (⟨S_, .i32⟩ : BufTy).Contents (Elt F) → (⟨S8192, .i32⟩ : BufTy).Contents (Elt F)),
    StableHlo.binary main_v105 main_v138 main_v139 (addi : (⟨S8192, .i32⟩ : BufTy).Contents (Elt F) → (⟨S8192, .i32⟩ : BufTy).Contents (Elt F) → (⟨S8192, .i32⟩ : BufTy).Contents (Elt F)),
    StableHlo.ternary main_v137 main_v139 main_v105 main_v140 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v135 main_v141 (broadcastInDim S8192x1 ![0] bcast_S8192_S8192x1_0 : (⟨S8192, .i32⟩ : BufTy).Contents (Elt F) → (⟨S8192x1, .i32⟩ : BufTy).Contents (Elt F)),
    StableHlo.unary main_v140 main_v142 (broadcastInDim S8192x1 ![0] bcast_S8192_S8192x1_0 : (⟨S8192, .i32⟩ : BufTy).Contents (Elt F) → (⟨S8192x1, .i32⟩ : BufTy).Contents (Elt F)),
    StableHlo.binary main_v141 main_v142 main_v143 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v143 main_v144 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v144 main_v113 main_v145 (Host.divf : (⟨S8192, .f32⟩ : BufTy).Contents (Elt F) → (⟨S8192, .f32⟩ : BufTy).Contents (Elt F) → (⟨S8192, .f32⟩ : BufTy).Contents (Elt F)),
    StableHlo.binary main_v145 main_v114 main_v146 (mulf : (⟨S8192, .f32⟩ : BufTy).Contents (Elt F) → (⟨S8192, .f32⟩ : BufTy).Contents (Elt F) → (⟨S8192, .f32⟩ : BufTy).Contents (Elt F)),
    StableHlo.nullary main_cst_41 (constant S_ .f32 0x00000000#32),
    StableHlo.unary main_cst_41 main_v147 (broadcastInDim S8192x4096 ![] bcast_S_S8192x4096 : (⟨S_, .f32⟩ : BufTy).Contents (Elt F) → (⟨S8192x4096, .f32⟩ : BufTy).Contents (Elt F)),
    StableHlo.nullary main_c_42 (constantI S_ 32 0#32),
    StableHlo.unary main_c_42 main_v148 (broadcastInDim S8192 ![] bcast_S_S8192 : (⟨S_, .i32⟩ : BufTy).Contents (Elt F) → (⟨S8192, .i32⟩ : BufTy).Contents (Elt F)),
    StableHlo.binary main_v106 main_v148 main_v149 (cmpi .slt : (⟨S8192, .i32⟩ : BufTy).Contents (Elt F) → (⟨S8192, .i32⟩ : BufTy).Contents (Elt F) → (⟨S8192, .i1⟩ : BufTy).Contents (Elt F)),
    StableHlo.nullary main_c_43 (constantI S_ 32 8192#32),
    StableHlo.unary main_c_43 main_v150 (broadcastInDim S8192 ![] bcast_S_S8192 : (⟨S_, .i32⟩ : BufTy).Contents (Elt F) → (⟨S8192, .i32⟩ : BufTy).Contents (Elt F)),
    StableHlo.binary main_v106 main_v150 main_v151 (addi : (⟨S8192, .i32⟩ : BufTy).Contents (Elt F) → (⟨S8192, .i32⟩ : BufTy).Contents (Elt F) → (⟨S8192, .i32⟩ : BufTy).Contents (Elt F)),
    StableHlo.ternary main_v149 main_v151 main_v106 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_44 (constantI S_ 32 0#32),
    StableHlo.unary main_c_44 main_v153 (broadcastInDim S8192 ![] bcast_S_S8192 : (⟨S_, .i32⟩ : BufTy).Contents (Elt F) → (⟨S8192, .i32⟩ : BufTy).Contents (Elt F)),
    StableHlo.binary main_v95 main_v153 main_v154 (cmpi .slt : (⟨S8192, .i32⟩ : BufTy).Contents (Elt F) → (⟨S8192, .i32⟩ : BufTy).Contents (Elt F) → (⟨S8192, .i1⟩ : BufTy).Contents (Elt F)),
    StableHlo.nullary main_c_45 (constantI S_ 32 4096#32),
    StableHlo.unary main_c_45 main_v155 (broadcastInDim S8192 ![] bcast_S_S8192 : (⟨S_, .i32⟩ : BufTy).Contents (Elt F) → (⟨S8192, .i32⟩ : BufTy).Contents (Elt F)),
    StableHlo.binary main_v95 main_v155 main_v156 (addi : (⟨S8192, .i32⟩ : BufTy).Contents (Elt F) → (⟨S8192, .i32⟩ : BufTy).Contents (Elt F) → (⟨S8192, .i32⟩ : BufTy).Contents (Elt F)),
    StableHlo.ternary main_v154 main_v156 main_v95 main_v157 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v152 main_v158 (broadcastInDim S8192x1 ![0] bcast_S8192_S8192x1_0 : (⟨S8192, .i32⟩ : BufTy).Contents (Elt F) → (⟨S8192x1, .i32⟩ : BufTy).Contents (Elt F)),
    StableHlo.unary main_v157 main_v159 (broadcastInDim S8192x1 ![0] bcast_S8192_S8192x1_0 : (⟨S8192, .i32⟩ : BufTy).Contents (Elt F) → (⟨S8192x1, .i32⟩ : BufTy).Contents (Elt F)),
    StableHlo.binary main_v158 main_v159 main_v160 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v147 main_v160 main_v130 main_v161 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_c_46 (constantI S_ 32 0#32),
    StableHlo.unary main_c_46 main_v162 (broadcastInDim S8192 ![] bcast_S_S8192 : (⟨S_, .i32⟩ : BufTy).Contents (Elt F) → (⟨S8192, .i32⟩ : BufTy).Contents (Elt F)),
    StableHlo.binary main_v106 main_v162 main_v163 (cmpi .slt : (⟨S8192, .i32⟩ : BufTy).Contents (Elt F) → (⟨S8192, .i32⟩ : BufTy).Contents (Elt F) → (⟨S8192, .i1⟩ : BufTy).Contents (Elt F)),
    StableHlo.nullary main_c_47 (constantI S_ 32 8192#32),
    StableHlo.unary main_c_47 main_v164 (broadcastInDim S8192 ![] bcast_S_S8192 : (⟨S_, .i32⟩ : BufTy).Contents (Elt F) → (⟨S8192, .i32⟩ : BufTy).Contents (Elt F)),
    StableHlo.binary main_v106 main_v164 main_v165 (addi : (⟨S8192, .i32⟩ : BufTy).Contents (Elt F) → (⟨S8192, .i32⟩ : BufTy).Contents (Elt F) → (⟨S8192, .i32⟩ : BufTy).Contents (Elt F)),
    StableHlo.ternary main_v163 main_v165 main_v106 main_v166 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_48 (constantI S_ 32 0#32),
    StableHlo.unary main_c_48 main_v167 (broadcastInDim S8192 ![] bcast_S_S8192 : (⟨S_, .i32⟩ : BufTy).Contents (Elt F) → (⟨S8192, .i32⟩ : BufTy).Contents (Elt F)),
    StableHlo.binary main_v105 main_v167 main_v168 (cmpi .slt : (⟨S8192, .i32⟩ : BufTy).Contents (Elt F) → (⟨S8192, .i32⟩ : BufTy).Contents (Elt F) → (⟨S8192, .i1⟩ : BufTy).Contents (Elt F)),
    StableHlo.nullary main_c_49 (constantI S_ 32 4096#32),
    StableHlo.unary main_c_49 main_v169 (broadcastInDim S8192 ![] bcast_S_S8192 : (⟨S_, .i32⟩ : BufTy).Contents (Elt F) → (⟨S8192, .i32⟩ : BufTy).Contents (Elt F)),
    StableHlo.binary main_v105 main_v169 main_v170 (addi : (⟨S8192, .i32⟩ : BufTy).Contents (Elt F) → (⟨S8192, .i32⟩ : BufTy).Contents (Elt F) → (⟨S8192, .i32⟩ : BufTy).Contents (Elt F)),
    StableHlo.ternary main_v168 main_v170 main_v105 main_v171 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v166 main_v172 (broadcastInDim S8192x1 ![0] bcast_S8192_S8192x1_0 : (⟨S8192, .i32⟩ : BufTy).Contents (Elt F) → (⟨S8192x1, .i32⟩ : BufTy).Contents (Elt F)),
    StableHlo.unary main_v171 main_v173 (broadcastInDim S8192x1 ![0] bcast_S8192_S8192x1_0 : (⟨S8192, .i32⟩ : BufTy).Contents (Elt F) → (⟨S8192x1, .i32⟩ : BufTy).Contents (Elt F)),
    StableHlo.binary main_v172 main_v173 main_v174 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v161 main_v174 main_v146 main_v175 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_cst_50 (constant S_ .f32 0x3E4CCCCD#32),
    StableHlo.unary main_cst_50 main_v176 (broadcastInDim S8192x4096 ![] bcast_S_S8192x4096 : (⟨S_, .f32⟩ : BufTy).Contents (Elt F) → (⟨S8192x4096, .f32⟩ : BufTy).Contents (Elt F)),
    StableHlo.binary main_v176 main_v175 main_v177 (mulf : (⟨S8192x4096, .f32⟩ : BufTy).Contents (Elt F) → (⟨S8192x4096, .f32⟩ : BufTy).Contents (Elt F) → (⟨S8192x4096, .f32⟩ : BufTy).Contents (Elt F)),
    StableHlo.binary main_v73 main_v177 main_v178 (addf : (⟨S8192x4096, .f32⟩ : BufTy).Contents (Elt F) → (⟨S8192x4096, .f32⟩ : BufTy).Contents (Elt F) → (⟨S8192x4096, .f32⟩ : BufTy).Contents (Elt F)) ]

/-- Operations 93 … 142 of the 278 — the first stretch after %73: to the end of @main's second window. -/
abbrev opsD1 : List (HloOp τ sig (Elt F)) :=
  [ StableHlo.nullary main_cst_16 (constant S_ .f32 0x3F800000#32),
    StableHlo.unary main_cst_16 main_v74 (broadcastInDim S409600 ![] bcast_S_S409600 : (⟨S_, .f32⟩ : BufTy).Contents (Elt F) → (⟨S409600, .f32⟩ : BufTy).Contents (Elt F)),
    StableHlo.nullary main_cst_17 (constant S_ .f32 0x00000000#32),
    StableHlo.unary main_cst_17 main_v75 (broadcastInDim S8192 ![] bcast_S_S8192 : (⟨S_, .f32⟩ : BufTy).Contents (Elt F) → (⟨S8192, .f32⟩ : BufTy).Contents (Elt F)),
    StableHlo.unary main_arg6 main_v76 (broadcastInDim S409600x1 ![0] bcast_S409600_S409600x1_0 : (⟨S409600, .i32⟩ : BufTy).Contents (Elt F) → (⟨S409600x1, .i32⟩ : BufTy).Contents (Elt F)),
    StableHlo.ternary main_v75 main_v76 main_v74 main_v77 ((fun x i u => Host.scatterAdd scatter_S8192_S409600x1_S409600_n_0_0_1 x i u) : (⟨S8192, .f32⟩ : BufTy).Contents (Elt F) → (⟨S409600x1, .i32⟩ : BufTy).Contents (Elt F) → (⟨S409600, .f32⟩ : BufTy).Contents (Elt F) → (⟨S8192, .f32⟩ : BufTy).Contents (Elt F)),
    StableHlo.nullary main_cst_18 (constant S_ .f32 0x00000000#32),
    StableHlo.unary main_cst_18 main_v78 (broadcastInDim S8192 ![] bcast_S_S8192 : (⟨S_, .f32⟩ : BufTy).Contents (Elt F) → (⟨S8192, .f32⟩ : BufTy).Contents (Elt F)),
    StableHlo.binary main_v77 main_v78 main_v79 (cmpf .ogt : (⟨S8192, .f32⟩ : BufTy).Contents (Elt F) → (⟨S8192, .f32⟩ : BufTy).Contents (Elt F) → (⟨S8192, .i1⟩ : BufTy).Contents (Elt F)),
    StableHlo.nullary main_c_19 (constantI S_ 32 409600#32),
    StableHlo.unary main_c_19 main_v80 (broadcastInDim S409600 ![] bcast_S_S409600 : (⟨S_, .i32⟩ : BufTy).Contents (Elt F) → (⟨S409600, .i32⟩ : BufTy).Contents (Elt F)),
    StableHlo.binary main_arg7 main_v80 main_v81 (muli : (⟨S409600, .i32⟩ : BufTy).Contents (Elt F) → (⟨S409600, .i32⟩ : BufTy).Contents (Elt F) → (⟨S409600, .i32⟩ : BufTy).Contents (Elt F)),
    StableHlo.nullary main_v82 (iotaInDim S409600 32 0),
    StableHlo.binary main_v81 main_v82 main_v83 (addi : (⟨S409600, .i32⟩ : BufTy).Contents (Elt F) → (⟨S409600, .i32⟩ : BufTy).Contents (Elt F) → (⟨S409600, .i32⟩ : BufTy).Contents (Elt F)),
    StableHlo.nullary main_c_20 (constantI S_ 32 2147483647#32),
    StableHlo.unary main_c_20 main_v84 (broadcastInDim S8192 ![] bcast_S_S8192 : (⟨S_, .i32⟩ : BufTy).Contents (Elt F) → (⟨S8192, .i32⟩ : BufTy).Contents (Elt F)),
    StableHlo.unary main_arg6 main_v85 (broadcastInDim S409600x1 ![0] bcast_S409600_S409600x1_0 : (⟨S409600, .i32⟩ : BufTy).Contents (Elt F) → (⟨S409600x1, .i32⟩ : BufTy).Contents (Elt F)),
    StableHlo.ternary main_v84 main_v85 main_v83 main_v86 ((fun x i u => Host.scatter scatter_S8192_S409600x1_S409600_n_0_0_1 IntOp.minsi x i u) : (⟨S8192, .i32⟩ : BufTy).Contents (Elt F) → (⟨S409600x1, .i32⟩ : BufTy).Contents (Elt F) → (⟨S409600, .i32⟩ : BufTy).Contents (Elt F) → (⟨S8192, .i32⟩ : BufTy).Contents (Elt F)),
    StableHlo.nullary main_c_21 (constantI S_ 32 409600#32),
    StableHlo.TRef.unary (StableHlo.TRef.of main_c_21 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (StableHlo.TRef.of main_v86 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_22 (constantI S_ 32 0#32),
    StableHlo.TRef.unary (StableHlo.TRef.of main_c_22 : StableHlo.TRef sig ⟨S_, .i32⟩) main_call1.v0 id,
    StableHlo.TRef.unary main_call1.v0 main_call1.v1 (broadcastInDim S8192 ![] bcast_S_S8192),
    StableHlo.TRef.ternary (StableHlo.TRef.of main_v79 : StableHlo.TRef sig ⟨S8192, .i1⟩) (StableHlo.TRef.of main_v87 : StableHlo.TRef sig ⟨S8192, .i32⟩) main_call1.v1 main_call1.v2 select,
    StableHlo.nullary main_c_23 (constantI S_ 32 0#32),
    StableHlo.unary main_c_23 main_v89 (broadcastInDim S8192 ![] bcast_S_S8192 : (⟨S_, .i32⟩ : BufTy).Contents (Elt F) → (⟨S8192, .i32⟩ : BufTy).Contents (Elt F)),
    StableHlo.binary main_v88 main_v89 main_v90 (cmpi .slt : (⟨S8192, .i32⟩ : BufTy).Contents (Elt F) → (⟨S8192, .i32⟩ : BufTy).Contents (Elt F) → (⟨S8192, .i1⟩ : BufTy).Contents (Elt F)),
    StableHlo.nullary main_c_24 (constantI S_ 32 409600#32),
    StableHlo.unary main_c_24 main_v91 (broadcastInDim S8192 ![] bcast_S_S8192 : (⟨S_, .i32⟩ : BufTy).Contents (Elt F) → (⟨S8192, .i32⟩ : BufTy).Contents (Elt F)),
    StableHlo.binary main_v88 main_v91 main_v92 (addi : (⟨S8192, .i32⟩ : BufTy).Contents (Elt F) → (⟨S8192, .i32⟩ : BufTy).Contents (Elt F) → (⟨S8192, .i32⟩ : BufTy).Contents (Elt F)) ]

/-- Operations 143 … 226 of the 278 — the second stretch after %73: @main's third window. -/
abbrev opsD2 : List (HloOp τ sig (Elt F)) :=
  [ StableHlo.ternary main_v90 main_v92 main_v88 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v93 main_v94 (broadcastInDim S8192x1 ![0] bcast_S8192_S8192x1_0 : (⟨S8192, .i32⟩ : BufTy).Contents (Elt F) → (⟨S8192x1, .i32⟩ : BufTy).Contents (Elt F)),
    StableHlo.binary main_arg7 main_v94 main_v95 ((fun x i => Host.gather gather_S409600_S8192x1_S8192_n_0_n_n_0_1_1 x i) : (⟨S409600, .i32⟩ : BufTy).Contents (Elt F) → (⟨S8192x1, .i32⟩ : BufTy).Contents (Elt F) → (⟨S8192, .i32⟩ : BufTy).Contents (Elt F)),
    StableHlo.nullary main_c_25 (constantI S_ 32 0#32),
    StableHlo.unary main_c_25 main_v96 (broadcastInDim S8192 ![] bcast_S_S8192 : (⟨S_, .i32⟩ : BufTy).Contents (Elt F) → (⟨S8192, .i32⟩ : BufTy).Contents (Elt F)),
    StableHlo.binary main_v88 main_v96 main_v97 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 409600#32),
    StableHlo.unary main_c_26 main_v98 (broadcastInDim S8192 ![] bcast_S_S8192 : (⟨S_, .i32⟩ : BufTy).Contents (Elt F) → (⟨S8192, .i32⟩ : BufTy).Contents (Elt F)),
    StableHlo.binary main_v88 main_v98 main_v99 (addi : (⟨S8192, .i32⟩ : BufTy).Contents (Elt F) → (⟨S8192, .i32⟩ : BufTy).Contents (Elt F) → (⟨S8192, .i32⟩ : BufTy).Contents (Elt F)),
    StableHlo.ternary main_v97 main_v99 main_v88 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v100 main_v101 (broadcastInDim S8192x1 ![0] bcast_S8192_S8192x1_0 : (⟨S8192, .i32⟩ : BufTy).Contents (Elt F) → (⟨S8192x1, .i32⟩ : BufTy).Contents (Elt F)),
    StableHlo.binary main_arg8 main_v101 main_v102 ((fun x i => Host.gather gather_S409600_S8192x1_S8192_n_0_n_n_0_1_1 x i) : (⟨S409600, .f32⟩ : BufTy).Contents (Elt F) → (⟨S8192x1, .i32⟩ : BufTy).Contents (Elt F) → (⟨S8192, .f32⟩ : BufTy).Contents (Elt F)),
    StableHlo.nullary main_c_27 (constantI S_ 32 1#32),
    StableHlo.unary main_c_27 main_v103 (broadcastInDim S8192 ![] bcast_S_S8192 : (⟨S_, .i32⟩ : BufTy).Contents (Elt F) → (⟨S8192, .i32⟩ : BufTy).Contents (Elt F)),
    StableHlo.binary main_v95 main_v103 main_v104 (addi : (⟨S8192, .i32⟩ : BufTy).Contents (Elt F) → (⟨S8192, .i32⟩ : BufTy).Contents (Elt F) → (⟨S8192, .i32⟩ : BufTy).Contents (Elt F)),
    StableHlo.nullary main_c_28 (constantI S_ 32 4096#32),
    StableHlo.TRef.unary (StableHlo.TRef.of main_c_28 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (StableHlo.TRef.of main_v104 : StableHlo.TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_v106 (iotaInDim S8192 32 0),
    StableHlo.nullary main_cst_29 (constant S_ .f32 0x00000000#32),
    StableHlo.unary main_cst_29 main_v107 (broadcastInDim S8192 ![] bcast_S_S8192 : (⟨S_, .f32⟩ : BufTy).Contents (Elt F) → (⟨S8192, .f32⟩ : BufTy).Contents (Elt F)),
    StableHlo.binary main_v102 main_v107 main_v108 (cmpf .oeq : (⟨S8192, .f32⟩ : BufTy).Contents (Elt F) → (⟨S8192, .f32⟩ : BufTy).Contents (Elt F) → (⟨S8192, .i1⟩ : BufTy).Contents (Elt F)),
    StableHlo.nullary main_cst_30 (constant S_ .f32 0x3727C5AC#32),
    StableHlo.TRef.unary (StableHlo.TRef.of main_cst_30 : StableHlo.TRef sig ⟨S_, .f32⟩) main_call3.v0 id,
    StableHlo.TRef.unary main_call3.v0 main_call3.v1 (broadcastInDim S8192 ![] bcast_S_S8192),
    StableHlo.TRef.ternary (StableHlo.TRef.of main_v108 : StableHlo.TRef sig ⟨S8192, .i1⟩) main_call3.v1 (StableHlo.TRef.of main_v102 : StableHlo.TRef sig ⟨S8192, .f32⟩) main_call3.v2 select,
    StableHlo.nullary main_cst_31 (constant S_ .f32 0x00000000#32),
    StableHlo.unary main_cst_31 main_v110 (broadcastInDim S8192 ![] bcast_S_S8192 : (⟨S_, .f32⟩ : BufTy).Contents (Elt F) → (⟨S8192, .f32⟩ : BufTy).Contents (Elt F)),
    StableHlo.binary main_v102 main_v110 main_v111 (cmpf .oeq : (⟨S8192, .f32⟩ : BufTy).Contents (Elt F) → (⟨S8192, .f32⟩ : BufTy).Contents (Elt F) → (⟨S8192, .i1⟩ : BufTy).Contents (Elt F)),
    StableHlo.unary main_v102 main_v112 (Host.negf : (⟨S8192, .f32⟩ : BufTy).Contents (Elt F) → (⟨S8192, .f32⟩ : BufTy).Contents (Elt F)),
    StableHlo.nullary main_cst_32 (constant S_ .f32 0x3727C5AC#32),
    StableHlo.TRef.unary (StableHlo.TRef.of main_cst_32 : StableHlo.TRef sig ⟨S_, .f32⟩) main_call4.v0 id,
    StableHlo.TRef.unary main_call4.v0 main_call4.v1 (broadcastInDim S8192 ![] bcast_S_S8192),
    StableHlo.TRef.ternary (StableHlo.TRef.of main_v111 : StableHlo.TRef sig ⟨S8192, .i1⟩) main_call4.v1 (StableHlo.TRef.of main_v112 : StableHlo.TRef sig ⟨S8192, .f32⟩) main_call4.v2 select,
    StableHlo.unary main_v79 main_v114 (uitofp .f32 : (⟨S8192, .i1⟩ : BufTy).Contents (Elt F) → (⟨S8192, .f32⟩ : BufTy).Contents (Elt F)),
    StableHlo.nullary main_c_33 (constantI S_ 32 0#32),
    StableHlo.unary main_c_33 main_v115 (broadcastInDim S8192 ![] bcast_S_S8192 : (⟨S_, .i32⟩ : BufTy).Contents (Elt F) → (⟨S8192, .i32⟩ : BufTy).Contents (Elt F)),
    StableHlo.binary main_v106 main_v115 main_v116 (cmpi .slt : (⟨S8192, .i32⟩ : BufTy).Contents (Elt F) → (⟨S8192, .i32⟩ : BufTy).Contents (Elt F) → (⟨S8192, .i1⟩ : BufTy).Contents (Elt F)),
    StableHlo.nullary main_c_34 (constantI S_ 32 8192#32),
    StableHlo.unary main_c_34 main_v117 (broadcastInDim S8192 ![] bcast_S_S8192 : (⟨S_, .i32⟩ : BufTy).Contents (Elt F) → (⟨S8192, .i32⟩ : BufTy).Contents (Elt F)),
    StableHlo.binary main_v106 main_v117 main_v118 (addi : (⟨S8192, .i32⟩ : BufTy).Contents (Elt F) → (⟨S8192, .i32⟩ : BufTy).Contents (Elt F) → (⟨S8192, .i32⟩ : BufTy).Contents (Elt F)),
    StableHlo.ternary main_v116 main_v118 main_v106 main_v119 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_35 (constantI S_ 32 0#32),
    StableHlo.unary main_c_35 main_v120 (broadcastInDim S8192 ![] bcast_S_S8192 : (⟨S_, .i32⟩ : BufTy).Contents (Elt F) → (⟨S8192, .i32⟩ : BufTy).Contents (Elt F)),
    StableHlo.binary main_v95 main_v120 main_v121 (cmpi .slt : (⟨S8192, .i32⟩ : BufTy).Contents (Elt F) → (⟨S8192, .i32⟩ : BufTy).Contents (Elt F) → (⟨S8192, .i1⟩ : BufTy).Contents (Elt F)),
    StableHlo.nullary main_c_36 (constantI S_ 32 8192#32),
    StableHlo.unary main_c_36 main_v122 (broadcastInDim S8192 ![] bcast_S_S8192 : (⟨S_, .i32⟩ : BufTy).Contents (Elt F) → (⟨S8192, .i32⟩ : BufTy).Contents (Elt F)),
    StableHlo.binary main_v95 main_v122 main_v123 (addi : (⟨S8192, .i32⟩ : BufTy).Contents (Elt F) → (⟨S8192, .i32⟩ : BufTy).Contents (Elt F) → (⟨S8192, .i32⟩ : BufTy).Contents (Elt F)),
    StableHlo.ternary main_v121 main_v123 main_v95 main_v124 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v119 main_v125 (broadcastInDim S8192x1 ![0] bcast_S8192_S8192x1_0 : (⟨S8192, .i32⟩ : BufTy).Contents (Elt F) → (⟨S8192x1, .i32⟩ : BufTy).Contents (Elt F)),
    StableHlo.unary main_v124 main_v126 (broadcastInDim S8192x1 ![0] bcast_S8192_S8192x1_0 : (⟨S8192, .i32⟩ : BufTy).Contents (Elt F) → (⟨S8192x1, .i32⟩ : BufTy).Contents (Elt F)),
    StableHlo.binary main_v125 main_v126 main_v127 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v127 main_v128 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v128 main_v109 main_v129 (Host.divf : (⟨S8192, .f32⟩ : BufTy).Contents (Elt F) → (⟨S8192, .f32⟩ : BufTy).Contents (Elt F) → (⟨S8192, .f32⟩ : BufTy).Contents (Elt F)),
    StableHlo.binary main_v129 main_v114 main_v130 (mulf : (⟨S8192, .f32⟩ : BufTy).Contents (Elt F) → (⟨S8192, .f32⟩ : BufTy).Contents (Elt F) → (⟨S8192, .f32⟩ : BufTy).Contents (Elt F)),
    StableHlo.nullary main_c_37 (constantI S_ 32 0#32),
    StableHlo.unary main_c_37 main_v131 (broadcastInDim S8192 ![] bcast_S_S8192 : (⟨S_, .i32⟩ : BufTy).Contents (Elt F) → (⟨S8192, .i32⟩ : BufTy).Contents (Elt F)),
    StableHlo.binary main_v106 main_v131 main_v132 (cmpi .slt : (⟨S8192, .i32⟩ : BufTy).Contents (Elt F) → (⟨S8192, .i32⟩ : BufTy).Contents (Elt F) → (⟨S8192, .i1⟩ : BufTy).Contents (Elt F)),
    StableHlo.nullary main_c_38 (constantI S_ 32 8192#32),
    StableHlo.unary main_c_38 main_v133 (broadcastInDim S8192 ![] bcast_S_S8192 : (⟨S_, .i32⟩ : BufTy).Contents (Elt F) → (⟨S8192, .i32⟩ : BufTy).Contents (Elt F)),
    StableHlo.binary main_v106 main_v133 main_v134 (addi : (⟨S8192, .i32⟩ : BufTy).Contents (Elt F) → (⟨S8192, .i32⟩ : BufTy).Contents (Elt F) → (⟨S8192, .i32⟩ : BufTy).Contents (Elt F)),
    StableHlo.ternary main_v132 main_v134 main_v106 main_v135 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_39 (constantI S_ 32 0#32),
    StableHlo.unary main_c_39 main_v136 (broadcastInDim S8192 ![] bcast_S_S8192 : (⟨S_, .i32⟩ : BufTy).Contents (Elt F) → (⟨S8192, .i32⟩ : BufTy).Contents (Elt F)),
    StableHlo.binary main_v105 main_v136 main_v137 (cmpi .slt : (⟨S8192, .i32⟩ : BufTy).Contents (Elt F) → (⟨S8192, .i32⟩ : BufTy).Contents (Elt F) → (⟨S8192, .i1⟩ : BufTy).Contents (Elt F)) ]

/-- Operations 227 … 278 of the 278 — the third stretch after %73: @main's fourth window, ending in the result %178. -/
abbrev opsD3 : List (HloOp τ sig (Elt F)) :=
  [ StableHlo.nullary main_c_40 (constantI S_ 32 8192#32),
    StableHlo.unary main_c_40 main_v138 (broadcastInDim S8192 ![] bcast_S_S8192 : (⟨S_, .i32⟩ : BufTy).Contents (Elt F) → (⟨S8192, .i32⟩ : BufTy).Contents (Elt F)),
    StableHlo.binary main_v105 main_v138 main_v139 (addi : (⟨S8192, .i32⟩ : BufTy).Contents (Elt F) → (⟨S8192, .i32⟩ : BufTy).Contents (Elt F) → (⟨S8192, .i32⟩ : BufTy).Contents (Elt F)),
    StableHlo.ternary main_v137 main_v139 main_v105 main_v140 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v135 main_v141 (broadcastInDim S8192x1 ![0] bcast_S8192_S8192x1_0 : (⟨S8192, .i32⟩ : BufTy).Contents (Elt F) → (⟨S8192x1, .i32⟩ : BufTy).Contents (Elt F)),
    StableHlo.unary main_v140 main_v142 (broadcastInDim S8192x1 ![0] bcast_S8192_S8192x1_0 : (⟨S8192, .i32⟩ : BufTy).Contents (Elt F) → (⟨S8192x1, .i32⟩ : BufTy).Contents (Elt F)),
    StableHlo.binary main_v141 main_v142 main_v143 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v143 main_v144 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v144 main_v113 main_v145 (Host.divf : (⟨S8192, .f32⟩ : BufTy).Contents (Elt F) → (⟨S8192, .f32⟩ : BufTy).Contents (Elt F) → (⟨S8192, .f32⟩ : BufTy).Contents (Elt F)),
    StableHlo.binary main_v145 main_v114 main_v146 (mulf : (⟨S8192, .f32⟩ : BufTy).Contents (Elt F) → (⟨S8192, .f32⟩ : BufTy).Contents (Elt F) → (⟨S8192, .f32⟩ : BufTy).Contents (Elt F)),
    StableHlo.nullary main_cst_41 (constant S_ .f32 0x00000000#32),
    StableHlo.unary main_cst_41 main_v147 (broadcastInDim S8192x4096 ![] bcast_S_S8192x4096 : (⟨S_, .f32⟩ : BufTy).Contents (Elt F) → (⟨S8192x4096, .f32⟩ : BufTy).Contents (Elt F)),
    StableHlo.nullary main_c_42 (constantI S_ 32 0#32),
    StableHlo.unary main_c_42 main_v148 (broadcastInDim S8192 ![] bcast_S_S8192 : (⟨S_, .i32⟩ : BufTy).Contents (Elt F) → (⟨S8192, .i32⟩ : BufTy).Contents (Elt F)),
    StableHlo.binary main_v106 main_v148 main_v149 (cmpi .slt : (⟨S8192, .i32⟩ : BufTy).Contents (Elt F) → (⟨S8192, .i32⟩ : BufTy).Contents (Elt F) → (⟨S8192, .i1⟩ : BufTy).Contents (Elt F)),
    StableHlo.nullary main_c_43 (constantI S_ 32 8192#32),
    StableHlo.unary main_c_43 main_v150 (broadcastInDim S8192 ![] bcast_S_S8192 : (⟨S_, .i32⟩ : BufTy).Contents (Elt F) → (⟨S8192, .i32⟩ : BufTy).Contents (Elt F)),
    StableHlo.binary main_v106 main_v150 main_v151 (addi : (⟨S8192, .i32⟩ : BufTy).Contents (Elt F) → (⟨S8192, .i32⟩ : BufTy).Contents (Elt F) → (⟨S8192, .i32⟩ : BufTy).Contents (Elt F)),
    StableHlo.ternary main_v149 main_v151 main_v106 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_44 (constantI S_ 32 0#32),
    StableHlo.unary main_c_44 main_v153 (broadcastInDim S8192 ![] bcast_S_S8192 : (⟨S_, .i32⟩ : BufTy).Contents (Elt F) → (⟨S8192, .i32⟩ : BufTy).Contents (Elt F)),
    StableHlo.binary main_v95 main_v153 main_v154 (cmpi .slt : (⟨S8192, .i32⟩ : BufTy).Contents (Elt F) → (⟨S8192, .i32⟩ : BufTy).Contents (Elt F) → (⟨S8192, .i1⟩ : BufTy).Contents (Elt F)),
    StableHlo.nullary main_c_45 (constantI S_ 32 4096#32),
    StableHlo.unary main_c_45 main_v155 (broadcastInDim S8192 ![] bcast_S_S8192 : (⟨S_, .i32⟩ : BufTy).Contents (Elt F) → (⟨S8192, .i32⟩ : BufTy).Contents (Elt F)),
    StableHlo.binary main_v95 main_v155 main_v156 (addi : (⟨S8192, .i32⟩ : BufTy).Contents (Elt F) → (⟨S8192, .i32⟩ : BufTy).Contents (Elt F) → (⟨S8192, .i32⟩ : BufTy).Contents (Elt F)),
    StableHlo.ternary main_v154 main_v156 main_v95 main_v157 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v152 main_v158 (broadcastInDim S8192x1 ![0] bcast_S8192_S8192x1_0 : (⟨S8192, .i32⟩ : BufTy).Contents (Elt F) → (⟨S8192x1, .i32⟩ : BufTy).Contents (Elt F)),
    StableHlo.unary main_v157 main_v159 (broadcastInDim S8192x1 ![0] bcast_S8192_S8192x1_0 : (⟨S8192, .i32⟩ : BufTy).Contents (Elt F) → (⟨S8192x1, .i32⟩ : BufTy).Contents (Elt F)),
    StableHlo.binary main_v158 main_v159 main_v160 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v147 main_v160 main_v130 main_v161 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_c_46 (constantI S_ 32 0#32),
    StableHlo.unary main_c_46 main_v162 (broadcastInDim S8192 ![] bcast_S_S8192 : (⟨S_, .i32⟩ : BufTy).Contents (Elt F) → (⟨S8192, .i32⟩ : BufTy).Contents (Elt F)),
    StableHlo.binary main_v106 main_v162 main_v163 (cmpi .slt : (⟨S8192, .i32⟩ : BufTy).Contents (Elt F) → (⟨S8192, .i32⟩ : BufTy).Contents (Elt F) → (⟨S8192, .i1⟩ : BufTy).Contents (Elt F)),
    StableHlo.nullary main_c_47 (constantI S_ 32 8192#32),
    StableHlo.unary main_c_47 main_v164 (broadcastInDim S8192 ![] bcast_S_S8192 : (⟨S_, .i32⟩ : BufTy).Contents (Elt F) → (⟨S8192, .i32⟩ : BufTy).Contents (Elt F)),
    StableHlo.binary main_v106 main_v164 main_v165 (addi : (⟨S8192, .i32⟩ : BufTy).Contents (Elt F) → (⟨S8192, .i32⟩ : BufTy).Contents (Elt F) → (⟨S8192, .i32⟩ : BufTy).Contents (Elt F)),
    StableHlo.ternary main_v163 main_v165 main_v106 main_v166 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_48 (constantI S_ 32 0#32),
    StableHlo.unary main_c_48 main_v167 (broadcastInDim S8192 ![] bcast_S_S8192 : (⟨S_, .i32⟩ : BufTy).Contents (Elt F) → (⟨S8192, .i32⟩ : BufTy).Contents (Elt F)),
    StableHlo.binary main_v105 main_v167 main_v168 (cmpi .slt : (⟨S8192, .i32⟩ : BufTy).Contents (Elt F) → (⟨S8192, .i32⟩ : BufTy).Contents (Elt F) → (⟨S8192, .i1⟩ : BufTy).Contents (Elt F)),
    StableHlo.nullary main_c_49 (constantI S_ 32 4096#32),
    StableHlo.unary main_c_49 main_v169 (broadcastInDim S8192 ![] bcast_S_S8192 : (⟨S_, .i32⟩ : BufTy).Contents (Elt F) → (⟨S8192, .i32⟩ : BufTy).Contents (Elt F)),
    StableHlo.binary main_v105 main_v169 main_v170 (addi : (⟨S8192, .i32⟩ : BufTy).Contents (Elt F) → (⟨S8192, .i32⟩ : BufTy).Contents (Elt F) → (⟨S8192, .i32⟩ : BufTy).Contents (Elt F)),
    StableHlo.ternary main_v168 main_v170 main_v105 main_v171 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v166 main_v172 (broadcastInDim S8192x1 ![0] bcast_S8192_S8192x1_0 : (⟨S8192, .i32⟩ : BufTy).Contents (Elt F) → (⟨S8192x1, .i32⟩ : BufTy).Contents (Elt F)),
    StableHlo.unary main_v171 main_v173 (broadcastInDim S8192x1 ![0] bcast_S8192_S8192x1_0 : (⟨S8192, .i32⟩ : BufTy).Contents (Elt F) → (⟨S8192x1, .i32⟩ : BufTy).Contents (Elt F)),
    StableHlo.binary main_v172 main_v173 main_v174 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v161 main_v174 main_v146 main_v175 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_cst_50 (constant S_ .f32 0x3E4CCCCD#32),
    StableHlo.unary main_cst_50 main_v176 (broadcastInDim S8192x4096 ![] bcast_S_S8192x4096 : (⟨S_, .f32⟩ : BufTy).Contents (Elt F) → (⟨S8192x4096, .f32⟩ : BufTy).Contents (Elt F)),
    StableHlo.binary main_v176 main_v175 main_v177 (mulf : (⟨S8192x4096, .f32⟩ : BufTy).Contents (Elt F) → (⟨S8192x4096, .f32⟩ : BufTy).Contents (Elt F) → (⟨S8192x4096, .f32⟩ : BufTy).Contents (Elt F)),
    StableHlo.binary main_v73 main_v177 main_v178 (addf : (⟨S8192x4096, .f32⟩ : BufTy).Contents (Elt F) → (⟨S8192x4096, .f32⟩ : BufTy).Contents (Elt F) → (⟨S8192x4096, .f32⟩ : BufTy).Contents (Elt F)) ]

/-- Operations 93 … 195 of the 278 — the stretch after %73 up to and including the second select against a broadcast scalar (%113): the per-row counts and first-entry keys, the two floor-remainders, the gathered column indices and the two guarded denominators. -/
abbrev opsDpre : List (HloOp τ sig (Elt F)) :=
  [ StableHlo.nullary main_cst_16 (constant S_ .f32 0x3F800000#32),
    StableHlo.unary main_cst_16 main_v74 (broadcastInDim S409600 ![] bcast_S_S409600 : (⟨S_, .f32⟩ : BufTy).Contents (Elt F) → (⟨S409600, .f32⟩ : BufTy).Contents (Elt F)),
    StableHlo.nullary main_cst_17 (constant S_ .f32 0x00000000#32),
    StableHlo.unary main_cst_17 main_v75 (broadcastInDim S8192 ![] bcast_S_S8192 : (⟨S_, .f32⟩ : BufTy).Contents (Elt F) → (⟨S8192, .f32⟩ : BufTy).Contents (Elt F)),
    StableHlo.unary main_arg6 main_v76 (broadcastInDim S409600x1 ![0] bcast_S409600_S409600x1_0 : (⟨S409600, .i32⟩ : BufTy).Contents (Elt F) → (⟨S409600x1, .i32⟩ : BufTy).Contents (Elt F)),
    StableHlo.ternary main_v75 main_v76 main_v74 main_v77 ((fun x i u => Host.scatterAdd scatter_S8192_S409600x1_S409600_n_0_0_1 x i u) : (⟨S8192, .f32⟩ : BufTy).Contents (Elt F) → (⟨S409600x1, .i32⟩ : BufTy).Contents (Elt F) → (⟨S409600, .f32⟩ : BufTy).Contents (Elt F) → (⟨S8192, .f32⟩ : BufTy).Contents (Elt F)),
    StableHlo.nullary main_cst_18 (constant S_ .f32 0x00000000#32),
    StableHlo.unary main_cst_18 main_v78 (broadcastInDim S8192 ![] bcast_S_S8192 : (⟨S_, .f32⟩ : BufTy).Contents (Elt F) → (⟨S8192, .f32⟩ : BufTy).Contents (Elt F)),
    StableHlo.binary main_v77 main_v78 main_v79 (cmpf .ogt : (⟨S8192, .f32⟩ : BufTy).Contents (Elt F) → (⟨S8192, .f32⟩ : BufTy).Contents (Elt F) → (⟨S8192, .i1⟩ : BufTy).Contents (Elt F)),
    StableHlo.nullary main_c_19 (constantI S_ 32 409600#32),
    StableHlo.unary main_c_19 main_v80 (broadcastInDim S409600 ![] bcast_S_S409600 : (⟨S_, .i32⟩ : BufTy).Contents (Elt F) → (⟨S409600, .i32⟩ : BufTy).Contents (Elt F)),
    StableHlo.binary main_arg7 main_v80 main_v81 (muli : (⟨S409600, .i32⟩ : BufTy).Contents (Elt F) → (⟨S409600, .i32⟩ : BufTy).Contents (Elt F) → (⟨S409600, .i32⟩ : BufTy).Contents (Elt F)),
    StableHlo.nullary main_v82 (iotaInDim S409600 32 0),
    StableHlo.binary main_v81 main_v82 main_v83 (addi : (⟨S409600, .i32⟩ : BufTy).Contents (Elt F) → (⟨S409600, .i32⟩ : BufTy).Contents (Elt F) → (⟨S409600, .i32⟩ : BufTy).Contents (Elt F)),
    StableHlo.nullary main_c_20 (constantI S_ 32 2147483647#32),
    StableHlo.unary main_c_20 main_v84 (broadcastInDim S8192 ![] bcast_S_S8192 : (⟨S_, .i32⟩ : BufTy).Contents (Elt F) → (⟨S8192, .i32⟩ : BufTy).Contents (Elt F)),
    StableHlo.unary main_arg6 main_v85 (broadcastInDim S409600x1 ![0] bcast_S409600_S409600x1_0 : (⟨S409600, .i32⟩ : BufTy).Contents (Elt F) → (⟨S409600x1, .i32⟩ : BufTy).Contents (Elt F)),
    StableHlo.ternary main_v84 main_v85 main_v83 main_v86 ((fun x i u => Host.scatter scatter_S8192_S409600x1_S409600_n_0_0_1 IntOp.minsi x i u) : (⟨S8192, .i32⟩ : BufTy).Contents (Elt F) → (⟨S409600x1, .i32⟩ : BufTy).Contents (Elt F) → (⟨S409600, .i32⟩ : BufTy).Contents (Elt F) → (⟨S8192, .i32⟩ : BufTy).Contents (Elt F)),
    StableHlo.nullary main_c_21 (constantI S_ 32 409600#32),
    StableHlo.TRef.unary (StableHlo.TRef.of main_c_21 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192 ![] bcast_S_S8192),
    StableHlo.TRef.binary (StableHlo.TRef.of main_v86 : StableHlo.TRef sig ⟨S8192, .i32⟩) main_call0.v3 main_call0.v4 Host.remsi,
    StableHlo.TRef.nullary main_call0.c_1 (constantI S_ 32 0#32),
    StableHlo.TRef.unary main_call0.c_1 main_call0.v5 (broadcastInDim S8192 ![] bcast_S_S8192),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192 ![] bcast_S_S8192),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192 ![] bcast_S_S8192),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192 ![] bcast_S_S8192),
    StableHlo.TRef.binary main_call0.v4 main_call0.v13 main_call0.v14 addi,
    StableHlo.TRef.ternary main_call0.v12 main_call0.v14 main_call0.v4 main_call0.v15 select,
    StableHlo.nullary main_c_22 (constantI S_ 32 0#32),
    StableHlo.TRef.unary (StableHlo.TRef.of main_c_22 : StableHlo.TRef sig ⟨S_, .i32⟩) main_call1.v0 id,
    StableHlo.TRef.unary main_call1.v0 main_call1.v1 (broadcastInDim S8192 ![] bcast_S_S8192),
    StableHlo.TRef.ternary (StableHlo.TRef.of main_v79 : StableHlo.TRef sig ⟨S8192, .i1⟩) (StableHlo.TRef.of main_v87 : StableHlo.TRef sig ⟨S8192, .i32⟩) main_call1.v1 main_call1.v2 select,
    StableHlo.nullary main_c_23 (constantI S_ 32 0#32),
    StableHlo.unary main_c_23 main_v89 (broadcastInDim S8192 ![] bcast_S_S8192 : (⟨S_, .i32⟩ : BufTy).Contents (Elt F) → (⟨S8192, .i32⟩ : BufTy).Contents (Elt F)),
    StableHlo.binary main_v88 main_v89 main_v90 (cmpi .slt : (⟨S8192, .i32⟩ : BufTy).Contents (Elt F) → (⟨S8192, .i32⟩ : BufTy).Contents (Elt F) → (⟨S8192, .i1⟩ : BufTy).Contents (Elt F)),
    StableHlo.nullary main_c_24 (constantI S_ 32 409600#32),
    StableHlo.unary main_c_24 main_v91 (broadcastInDim S8192 ![] bcast_S_S8192 : (⟨S_, .i32⟩ : BufTy).Contents (Elt F) → (⟨S8192, .i32⟩ : BufTy).Contents (Elt F)),
    StableHlo.binary main_v88 main_v91 main_v92 (addi : (⟨S8192, .i32⟩ : BufTy).Contents (Elt F) → (⟨S8192, .i32⟩ : BufTy).Contents (Elt F) → (⟨S8192, .i32⟩ : BufTy).Contents (Elt F)),
    StableHlo.ternary main_v90 main_v92 main_v88 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v93 main_v94 (broadcastInDim S8192x1 ![0] bcast_S8192_S8192x1_0 : (⟨S8192, .i32⟩ : BufTy).Contents (Elt F) → (⟨S8192x1, .i32⟩ : BufTy).Contents (Elt F)),
    StableHlo.binary main_arg7 main_v94 main_v95 ((fun x i => Host.gather gather_S409600_S8192x1_S8192_n_0_n_n_0_1_1 x i) : (⟨S409600, .i32⟩ : BufTy).Contents (Elt F) → (⟨S8192x1, .i32⟩ : BufTy).Contents (Elt F) → (⟨S8192, .i32⟩ : BufTy).Contents (Elt F)),
    StableHlo.nullary main_c_25 (constantI S_ 32 0#32),
    StableHlo.unary main_c_25 main_v96 (broadcastInDim S8192 ![] bcast_S_S8192 : (⟨S_, .i32⟩ : BufTy).Contents (Elt F) → (⟨S8192, .i32⟩ : BufTy).Contents (Elt F)),
    StableHlo.binary main_v88 main_v96 main_v97 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 409600#32),
    StableHlo.unary main_c_26 main_v98 (broadcastInDim S8192 ![] bcast_S_S8192 : (⟨S_, .i32⟩ : BufTy).Contents (Elt F) → (⟨S8192, .i32⟩ : BufTy).Contents (Elt F)),
    StableHlo.binary main_v88 main_v98 main_v99 (addi : (⟨S8192, .i32⟩ : BufTy).Contents (Elt F) → (⟨S8192, .i32⟩ : BufTy).Contents (Elt F) → (⟨S8192, .i32⟩ : BufTy).Contents (Elt F)),
    StableHlo.ternary main_v97 main_v99 main_v88 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v100 main_v101 (broadcastInDim S8192x1 ![0] bcast_S8192_S8192x1_0 : (⟨S8192, .i32⟩ : BufTy).Contents (Elt F) → (⟨S8192x1, .i32⟩ : BufTy).Contents (Elt F)),
    StableHlo.binary main_arg8 main_v101 main_v102 ((fun x i => Host.gather gather_S409600_S8192x1_S8192_n_0_n_n_0_1_1 x i) : (⟨S409600, .f32⟩ : BufTy).Contents (Elt F) → (⟨S8192x1, .i32⟩ : BufTy).Contents (Elt F) → (⟨S8192, .f32⟩ : BufTy).Contents (Elt F)),
    StableHlo.nullary main_c_27 (constantI S_ 32 1#32),
    StableHlo.unary main_c_27 main_v103 (broadcastInDim S8192 ![] bcast_S_S8192 : (⟨S_, .i32⟩ : BufTy).Contents (Elt F) → (⟨S8192, .i32⟩ : BufTy).Contents (Elt F)),
    StableHlo.binary main_v95 main_v103 main_v104 (addi : (⟨S8192, .i32⟩ : BufTy).Contents (Elt F) → (⟨S8192, .i32⟩ : BufTy).Contents (Elt F) → (⟨S8192, .i32⟩ : BufTy).Contents (Elt F)),
    StableHlo.nullary main_c_28 (constantI S_ 32 4096#32),
    StableHlo.TRef.unary (StableHlo.TRef.of main_c_28 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (StableHlo.TRef.of main_v104 : StableHlo.TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_v106 (iotaInDim S8192 32 0),
    StableHlo.nullary main_cst_29 (constant S_ .f32 0x00000000#32),
    StableHlo.unary main_cst_29 main_v107 (broadcastInDim S8192 ![] bcast_S_S8192 : (⟨S_, .f32⟩ : BufTy).Contents (Elt F) → (⟨S8192, .f32⟩ : BufTy).Contents (Elt F)),
    StableHlo.binary main_v102 main_v107 main_v108 (cmpf .oeq : (⟨S8192, .f32⟩ : BufTy).Contents (Elt F) → (⟨S8192, .f32⟩ : BufTy).Contents (Elt F) → (⟨S8192, .i1⟩ : BufTy).Contents (Elt F)),
    StableHlo.nullary main_cst_30 (constant S_ .f32 0x3727C5AC#32),
    StableHlo.TRef.unary (StableHlo.TRef.of main_cst_30 : StableHlo.TRef sig ⟨S_, .f32⟩) main_call3.v0 id,
    StableHlo.TRef.unary main_call3.v0 main_call3.v1 (broadcastInDim S8192 ![] bcast_S_S8192),
    StableHlo.TRef.ternary (StableHlo.TRef.of main_v108 : StableHlo.TRef sig ⟨S8192, .i1⟩) main_call3.v1 (StableHlo.TRef.of main_v102 : StableHlo.TRef sig ⟨S8192, .f32⟩) main_call3.v2 select,
    StableHlo.nullary main_cst_31 (constant S_ .f32 0x00000000#32),
    StableHlo.unary main_cst_31 main_v110 (broadcastInDim S8192 ![] bcast_S_S8192 : (⟨S_, .f32⟩ : BufTy).Contents (Elt F) → (⟨S8192, .f32⟩ : BufTy).Contents (Elt F)),
    StableHlo.binary main_v102 main_v110 main_v111 (cmpf .oeq : (⟨S8192, .f32⟩ : BufTy).Contents (Elt F) → (⟨S8192, .f32⟩ : BufTy).Contents (Elt F) → (⟨S8192, .i1⟩ : BufTy).Contents (Elt F)),
    StableHlo.unary main_v102 main_v112 (Host.negf : (⟨S8192, .f32⟩ : BufTy).Contents (Elt F) → (⟨S8192, .f32⟩ : BufTy).Contents (Elt F)),
    StableHlo.nullary main_cst_32 (constant S_ .f32 0x3727C5AC#32),
    StableHlo.TRef.unary (StableHlo.TRef.of main_cst_32 : StableHlo.TRef sig ⟨S_, .f32⟩) main_call4.v0 id,
    StableHlo.TRef.unary main_call4.v0 main_call4.v1 (broadcastInDim S8192 ![] bcast_S_S8192),
    StableHlo.TRef.ternary (StableHlo.TRef.of main_v111 : StableHlo.TRef sig ⟨S8192, .i1⟩) main_call4.v1 (StableHlo.TRef.of main_v112 : StableHlo.TRef sig ⟨S8192, .f32⟩) main_call4.v2 select ]

/-- Operations 196 … 278 of the 278 — %114 … %178: from the conversion of the has-an-entry mask to the result — the two gathers of the normalised matrix, the two quotients, the four dense scatters and the final combination. -/
abbrev opsDlast : List (HloOp τ sig (Elt F)) :=
  [ StableHlo.unary main_v79 main_v114 (uitofp .f32 : (⟨S8192, .i1⟩ : BufTy).Contents (Elt F) → (⟨S8192, .f32⟩ : BufTy).Contents (Elt F)),
    StableHlo.nullary main_c_33 (constantI S_ 32 0#32),
    StableHlo.unary main_c_33 main_v115 (broadcastInDim S8192 ![] bcast_S_S8192 : (⟨S_, .i32⟩ : BufTy).Contents (Elt F) → (⟨S8192, .i32⟩ : BufTy).Contents (Elt F)),
    StableHlo.binary main_v106 main_v115 main_v116 (cmpi .slt : (⟨S8192, .i32⟩ : BufTy).Contents (Elt F) → (⟨S8192, .i32⟩ : BufTy).Contents (Elt F) → (⟨S8192, .i1⟩ : BufTy).Contents (Elt F)),
    StableHlo.nullary main_c_34 (constantI S_ 32 8192#32),
    StableHlo.unary main_c_34 main_v117 (broadcastInDim S8192 ![] bcast_S_S8192 : (⟨S_, .i32⟩ : BufTy).Contents (Elt F) → (⟨S8192, .i32⟩ : BufTy).Contents (Elt F)),
    StableHlo.binary main_v106 main_v117 main_v118 (addi : (⟨S8192, .i32⟩ : BufTy).Contents (Elt F) → (⟨S8192, .i32⟩ : BufTy).Contents (Elt F) → (⟨S8192, .i32⟩ : BufTy).Contents (Elt F)),
    StableHlo.ternary main_v116 main_v118 main_v106 main_v119 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_35 (constantI S_ 32 0#32),
    StableHlo.unary main_c_35 main_v120 (broadcastInDim S8192 ![] bcast_S_S8192 : (⟨S_, .i32⟩ : BufTy).Contents (Elt F) → (⟨S8192, .i32⟩ : BufTy).Contents (Elt F)),
    StableHlo.binary main_v95 main_v120 main_v121 (cmpi .slt : (⟨S8192, .i32⟩ : BufTy).Contents (Elt F) → (⟨S8192, .i32⟩ : BufTy).Contents (Elt F) → (⟨S8192, .i1⟩ : BufTy).Contents (Elt F)),
    StableHlo.nullary main_c_36 (constantI S_ 32 8192#32),
    StableHlo.unary main_c_36 main_v122 (broadcastInDim S8192 ![] bcast_S_S8192 : (⟨S_, .i32⟩ : BufTy).Contents (Elt F) → (⟨S8192, .i32⟩ : BufTy).Contents (Elt F)),
    StableHlo.binary main_v95 main_v122 main_v123 (addi : (⟨S8192, .i32⟩ : BufTy).Contents (Elt F) → (⟨S8192, .i32⟩ : BufTy).Contents (Elt F) → (⟨S8192, .i32⟩ : BufTy).Contents (Elt F)),
    StableHlo.ternary main_v121 main_v123 main_v95 main_v124 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v119 main_v125 (broadcastInDim S8192x1 ![0] bcast_S8192_S8192x1_0 : (⟨S8192, .i32⟩ : BufTy).Contents (Elt F) → (⟨S8192x1, .i32⟩ : BufTy).Contents (Elt F)),
    StableHlo.unary main_v124 main_v126 (broadcastInDim S8192x1 ![0] bcast_S8192_S8192x1_0 : (⟨S8192, .i32⟩ : BufTy).Contents (Elt F) → (⟨S8192x1, .i32⟩ : BufTy).Contents (Elt F)),
    StableHlo.binary main_v125 main_v126 main_v127 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v127 main_v128 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v128 main_v109 main_v129 (Host.divf : (⟨S8192, .f32⟩ : BufTy).Contents (Elt F) → (⟨S8192, .f32⟩ : BufTy).Contents (Elt F) → (⟨S8192, .f32⟩ : BufTy).Contents (Elt F)),
    StableHlo.binary main_v129 main_v114 main_v130 (mulf : (⟨S8192, .f32⟩ : BufTy).Contents (Elt F) → (⟨S8192, .f32⟩ : BufTy).Contents (Elt F) → (⟨S8192, .f32⟩ : BufTy).Contents (Elt F)),
    StableHlo.nullary main_c_37 (constantI S_ 32 0#32),
    StableHlo.unary main_c_37 main_v131 (broadcastInDim S8192 ![] bcast_S_S8192 : (⟨S_, .i32⟩ : BufTy).Contents (Elt F) → (⟨S8192, .i32⟩ : BufTy).Contents (Elt F)),
    StableHlo.binary main_v106 main_v131 main_v132 (cmpi .slt : (⟨S8192, .i32⟩ : BufTy).Contents (Elt F) → (⟨S8192, .i32⟩ : BufTy).Contents (Elt F) → (⟨S8192, .i1⟩ : BufTy).Contents (Elt F)),
    StableHlo.nullary main_c_38 (constantI S_ 32 8192#32),
    StableHlo.unary main_c_38 main_v133 (broadcastInDim S8192 ![] bcast_S_S8192 : (⟨S_, .i32⟩ : BufTy).Contents (Elt F) → (⟨S8192, .i32⟩ : BufTy).Contents (Elt F)),
    StableHlo.binary main_v106 main_v133 main_v134 (addi : (⟨S8192, .i32⟩ : BufTy).Contents (Elt F) → (⟨S8192, .i32⟩ : BufTy).Contents (Elt F) → (⟨S8192, .i32⟩ : BufTy).Contents (Elt F)),
    StableHlo.ternary main_v132 main_v134 main_v106 main_v135 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_39 (constantI S_ 32 0#32),
    StableHlo.unary main_c_39 main_v136 (broadcastInDim S8192 ![] bcast_S_S8192 : (⟨S_, .i32⟩ : BufTy).Contents (Elt F) → (⟨S8192, .i32⟩ : BufTy).Contents (Elt F)),
    StableHlo.binary main_v105 main_v136 main_v137 (cmpi .slt : (⟨S8192, .i32⟩ : BufTy).Contents (Elt F) → (⟨S8192, .i32⟩ : BufTy).Contents (Elt F) → (⟨S8192, .i1⟩ : BufTy).Contents (Elt F)),
    StableHlo.nullary main_c_40 (constantI S_ 32 8192#32),
    StableHlo.unary main_c_40 main_v138 (broadcastInDim S8192 ![] bcast_S_S8192 : (⟨S_, .i32⟩ : BufTy).Contents (Elt F) → (⟨S8192, .i32⟩ : BufTy).Contents (Elt F)),
    StableHlo.binary main_v105 main_v138 main_v139 (addi : (⟨S8192, .i32⟩ : BufTy).Contents (Elt F) → (⟨S8192, .i32⟩ : BufTy).Contents (Elt F) → (⟨S8192, .i32⟩ : BufTy).Contents (Elt F)),
    StableHlo.ternary main_v137 main_v139 main_v105 main_v140 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v135 main_v141 (broadcastInDim S8192x1 ![0] bcast_S8192_S8192x1_0 : (⟨S8192, .i32⟩ : BufTy).Contents (Elt F) → (⟨S8192x1, .i32⟩ : BufTy).Contents (Elt F)),
    StableHlo.unary main_v140 main_v142 (broadcastInDim S8192x1 ![0] bcast_S8192_S8192x1_0 : (⟨S8192, .i32⟩ : BufTy).Contents (Elt F) → (⟨S8192x1, .i32⟩ : BufTy).Contents (Elt F)),
    StableHlo.binary main_v141 main_v142 main_v143 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v15 main_v143 main_v144 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v144 main_v113 main_v145 (Host.divf : (⟨S8192, .f32⟩ : BufTy).Contents (Elt F) → (⟨S8192, .f32⟩ : BufTy).Contents (Elt F) → (⟨S8192, .f32⟩ : BufTy).Contents (Elt F)),
    StableHlo.binary main_v145 main_v114 main_v146 (mulf : (⟨S8192, .f32⟩ : BufTy).Contents (Elt F) → (⟨S8192, .f32⟩ : BufTy).Contents (Elt F) → (⟨S8192, .f32⟩ : BufTy).Contents (Elt F)),
    StableHlo.nullary main_cst_41 (constant S_ .f32 0x00000000#32),
    StableHlo.unary main_cst_41 main_v147 (broadcastInDim S8192x4096 ![] bcast_S_S8192x4096 : (⟨S_, .f32⟩ : BufTy).Contents (Elt F) → (⟨S8192x4096, .f32⟩ : BufTy).Contents (Elt F)),
    StableHlo.nullary main_c_42 (constantI S_ 32 0#32),
    StableHlo.unary main_c_42 main_v148 (broadcastInDim S8192 ![] bcast_S_S8192 : (⟨S_, .i32⟩ : BufTy).Contents (Elt F) → (⟨S8192, .i32⟩ : BufTy).Contents (Elt F)),
    StableHlo.binary main_v106 main_v148 main_v149 (cmpi .slt : (⟨S8192, .i32⟩ : BufTy).Contents (Elt F) → (⟨S8192, .i32⟩ : BufTy).Contents (Elt F) → (⟨S8192, .i1⟩ : BufTy).Contents (Elt F)),
    StableHlo.nullary main_c_43 (constantI S_ 32 8192#32),
    StableHlo.unary main_c_43 main_v150 (broadcastInDim S8192 ![] bcast_S_S8192 : (⟨S_, .i32⟩ : BufTy).Contents (Elt F) → (⟨S8192, .i32⟩ : BufTy).Contents (Elt F)),
    StableHlo.binary main_v106 main_v150 main_v151 (addi : (⟨S8192, .i32⟩ : BufTy).Contents (Elt F) → (⟨S8192, .i32⟩ : BufTy).Contents (Elt F) → (⟨S8192, .i32⟩ : BufTy).Contents (Elt F)),
    StableHlo.ternary main_v149 main_v151 main_v106 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_44 (constantI S_ 32 0#32),
    StableHlo.unary main_c_44 main_v153 (broadcastInDim S8192 ![] bcast_S_S8192 : (⟨S_, .i32⟩ : BufTy).Contents (Elt F) → (⟨S8192, .i32⟩ : BufTy).Contents (Elt F)),
    StableHlo.binary main_v95 main_v153 main_v154 (cmpi .slt : (⟨S8192, .i32⟩ : BufTy).Contents (Elt F) → (⟨S8192, .i32⟩ : BufTy).Contents (Elt F) → (⟨S8192, .i1⟩ : BufTy).Contents (Elt F)),
    StableHlo.nullary main_c_45 (constantI S_ 32 4096#32),
    StableHlo.unary main_c_45 main_v155 (broadcastInDim S8192 ![] bcast_S_S8192 : (⟨S_, .i32⟩ : BufTy).Contents (Elt F) → (⟨S8192, .i32⟩ : BufTy).Contents (Elt F)),
    StableHlo.binary main_v95 main_v155 main_v156 (addi : (⟨S8192, .i32⟩ : BufTy).Contents (Elt F) → (⟨S8192, .i32⟩ : BufTy).Contents (Elt F) → (⟨S8192, .i32⟩ : BufTy).Contents (Elt F)),
    StableHlo.ternary main_v154 main_v156 main_v95 main_v157 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v152 main_v158 (broadcastInDim S8192x1 ![0] bcast_S8192_S8192x1_0 : (⟨S8192, .i32⟩ : BufTy).Contents (Elt F) → (⟨S8192x1, .i32⟩ : BufTy).Contents (Elt F)),
    StableHlo.unary main_v157 main_v159 (broadcastInDim S8192x1 ![0] bcast_S8192_S8192x1_0 : (⟨S8192, .i32⟩ : BufTy).Contents (Elt F) → (⟨S8192x1, .i32⟩ : BufTy).Contents (Elt F)),
    StableHlo.binary main_v158 main_v159 main_v160 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v147 main_v160 main_v130 main_v161 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_c_46 (constantI S_ 32 0#32),
    StableHlo.unary main_c_46 main_v162 (broadcastInDim S8192 ![] bcast_S_S8192 : (⟨S_, .i32⟩ : BufTy).Contents (Elt F) → (⟨S8192, .i32⟩ : BufTy).Contents (Elt F)),
    StableHlo.binary main_v106 main_v162 main_v163 (cmpi .slt : (⟨S8192, .i32⟩ : BufTy).Contents (Elt F) → (⟨S8192, .i32⟩ : BufTy).Contents (Elt F) → (⟨S8192, .i1⟩ : BufTy).Contents (Elt F)),
    StableHlo.nullary main_c_47 (constantI S_ 32 8192#32),
    StableHlo.unary main_c_47 main_v164 (broadcastInDim S8192 ![] bcast_S_S8192 : (⟨S_, .i32⟩ : BufTy).Contents (Elt F) → (⟨S8192, .i32⟩ : BufTy).Contents (Elt F)),
    StableHlo.binary main_v106 main_v164 main_v165 (addi : (⟨S8192, .i32⟩ : BufTy).Contents (Elt F) → (⟨S8192, .i32⟩ : BufTy).Contents (Elt F) → (⟨S8192, .i32⟩ : BufTy).Contents (Elt F)),
    StableHlo.ternary main_v163 main_v165 main_v106 main_v166 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_48 (constantI S_ 32 0#32),
    StableHlo.unary main_c_48 main_v167 (broadcastInDim S8192 ![] bcast_S_S8192 : (⟨S_, .i32⟩ : BufTy).Contents (Elt F) → (⟨S8192, .i32⟩ : BufTy).Contents (Elt F)),
    StableHlo.binary main_v105 main_v167 main_v168 (cmpi .slt : (⟨S8192, .i32⟩ : BufTy).Contents (Elt F) → (⟨S8192, .i32⟩ : BufTy).Contents (Elt F) → (⟨S8192, .i1⟩ : BufTy).Contents (Elt F)),
    StableHlo.nullary main_c_49 (constantI S_ 32 4096#32),
    StableHlo.unary main_c_49 main_v169 (broadcastInDim S8192 ![] bcast_S_S8192 : (⟨S_, .i32⟩ : BufTy).Contents (Elt F) → (⟨S8192, .i32⟩ : BufTy).Contents (Elt F)),
    StableHlo.binary main_v105 main_v169 main_v170 (addi : (⟨S8192, .i32⟩ : BufTy).Contents (Elt F) → (⟨S8192, .i32⟩ : BufTy).Contents (Elt F) → (⟨S8192, .i32⟩ : BufTy).Contents (Elt F)),
    StableHlo.ternary main_v168 main_v170 main_v105 main_v171 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v166 main_v172 (broadcastInDim S8192x1 ![0] bcast_S8192_S8192x1_0 : (⟨S8192, .i32⟩ : BufTy).Contents (Elt F) → (⟨S8192x1, .i32⟩ : BufTy).Contents (Elt F)),
    StableHlo.unary main_v171 main_v173 (broadcastInDim S8192x1 ![0] bcast_S8192_S8192x1_0 : (⟨S8192, .i32⟩ : BufTy).Contents (Elt F) → (⟨S8192x1, .i32⟩ : BufTy).Contents (Elt F)),
    StableHlo.binary main_v172 main_v173 main_v174 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v161 main_v174 main_v146 main_v175 ((fun x i u => Host.scatterAdd scatter_S8192x4096_S8192x2_S8192_n_01_01_1 x i u) : (⟨S8192x4096, .f32⟩ : BufTy).Contents (Elt F) → (⟨S8192x2, .i32⟩ : BufTy).Contents (Elt F) → (⟨S8192, .f32⟩ : BufTy).Contents (Elt F) → (⟨S8192x4096, .f32⟩ : BufTy).Contents (Elt F)),
    StableHlo.nullary main_cst_50 (constant S_ .f32 0x3E4CCCCD#32),
    StableHlo.unary main_cst_50 main_v176 (broadcastInDim S8192x4096 ![] bcast_S_S8192x4096 : (⟨S_, .f32⟩ : BufTy).Contents (Elt F) → (⟨S8192x4096, .f32⟩ : BufTy).Contents (Elt F)),
    StableHlo.binary main_v176 main_v175 main_v177 (mulf : (⟨S8192x4096, .f32⟩ : BufTy).Contents (Elt F) → (⟨S8192x4096, .f32⟩ : BufTy).Contents (Elt F) → (⟨S8192x4096, .f32⟩ : BufTy).Contents (Elt F)),
    StableHlo.binary main_v73 main_v177 main_v178 (addf : (⟨S8192x4096, .f32⟩ : BufTy).Contents (Elt F) → (⟨S8192x4096, .f32⟩ : BufTy).Contents (Elt F) → (⟨S8192x4096, .f32⟩ : BufTy).Contents (Elt F)) ]

set_option maxRecDepth 8192 in
/-- The stretch after the last product is its three window parts in order. -/
theorem opsD_eq3 : (opsD : List (HloOp τ sig (Elt F))) = opsD1 ++ opsD2 ++ opsD3 := rfl

set_option maxRecDepth 8192 in
/-- The stretch after the last product, cut once after the second guarded denominator. -/
theorem opsD_eq : (opsD : List (HloOp τ sig (Elt F))) = opsDpre ++ opsDlast := rfl

end Cert.ReferenceIdeal.Hand

end
-- ==== Proof.RI.Cut.lean ====
/- The reference program's operation list as its named stretches, and the fold over it as the composition
   of the folds over the stretches.

   The list of @main's operations window by window and the list stretch by stretch are the same list, by
   computation; and the fold of a concatenation is the composition of the folds, first list first. -/
import proofs.«166874_j54296976556804_1_alg».proof.Proof.RI.Run
import proofs.«166874_j54296976556804_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The windows in order and the stretches in order are one and the same list of 278 operations. -/
theorem ops_eq : (ops : List (HloOp τ sig (Elt F))) = opsA ++ opsDot4 ++ opsDot5 ++ opsB ++ opsDot56 ++ opsC ++ opsDot72 ++ opsDot73 ++ opsD := rfl

/-- The contents after the whole line, from any contents `V`: the stretches' folds composed, the first stretch innermost. -/
theorem after_ops_cut (V : Valuation τ sig (Elt F)) :
    after ops V = after opsD (after opsDot73 (after opsDot72 (after opsC (after opsDot56 (after opsB (after opsDot5 (after opsDot4 (after opsA V)))))))) := by
  rw [ops_eq]
  simp only [after_append]

/-- The last stretch's fold is its three window parts' folds composed. -/
theorem after_opsD3 (V : Valuation τ sig (Elt F)) :
    after opsD V = after opsD3 (after opsD2 (after opsD1 V)) := by
  rw [opsD_eq3]
  simp only [after_append]

/-- The last stretch's fold is the folds of its two parts composed. -/
theorem after_opsD_cut (V : Valuation τ sig (Elt F)) :
    after opsD V = after opsDlast (after opsDpre V) := by
  rw [opsD_eq]
  simp only [after_append]

end Cert.ReferenceIdeal.Hand

end
-- ==== Proof.Bridge.Defs.lean ====
/-
  The vocabulary of the comparison between the two programs' host operations: contents of the kernel program's
  buffers and of the reference's, what it means for the two to agree on the eleven argument arrays, and the
  kernel's operations between its last matrix product and its last stretch as one composition.
-/
import proofs.«166874_j54296976556804_1_alg».proof.Proof.Gen.KernelIdeal.Launch
import proofs.«166874_j54296976556804_1_alg».proof.Proof.RI.Cut
import Idealize.ShloMosaic.Lib.StableHlo.Run
import Idealize.ShloMosaic.PureOps.Ideal

noncomputable section

namespace Cert.Bridge

open Idealize.ShloMosaic Idealize.SL.Sem
open Idealize.ShloMosaic.StableHlo

/-- Contents of the kernel program's buffers on one TensorCore, floats read as extended reals. -/
abbrev KVal := Valuation Cert.KernelIdeal.τ Cert.KernelIdeal.sig (Elt Ideal)
/-- Contents of the reference program's buffers. -/
abbrev RVal := Valuation Cert.ReferenceIdeal.τ Cert.ReferenceIdeal.sig (Elt Ideal)

/-- The two programs' buffers agree on the eleven argument arrays. -/
structure ArgsAgree (VK : KVal) (VR : RVal) : Prop where
  h0 : VR (Proc.devRef .tc Cert.ReferenceIdeal.main_arg0) = VK (Proc.devRef .tc Cert.KernelIdeal.main_arg0)
  h1 : VR (Proc.devRef .tc Cert.ReferenceIdeal.main_arg1) = VK (Proc.devRef .tc Cert.KernelIdeal.main_arg1)
  h2 : VR (Proc.devRef .tc Cert.ReferenceIdeal.main_arg2) = VK (Proc.devRef .tc Cert.KernelIdeal.main_arg2)
  h3 : VR (Proc.devRef .tc Cert.ReferenceIdeal.main_arg3) = VK (Proc.devRef .tc Cert.KernelIdeal.main_arg3)
  h4 : VR (Proc.devRef .tc Cert.ReferenceIdeal.main_arg4) = VK (Proc.devRef .tc Cert.KernelIdeal.main_arg4)
  h5 : VR (Proc.devRef .tc Cert.ReferenceIdeal.main_arg5) = VK (Proc.devRef .tc Cert.KernelIdeal.main_arg5)
  h6 : VR (Proc.devRef .tc Cert.ReferenceIdeal.main_arg6) = VK (Proc.devRef .tc Cert.KernelIdeal.main_arg6)
  h7 : VR (Proc.devRef .tc Cert.ReferenceIdeal.main_arg7) = VK (Proc.devRef .tc Cert.KernelIdeal.main_arg7)
  h8 : VR (Proc.devRef .tc Cert.ReferenceIdeal.main_arg8) = VK (Proc.devRef .tc Cert.KernelIdeal.main_arg8)
  h9 : VR (Proc.devRef .tc Cert.ReferenceIdeal.main_arg9) = VK (Proc.devRef .tc Cert.KernelIdeal.main_arg9)
  h10 : VR (Proc.devRef .tc Cert.ReferenceIdeal.main_arg10) = VK (Proc.devRef .tc Cert.KernelIdeal.main_arg10)

/-- The kernel program's host operations after its last matrix product, up to its last stretch: ten stretches
    composed (the segment counts, the first-entry keys, the selected columns c1 and c2 and the divisors). -/
def preTailK (V : KVal) : KVal :=
  StableHlo.after Cert.KernelIdeal.Gen.hostOps5_9 (StableHlo.after Cert.KernelIdeal.Gen.hostOps5_8 (StableHlo.after Cert.KernelIdeal.Gen.hostOps5_7
    (StableHlo.after Cert.KernelIdeal.Gen.hostOps5_6 (StableHlo.after Cert.KernelIdeal.Gen.hostOps5_5 (StableHlo.after Cert.KernelIdeal.Gen.hostOps5_4
      (StableHlo.after Cert.KernelIdeal.Gen.hostOps5_3 (StableHlo.after Cert.KernelIdeal.Gen.hostOps5_2 (StableHlo.after Cert.KernelIdeal.Gen.hostOps5_1
        (StableHlo.after Cert.KernelIdeal.Gen.hostOps5 V)))))))))

/-- The reference program's buffers at its cuts: before and after each of its four whole matrix products
    (the first is a pair: two products in a row), and before its last stretch. -/
def R1 (V : RVal) : RVal := StableHlo.after Cert.ReferenceIdeal.Hand.opsA V
def R2 (V : RVal) : RVal := StableHlo.after Cert.ReferenceIdeal.Hand.opsDot4 (R1 V)
def R3 (V : RVal) : RVal := StableHlo.after Cert.ReferenceIdeal.Hand.opsDot5 (R2 V)
def R4 (V : RVal) : RVal := StableHlo.after Cert.ReferenceIdeal.Hand.opsB (R3 V)
def R5 (V : RVal) : RVal := StableHlo.after Cert.ReferenceIdeal.Hand.opsDot56 (R4 V)
def R6 (V : RVal) : RVal := StableHlo.after Cert.ReferenceIdeal.Hand.opsC (R5 V)
def R7 (V : RVal) : RVal := StableHlo.after Cert.ReferenceIdeal.Hand.opsDot72 (R6 V)
def R8 (V : RVal) : RVal := StableHlo.after Cert.ReferenceIdeal.Hand.opsDot73 (R7 V)
def R9 (V : RVal) : RVal := StableHlo.after Cert.ReferenceIdeal.Hand.opsDpre (R8 V)
def R10 (V : RVal) : RVal := StableHlo.after Cert.ReferenceIdeal.Hand.opsDlast (R9 V)

/-- The reference's whole line is the composition of its pieces. -/
theorem after_ops_R10 (V : RVal) : StableHlo.after (Cert.ReferenceIdeal.Hand.ops (F := Ideal)) V = R10 V := by
  rw [Cert.ReferenceIdeal.Hand.after_ops_cut, Cert.ReferenceIdeal.Hand.after_opsD_cut]
  rfl

end Cert.Bridge

end
-- ==== Proof.Bridge.Keep.lean ====
/-
  Buffers that later operations do not write keep their contents: the normalised matrix, the third product's left
  factor and the last product's result on the kernel program's side, and their counterparts on the reference's.
-/
import proofs.«166874_j54296976556804_1_alg».proof.Proof.KI.Run
import proofs.«166874_j54296976556804_1_alg».proof.Proof.Bridge.Defs

set_option maxRecDepth 16384

noncomputable section

namespace Cert.Bridge

open Idealize.ShloMosaic Idealize.SL.Sem
open Idealize.ShloMosaic.StableHlo

/-! ## The reference's side -/

set_option maxHeartbeats 4000000 in
/-- The stretch before the last one writes neither the last product's result nor the normalised matrix. -/
theorem R9_keep (V : RVal) :
    R9 V (Proc.devRef .tc Cert.ReferenceIdeal.main_v73) = R8 V (Proc.devRef .tc Cert.ReferenceIdeal.main_v73)
    ∧ R9 V (Proc.devRef .tc Cert.ReferenceIdeal.main_v15) = R8 V (Proc.devRef .tc Cert.ReferenceIdeal.main_v15) := by
  unfold R9
  simp only [Cert.ReferenceIdeal.Hand.opsDpre]
  constructor <;> after_results_simp

set_option maxHeartbeats 4000000 in
/-- The normalised matrix is not written between the second product and the last. -/
theorem R8_keep15 (V : RVal) :
    R8 V (Proc.devRef .tc Cert.ReferenceIdeal.main_v15) = R4 V (Proc.devRef .tc Cert.ReferenceIdeal.main_v15) := by
  unfold R8 R7 R6 R5
  simp only [Cert.ReferenceIdeal.Hand.opsDot73, Cert.ReferenceIdeal.Hand.opsDot72, Cert.ReferenceIdeal.Hand.opsC, Cert.ReferenceIdeal.Hand.opsDot56]
  after_results_simp

set_option maxHeartbeats 4000000 in
/-- The dense scatter's stretch does not write the third product's left factor. -/
theorem R6_keep56 (V : RVal) :
    R6 V (Proc.devRef .tc Cert.ReferenceIdeal.main_v56) = R5 V (Proc.devRef .tc Cert.ReferenceIdeal.main_v56) := by
  unfold R6
  simp only [Cert.ReferenceIdeal.Hand.opsC]
  after_results_simp

/-! ## The reference writes no argument array -/

set_option maxHeartbeats 8000000 in
theorem R3_args (V : RVal) :
    R3 V (Proc.devRef .tc Cert.ReferenceIdeal.main_arg0) = V (Proc.devRef .tc Cert.ReferenceIdeal.main_arg0)
    ∧ R3 V (Proc.devRef .tc Cert.ReferenceIdeal.main_arg1) = V (Proc.devRef .tc Cert.ReferenceIdeal.main_arg1)
    ∧ R3 V (Proc.devRef .tc Cert.ReferenceIdeal.main_arg2) = V (Proc.devRef .tc Cert.ReferenceIdeal.main_arg2)
    ∧ R3 V (Proc.devRef .tc Cert.ReferenceIdeal.main_arg3) = V (Proc.devRef .tc Cert.ReferenceIdeal.main_arg3)
    ∧ R3 V (Proc.devRef .tc Cert.ReferenceIdeal.main_arg4) = V (Proc.devRef .tc Cert.ReferenceIdeal.main_arg4)
    ∧ R3 V (Proc.devRef .tc Cert.ReferenceIdeal.main_arg5) = V (Proc.devRef .tc Cert.ReferenceIdeal.main_arg5)
    ∧ R3 V (Proc.devRef .tc Cert.ReferenceIdeal.main_arg6) = V (Proc.devRef .tc Cert.ReferenceIdeal.main_arg6)
    ∧ R3 V (Proc.devRef .tc Cert.ReferenceIdeal.main_arg7) = V (Proc.devRef .tc Cert.ReferenceIdeal.main_arg7)
    ∧ R3 V (Proc.devRef .tc Cert.ReferenceIdeal.main_arg8) = V (Proc.devRef .tc Cert.ReferenceIdeal.main_arg8)
    ∧ R3 V (Proc.devRef .tc Cert.ReferenceIdeal.main_arg9) = V (Proc.devRef .tc Cert.ReferenceIdeal.main_arg9)
    ∧ R3 V (Proc.devRef .tc Cert.ReferenceIdeal.main_arg10) = V (Proc.devRef .tc Cert.ReferenceIdeal.main_arg10) := by
  unfold R3 R2 R1
  simp only [Cert.ReferenceIdeal.Hand.opsDot5, Cert.ReferenceIdeal.Hand.opsDot4, Cert.ReferenceIdeal.Hand.opsA]
  refine ⟨?_, ?_, ?_, ?_, ?_, ?_, ?_, ?_, ?_, ?_, ?_⟩ <;> after_results_simp

set_option maxHeartbeats 16000000 in
theorem R5_args (V : RVal) :
    R5 V (Proc.devRef .tc Cert.ReferenceIdeal.main_arg0) = V (Proc.devRef .tc Cert.ReferenceIdeal.main_arg0)
    ∧ R5 V (Proc.devRef .tc Cert.ReferenceIdeal.main_arg1) = V (Proc.devRef .tc Cert.ReferenceIdeal.main_arg1)
    ∧ R5 V (Proc.devRef .tc Cert.ReferenceIdeal.main_arg2) = V (Proc.devRef .tc Cert.ReferenceIdeal.main_arg2)
    ∧ R5 V (Proc.devRef .tc Cert.ReferenceIdeal.main_arg3) = V (Proc.devRef .tc Cert.ReferenceIdeal.main_arg3)
    ∧ R5 V (Proc.devRef .tc Cert.ReferenceIdeal.main_arg4) = V (Proc.devRef .tc Cert.ReferenceIdeal.main_arg4)
    ∧ R5 V (Proc.devRef .tc Cert.ReferenceIdeal.main_arg5) = V (Proc.devRef .tc Cert.ReferenceIdeal.main_arg5)
    ∧ R5 V (Proc.devRef .tc Cert.ReferenceIdeal.main_arg6) = V (Proc.devRef .tc Cert.ReferenceIdeal.main_arg6)
    ∧ R5 V (Proc.devRef .tc Cert.ReferenceIdeal.main_arg7) = V (Proc.devRef .tc Cert.ReferenceIdeal.main_arg7)
    ∧ R5 V (Proc.devRef .tc Cert.ReferenceIdeal.main_arg8) = V (Proc.devRef .tc Cert.ReferenceIdeal.main_arg8)
    ∧ R5 V (Proc.devRef .tc Cert.ReferenceIdeal.main_arg9) = V (Proc.devRef .tc Cert.ReferenceIdeal.main_arg9)
    ∧ R5 V (Proc.devRef .tc Cert.ReferenceIdeal.main_arg10) = V (Proc.devRef .tc Cert.ReferenceIdeal.main_arg10) := by
  unfold R5 R4 R3 R2 R1
  simp only [Cert.ReferenceIdeal.Hand.opsDot56, Cert.ReferenceIdeal.Hand.opsB, Cert.ReferenceIdeal.Hand.opsDot5, Cert.ReferenceIdeal.Hand.opsDot4, Cert.ReferenceIdeal.Hand.opsA]
  refine ⟨?_, ?_, ?_, ?_, ?_, ?_, ?_, ?_, ?_, ?_, ?_⟩ <;> after_results_simp

set_option maxHeartbeats 16000000 in
theorem R8_args (V : RVal) :
    R8 V (Proc.devRef .tc Cert.ReferenceIdeal.main_arg0) = V (Proc.devRef .tc Cert.ReferenceIdeal.main_arg0)
    ∧ R8 V (Proc.devRef .tc Cert.ReferenceIdeal.main_arg1) = V (Proc.devRef .tc Cert.ReferenceIdeal.main_arg1)
    ∧ R8 V (Proc.devRef .tc Cert.ReferenceIdeal.main_arg2) = V (Proc.devRef .tc Cert.ReferenceIdeal.main_arg2)
    ∧ R8 V (Proc.devRef .tc Cert.ReferenceIdeal.main_arg3) = V (Proc.devRef .tc Cert.ReferenceIdeal.main_arg3)
    ∧ R8 V (Proc.devRef .tc Cert.ReferenceIdeal.main_arg4) = V (Proc.devRef .tc Cert.ReferenceIdeal.main_arg4)
    ∧ R8 V (Proc.devRef .tc Cert.ReferenceIdeal.main_arg5) = V (Proc.devRef .tc Cert.ReferenceIdeal.main_arg5)
    ∧ R8 V (Proc.devRef .tc Cert.ReferenceIdeal.main_arg6) = V (Proc.devRef .tc Cert.ReferenceIdeal.main_arg6)
    ∧ R8 V (Proc.devRef .tc Cert.ReferenceIdeal.main_arg7) = V (Proc.devRef .tc Cert.ReferenceIdeal.main_arg7)
    ∧ R8 V (Proc.devRef .tc Cert.ReferenceIdeal.main_arg8) = V (Proc.devRef .tc Cert.ReferenceIdeal.main_arg8)
    ∧ R8 V (Proc.devRef .tc Cert.ReferenceIdeal.main_arg9) = V (Proc.devRef .tc Cert.ReferenceIdeal.main_arg9)
    ∧ R8 V (Proc.devRef .tc Cert.ReferenceIdeal.main_arg10) = V (Proc.devRef .tc Cert.ReferenceIdeal.main_arg10) := by
  unfold R8 R7 R6 R5 R4 R3 R2 R1
  simp only [Cert.ReferenceIdeal.Hand.opsDot73, Cert.ReferenceIdeal.Hand.opsDot72, Cert.ReferenceIdeal.Hand.opsC, Cert.ReferenceIdeal.Hand.opsDot56, Cert.ReferenceIdeal.Hand.opsB, Cert.ReferenceIdeal.Hand.opsDot5, Cert.ReferenceIdeal.Hand.opsDot4, Cert.ReferenceIdeal.Hand.opsA]
  refine ⟨?_, ?_, ?_, ?_, ?_, ?_, ?_, ?_, ?_, ?_, ?_⟩ <;> after_results_simp

set_option maxHeartbeats 16000000 in
/-- The left factor of the last product, the argument norm_adj, is as launched when that product runs. -/
theorem R7_arg1 (V : RVal) :
    R7 V (Proc.devRef .tc Cert.ReferenceIdeal.main_arg1) = V (Proc.devRef .tc Cert.ReferenceIdeal.main_arg1) := by
  unfold R7 R6 R5 R4 R3 R2 R1
  simp only [Cert.ReferenceIdeal.Hand.opsDot72, Cert.ReferenceIdeal.Hand.opsC, Cert.ReferenceIdeal.Hand.opsDot56, Cert.ReferenceIdeal.Hand.opsB, Cert.ReferenceIdeal.Hand.opsDot5, Cert.ReferenceIdeal.Hand.opsDot4, Cert.ReferenceIdeal.Hand.opsA]
  after_results_simp

/-! ## The kernel program's side -/

set_option maxHeartbeats 8000000 in
/-- The ten stretches between the last product and the last stretch write neither the last product's result nor the
    normalised matrix. -/
theorem preTailK_keep (V : KVal) :
    preTailK V (Proc.devRef .tc Cert.KernelIdeal.main_v74) = V (Proc.devRef .tc Cert.KernelIdeal.main_v74)
    ∧ preTailK V (Proc.devRef .tc Cert.KernelIdeal.main_v16) = V (Proc.devRef .tc Cert.KernelIdeal.main_v16) := by
  unfold preTailK
  simp only [Cert.KernelIdeal.Gen.hostOps5_9, Cert.KernelIdeal.Gen.hostOps5_8, Cert.KernelIdeal.Gen.hostOps5_7, Cert.KernelIdeal.Gen.hostOps5_6,
    Cert.KernelIdeal.Gen.hostOps5_5, Cert.KernelIdeal.Gen.hostOps5_4, Cert.KernelIdeal.Gen.hostOps5_3, Cert.KernelIdeal.Gen.hostOps5_2,
    Cert.KernelIdeal.Gen.hostOps5_1, Cert.KernelIdeal.Gen.hostOps5]
  constructor <;> after_results_simp

section Fold

open Cert.KernelIdeal Cert.KernelIdeal.Gen Cert.KernelIdeal.Hand

variable (m : (ℓ : Loc nD τ sig) → Buf (Elt Ideal) ℓ) (ρ : Dev nD → PrngReg) (c : Dev nD)

/-- The buffers before the last stretch are the pre-tail composition of those after the last product. -/
theorem W18_eq : W18 m ρ c = preTailK (W8 m ρ c) := rfl

set_option maxHeartbeats 4000000 in
/-- The scatter's stretch does not write the third product's left factor. -/
theorem W6_keep57 : W6 m ρ c (Proc.devRef .tc main_v57) = W5 m ρ c (Proc.devRef .tc main_v57) := by
  show StableHlo.after hostOps3 (W5 m ρ c) (Proc.devRef .tc main_v57) = _
  simp only [hostOps3]
  after_results_simp

set_option maxHeartbeats 4000000 in
/-- The normalised matrix, computed before the third product, is still there after the fifth: the three products write
    only their own results, and the scatter's stretch does not write it. -/
theorem W8_keep16 : W8 m ρ c (Proc.devRef .tc main_v16) = W4 m ρ c (Proc.devRef .tc main_v16) := by
  rw [W8_of_ne m ρ c main_v16 (by decide), W7_of_ne m ρ c main_v16 (by decide)]
  have h6 : W6 m ρ c (Proc.devRef .tc main_v16) = W5 m ρ c (Proc.devRef .tc main_v16) := by
    show StableHlo.after hostOps3 (W5 m ρ c) (Proc.devRef .tc main_v16) = _
    simp only [hostOps3]
    after_results_simp
  rw [h6, W5_of_ne m ρ c main_v16 (by decide)]

end Fold

end Cert.Bridge

end
-- ==== Proof.Bridge.ArgsK.lean ====
import proofs.«166874_j54296976556804_1_alg».proof.Proof.KI.Run

/-! # The argument arrays at the boundaries inside @main

No host operation and no product writes an argument array (a product reads one through an input window or passes it
by), so at every boundary of the fold the argument arrays hold what they held at launch. Stated here at the launch and
after the second, third, fourth and fifth products. -/

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## At boundary 0 -/

theorem W0_main_arg0 (c : Dev nD) : W0 m ρ c (Proc.devRef .tc main_arg0) = m ((c.tc : Thread nD τ).loc main_arg0) := rfl
theorem W0_main_arg1 (c : Dev nD) : W0 m ρ c (Proc.devRef .tc main_arg1) = m ((c.tc : Thread nD τ).loc main_arg1) := rfl
theorem W0_main_arg2 (c : Dev nD) : W0 m ρ c (Proc.devRef .tc main_arg2) = m ((c.tc : Thread nD τ).loc main_arg2) := rfl
theorem W0_main_arg3 (c : Dev nD) : W0 m ρ c (Proc.devRef .tc main_arg3) = m ((c.tc : Thread nD τ).loc main_arg3) := rfl
theorem W0_main_arg4 (c : Dev nD) : W0 m ρ c (Proc.devRef .tc main_arg4) = m ((c.tc : Thread nD τ).loc main_arg4) := rfl
theorem W0_main_arg5 (c : Dev nD) : W0 m ρ c (Proc.devRef .tc main_arg5) = m ((c.tc : Thread nD τ).loc main_arg5) := rfl
theorem W0_main_arg6 (c : Dev nD) : W0 m ρ c (Proc.devRef .tc main_arg6) = m ((c.tc : Thread nD τ).loc main_arg6) := rfl
theorem W0_main_arg7 (c : Dev nD) : W0 m ρ c (Proc.devRef .tc main_arg7) = m ((c.tc : Thread nD τ).loc main_arg7) := rfl
theorem W0_main_arg8 (c : Dev nD) : W0 m ρ c (Proc.devRef .tc main_arg8) = m ((c.tc : Thread nD τ).loc main_arg8) := rfl
theorem W0_main_arg9 (c : Dev nD) : W0 m ρ c (Proc.devRef .tc main_arg9) = m ((c.tc : Thread nD τ).loc main_arg9) := rfl
theorem W0_main_arg10 (c : Dev nD) : W0 m ρ c (Proc.devRef .tc main_arg10) = m ((c.tc : Thread nD τ).loc main_arg10) := rfl

/-- All eleven at once. -/
theorem W0_arg (c : Dev nD) :
    W0 m ρ c (Proc.devRef .tc main_arg0) = m ((c.tc : Thread nD τ).loc main_arg0)
    ∧ W0 m ρ c (Proc.devRef .tc main_arg1) = m ((c.tc : Thread nD τ).loc main_arg1)
    ∧ W0 m ρ c (Proc.devRef .tc main_arg2) = m ((c.tc : Thread nD τ).loc main_arg2)
    ∧ W0 m ρ c (Proc.devRef .tc main_arg3) = m ((c.tc : Thread nD τ).loc main_arg3)
    ∧ W0 m ρ c (Proc.devRef .tc main_arg4) = m ((c.tc : Thread nD τ).loc main_arg4)
    ∧ W0 m ρ c (Proc.devRef .tc main_arg5) = m ((c.tc : Thread nD τ).loc main_arg5)
    ∧ W0 m ρ c (Proc.devRef .tc main_arg6) = m ((c.tc : Thread nD τ).loc main_arg6)
    ∧ W0 m ρ c (Proc.devRef .tc main_arg7) = m ((c.tc : Thread nD τ).loc main_arg7)
    ∧ W0 m ρ c (Proc.devRef .tc main_arg8) = m ((c.tc : Thread nD τ).loc main_arg8)
    ∧ W0 m ρ c (Proc.devRef .tc main_arg9) = m ((c.tc : Thread nD τ).loc main_arg9)
    ∧ W0 m ρ c (Proc.devRef .tc main_arg10) = m ((c.tc : Thread nD τ).loc main_arg10) :=
  ⟨W0_main_arg0 m ρ c, W0_main_arg1 m ρ c, W0_main_arg2 m ρ c, W0_main_arg3 m ρ c, W0_main_arg4 m ρ c, W0_main_arg5 m ρ c, W0_main_arg6 m ρ c, W0_main_arg7 m ρ c, W0_main_arg8 m ρ c, W0_main_arg9 m ρ c, W0_main_arg10 m ρ c⟩

/-! ## At boundary 3 -/

theorem W3_main_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c.tc : Thread nD τ).loc main_arg0) := rfl
theorem W3_main_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c.tc : Thread nD τ).loc main_arg1) := rfl
theorem W3_main_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c.tc : Thread nD τ).loc main_arg2) := rfl
theorem W3_main_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c.tc : Thread nD τ).loc main_arg3) := rfl
theorem W3_main_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c.tc : Thread nD τ).loc main_arg4) := rfl
theorem W3_main_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c.tc : Thread nD τ).loc main_arg5) := rfl
theorem W3_main_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c.tc : Thread nD τ).loc main_arg6) := rfl
theorem W3_main_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c.tc : Thread nD τ).loc main_arg7) := rfl
theorem W3_main_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c.tc : Thread nD τ).loc main_arg8) := rfl
theorem W3_main_arg9 (c : Dev nD) : W3 m ρ c (Proc.devRef .tc main_arg9) = m ((c.tc : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c.tc : Thread nD τ).loc main_arg9) := rfl
theorem W3_main_arg10 (c : Dev nD) : W3 m ρ c (Proc.devRef .tc main_arg10) = m ((c.tc : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c.tc : Thread nD τ).loc main_arg10) := rfl

/-- All eleven at once. -/
theorem W3_arg (c : Dev nD) :
    W3 m ρ c (Proc.devRef .tc main_arg0) = m ((c.tc : Thread nD τ).loc main_arg0)
    ∧ W3 m ρ c (Proc.devRef .tc main_arg1) = m ((c.tc : Thread nD τ).loc main_arg1)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_arg4) = m ((c.tc : Thread nD τ).loc main_arg4)
    ∧ W3 m ρ c (Proc.devRef .tc main_arg5) = m ((c.tc : Thread nD τ).loc main_arg5)
    ∧ W3 m ρ c (Proc.devRef .tc main_arg6) = m ((c.tc : Thread nD τ).loc main_arg6)
    ∧ W3 m ρ c (Proc.devRef .tc main_arg7) = m ((c.tc : Thread nD τ).loc main_arg7)
    ∧ W3 m ρ c (Proc.devRef .tc main_arg8) = m ((c.tc : Thread nD τ).loc main_arg8)
    ∧ W3 m ρ c (Proc.devRef .tc main_arg9) = m ((c.tc : Thread nD τ).loc main_arg9)
    ∧ W3 m ρ c (Proc.devRef .tc main_arg10) = m ((c.tc : Thread nD τ).loc main_arg10) :=
  ⟨W3_main_arg0 m ρ c, W3_main_arg1 m ρ c, W3_main_arg2 m ρ c, W3_main_arg3 m ρ c, W3_main_arg4 m ρ c, W3_main_arg5 m ρ c, W3_main_arg6 m ρ c, W3_main_arg7 m ρ c, W3_main_arg8 m ρ c, W3_main_arg9 m ρ c, W3_main_arg10 m ρ c⟩

/-! ## At boundary 5 -/

theorem W5_main_arg0 (c : Dev nD) : W5 m ρ c (Proc.devRef .tc main_arg0) = m ((c.tc : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (hostOps2_keeps main_arg0 (by decide))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c.tc : Thread nD τ).loc main_arg0) := rfl
theorem W5_main_arg1 (c : Dev nD) : W5 m ρ c (Proc.devRef .tc main_arg1) = m ((c.tc : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (hostOps2_keeps main_arg1 (by decide))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c.tc : Thread nD τ).loc main_arg1) := rfl
theorem W5_main_arg2 (c : Dev nD) : W5 m ρ c (Proc.devRef .tc main_arg2) = m ((c.tc : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (hostOps2_keeps main_arg2 (by decide))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c.tc : Thread nD τ).loc main_arg2) := rfl
theorem W5_main_arg3 (c : Dev nD) : W5 m ρ c (Proc.devRef .tc main_arg3) = m ((c.tc : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (hostOps2_keeps main_arg3 (by decide))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c.tc : Thread nD τ).loc main_arg3) := rfl
theorem W5_main_arg4 (c : Dev nD) : W5 m ρ c (Proc.devRef .tc main_arg4) = m ((c.tc : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (hostOps2_keeps main_arg4 (by decide))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c.tc : Thread nD τ).loc main_arg4) := rfl
theorem W5_main_arg5 (c : Dev nD) : W5 m ρ c (Proc.devRef .tc main_arg5) = m ((c.tc : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (hostOps2_keeps main_arg5 (by decide))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c.tc : Thread nD τ).loc main_arg5) := rfl
theorem W5_main_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (hostOps2_keeps main_arg6 (by decide))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c.tc : Thread nD τ).loc main_arg6) := rfl
theorem W5_main_arg7 (c : Dev nD) : W5 m ρ c (Proc.devRef .tc main_arg7) = m ((c.tc : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (hostOps2_keeps main_arg7 (by decide))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c.tc : Thread nD τ).loc main_arg7) := rfl
theorem W5_main_arg8 (c : Dev nD) : W5 m ρ c (Proc.devRef .tc main_arg8) = m ((c.tc : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (hostOps2_keeps main_arg8 (by decide))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c.tc : Thread nD τ).loc main_arg8) := rfl
theorem W5_main_arg9 (c : Dev nD) : W5 m ρ c (Proc.devRef .tc main_arg9) = m ((c.tc : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (hostOps2_keeps main_arg9 (by decide))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c.tc : Thread nD τ).loc main_arg9) := rfl
theorem W5_main_arg10 (c : Dev nD) : W5 m ρ c (Proc.devRef .tc main_arg10) = m ((c.tc : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (hostOps2_keeps main_arg10 (by decide))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c.tc : Thread nD τ).loc main_arg10) := rfl

/-- All eleven at once. -/
theorem W5_arg (c : Dev nD) :
    W5 m ρ c (Proc.devRef .tc main_arg0) = m ((c.tc : Thread nD τ).loc main_arg0)
    ∧ W5 m ρ c (Proc.devRef .tc main_arg1) = m ((c.tc : Thread nD τ).loc main_arg1)
    ∧ W5 m ρ c (Proc.devRef .tc main_arg2) = m ((c.tc : Thread nD τ).loc main_arg2)
    ∧ W5 m ρ c (Proc.devRef .tc main_arg3) = m ((c.tc : Thread nD τ).loc main_arg3)
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6)
    ∧ W5 m ρ c (Proc.devRef .tc main_arg7) = m ((c.tc : Thread nD τ).loc main_arg7)
    ∧ W5 m ρ c (Proc.devRef .tc main_arg8) = m ((c.tc : Thread nD τ).loc main_arg8)
    ∧ W5 m ρ c (Proc.devRef .tc main_arg9) = m ((c.tc : Thread nD τ).loc main_arg9)
    ∧ W5 m ρ c (Proc.devRef .tc main_arg10) = m ((c.tc : Thread nD τ).loc main_arg10) :=
  ⟨W5_main_arg0 m ρ c, W5_main_arg1 m ρ c, W5_main_arg2 m ρ c, W5_main_arg3 m ρ c, W5_main_arg4 m ρ c, W5_main_arg5 m ρ c, W5_main_arg6 m ρ c, W5_main_arg7 m ρ c, W5_main_arg8 m ρ c, W5_main_arg9 m ρ c, W5_main_arg10 m ρ c⟩

/-! ## At boundary 7 -/

theorem W7_main_arg0 (c : Dev nD) : W7 m ρ c (Proc.devRef .tc main_arg0) = m ((c.tc : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (hostOps3_keeps main_arg0 (by decide))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (hostOps2_keeps main_arg0 (by decide))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c.tc : Thread nD τ).loc main_arg0) := rfl
theorem W7_main_arg1 (c : Dev nD) : W7 m ρ c (Proc.devRef .tc main_arg1) = m ((c.tc : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (hostOps3_keeps main_arg1 (by decide))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (hostOps2_keeps main_arg1 (by decide))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c.tc : Thread nD τ).loc main_arg1) := rfl
theorem W7_main_arg2 (c : Dev nD) : W7 m ρ c (Proc.devRef .tc main_arg2) = m ((c.tc : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (hostOps3_keeps main_arg2 (by decide))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (hostOps2_keeps main_arg2 (by decide))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c.tc : Thread nD τ).loc main_arg2) := rfl
theorem W7_main_arg3 (c : Dev nD) : W7 m ρ c (Proc.devRef .tc main_arg3) = m ((c.tc : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (hostOps3_keeps main_arg3 (by decide))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (hostOps2_keeps main_arg3 (by decide))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c.tc : Thread nD τ).loc main_arg3) := rfl
theorem W7_main_arg4 (c : Dev nD) : W7 m ρ c (Proc.devRef .tc main_arg4) = m ((c.tc : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (hostOps3_keeps main_arg4 (by decide))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (hostOps2_keeps main_arg4 (by decide))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c.tc : Thread nD τ).loc main_arg4) := rfl
theorem W7_main_arg5 (c : Dev nD) : W7 m ρ c (Proc.devRef .tc main_arg5) = m ((c.tc : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (hostOps3_keeps main_arg5 (by decide))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (hostOps2_keeps main_arg5 (by decide))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c.tc : Thread nD τ).loc main_arg5) := rfl
theorem W7_main_arg6 (c : Dev nD) : W7 m ρ c (Proc.devRef .tc main_arg6) = m ((c.tc : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (hostOps3_keeps main_arg6 (by decide))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (hostOps2_keeps main_arg6 (by decide))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c.tc : Thread nD τ).loc main_arg6) := rfl
theorem W7_main_arg7 (c : Dev nD) : W7 m ρ c (Proc.devRef .tc main_arg7) = m ((c.tc : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (hostOps3_keeps main_arg7 (by decide))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (hostOps2_keeps main_arg7 (by decide))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c.tc : Thread nD τ).loc main_arg7) := rfl
theorem W7_main_arg8 (c : Dev nD) : W7 m ρ c (Proc.devRef .tc main_arg8) = m ((c.tc : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (hostOps3_keeps main_arg8 (by decide))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (hostOps2_keeps main_arg8 (by decide))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c.tc : Thread nD τ).loc main_arg8) := rfl
theorem W7_main_arg9 (c : Dev nD) : W7 m ρ c (Proc.devRef .tc main_arg9) = m ((c.tc : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (hostOps3_keeps main_arg9 (by decide))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (hostOps2_keeps main_arg9 (by decide))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c.tc : Thread nD τ).loc main_arg9) := rfl
theorem W7_main_arg10 (c : Dev nD) : W7 m ρ c (Proc.devRef .tc main_arg10) = m ((c.tc : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (hostOps3_keeps main_arg10 (by decide))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (hostOps2_keeps main_arg10 (by decide))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c.tc : Thread nD τ).loc main_arg10) := rfl

/-- All eleven at once. -/
theorem W7_arg (c : Dev nD) :
    W7 m ρ c (Proc.devRef .tc main_arg0) = m ((c.tc : Thread nD τ).loc main_arg0)
    ∧ W7 m ρ c (Proc.devRef .tc main_arg1) = m ((c.tc : Thread nD τ).loc main_arg1)
    ∧ W7 m ρ c (Proc.devRef .tc main_arg2) = m ((c.tc : Thread nD τ).loc main_arg2)
    ∧ W7 m ρ c (Proc.devRef .tc main_arg3) = m ((c.tc : Thread nD τ).loc main_arg3)
    ∧ W7 m ρ c (Proc.devRef .tc main_arg4) = m ((c.tc : Thread nD τ).loc main_arg4)
    ∧ W7 m ρ c (Proc.devRef .tc main_arg5) = m ((c.tc : Thread nD τ).loc main_arg5)
    ∧ W7 m ρ c (Proc.devRef .tc main_arg6) = m ((c.tc : Thread nD τ).loc main_arg6)
    ∧ W7 m ρ c (Proc.devRef .tc main_arg7) = m ((c.tc : Thread nD τ).loc main_arg7)
    ∧ W7 m ρ c (Proc.devRef .tc main_arg8) = m ((c.tc : Thread nD τ).loc main_arg8)
    ∧ W7 m ρ c (Proc.devRef .tc main_arg9) = m ((c.tc : Thread nD τ).loc main_arg9)
    ∧ W7 m ρ c (Proc.devRef .tc main_arg10) = m ((c.tc : Thread nD τ).loc main_arg10) :=
  ⟨W7_main_arg0 m ρ c, W7_main_arg1 m ρ c, W7_main_arg2 m ρ c, W7_main_arg3 m ρ c, W7_main_arg4 m ρ c, W7_main_arg5 m ρ c, W7_main_arg6 m ρ c, W7_main_arg7 m ρ c, W7_main_arg8 m ρ c, W7_main_arg9 m ρ c, W7_main_arg10 m ρ c⟩

/-! ## At boundary 8 -/

theorem W8_main_arg0 (c : Dev nD) : W8 m ρ c (Proc.devRef .tc main_arg0) = m ((c.tc : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (hostOps3_keeps main_arg0 (by decide))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (hostOps2_keeps main_arg0 (by decide))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (hostOps0_keeps main_arg0 (by decide))
    _ = m ((c.tc : Thread nD τ).loc main_arg0) := rfl
theorem W8_main_arg1 (c : Dev nD) : W8 m ρ c (Proc.devRef .tc main_arg1) = m ((c.tc : Thread nD τ).loc main_arg1) :=
  calc W8 m ρ c (Proc.devRef .tc main_arg1)
    _ = W7 m ρ c (Proc.devRef .tc main_arg1) := (W8_arr m ρ c 0).trans (((dat4 (V7 m ρ) c).arrAt_in 0 rfl _).trans (A_eq4 (V7 m ρ) c 0))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (hostOps3_keeps main_arg1 (by decide))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (hostOps2_keeps main_arg1 (by decide))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (hostOps0_keeps main_arg1 (by decide))
    _ = m ((c.tc : Thread nD τ).loc main_arg1) := rfl
theorem W8_main_arg2 (c : Dev nD) : W8 m ρ c (Proc.devRef .tc main_arg2) = m ((c.tc : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (hostOps3_keeps main_arg2 (by decide))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (hostOps2_keeps main_arg2 (by decide))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (hostOps0_keeps main_arg2 (by decide))
    _ = m ((c.tc : Thread nD τ).loc main_arg2) := rfl
theorem W8_main_arg3 (c : Dev nD) : W8 m ρ c (Proc.devRef .tc main_arg3) = m ((c.tc : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (hostOps3_keeps main_arg3 (by decide))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (hostOps2_keeps main_arg3 (by decide))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (hostOps0_keeps main_arg3 (by decide))
    _ = m ((c.tc : Thread nD τ).loc main_arg3) := rfl
theorem W8_main_arg4 (c : Dev nD) : W8 m ρ c (Proc.devRef .tc main_arg4) = m ((c.tc : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (hostOps3_keeps main_arg4 (by decide))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (hostOps2_keeps main_arg4 (by decide))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (hostOps0_keeps main_arg4 (by decide))
    _ = m ((c.tc : Thread nD τ).loc main_arg4) := rfl
theorem W8_main_arg5 (c : Dev nD) : W8 m ρ c (Proc.devRef .tc main_arg5) = m ((c.tc : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (hostOps3_keeps main_arg5 (by decide))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (hostOps2_keeps main_arg5 (by decide))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (hostOps0_keeps main_arg5 (by decide))
    _ = m ((c.tc : Thread nD τ).loc main_arg5) := rfl
theorem W8_main_arg6 (c : Dev nD) : W8 m ρ c (Proc.devRef .tc main_arg6) = m ((c.tc : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (hostOps3_keeps main_arg6 (by decide))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (hostOps2_keeps main_arg6 (by decide))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (hostOps0_keeps main_arg6 (by decide))
    _ = m ((c.tc : Thread nD τ).loc main_arg6) := rfl
theorem W8_main_arg7 (c : Dev nD) : W8 m ρ c (Proc.devRef .tc main_arg7) = m ((c.tc : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (hostOps3_keeps main_arg7 (by decide))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (hostOps2_keeps main_arg7 (by decide))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (hostOps0_keeps main_arg7 (by decide))
    _ = m ((c.tc : Thread nD τ).loc main_arg7) := rfl
theorem W8_main_arg8 (c : Dev nD) : W8 m ρ c (Proc.devRef .tc main_arg8) = m ((c.tc : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (hostOps3_keeps main_arg8 (by decide))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (hostOps2_keeps main_arg8 (by decide))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (hostOps0_keeps main_arg8 (by decide))
    _ = m ((c.tc : Thread nD τ).loc main_arg8) := rfl
theorem W8_main_arg9 (c : Dev nD) : W8 m ρ c (Proc.devRef .tc main_arg9) = m ((c.tc : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (hostOps3_keeps main_arg9 (by decide))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (hostOps2_keeps main_arg9 (by decide))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (hostOps0_keeps main_arg9 (by decide))
    _ = m ((c.tc : Thread nD τ).loc main_arg9) := rfl
theorem W8_main_arg10 (c : Dev nD) : W8 m ρ c (Proc.devRef .tc main_arg10) = m ((c.tc : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (hostOps3_keeps main_arg10 (by decide))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (hostOps2_keeps main_arg10 (by decide))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (hostOps0_keeps main_arg10 (by decide))
    _ = m ((c.tc : Thread nD τ).loc main_arg10) := rfl

/-- All eleven at once. -/
theorem W8_arg (c : Dev nD) :
    W8 m ρ c (Proc.devRef .tc main_arg0) = m ((c.tc : Thread nD τ).loc main_arg0)
    ∧ W8 m ρ c (Proc.devRef .tc main_arg1) = m ((c.tc : Thread nD τ).loc main_arg1)
    ∧ W8 m ρ c (Proc.devRef .tc main_arg2) = m ((c.tc : Thread nD τ).loc main_arg2)
    ∧ W8 m ρ c (Proc.devRef .tc main_arg3) = m ((c.tc : Thread nD τ).loc main_arg3)
    ∧ W8 m ρ c (Proc.devRef .tc main_arg4) = m ((c.tc : Thread nD τ).loc main_arg4)
    ∧ W8 m ρ c (Proc.devRef .tc main_arg5) = m ((c.tc : Thread nD τ).loc main_arg5)
    ∧ W8 m ρ c (Proc.devRef .tc main_arg6) = m ((c.tc : Thread nD τ).loc main_arg6)
    ∧ W8 m ρ c (Proc.devRef .tc main_arg7) = m ((c.tc : Thread nD τ).loc main_arg7)
    ∧ W8 m ρ c (Proc.devRef .tc main_arg8) = m ((c.tc : Thread nD τ).loc main_arg8)
    ∧ W8 m ρ c (Proc.devRef .tc main_arg9) = m ((c.tc : Thread nD τ).loc main_arg9)
    ∧ W8 m ρ c (Proc.devRef .tc main_arg10) = m ((c.tc : Thread nD τ).loc main_arg10) :=
  ⟨W8_main_arg0 m ρ c, W8_main_arg1 m ρ c, W8_main_arg2 m ρ c, W8_main_arg3 m ρ c, W8_main_arg4 m ρ c, W8_main_arg5 m ρ c, W8_main_arg6 m ρ c, W8_main_arg7 m ρ c, W8_main_arg8 m ρ c, W8_main_arg9 m ρ c, W8_main_arg10 m ρ c⟩

end Cert.Bridge

end
-- ==== Proof.Bridge.Same.lean ====
/- The stretches of host operations that the two programs share: each value below is computed from the
   argument arrays alone, by the same operations in the same order in both programs, so from contents that
   agree on the arguments the two programs compute equal values. -/
import proofs.«166874_j54296976556804_1_alg».proof.Proof.Bridge.Defs

noncomputable section

namespace Cert.Bridge

open Idealize.ShloMosaic Idealize.SL.Sem
open Idealize.ShloMosaic.StableHlo

/-- The two-column index table of the reference's dense scatter: the row and column coordinate vectors side by side. -/
def catR (a b : (⟨Cert.ReferenceIdeal.S409600x1, .i32⟩ : BufTy).Contents (Elt Ideal)) : (⟨Cert.ReferenceIdeal.S409600x2, .i32⟩ : BufTy).Contents (Elt Ideal) :=
  concatenate Cert.ReferenceIdeal.S409600x2 1 [⟨Cert.ReferenceIdeal.S409600x1, a⟩, ⟨Cert.ReferenceIdeal.S409600x1, b⟩] Cert.ReferenceIdeal.Gen.concatenates_S409600x1_S409600x1_S409600x2_d1
/-- The same table in the kernel program. -/
def catK (a b : (⟨Cert.KernelIdeal.S409600x1, .i32⟩ : BufTy).Contents (Elt Ideal)) : (⟨Cert.KernelIdeal.S409600x2, .i32⟩ : BufTy).Contents (Elt Ideal) :=
  concatenate Cert.KernelIdeal.S409600x2 1 [⟨Cert.KernelIdeal.S409600x1, a⟩, ⟨Cert.KernelIdeal.S409600x1, b⟩] Cert.KernelIdeal.Gen.concatenates_S409600x1_S409600x1_S409600x2_d1
theorem catR_eq : ((fun a b => concatenate Cert.ReferenceIdeal.S409600x2 1 [⟨Cert.ReferenceIdeal.S409600x1, a⟩, ⟨Cert.ReferenceIdeal.S409600x1, b⟩] Cert.ReferenceIdeal.Gen.concatenates_S409600x1_S409600x1_S409600x2_d1) : (⟨Cert.ReferenceIdeal.S409600x1, .i32⟩ : BufTy).Contents (Elt Ideal) → (⟨Cert.ReferenceIdeal.S409600x1, .i32⟩ : BufTy).Contents (Elt Ideal) → (⟨Cert.ReferenceIdeal.S409600x2, .i32⟩ : BufTy).Contents (Elt Ideal)) = catR := rfl
theorem catK_eq : ((fun a b => concatenate Cert.KernelIdeal.S409600x2 1 [⟨Cert.KernelIdeal.S409600x1, a⟩, ⟨Cert.KernelIdeal.S409600x1, b⟩] Cert.KernelIdeal.Gen.concatenates_S409600x1_S409600x1_S409600x2_d1) : (⟨Cert.KernelIdeal.S409600x1, .i32⟩ : BufTy).Contents (Elt Ideal) → (⟨Cert.KernelIdeal.S409600x1, .i32⟩ : BufTy).Contents (Elt Ideal) → (⟨Cert.KernelIdeal.S409600x2, .i32⟩ : BufTy).Contents (Elt Ideal)) = catK := rfl

set_option maxRecDepth 8192 in
/-- The scaled item factors (the left operand of the first product): the fifth argument divided, row by row, by the
    broadcast last argument. -/
theorem lhs1_same (VK : KVal) (VR : RVal) (h : ArgsAgree VK VR) :
    after (Cert.ReferenceIdeal.Hand.opsA (F := Ideal)) VR (Proc.devRef .tc Cert.ReferenceIdeal.main_v2)
      = after (Cert.KernelIdeal.Gen.hostOps0 (F := Ideal)) VK (Proc.devRef .tc Cert.KernelIdeal.main_v2) := by
  simp only [Cert.ReferenceIdeal.Hand.opsA, Cert.KernelIdeal.Gen.hostOps0]
  after_results_simp
  rw [h.h5, h.h10]
  all_goals rfl

set_option maxRecDepth 8192 in
set_option maxHeartbeats 4000000 in
/-- The smoothed item factors over the first scale row (the left operand of the third product). -/
theorem lhs2_same (VK : KVal) (VR : RVal) (h : ArgsAgree VK VR) :
    after (Cert.ReferenceIdeal.Hand.opsB (F := Ideal)) VR (Proc.devRef .tc Cert.ReferenceIdeal.main_v54)
      = after (Cert.KernelIdeal.Gen.hostOps2 (F := Ideal)) VK (Proc.devRef .tc Cert.KernelIdeal.main_v55) := by
  simp only [Cert.ReferenceIdeal.Hand.opsB, Cert.KernelIdeal.Gen.hostOps2]
  after_results_simp
  rw [h.h2, h.h3, h.h6, h.h7, h.h8, h.h9]
  all_goals rfl

set_option maxRecDepth 8192 in
set_option maxHeartbeats 4000000 in
/-- The smoothed user factors, transposed (the right operand of the third product). -/
theorem rhs2_same (VK : KVal) (VR : RVal) (h : ArgsAgree VK VR) :
    after (Cert.ReferenceIdeal.Hand.opsB (F := Ideal)) VR (Proc.devRef .tc Cert.ReferenceIdeal.main_v55)
      = after (Cert.KernelIdeal.Gen.hostOps2 (F := Ideal)) VK (Proc.devRef .tc Cert.KernelIdeal.main_v56) := by
  simp only [Cert.ReferenceIdeal.Hand.opsB, Cert.KernelIdeal.Gen.hostOps2]
  after_results_simp
  rw [h.h2, h.h3, h.h6, h.h7, h.h8]
  all_goals rfl

set_option maxRecDepth 8192 in
set_option maxHeartbeats 4000000 in
/-- The dense scatter of the values at their normalised coordinates (the right operand of the fourth product). -/
theorem posdense_same (VK : KVal) (VR : RVal) (h : ArgsAgree VK VR) :
    after (Cert.ReferenceIdeal.Hand.opsC (F := Ideal)) VR (Proc.devRef .tc Cert.ReferenceIdeal.main_v71)
      = after (Cert.KernelIdeal.Gen.hostOps3 (F := Ideal)) VK (Proc.devRef .tc Cert.KernelIdeal.main_v72) := by
  simp only [Cert.ReferenceIdeal.Hand.opsC, Cert.KernelIdeal.Gen.hostOps3, catR_eq, catK_eq]
  after_results_simp
  rw [h.h6, h.h7, h.h8]
  all_goals rfl

end Cert.Bridge

end
-- ==== Proof.Bridge.SameA.lean ====
/-
  The two programs' last index and mask vectors before their final stretches are computed by the same operations from
  the same arguments: here the row numbers, an iota in both.
-/
import proofs.«166874_j54296976556804_1_alg».proof.Proof.Bridge.Defs
import Idealize.ShloMosaic.Lib.StableHlo.Run

set_option maxRecDepth 16384

noncomputable section

namespace Cert.Bridge

open Idealize.ShloMosaic Idealize.SL.Sem
open Idealize.ShloMosaic.StableHlo

variable {VK : KVal} {VR : RVal}

set_option maxHeartbeats 8000000 in
/-- The row numbers: an iota over [8192] in both programs. -/
theorem pretail_rows (h : ArgsAgree VK VR) :
    StableHlo.after Cert.ReferenceIdeal.Hand.opsDpre VR (Proc.devRef .tc Cert.ReferenceIdeal.main_v106)
      = preTailK VK (Proc.devRef .tc Cert.KernelIdeal.main_v107) := by
  unfold preTailK
  simp only [Cert.ReferenceIdeal.Hand.opsDpre, Cert.KernelIdeal.Gen.hostOps5_9, Cert.KernelIdeal.Gen.hostOps5_8, Cert.KernelIdeal.Gen.hostOps5_7, Cert.KernelIdeal.Gen.hostOps5_6,
    Cert.KernelIdeal.Gen.hostOps5_5, Cert.KernelIdeal.Gen.hostOps5_4, Cert.KernelIdeal.Gen.hostOps5_3, Cert.KernelIdeal.Gen.hostOps5_2,
    Cert.KernelIdeal.Gen.hostOps5_1, Cert.KernelIdeal.Gen.hostOps5]
  after_results_simp

end Cert.Bridge

end
-- ==== Proof.Bridge.SameD.lean ====
/-
  The values the last stretches read are the same in the two programs. Each program computes them by the
  same operations in the same order from the argument arrays, in ten stretches; stretch by stretch, from contents that
  agree on the values still to be read, the two programs' next stretches leave contents that agree on the values read
  later: whether a row has an entry, the least key of a row and its remainder, the selected entry's index, its value and column,
  the row numbers, and the two divisors made from that value. No stretch is ever evaluated on top of another's term.
-/
import proofs.«166874_j54296976556804_1_alg».proof.Proof.Bridge.Defs

set_option maxRecDepth 16384

noncomputable section

namespace Cert.Bridge

open Idealize.ShloMosaic Idealize.SL.Sem
open Idealize.ShloMosaic.StableHlo

/-- The fold over a list is the fold over its first n operations, then over the rest. -/
theorem after_take_drop (n : ℕ) (l : List (HloOp Cert.ReferenceIdeal.τ Cert.ReferenceIdeal.sig (Elt Ideal))) (V : RVal) :
    after l V = after (l.drop n) (after (l.take n) V) := by
  have h := after_append (l.take n) (l.drop n) V
  rw [List.take_append_drop] at h
  exact h

set_option maxHeartbeats 8000000 in
/-- Stretch 0: whether a row has an entry, the least key of a row, the divisor of its remainder. -/
theorem stage0 (VK : KVal) (VR : RVal)
    (h : ArgsAgree VK VR) :
    after (List.take 19 (Cert.ReferenceIdeal.Hand.opsDpre (F := Ideal))) VR (Proc.devRef .tc Cert.ReferenceIdeal.main_v79) = after (Cert.KernelIdeal.Gen.hostOps5 (F := Ideal)) VK (Proc.devRef .tc Cert.KernelIdeal.main_v80)
    ∧ after (List.take 19 (Cert.ReferenceIdeal.Hand.opsDpre (F := Ideal))) VR (Proc.devRef .tc Cert.ReferenceIdeal.main_v86) = after (Cert.KernelIdeal.Gen.hostOps5 (F := Ideal)) VK (Proc.devRef .tc Cert.KernelIdeal.main_v87)
    ∧ after (List.take 19 (Cert.ReferenceIdeal.Hand.opsDpre (F := Ideal))) VR (Proc.devRef .tc Cert.ReferenceIdeal.main_c_21) = after (Cert.KernelIdeal.Gen.hostOps5 (F := Ideal)) VK (Proc.devRef .tc Cert.KernelIdeal.main_c_21)
    ∧ after (List.take 19 (Cert.ReferenceIdeal.Hand.opsDpre (F := Ideal))) VR (Proc.devRef .tc Cert.ReferenceIdeal.main_arg8) = after (Cert.KernelIdeal.Gen.hostOps5 (F := Ideal)) VK (Proc.devRef .tc Cert.KernelIdeal.main_arg8)
    ∧ after (List.take 19 (Cert.ReferenceIdeal.Hand.opsDpre (F := Ideal))) VR (Proc.devRef .tc Cert.ReferenceIdeal.main_arg7) = after (Cert.KernelIdeal.Gen.hostOps5 (F := Ideal)) VK (Proc.devRef .tc Cert.KernelIdeal.main_arg7) := by
  refine ⟨?_, ?_, ?_, ?_, ?_⟩ <;>
  · simp only [Cert.KernelIdeal.Gen.hostOps5, Cert.ReferenceIdeal.Hand.opsDpre, List.drop_succ_cons, List.drop_zero, List.take_succ_cons, List.take_zero]
    after_results_simp
    try simp only [StableHlo.TRef.ofBuf, StableHlo.TRef.toBuf, cast_eq]
    try rw [h.h6]
    try rw [h.h7]
    try rw [h.h8]
    all_goals first | rfl | assumption

set_option maxHeartbeats 8000000 in
/-- Stretch 1: the remainder of the least key. -/
theorem stage1 (VK : KVal) (VR : RVal)
    (h0 : VR (Proc.devRef .tc Cert.ReferenceIdeal.main_v79) = VK (Proc.devRef .tc Cert.KernelIdeal.main_v80))
    (h1 : VR (Proc.devRef .tc Cert.ReferenceIdeal.main_v86) = VK (Proc.devRef .tc Cert.KernelIdeal.main_v87))
    (h2 : VR (Proc.devRef .tc Cert.ReferenceIdeal.main_c_21) = VK (Proc.devRef .tc Cert.KernelIdeal.main_c_21))
    (h3 : VR (Proc.devRef .tc Cert.ReferenceIdeal.main_arg8) = VK (Proc.devRef .tc Cert.KernelIdeal.main_arg8))
    (h4 : VR (Proc.devRef .tc Cert.ReferenceIdeal.main_arg7) = VK (Proc.devRef .tc Cert.KernelIdeal.main_arg7)) :
    after (List.take 21 (List.drop 19 (Cert.ReferenceIdeal.Hand.opsDpre (F := Ideal)))) VR (Proc.devRef .tc Cert.ReferenceIdeal.main_v79) = after (Cert.KernelIdeal.Gen.hostOps5_1 (F := Ideal)) VK (Proc.devRef .tc Cert.KernelIdeal.main_v80)
    ∧ after (List.take 21 (List.drop 19 (Cert.ReferenceIdeal.Hand.opsDpre (F := Ideal)))) VR (Proc.devRef .tc Cert.ReferenceIdeal.main_v87) = after (Cert.KernelIdeal.Gen.hostOps5_1 (F := Ideal)) VK (Proc.devRef .tc Cert.KernelIdeal.main_v88)
    ∧ after (List.take 21 (List.drop 19 (Cert.ReferenceIdeal.Hand.opsDpre (F := Ideal)))) VR (Proc.devRef .tc Cert.ReferenceIdeal.main_arg8) = after (Cert.KernelIdeal.Gen.hostOps5_1 (F := Ideal)) VK (Proc.devRef .tc Cert.KernelIdeal.main_arg8)
    ∧ after (List.take 21 (List.drop 19 (Cert.ReferenceIdeal.Hand.opsDpre (F := Ideal)))) VR (Proc.devRef .tc Cert.ReferenceIdeal.main_arg7) = after (Cert.KernelIdeal.Gen.hostOps5_1 (F := Ideal)) VK (Proc.devRef .tc Cert.KernelIdeal.main_arg7) := by
  refine ⟨?_, ?_, ?_, ?_⟩ <;>
  · simp only [Cert.KernelIdeal.Gen.hostOps5_1, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    try rw [h4]
    all_goals first | rfl | assumption

set_option maxHeartbeats 8000000 in
/-- Stretch 2: the constant the index falls back to. -/
theorem stage2 (VK : KVal) (VR : RVal)
    (h0 : VR (Proc.devRef .tc Cert.ReferenceIdeal.main_v79) = VK (Proc.devRef .tc Cert.KernelIdeal.main_v80))
    (h1 : VR (Proc.devRef .tc Cert.ReferenceIdeal.main_v87) = VK (Proc.devRef .tc Cert.KernelIdeal.main_v88))
    (h2 : VR (Proc.devRef .tc Cert.ReferenceIdeal.main_arg8) = VK (Proc.devRef .tc Cert.KernelIdeal.main_arg8))
    (h3 : VR (Proc.devRef .tc Cert.ReferenceIdeal.main_arg7) = VK (Proc.devRef .tc Cert.KernelIdeal.main_arg7)) :
    after (List.take 1 (List.drop 21 (List.drop 19 (Cert.ReferenceIdeal.Hand.opsDpre (F := Ideal))))) VR (Proc.devRef .tc Cert.ReferenceIdeal.main_v79) = after (Cert.KernelIdeal.Gen.hostOps5_2 (F := Ideal)) VK (Proc.devRef .tc Cert.KernelIdeal.main_v80)
    ∧ after (List.take 1 (List.drop 21 (List.drop 19 (Cert.ReferenceIdeal.Hand.opsDpre (F := Ideal))))) VR (Proc.devRef .tc Cert.ReferenceIdeal.main_v87) = after (Cert.KernelIdeal.Gen.hostOps5_2 (F := Ideal)) VK (Proc.devRef .tc Cert.KernelIdeal.main_v88)
    ∧ after (List.take 1 (List.drop 21 (List.drop 19 (Cert.ReferenceIdeal.Hand.opsDpre (F := Ideal))))) VR (Proc.devRef .tc Cert.ReferenceIdeal.main_c_22) = after (Cert.KernelIdeal.Gen.hostOps5_2 (F := Ideal)) VK (Proc.devRef .tc Cert.KernelIdeal.main_c_22)
    ∧ after (List.take 1 (List.drop 21 (List.drop 19 (Cert.ReferenceIdeal.Hand.opsDpre (F := Ideal))))) VR (Proc.devRef .tc Cert.ReferenceIdeal.main_arg8) = after (Cert.KernelIdeal.Gen.hostOps5_2 (F := Ideal)) VK (Proc.devRef .tc Cert.KernelIdeal.main_arg8)
    ∧ after (List.take 1 (List.drop 21 (List.drop 19 (Cert.ReferenceIdeal.Hand.opsDpre (F := Ideal))))) VR (Proc.devRef .tc Cert.ReferenceIdeal.main_arg7) = after (Cert.KernelIdeal.Gen.hostOps5_2 (F := Ideal)) VK (Proc.devRef .tc Cert.KernelIdeal.main_arg7) := by
  refine ⟨?_, ?_, ?_, ?_, ?_⟩ <;>
  · simp only [Cert.KernelIdeal.Gen.hostOps5_2, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    all_goals first | rfl | assumption

set_option maxHeartbeats 8000000 in
/-- Stretch 3: the selected entry's index. -/
theorem stage3 (VK : KVal) (VR : RVal)
    (h0 : VR (Proc.devRef .tc Cert.ReferenceIdeal.main_v79) = VK (Proc.devRef .tc Cert.KernelIdeal.main_v80))
    (h1 : VR (Proc.devRef .tc Cert.ReferenceIdeal.main_v87) = VK (Proc.devRef .tc Cert.KernelIdeal.main_v88))
    (h2 : VR (Proc.devRef .tc Cert.ReferenceIdeal.main_c_22) = VK (Proc.devRef .tc Cert.KernelIdeal.main_c_22))
    (h3 : VR (Proc.devRef .tc Cert.ReferenceIdeal.main_arg8) = VK (Proc.devRef .tc Cert.KernelIdeal.main_arg8))
    (h4 : VR (Proc.devRef .tc Cert.ReferenceIdeal.main_arg7) = VK (Proc.devRef .tc Cert.KernelIdeal.main_arg7)) :
    after (List.take 3 (List.drop 1 (List.drop 21 (List.drop 19 (Cert.ReferenceIdeal.Hand.opsDpre (F := Ideal)))))) VR (Proc.devRef .tc Cert.ReferenceIdeal.main_v79) = after (Cert.KernelIdeal.Gen.hostOps5_3 (F := Ideal)) VK (Proc.devRef .tc Cert.KernelIdeal.main_v80)
    ∧ after (List.take 3 (List.drop 1 (List.drop 21 (List.drop 19 (Cert.ReferenceIdeal.Hand.opsDpre (F := Ideal)))))) VR (Proc.devRef .tc Cert.ReferenceIdeal.main_v88) = after (Cert.KernelIdeal.Gen.hostOps5_3 (F := Ideal)) VK (Proc.devRef .tc Cert.KernelIdeal.main_v89)
    ∧ after (List.take 3 (List.drop 1 (List.drop 21 (List.drop 19 (Cert.ReferenceIdeal.Hand.opsDpre (F := Ideal)))))) VR (Proc.devRef .tc Cert.ReferenceIdeal.main_arg8) = after (Cert.KernelIdeal.Gen.hostOps5_3 (F := Ideal)) VK (Proc.devRef .tc Cert.KernelIdeal.main_arg8)
    ∧ after (List.take 3 (List.drop 1 (List.drop 21 (List.drop 19 (Cert.ReferenceIdeal.Hand.opsDpre (F := Ideal)))))) VR (Proc.devRef .tc Cert.ReferenceIdeal.main_arg7) = after (Cert.KernelIdeal.Gen.hostOps5_3 (F := Ideal)) VK (Proc.devRef .tc Cert.KernelIdeal.main_arg7) := by
  refine ⟨?_, ?_, ?_, ?_⟩ <;>
  · simp only [Cert.KernelIdeal.Gen.hostOps5_3, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    try rw [h4]
    all_goals first | rfl | assumption

set_option maxHeartbeats 8000000 in
/-- Stretch 4: the selected entry's value and column. -/
theorem stage4 (VK : KVal) (VR : RVal)
    (h0 : VR (Proc.devRef .tc Cert.ReferenceIdeal.main_v79) = VK (Proc.devRef .tc Cert.KernelIdeal.main_v80))
    (h1 : VR (Proc.devRef .tc Cert.ReferenceIdeal.main_v88) = VK (Proc.devRef .tc Cert.KernelIdeal.main_v89))
    (h2 : VR (Proc.devRef .tc Cert.ReferenceIdeal.main_arg8) = VK (Proc.devRef .tc Cert.KernelIdeal.main_arg8))
    (h3 : VR (Proc.devRef .tc Cert.ReferenceIdeal.main_arg7) = VK (Proc.devRef .tc Cert.KernelIdeal.main_arg7)) :
    after (List.take 22 (List.drop 3 (List.drop 1 (List.drop 21 (List.drop 19 (Cert.ReferenceIdeal.Hand.opsDpre (F := Ideal))))))) VR (Proc.devRef .tc Cert.ReferenceIdeal.main_v79) = after (Cert.KernelIdeal.Gen.hostOps5_4 (F := Ideal)) VK (Proc.devRef .tc Cert.KernelIdeal.main_v80)
    ∧ after (List.take 22 (List.drop 3 (List.drop 1 (List.drop 21 (List.drop 19 (Cert.ReferenceIdeal.Hand.opsDpre (F := Ideal))))))) VR (Proc.devRef .tc Cert.ReferenceIdeal.main_v102) = after (Cert.KernelIdeal.Gen.hostOps5_4 (F := Ideal)) VK (Proc.devRef .tc Cert.KernelIdeal.main_v103)
    ∧ after (List.take 22 (List.drop 3 (List.drop 1 (List.drop 21 (List.drop 19 (Cert.ReferenceIdeal.Hand.opsDpre (F := Ideal))))))) VR (Proc.devRef .tc Cert.ReferenceIdeal.main_v95) = after (Cert.KernelIdeal.Gen.hostOps5_4 (F := Ideal)) VK (Proc.devRef .tc Cert.KernelIdeal.main_v96) := by
  refine ⟨?_, ?_, ?_⟩ <;>
  · simp only [Cert.KernelIdeal.Gen.hostOps5_4, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    all_goals first | rfl | assumption

set_option maxHeartbeats 8000000 in
/-- Stretch 5: the second column's modulo (nothing read later is written). -/
theorem stage5 (VK : KVal) (VR : RVal)
    (h0 : VR (Proc.devRef .tc Cert.ReferenceIdeal.main_v79) = VK (Proc.devRef .tc Cert.KernelIdeal.main_v80))
    (h1 : VR (Proc.devRef .tc Cert.ReferenceIdeal.main_v102) = VK (Proc.devRef .tc Cert.KernelIdeal.main_v103))
    (h2 : VR (Proc.devRef .tc Cert.ReferenceIdeal.main_v95) = VK (Proc.devRef .tc Cert.KernelIdeal.main_v96)) :
    after (List.take 21 (List.drop 22 (List.drop 3 (List.drop 1 (List.drop 21 (List.drop 19 (Cert.ReferenceIdeal.Hand.opsDpre (F := Ideal)))))))) VR (Proc.devRef .tc Cert.ReferenceIdeal.main_v79) = after (Cert.KernelIdeal.Gen.hostOps5_5 (F := Ideal)) VK (Proc.devRef .tc Cert.KernelIdeal.main_v80)
    ∧ after (List.take 21 (List.drop 22 (List.drop 3 (List.drop 1 (List.drop 21 (List.drop 19 (Cert.ReferenceIdeal.Hand.opsDpre (F := Ideal)))))))) VR (Proc.devRef .tc Cert.ReferenceIdeal.main_v102) = after (Cert.KernelIdeal.Gen.hostOps5_5 (F := Ideal)) VK (Proc.devRef .tc Cert.KernelIdeal.main_v103)
    ∧ after (List.take 21 (List.drop 22 (List.drop 3 (List.drop 1 (List.drop 21 (List.drop 19 (Cert.ReferenceIdeal.Hand.opsDpre (F := Ideal)))))))) VR (Proc.devRef .tc Cert.ReferenceIdeal.main_v95) = after (Cert.KernelIdeal.Gen.hostOps5_5 (F := Ideal)) VK (Proc.devRef .tc Cert.KernelIdeal.main_v96) := by
  refine ⟨?_, ?_, ?_⟩ <;>
  · simp only [Cert.KernelIdeal.Gen.hostOps5_5, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    all_goals first | rfl | assumption

set_option maxHeartbeats 8000000 in
/-- Stretch 6: the row numbers, the value's test against zero, the small constant. -/
theorem stage6 (VK : KVal) (VR : RVal)
    (h0 : VR (Proc.devRef .tc Cert.ReferenceIdeal.main_v79) = VK (Proc.devRef .tc Cert.KernelIdeal.main_v80))
    (h1 : VR (Proc.devRef .tc Cert.ReferenceIdeal.main_v102) = VK (Proc.devRef .tc Cert.KernelIdeal.main_v103))
    (h2 : VR (Proc.devRef .tc Cert.ReferenceIdeal.main_v95) = VK (Proc.devRef .tc Cert.KernelIdeal.main_v96)) :
    after (List.take 5 (List.drop 21 (List.drop 22 (List.drop 3 (List.drop 1 (List.drop 21 (List.drop 19 (Cert.ReferenceIdeal.Hand.opsDpre (F := Ideal))))))))) VR (Proc.devRef .tc Cert.ReferenceIdeal.main_v79) = after (Cert.KernelIdeal.Gen.hostOps5_6 (F := Ideal)) VK (Proc.devRef .tc Cert.KernelIdeal.main_v80)
    ∧ after (List.take 5 (List.drop 21 (List.drop 22 (List.drop 3 (List.drop 1 (List.drop 21 (List.drop 19 (Cert.ReferenceIdeal.Hand.opsDpre (F := Ideal))))))))) VR (Proc.devRef .tc Cert.ReferenceIdeal.main_v102) = after (Cert.KernelIdeal.Gen.hostOps5_6 (F := Ideal)) VK (Proc.devRef .tc Cert.KernelIdeal.main_v103)
    ∧ after (List.take 5 (List.drop 21 (List.drop 22 (List.drop 3 (List.drop 1 (List.drop 21 (List.drop 19 (Cert.ReferenceIdeal.Hand.opsDpre (F := Ideal))))))))) VR (Proc.devRef .tc Cert.ReferenceIdeal.main_v95) = after (Cert.KernelIdeal.Gen.hostOps5_6 (F := Ideal)) VK (Proc.devRef .tc Cert.KernelIdeal.main_v96)
    ∧ after (List.take 5 (List.drop 21 (List.drop 22 (List.drop 3 (List.drop 1 (List.drop 21 (List.drop 19 (Cert.ReferenceIdeal.Hand.opsDpre (F := Ideal))))))))) VR (Proc.devRef .tc Cert.ReferenceIdeal.main_v106) = after (Cert.KernelIdeal.Gen.hostOps5_6 (F := Ideal)) VK (Proc.devRef .tc Cert.KernelIdeal.main_v107)
    ∧ after (List.take 5 (List.drop 21 (List.drop 22 (List.drop 3 (List.drop 1 (List.drop 21 (List.drop 19 (Cert.ReferenceIdeal.Hand.opsDpre (F := Ideal))))))))) VR (Proc.devRef .tc Cert.ReferenceIdeal.main_v108) = after (Cert.KernelIdeal.Gen.hostOps5_6 (F := Ideal)) VK (Proc.devRef .tc Cert.KernelIdeal.main_v109)
    ∧ after (List.take 5 (List.drop 21 (List.drop 22 (List.drop 3 (List.drop 1 (List.drop 21 (List.drop 19 (Cert.ReferenceIdeal.Hand.opsDpre (F := Ideal))))))))) VR (Proc.devRef .tc Cert.ReferenceIdeal.main_cst_30) = after (Cert.KernelIdeal.Gen.hostOps5_6 (F := Ideal)) VK (Proc.devRef .tc Cert.KernelIdeal.main_cst_30) := by
  refine ⟨?_, ?_, ?_, ?_, ?_, ?_⟩ <;>
  · simp only [Cert.KernelIdeal.Gen.hostOps5_6, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    all_goals first | rfl | assumption

set_option maxHeartbeats 8000000 in
/-- Stretch 7: the first divisor. -/
theorem stage7 (VK : KVal) (VR : RVal)
    (h0 : VR (Proc.devRef .tc Cert.ReferenceIdeal.main_v79) = VK (Proc.devRef .tc Cert.KernelIdeal.main_v80))
    (h1 : VR (Proc.devRef .tc Cert.ReferenceIdeal.main_v102) = VK (Proc.devRef .tc Cert.KernelIdeal.main_v103))
    (h2 : VR (Proc.devRef .tc Cert.ReferenceIdeal.main_v95) = VK (Proc.devRef .tc Cert.KernelIdeal.main_v96))
    (h3 : VR (Proc.devRef .tc Cert.ReferenceIdeal.main_v106) = VK (Proc.devRef .tc Cert.KernelIdeal.main_v107))
    (h4 : VR (Proc.devRef .tc Cert.ReferenceIdeal.main_v108) = VK (Proc.devRef .tc Cert.KernelIdeal.main_v109))
    (h5 : VR (Proc.devRef .tc Cert.ReferenceIdeal.main_cst_30) = VK (Proc.devRef .tc Cert.KernelIdeal.main_cst_30)) :
    after (List.take 3 (List.drop 5 (List.drop 21 (List.drop 22 (List.drop 3 (List.drop 1 (List.drop 21 (List.drop 19 (Cert.ReferenceIdeal.Hand.opsDpre (F := Ideal)))))))))) VR (Proc.devRef .tc Cert.ReferenceIdeal.main_v79) = after (Cert.KernelIdeal.Gen.hostOps5_7 (F := Ideal)) VK (Proc.devRef .tc Cert.KernelIdeal.main_v80)
    ∧ after (List.take 3 (List.drop 5 (List.drop 21 (List.drop 22 (List.drop 3 (List.drop 1 (List.drop 21 (List.drop 19 (Cert.ReferenceIdeal.Hand.opsDpre (F := Ideal)))))))))) VR (Proc.devRef .tc Cert.ReferenceIdeal.main_v102) = after (Cert.KernelIdeal.Gen.hostOps5_7 (F := Ideal)) VK (Proc.devRef .tc Cert.KernelIdeal.main_v103)
    ∧ after (List.take 3 (List.drop 5 (List.drop 21 (List.drop 22 (List.drop 3 (List.drop 1 (List.drop 21 (List.drop 19 (Cert.ReferenceIdeal.Hand.opsDpre (F := Ideal)))))))))) VR (Proc.devRef .tc Cert.ReferenceIdeal.main_v95) = after (Cert.KernelIdeal.Gen.hostOps5_7 (F := Ideal)) VK (Proc.devRef .tc Cert.KernelIdeal.main_v96)
    ∧ after (List.take 3 (List.drop 5 (List.drop 21 (List.drop 22 (List.drop 3 (List.drop 1 (List.drop 21 (List.drop 19 (Cert.ReferenceIdeal.Hand.opsDpre (F := Ideal)))))))))) VR (Proc.devRef .tc Cert.ReferenceIdeal.main_v106) = after (Cert.KernelIdeal.Gen.hostOps5_7 (F := Ideal)) VK (Proc.devRef .tc Cert.KernelIdeal.main_v107)
    ∧ after (List.take 3 (List.drop 5 (List.drop 21 (List.drop 22 (List.drop 3 (List.drop 1 (List.drop 21 (List.drop 19 (Cert.ReferenceIdeal.Hand.opsDpre (F := Ideal)))))))))) VR (Proc.devRef .tc Cert.ReferenceIdeal.main_v109) = after (Cert.KernelIdeal.Gen.hostOps5_7 (F := Ideal)) VK (Proc.devRef .tc Cert.KernelIdeal.main_v110) := by
  refine ⟨?_, ?_, ?_, ?_, ?_⟩ <;>
  · simp only [Cert.KernelIdeal.Gen.hostOps5_7, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    try rw [h4]
    try rw [h5]
    all_goals first | rfl | assumption

set_option maxHeartbeats 8000000 in
/-- Stretch 8: the second test, the negated value, the small constant. -/
theorem stage8 (VK : KVal) (VR : RVal)
    (h0 : VR (Proc.devRef .tc Cert.ReferenceIdeal.main_v79) = VK (Proc.devRef .tc Cert.KernelIdeal.main_v80))
    (h1 : VR (Proc.devRef .tc Cert.ReferenceIdeal.main_v102) = VK (Proc.devRef .tc Cert.KernelIdeal.main_v103))
    (h2 : VR (Proc.devRef .tc Cert.ReferenceIdeal.main_v95) = VK (Proc.devRef .tc Cert.KernelIdeal.main_v96))
    (h3 : VR (Proc.devRef .tc Cert.ReferenceIdeal.main_v106) = VK (Proc.devRef .tc Cert.KernelIdeal.main_v107))
    (h4 : VR (Proc.devRef .tc Cert.ReferenceIdeal.main_v109) = VK (Proc.devRef .tc Cert.KernelIdeal.main_v110)) :
    after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v79) = after (Cert.KernelIdeal.Gen.hostOps5_8 (F := Ideal)) VK (Proc.devRef .tc Cert.KernelIdeal.main_v80)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v95) = after (Cert.KernelIdeal.Gen.hostOps5_8 (F := Ideal)) VK (Proc.devRef .tc Cert.KernelIdeal.main_v96)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v106) = after (Cert.KernelIdeal.Gen.hostOps5_8 (F := Ideal)) VK (Proc.devRef .tc Cert.KernelIdeal.main_v107)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v109) = after (Cert.KernelIdeal.Gen.hostOps5_8 (F := Ideal)) VK (Proc.devRef .tc Cert.KernelIdeal.main_v110)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v111) = after (Cert.KernelIdeal.Gen.hostOps5_8 (F := Ideal)) VK (Proc.devRef .tc Cert.KernelIdeal.main_v112)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v112) = after (Cert.KernelIdeal.Gen.hostOps5_8 (F := Ideal)) VK (Proc.devRef .tc Cert.KernelIdeal.main_v113)
    ∧ after (List.take 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_cst_32) = after (Cert.KernelIdeal.Gen.hostOps5_8 (F := Ideal)) VK (Proc.devRef .tc Cert.KernelIdeal.main_cst_32) := by
  refine ⟨?_, ?_, ?_, ?_, ?_, ?_, ?_⟩ <;>
  · simp only [Cert.KernelIdeal.Gen.hostOps5_8, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    try rw [h4]
    all_goals first | rfl | assumption

set_option maxHeartbeats 8000000 in
/-- Stretch 9: the second divisor. -/
theorem stage9 (VK : KVal) (VR : RVal)
    (h0 : VR (Proc.devRef .tc Cert.ReferenceIdeal.main_v79) = VK (Proc.devRef .tc Cert.KernelIdeal.main_v80))
    (h1 : VR (Proc.devRef .tc Cert.ReferenceIdeal.main_v95) = VK (Proc.devRef .tc Cert.KernelIdeal.main_v96))
    (h2 : VR (Proc.devRef .tc Cert.ReferenceIdeal.main_v106) = VK (Proc.devRef .tc Cert.KernelIdeal.main_v107))
    (h3 : VR (Proc.devRef .tc Cert.ReferenceIdeal.main_v109) = VK (Proc.devRef .tc Cert.KernelIdeal.main_v110))
    (h4 : VR (Proc.devRef .tc Cert.ReferenceIdeal.main_v111) = VK (Proc.devRef .tc Cert.KernelIdeal.main_v112))
    (h5 : VR (Proc.devRef .tc Cert.ReferenceIdeal.main_v112) = VK (Proc.devRef .tc Cert.KernelIdeal.main_v113))
    (h6 : VR (Proc.devRef .tc Cert.ReferenceIdeal.main_cst_32) = VK (Proc.devRef .tc Cert.KernelIdeal.main_cst_32)) :
    after (List.drop 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v79) = after (Cert.KernelIdeal.Gen.hostOps5_9 (F := Ideal)) VK (Proc.devRef .tc Cert.KernelIdeal.main_v80)
    ∧ after (List.drop 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v95) = after (Cert.KernelIdeal.Gen.hostOps5_9 (F := Ideal)) VK (Proc.devRef .tc Cert.KernelIdeal.main_v96)
    ∧ after (List.drop 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v106) = after (Cert.KernelIdeal.Gen.hostOps5_9 (F := Ideal)) VK (Proc.devRef .tc Cert.KernelIdeal.main_v107)
    ∧ after (List.drop 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v109) = after (Cert.KernelIdeal.Gen.hostOps5_9 (F := Ideal)) VK (Proc.devRef .tc Cert.KernelIdeal.main_v110)
    ∧ after (List.drop 5 (List.drop 3 (List.drop 5 (List.drop 21 (List.drop 22 (List.drop 3 (List.drop 1 (List.drop 21 (List.drop 19 (Cert.ReferenceIdeal.Hand.opsDpre (F := Ideal))))))))))) VR (Proc.devRef .tc Cert.ReferenceIdeal.main_v113) = after (Cert.KernelIdeal.Gen.hostOps5_9 (F := Ideal)) VK (Proc.devRef .tc Cert.KernelIdeal.main_v114) := by
  refine ⟨?_, ?_, ?_, ?_, ?_⟩ <;>
  · simp only [Cert.KernelIdeal.Gen.hostOps5_9, Cert.ReferenceIdeal.Hand.opsDpre, List.drop_succ_cons, List.drop_zero, List.take_succ_cons, List.take_zero]
    after_results_simp
    try simp only [StableHlo.TRef.ofBuf, StableHlo.TRef.toBuf, cast_eq]
    try rw [h0]
    try rw [h1]
    try rw [h2]
    try rw [h3]
    try rw [h4]
    try rw [h5]
    try rw [h6]
    all_goals first | rfl | assumption

/-- The reference's operations before its last stretch, as its ten stretches in a row. -/
theorem opsDpre_stretches (VR : RVal) :
    after (Cert.ReferenceIdeal.Hand.opsDpre (F := Ideal)) VR
      = (after (List.drop 5 (List.drop 3 (List.drop 5 (List.drop 21 (List.drop 22 (List.drop 3 (List.drop 1 (List.drop 21 (List.drop 19 (Cert.ReferenceIdeal.Hand.opsDpre (F := Ideal))))))))))) (after (List.take 5 (List.drop 3 (List.drop 5 (List.drop 21 (List.drop 22 (List.drop 3 (List.drop 1 (List.drop 21 (List.drop 19 (Cert.ReferenceIdeal.Hand.opsDpre (F := Ideal))))))))))) (after (List.take 3 (List.drop 5 (List.drop 21 (List.drop 22 (List.drop 3 (List.drop 1 (List.drop 21 (List.drop 19 (Cert.ReferenceIdeal.Hand.opsDpre (F := Ideal)))))))))) (after (List.take 5 (List.drop 21 (List.drop 22 (List.drop 3 (List.drop 1 (List.drop 21 (List.drop 19 (Cert.ReferenceIdeal.Hand.opsDpre (F := Ideal))))))))) (after (List.take 21 (List.drop 22 (List.drop 3 (List.drop 1 (List.drop 21 (List.drop 19 (Cert.ReferenceIdeal.Hand.opsDpre (F := Ideal)))))))) (after (List.take 22 (List.drop 3 (List.drop 1 (List.drop 21 (List.drop 19 (Cert.ReferenceIdeal.Hand.opsDpre (F := Ideal))))))) (after (List.take 3 (List.drop 1 (List.drop 21 (List.drop 19 (Cert.ReferenceIdeal.Hand.opsDpre (F := Ideal)))))) (after (List.take 1 (List.drop 21 (List.drop 19 (Cert.ReferenceIdeal.Hand.opsDpre (F := Ideal))))) (after (List.take 21 (List.drop 19 (Cert.ReferenceIdeal.Hand.opsDpre (F := Ideal)))) (after (List.take 19 (Cert.ReferenceIdeal.Hand.opsDpre (F := Ideal))) VR)))))))))) := by
  rw [after_take_drop 19 (Cert.ReferenceIdeal.Hand.opsDpre (F := Ideal)),
    after_take_drop 21 (List.drop 19 (Cert.ReferenceIdeal.Hand.opsDpre (F := Ideal))),
    after_take_drop 1 (List.drop 21 (List.drop 19 (Cert.ReferenceIdeal.Hand.opsDpre (F := Ideal)))),
    after_take_drop 3 (List.drop 1 (List.drop 21 (List.drop 19 (Cert.ReferenceIdeal.Hand.opsDpre (F := Ideal))))),
    after_take_drop 22 (List.drop 3 (List.drop 1 (List.drop 21 (List.drop 19 (Cert.ReferenceIdeal.Hand.opsDpre (F := Ideal)))))),
    after_take_drop 21 (List.drop 22 (List.drop 3 (List.drop 1 (List.drop 21 (List.drop 19 (Cert.ReferenceIdeal.Hand.opsDpre (F := Ideal))))))),
    after_take_drop 5 (List.drop 21 (List.drop 22 (List.drop 3 (List.drop 1 (List.drop 21 (List.drop 19 (Cert.ReferenceIdeal.Hand.opsDpre (F := Ideal)))))))),
    after_take_drop 3 (List.drop 5 (List.drop 21 (List.drop 22 (List.drop 3 (List.drop 1 (List.drop 21 (List.drop 19 (Cert.ReferenceIdeal.Hand.opsDpre (F := Ideal))))))))),
    after_take_drop 5 (List.drop 3 (List.drop 5 (List.drop 21 (List.drop 22 (List.drop 3 (List.drop 1 (List.drop 21 (List.drop 19 (Cert.ReferenceIdeal.Hand.opsDpre (F := Ideal))))))))))]

/-- THE VALUES THE LAST STRETCHES READ ARE THE SAME in the two programs, from contents that agree on the argument arrays:
    whether a row has an entry, the first selected column, the row numbers and the two divisors. -/
theorem pretail_all (VK : KVal) (VR : RVal) (h : ArgsAgree VK VR) :
    after (Cert.ReferenceIdeal.Hand.opsDpre (F := Ideal)) VR (Proc.devRef .tc Cert.ReferenceIdeal.main_v79) = preTailK VK (Proc.devRef .tc Cert.KernelIdeal.main_v80)
    ∧ after (Cert.ReferenceIdeal.Hand.opsDpre (F := Ideal)) VR (Proc.devRef .tc Cert.ReferenceIdeal.main_v95) = preTailK VK (Proc.devRef .tc Cert.KernelIdeal.main_v96)
    ∧ after (Cert.ReferenceIdeal.Hand.opsDpre (F := Ideal)) VR (Proc.devRef .tc Cert.ReferenceIdeal.main_v106) = preTailK VK (Proc.devRef .tc Cert.KernelIdeal.main_v107)
    ∧ after (Cert.ReferenceIdeal.Hand.opsDpre (F := Ideal)) VR (Proc.devRef .tc Cert.ReferenceIdeal.main_v109) = preTailK VK (Proc.devRef .tc Cert.KernelIdeal.main_v110)
    ∧ after (Cert.ReferenceIdeal.Hand.opsDpre (F := Ideal)) VR (Proc.devRef .tc Cert.ReferenceIdeal.main_v113) = preTailK VK (Proc.devRef .tc Cert.KernelIdeal.main_v114) := by
  obtain ⟨a0, a1, a2, a3, a4⟩ := stage0 VK VR h
  obtain ⟨b0, b1, b2, b3⟩ := stage1 _ _ a0 a1 a2 a3 a4
  obtain ⟨c0, c1, c2, c3, c4⟩ := stage2 _ _ b0 b1 b2 b3
  obtain ⟨d0, d1, d2, d3⟩ := stage3 _ _ c0 c1 c2 c3 c4
  obtain ⟨e0, e1, e2⟩ := stage4 _ _ d0 d1 d2 d3
  obtain ⟨f0, f1, f2⟩ := stage5 _ _ e0 e1 e2
  obtain ⟨g0, g1, g2, g3, g4, g5⟩ := stage6 _ _ f0 f1 f2
  obtain ⟨i0, i1, i2, i3, i4⟩ := stage7 _ _ g0 g1 g2 g3 g4 g5
  obtain ⟨j0, j1, j2, j3, j4, j5, j6⟩ := stage8 _ _ i0 i1 i2 i3 i4
  obtain ⟨k0, k1, k2, k3, k4⟩ := stage9 _ _ j0 j1 j2 j3 j4 j5 j6
  rw [opsDpre_stretches]
  unfold preTailK
  exact ⟨k0, k1, k2, k3, k4⟩

/-- Whether a row has an entry. -/
theorem pretail_has (VK : KVal) (VR : RVal) (h : ArgsAgree VK VR) :
    after (Cert.ReferenceIdeal.Hand.opsDpre (F := Ideal)) VR (Proc.devRef .tc Cert.ReferenceIdeal.main_v79) = preTailK VK (Proc.devRef .tc Cert.KernelIdeal.main_v80) :=
  (pretail_all VK VR h).1

/-- The first selected column. -/
theorem pretail_c1_staged (VK : KVal) (VR : RVal) (h : ArgsAgree VK VR) :
    after (Cert.ReferenceIdeal.Hand.opsDpre (F := Ideal)) VR (Proc.devRef .tc Cert.ReferenceIdeal.main_v95) = preTailK VK (Proc.devRef .tc Cert.KernelIdeal.main_v96) :=
  (pretail_all VK VR h).2.1

/-- The row numbers. -/
theorem pretail_rows_staged (VK : KVal) (VR : RVal) (h : ArgsAgree VK VR) :
    after (Cert.ReferenceIdeal.Hand.opsDpre (F := Ideal)) VR (Proc.devRef .tc Cert.ReferenceIdeal.main_v106) = preTailK VK (Proc.devRef .tc Cert.KernelIdeal.main_v107) :=
  (pretail_all VK VR h).2.2.1

/-- The first divisor. -/
theorem pretail_d1 (VK : KVal) (VR : RVal) (h : ArgsAgree VK VR) :
    after (Cert.ReferenceIdeal.Hand.opsDpre (F := Ideal)) VR (Proc.devRef .tc Cert.ReferenceIdeal.main_v109) = preTailK VK (Proc.devRef .tc Cert.KernelIdeal.main_v110) :=
  (pretail_all VK VR h).2.2.2.1

/-- The second divisor. -/
theorem pretail_d2 (VK : KVal) (VR : RVal) (h : ArgsAgree VK VR) :
    after (Cert.ReferenceIdeal.Hand.opsDpre (F := Ideal)) VR (Proc.devRef .tc Cert.ReferenceIdeal.main_v113) = preTailK VK (Proc.devRef .tc Cert.KernelIdeal.main_v114) :=
  (pretail_all VK VR h).2.2.2.2

end Cert.Bridge

end
-- ==== Proof.Bridge.SameE.lean ====
/-
  The second selected column is the same in the two programs once the first is: in both it is the floored modulo by
  4096 of the first selected column plus one, computed by the same chain of operations; nothing else of either
  program enters. The chain is evaluated once per program over the contents just before it, and the operations after
  it leave both columns as they are.
-/
import proofs.«166874_j54296976556804_1_alg».proof.Proof.Bridge.Defs

set_option maxRecDepth 16384

noncomputable section

namespace Cert.Bridge

open Idealize.ShloMosaic Idealize.SL.Sem
open Idealize.ShloMosaic.StableHlo

/-- The chain of array operations both programs print for x mod D with D a scalar array: the guarded divisor d
    (D, or 1 where D is 0), broadcast; the truncated remainders r; r + d where r is not 0 and its sign differs from
    d's, else r. -/
def remChain {s : Shape} (h : (⟨0, ![]⟩ : Shape).BroadcastsInDim s ![]) (x : IVec s 32) (D : IVec ⟨0, ![]⟩ 32) : IVec s 32 :=
  select
    (andi
      (cmpi CmpIPredicate.ne
        (cmpi CmpIPredicate.slt
          (Host.remsi x (broadcastInDim s ![] h (select (cmpi CmpIPredicate.eq D (constantI ⟨0, ![]⟩ 32 0#32)) (constantI ⟨0, ![]⟩ 32 1#32) D)))
          (broadcastInDim s ![] h (constantI ⟨0, ![]⟩ 32 0#32)))
        (broadcastInDim s ![] h
          (cmpi CmpIPredicate.slt (select (cmpi CmpIPredicate.eq D (constantI ⟨0, ![]⟩ 32 0#32)) (constantI ⟨0, ![]⟩ 32 1#32) D)
            (constantI ⟨0, ![]⟩ 32 0#32))))
      (cmpi CmpIPredicate.ne
        (Host.remsi x (broadcastInDim s ![] h (select (cmpi CmpIPredicate.eq D (constantI ⟨0, ![]⟩ 32 0#32)) (constantI ⟨0, ![]⟩ 32 1#32) D)))
        (broadcastInDim s ![] h (constantI ⟨0, ![]⟩ 32 0#32))))
    (addi
      (Host.remsi x (broadcastInDim s ![] h (select (cmpi CmpIPredicate.eq D (constantI ⟨0, ![]⟩ 32 0#32)) (constantI ⟨0, ![]⟩ 32 1#32) D)))
      (broadcastInDim s ![] h (select (cmpi CmpIPredicate.eq D (constantI ⟨0, ![]⟩ 32 0#32)) (constantI ⟨0, ![]⟩ 32 1#32) D)))
    (Host.remsi x (broadcastInDim s ![] h (select (cmpi CmpIPredicate.eq D (constantI ⟨0, ![]⟩ 32 0#32)) (constantI ⟨0, ![]⟩ 32 1#32) D)))

/-! ## The kernel program -/

section KernelSide
open Cert.KernelIdeal Cert.KernelIdeal.Gen

set_option maxHeartbeats 4000000 in
theorem k_hostOps5_9_v106 (V : KVal) :
    after (hostOps5_9 (F := Ideal)) V (Proc.devRef .tc main_v106) = V (Proc.devRef .tc main_v106) := by
  simp only [hostOps5_9]
  after_results_simp

set_option maxHeartbeats 4000000 in
theorem k_hostOps5_8_v106 (V : KVal) :
    after (hostOps5_8 (F := Ideal)) V (Proc.devRef .tc main_v106) = V (Proc.devRef .tc main_v106) := by
  simp only [hostOps5_8]
  after_results_simp

set_option maxHeartbeats 4000000 in
theorem k_hostOps5_7_v106 (V : KVal) :
    after (hostOps5_7 (F := Ideal)) V (Proc.devRef .tc main_v106) = V (Proc.devRef .tc main_v106) := by
  simp only [hostOps5_7]
  after_results_simp

set_option maxHeartbeats 4000000 in
theorem k_hostOps5_6_v106 (V : KVal) :
    after (hostOps5_6 (F := Ideal)) V (Proc.devRef .tc main_v106) = V (Proc.devRef .tc main_v106) := by
  simp only [hostOps5_6]
  after_results_simp

set_option maxHeartbeats 4000000 in
theorem k_hostOps5_9_v96 (V : KVal) :
    after (hostOps5_9 (F := Ideal)) V (Proc.devRef .tc main_v96) = V (Proc.devRef .tc main_v96) := by
  simp only [hostOps5_9]
  after_results_simp

set_option maxHeartbeats 4000000 in
theorem k_hostOps5_8_v96 (V : KVal) :
    after (hostOps5_8 (F := Ideal)) V (Proc.devRef .tc main_v96) = V (Proc.devRef .tc main_v96) := by
  simp only [hostOps5_8]
  after_results_simp

set_option maxHeartbeats 4000000 in
theorem k_hostOps5_7_v96 (V : KVal) :
    after (hostOps5_7 (F := Ideal)) V (Proc.devRef .tc main_v96) = V (Proc.devRef .tc main_v96) := by
  simp only [hostOps5_7]
  after_results_simp

set_option maxHeartbeats 4000000 in
theorem k_hostOps5_6_v96 (V : KVal) :
    after (hostOps5_6 (F := Ideal)) V (Proc.devRef .tc main_v96) = V (Proc.devRef .tc main_v96) := by
  simp only [hostOps5_6]
  after_results_simp

set_option maxHeartbeats 4000000 in
theorem k_hostOps5_5_v96 (V : KVal) :
    after (hostOps5_5 (F := Ideal)) V (Proc.devRef .tc main_v96) = V (Proc.devRef .tc main_v96) := by
  simp only [hostOps5_5]
  after_results_simp

set_option maxHeartbeats 8000000 in
/-- The modulo's stretch, from any contents: the chain applied to the incremented column and the divisor's array. -/
theorem k_rem_v106 (V : KVal) :
    after (hostOps5_5 (F := Ideal)) V (Proc.devRef .tc main_v106)
      = remChain Facts₀.bcast_S_S8192 (V (Proc.devRef .tc main_v105)) (V (Proc.devRef .tc main_c_28)) := by
  simp only [hostOps5_5]
  after_results_simp
  simp only [StableHlo.TRef.ofBuf, StableHlo.TRef.toBuf, cast_eq]
  rfl

set_option maxHeartbeats 8000000 in
/-- The stretch before it leaves the incremented column: the first column it has just gathered, plus one. -/
theorem k_inc_v105 (V : KVal) :
    after (hostOps5_4 (F := Ideal)) V (Proc.devRef .tc main_v105)
      = addi (after (hostOps5_4 (F := Ideal)) V (Proc.devRef .tc main_v96))
          (broadcastInDim S8192 ![] Facts₀.bcast_S_S8192 (constantI S_ 32 1#32)) := by
  simp only [hostOps5_4]
  after_results_simp

set_option maxHeartbeats 8000000 in
/-- … and the divisor's array: the constant 4096. -/
theorem k_div_c28 (V : KVal) :
    after (hostOps5_4 (F := Ideal)) V (Proc.devRef .tc main_c_28) = constantI S_ 32 4096#32 := by
  simp only [hostOps5_4]
  after_results_simp

/-- The kernel program's second selected column, from its first. -/
theorem k_c2_of_c1 (VK : KVal) :
    preTailK VK (Proc.devRef .tc main_v106)
      = remChain Facts₀.bcast_S_S8192
          (addi (preTailK VK (Proc.devRef .tc main_v96)) (broadcastInDim S8192 ![] Facts₀.bcast_S_S8192 (constantI S_ 32 1#32)))
          (constantI S_ 32 4096#32) := by
  unfold preTailK
  rw [k_hostOps5_9_v106, k_hostOps5_8_v106, k_hostOps5_7_v106, k_hostOps5_6_v106, k_rem_v106, k_inc_v105, k_div_c28,
    k_hostOps5_9_v96, k_hostOps5_8_v96, k_hostOps5_7_v96, k_hostOps5_6_v96, k_hostOps5_5_v96]

end KernelSide

/-! ## The reference -/

section ReferenceSide
open Cert.ReferenceIdeal Cert.ReferenceIdeal.Gen Cert.ReferenceIdeal.Hand

/-- The reference's operations before its last stretch, cut after the gather of the first selected column. -/
theorem r_split (VR : RVal) :
    after (opsDpre (F := Ideal)) VR
      = after (List.drop 53 (opsDpre (F := Ideal))) (after (List.take 53 (opsDpre (F := Ideal))) VR) := by
  have h := after_append (List.take 53 (opsDpre (F := Ideal))) (List.drop 53 (opsDpre (F := Ideal))) VR
  rw [List.take_append_drop] at h
  exact h

set_option maxHeartbeats 16000000 in
/-- The operations after the cut leave the first selected column as it is … -/
theorem r_tail_v95 (W : RVal) :
    after (List.drop 53 (opsDpre (F := Ideal))) W (Proc.devRef .tc main_v95) = W (Proc.devRef .tc main_v95) := by
  simp only [opsDpre, List.drop_succ_cons, List.drop_zero]
  after_results_simp

set_option maxHeartbeats 16000000 in
/-- … and compute the second from it: the chain applied to it plus one and the constant 4096. -/
theorem r_tail_v105 (W : RVal) :
    after (List.drop 53 (opsDpre (F := Ideal))) W (Proc.devRef .tc main_v105)
      = remChain Facts₀.bcast_S_S8192
          (addi (W (Proc.devRef .tc main_v95)) (broadcastInDim S8192 ![] Facts₀.bcast_S_S8192 (constantI S_ 32 1#32)))
          (constantI S_ 32 4096#32) := by
  simp only [opsDpre, List.drop_succ_cons, List.drop_zero]
  after_results_simp
  simp only [StableHlo.TRef.ofBuf, StableHlo.TRef.toBuf, cast_eq]
  rfl

/-- The reference's second selected column, from its first. -/
theorem r_c2_of_c1 (VR : RVal) :
    after (opsDpre (F := Ideal)) VR (Proc.devRef .tc main_v105)
      = remChain Facts₀.bcast_S_S8192
          (addi (after (opsDpre (F := Ideal)) VR (Proc.devRef .tc main_v95)) (broadcastInDim S8192 ![] Facts₀.bcast_S_S8192 (constantI S_ 32 1#32)))
          (constantI S_ 32 4096#32) := by
  rw [r_split, r_tail_v105, r_tail_v95]

end ReferenceSide

/-- THE SECOND SELECTED COLUMN IS THE SAME once the first is. -/
theorem pretail_c2_of_c1 (VK : KVal) (VR : RVal)
    (hc1 : after (Cert.ReferenceIdeal.Hand.opsDpre (F := Ideal)) VR (Proc.devRef .tc Cert.ReferenceIdeal.main_v95)
      = preTailK VK (Proc.devRef .tc Cert.KernelIdeal.main_v96)) :
    after (Cert.ReferenceIdeal.Hand.opsDpre (F := Ideal)) VR (Proc.devRef .tc Cert.ReferenceIdeal.main_v105)
      = preTailK VK (Proc.devRef .tc Cert.KernelIdeal.main_v106) := by
  rw [r_c2_of_c1, k_c2_of_c1, hc1]

end Cert.Bridge

end
-- ==== Proof.LibKBlocks.lean ====
/-
  A PRODUCT BLOCKED ALONG ITS CONTRACTED AXIS. An axis of length K = nk * tk is cut into nk blocks of tk; index
  kb * tk + kk is position kk of block kb. A sum over the axis is the sum over the blocks of the sums over each
  block (`sum_bix`); accumulating block after block from zero (`acc ↦ acc + ∑ kk, …`, the scheme of a matrix product
  that walks the contracted axis in tiles) reaches the whole sum, and after n blocks holds the sum of the first n
  (`psum`, `rec_eq_psum`, `foldl_eq_sum`). Only associativity and commutativity of + are used: every statement holds in
  any additive commutative monoid, the extended reals among them, with no finiteness anywhere.
  Last, at the ideal float values (an extended real each, every operation exact, a change of format the identity) one
  accumulation step in the spelling of a tiled product's body — the accumulator plus the product of the two tiles
  narrowed to bf16, onto a zero splat — read at an index: `acc p q + ∑ c, a p c * b c q`.
-/
import Idealize.ShloMosaic.Lib.ValueIdx
import Idealize.ShloMosaic.Lib.Pipeline.Value
import Idealize.ShloMosaic.PureOps.Ideal.Laws

noncomputable section

open scoped BigOperators

namespace Cert.Hand.KBlocks

/-! ## The index arithmetic -/

/-- Position `kk` of block `kb` of an axis of length `K = nk * tk`: index `kb * tk + kk`. -/
def bix {nk tk K : ℕ} (hK : nk * tk = K) (kb : Fin nk) (kk : Fin tk) : Fin K :=
  ⟨kb.val * tk + kk.val, by
    have h1 : kb.val * tk + kk.val < (kb.val + 1) * tk := by rw [Nat.succ_mul]; exact Nat.add_lt_add_left kk.isLt _
    have h2 : (kb.val + 1) * tk ≤ nk * tk := Nat.mul_le_mul_right _ kb.isLt
    omega⟩

@[simp] theorem bix_val {nk tk K : ℕ} (hK : nk * tk = K) (kb : Fin nk) (kk : Fin tk) :
    (bix hK kb kk).val = kb.val * tk + kk.val := rfl

/-- Every index of the axis is a position of a block: block `k / tk`, position `k % tk`. -/
theorem exists_bix {nk tk K : ℕ} (hK : nk * tk = K) (k : Fin K) : ∃ kb kk, k = bix hK kb kk := by
  have hk := k.isLt
  have htk : 0 < tk := by
    rcases Nat.eq_zero_or_pos tk with h | h
    · subst h; rw [Nat.mul_zero] at hK; omega
    · exact h
  refine ⟨⟨k.val / tk, ?_⟩, ⟨k.val % tk, Nat.mod_lt _ htk⟩, Fin.ext ?_⟩
  · rw [Nat.div_lt_iff_lt_mul htk, hK]; exact hk
  · show k.val = k.val / tk * tk + k.val % tk
    rw [Nat.mul_comm]; exact (Nat.div_add_mod _ _).symm

/-- The block and the position determine the index, and conversely. -/
theorem bix_inj {nk tk K : ℕ} (hK : nk * tk = K) {kb kb' : Fin nk} {kk kk' : Fin tk}
    (h : bix hK kb kk = bix hK kb' kk') : kb = kb' ∧ kk = kk' := by
  have e : kb.val * tk + kk.val = kb'.val * tk + kk'.val := congrArg Fin.val h
  have h1 := kk.isLt
  have h2 := kk'.isLt
  have hb : kb.val = kb'.val := by
    rcases Nat.lt_trichotomy kb.val kb'.val with hlt | heq | hgt
    · have : (kb.val + 1) * tk ≤ kb'.val * tk := Nat.mul_le_mul_right _ hlt
      rw [Nat.succ_mul] at this; omega
    · exact heq
    · have : (kb'.val + 1) * tk ≤ kb.val * tk := Nat.mul_le_mul_right _ hgt
      rw [Nat.succ_mul] at this; omega
  refine ⟨Fin.ext hb, Fin.ext ?_⟩
  rw [hb] at e; omega

/-! ## Sums by blocks -/

section Sums
variable {M : Type*} [AddCommMonoid M]

/-- A sum over the axis is the sum over the blocks of the sums over each block. -/
theorem sum_bix {nk tk K : ℕ} (hK : nk * tk = K) (f : Fin K → M) :
    ∑ k : Fin K, f k = ∑ kb : Fin nk, ∑ kk : Fin tk, f (bix hK kb kk) := by
  subst hK
  rw [← Equiv.sum_comp finProdFinEquiv f, Fintype.sum_prod_type]
  refine Finset.sum_congr rfl fun kb _ => Finset.sum_congr rfl fun kk _ => congrArg f (Fin.ext ?_)
  show kk.val + tk * kb.val = kb.val * tk + kk.val
  rw [Nat.mul_comm, Nat.add_comm]

/-- The sum of the first `n` of `nk` terms. -/
def psum {nk : ℕ} (g : Fin nk → M) (n : ℕ) : M :=
  ∑ kb ∈ Finset.univ.filter (fun kb : Fin nk => kb.val < n), g kb

theorem psum_zero {nk : ℕ} (g : Fin nk → M) : psum g 0 = 0 := by
  unfold psum
  rw [Finset.filter_false_of_mem (fun kb _ => Nat.not_lt_zero _)]
  exact Finset.sum_empty

theorem psum_succ {nk : ℕ} (g : Fin nk → M) (n : ℕ) (h : n < nk) : psum g (n + 1) = psum g n + g ⟨n, h⟩ := by
  unfold psum
  have e : Finset.univ.filter (fun kb : Fin nk => kb.val < n + 1)
      = insert (⟨n, h⟩ : Fin nk) (Finset.univ.filter (fun kb : Fin nk => kb.val < n)) := by
    ext kb
    simp only [Finset.mem_filter, Finset.mem_univ, true_and, Finset.mem_insert, Fin.ext_iff]
    omega
  rw [e, Finset.sum_insert (by simp), add_comm]

theorem psum_all {nk : ℕ} (g : Fin nk → M) : psum g nk = ∑ kb : Fin nk, g kb := by
  unfold psum
  rw [Finset.filter_true_of_mem (fun kb _ => kb.isLt)]

/-- ACCUMULATING BLOCK AFTER BLOCK: a sequence that starts at zero and adds term `n` at step `n` holds, after `n` steps,
    the sum of the first `n` terms … -/
theorem rec_eq_psum {nk : ℕ} (g : Fin nk → M) (acc : ℕ → M) (h0 : acc 0 = 0)
    (hs : ∀ n (h : n < nk), acc (n + 1) = acc n + g ⟨n, h⟩) : ∀ n, n ≤ nk → acc n = psum g n
  | 0, _ => by rw [h0, psum_zero]
  | n + 1, hn => by rw [hs n hn, psum_succ g n hn, rec_eq_psum g acc h0 hs n (Nat.le_of_succ_le hn)]

/-- … and after all `nk` of them the whole sum. -/
theorem rec_eq_sum {nk : ℕ} (g : Fin nk → M) (acc : ℕ → M) (h0 : acc 0 = 0)
    (hs : ∀ n (h : n < nk), acc (n + 1) = acc n + g ⟨n, h⟩) : acc nk = ∑ kb : Fin nk, g kb := by
  rw [rec_eq_psum g acc h0 hs nk (Nat.le_refl _), psum_all]

/-- A left fold that adds a term per element is the initial value plus the list's sum of terms. -/
theorem foldl_add_eq {ι : Type*} (g : ι → M) : ∀ (l : List ι) (init : M),
    l.foldl (fun acc x => acc + g x) init = init + (l.map g).sum
  | [], init => by simp
  | x :: l, init => by rw [List.foldl_cons, foldl_add_eq g l, List.map_cons, List.sum_cons, add_assoc]

/-- The same as a left fold over the blocks in order. -/
theorem foldl_eq_sum {nk : ℕ} (g : Fin nk → M) :
    (List.finRange nk).foldl (fun acc kb => acc + g kb) 0 = ∑ kb : Fin nk, g kb := by
  rw [foldl_add_eq, zero_add, Fin.sum_univ_def]

/-- THE K-BLOCKED PRODUCT: entry (i, j) accumulated block by block along the contracted axis, from zero, is the
    entry of the whole product. -/
theorem foldl_blocks_eq_sum {nk tk K : ℕ} (hK : nk * tk = K) {R : Type*} [Mul R] [AddCommMonoid R]
    (a : Fin K → R) (b : Fin K → R) :
    (List.finRange nk).foldl (fun acc kb => acc + ∑ kk : Fin tk, a (bix hK kb kk) * b (bix hK kb kk)) 0
      = ∑ k : Fin K, a k * b k := by
  rw [foldl_eq_sum (fun kb => ∑ kk : Fin tk, a (bix hK kb kk) * b (bix hK kb kk)), sum_bix hK (fun k => a k * b k)]

end Sums

/-! ## One accumulation step at the ideal values -/

section Step
open Idealize.ShloMosaic Idealize.ShloMosaic.ValueIdx

/-- A plain m×k by k×n matrix-unit product onto the zero splat, read at (p, q) at the ideal values: the sum over the
    contracted coordinate of the products of the entries (whatever the proof `w` of the dimension numbers' conditions:
    a printed program's own record of them is this one by unfolding). -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (q : Fin n) :
    matmul (⟨[1], [0], [0], [1], [], [], w⟩ : DotDims _ _ _) prec A B (constant _ .f32 0x00000000#32) (ix2 p q)
      = ∑ c : Fin k, A (ix2 p c) * B (ix2 c q) := by
  show FloatOps.matmul _ prec A B _ (ix2 p q) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

/-- ONE ACCUMULATION STEP of a tiled product's body, at the ideal values, read at (p, q): the accumulator plus the product
    of the two tiles narrowed to bf16 (the identity here) onto the zero splat is `acc p q + ∑ c, a p c * b c q`. -/
theorem step_apply {m k n : ℕ}
    (w : DotDims.WF ⟨2, ![m, k]⟩ ⟨2, ![k, n]⟩ ⟨2, ![m, n]⟩ [1] [0] [0] [1] [] [])
    (prec : Option ContractPrecision) (hb : FTy.bf16.bits < FTy.f32.bits)
    (a : FVec Ideal ⟨2, ![m, k]⟩ .f32) (b : FVec Ideal ⟨2, ![k, n]⟩ .f32) (acc : FVec Ideal ⟨2, ![m, n]⟩ .f32)
    (p : Fin m) (q : Fin n) :
    addf acc (matmul (⟨[1], [0], [0], [1], [], [], w⟩ : DotDims _ _ _) prec (truncf .bf16 a hb) (truncf .bf16 b hb)
        (constant _ .f32 0x00000000#32)) (ix2 p q)
      = acc (ix2 p q) + ∑ c : Fin k, a (ix2 p c) * b (ix2 c q) := by
  rw [addf_apply, matmul_plain_zero_apply]
  rfl

/-- The same step with the identity shape casts a printed body wraps around its tiles and its result. -/
theorem step_cast_apply {m k n : ℕ}
    (w : DotDims.WF ⟨2, ![m, k]⟩ ⟨2, ![k, n]⟩ ⟨2, ![m, n]⟩ [1] [0] [0] [1] [] [])
    (prec : Option ContractPrecision) (hb : FTy.bf16.bits < FTy.f32.bits)
    (ha : (⟨2, ![m, k]⟩ : Shape).ShapeCasts ⟨2, ![m, k]⟩) (hb' : (⟨2, ![k, n]⟩ : Shape).ShapeCasts ⟨2, ![k, n]⟩)
    (ho : (⟨2, ![m, n]⟩ : Shape).ShapeCasts ⟨2, ![m, n]⟩)
    (a : FVec Ideal ⟨2, ![m, k]⟩ .f32) (b : FVec Ideal ⟨2, ![k, n]⟩ .f32) (acc : FVec Ideal ⟨2, ![m, n]⟩ .f32)
    (p : Fin m) (q : Fin n) :
    shapeCast _ (addf acc (matmul (⟨[1], [0], [0], [1], [], [], w⟩ : DotDims _ _ _) prec
        (truncf .bf16 (shapeCast _ a ha) hb) (truncf .bf16 (shapeCast _ b hb') hb)
        (constant _ .f32 0x00000000#32))) ho (ix2 p q)
      = acc (ix2 p q) + ∑ c : Fin k, a (ix2 p c) * b (ix2 c q) := by
  rw [shapeCast_self, shapeCast_self, shapeCast_self, step_apply]

/-- The zero splat a tiled product's body starts its accumulator from (a broadcast of the scalar constant 0.0, through an
    identity shape cast) reads 0 everywhere. -/
theorem zero_splat_apply {s : Shape} (h : s.ShapeCasts s) (i : s.Idx) :
    shapeCast s (broadcast s (Scalar.ofBits (F := Ideal) .f32 0x00000000#32)) h i = (0 : EReal) := by
  rw [shapeCast_self, broadcast_apply]
  exact Ideal.ofBits_zero_f32

end Step

end Cert.Hand.KBlocks

end
-- ==== Proof.LibBlockOfWhole.lean ====
/-
  A BLOCK OF A WHOLE PRODUCT. Cut the rows of an Mr × K matrix A into nm blocks of tm, the columns of a K × Nc matrix B
  into nn blocks of tn, and the contracted axis into nk blocks of tk. Entry (p, q) of block (i, j) of the whole product
  `∑ k, A r k * B k s` (row r = i * tm + p, column s = j * tn + q) is the sum over kb of the products of tile (i, kb) of
  A and tile (kb, j) of B at (p, q) (k = kb * tk + kk): pure index arithmetic over the sum by blocks. Conversely a
  matrix whose every block is that blocked sum is the whole product. In any additive commutative monoid with a
  multiplication, the extended reals among them.
-/
import proofs.«166874_j54296976556804_1_alg».proof.Proof.LibKBlocks

noncomputable section

open scoped BigOperators

namespace Cert.Hand.BlockOfWhole

open Idealize.ShloMosaic Idealize.ShloMosaic.ValueIdx Cert.Hand.KBlocks

variable {R : Type*} [Mul R] [AddCommMonoid R]

/-- Tile (i, j) of a matrix whose rows are cut into blocks of `tr` and columns into blocks of `tc`. -/
def tile {nr tr Rr nc tc Cc : ℕ} (hR : nr * tr = Rr) (hC : nc * tc = Cc) (X : (⟨2, ![Rr, Cc]⟩ : Shape).Idx → R)
    (i : Fin nr) (j : Fin nc) : (⟨2, ![tr, tc]⟩ : Shape).Idx → R :=
  fun y => X (ix2 (bix hR i (y 0)) (bix hC j (y 1)))

theorem tile_apply {nr tr Rr nc tc Cc : ℕ} (hR : nr * tr = Rr) (hC : nc * tc = Cc) (X : (⟨2, ![Rr, Cc]⟩ : Shape).Idx → R)
    (i : Fin nr) (j : Fin nc) (p : Fin tr) (q : Fin tc) : tile hR hC X i j (ix2 p q) = X (ix2 (bix hR i p) (bix hC j q)) := rfl

/-- An entry of the whole product is the sum over the blocks of the contracted axis of the sums over each block. -/
theorem entry_by_blocks {nk tk K Mr Nc : ℕ} (hK : nk * tk = K) (A : (⟨2, ![Mr, K]⟩ : Shape).Idx → R)
    (B : (⟨2, ![K, Nc]⟩ : Shape).Idx → R) (r : Fin Mr) (s : Fin Nc) :
    ∑ k : Fin K, A (ix2 r k) * B (ix2 k s)
      = ∑ kb : Fin nk, ∑ kk : Fin tk, A (ix2 r (bix hK kb kk)) * B (ix2 (bix hK kb kk) s) :=
  sum_bix hK fun k => A (ix2 r k) * B (ix2 k s)

/-- BLOCK (i, j) OF THE WHOLE PRODUCT at (p, q): the blocked sum of A's block row i and B's block column j. -/
theorem block_of_whole {nm tm Mr nn tn Nc nk tk K : ℕ} (hM : nm * tm = Mr) (hN : nn * tn = Nc) (hK : nk * tk = K)
    (A : (⟨2, ![Mr, K]⟩ : Shape).Idx → R) (B : (⟨2, ![K, Nc]⟩ : Shape).Idx → R)
    (i : Fin nm) (j : Fin nn) (p : Fin tm) (q : Fin tn) :
    ∑ k : Fin K, A (ix2 (bix hM i p) k) * B (ix2 k (bix hN j q))
      = ∑ kb : Fin nk, ∑ kk : Fin tk, tile hM hK A i kb (ix2 p kk) * tile hK hN B kb j (ix2 kk q) :=
  entry_by_blocks hK A B _ _

/-- The same accumulated block after block from zero, in order. -/
theorem block_of_whole_foldl {nm tm Mr nn tn Nc nk tk K : ℕ} (hM : nm * tm = Mr) (hN : nn * tn = Nc) (hK : nk * tk = K)
    (A : (⟨2, ![Mr, K]⟩ : Shape).Idx → R) (B : (⟨2, ![K, Nc]⟩ : Shape).Idx → R)
    (i : Fin nm) (j : Fin nn) (p : Fin tm) (q : Fin tn) :
    ∑ k : Fin K, A (ix2 (bix hM i p) k) * B (ix2 k (bix hN j q))
      = (List.finRange nk).foldl
          (fun acc kb => acc + ∑ kk : Fin tk, tile hM hK A i kb (ix2 p kk) * tile hK hN B kb j (ix2 kk q)) 0 := by
  rw [block_of_whole hM hN hK, foldl_eq_sum]

/-- Conversely: a matrix every block of which is the blocked sum is the whole product. -/
theorem eq_whole_of_blocks {nm tm Mr nn tn Nc nk tk K : ℕ} (hM : nm * tm = Mr) (hN : nn * tn = Nc) (hK : nk * tk = K)
    (A : (⟨2, ![Mr, K]⟩ : Shape).Idx → R) (B : (⟨2, ![K, Nc]⟩ : Shape).Idx → R) (O : (⟨2, ![Mr, Nc]⟩ : Shape).Idx → R)
    (h : ∀ i j p q, O (ix2 (bix hM i p) (bix hN j q))
      = ∑ kb : Fin nk, ∑ kk : Fin tk, tile hM hK A i kb (ix2 p kk) * tile hK hN B kb j (ix2 kk q)) :
    O = fun y => ∑ k : Fin K, A (ix2 (y 0) k) * B (ix2 k (y 1)) := by
  funext y
  obtain ⟨i, p, hr⟩ := exists_bix hM (y 0)
  obtain ⟨j, q, hs⟩ := exists_bix hN (y 1)
  have hy : y = ix2 (bix hM i p) (bix hN j q) := by rw [← hr, ← hs]; exact eq_ix2 y
  rw [hy]
  exact (h i j p q).trans (block_of_whole hM hN hK A B i j p q).symm

end Cert.Hand.BlockOfWhole

end
-- ==== Proof.NormCols.lean ====
/-
  Column normalisation, read entry by entry at the ideal (extended-real) values.

  Both programs turn a matrix X into Z with
      Z (r, s) = (X (r, s) - min_k X (k, s) + c) / (0 + Σ_k (X (k, s) - min_k' X (k', s) + c)),
  the minimum folded from +∞ down column s and the sum taken down column s. One program does this to an
  [8192, 4096] matrix and the other to an [8192, 8192] matrix; only column s of the matrix enters entry (r, s), so if
  the two matrices agree on the first 4096 columns, so do the two results.

  The first part reads each operation of the chain at an index (r, s), for any extents m × n; the second part states
  the two chains as the programs spell them and proves the agreement.
-/
import proofs.«166874_j54296976556804_1_alg».proof.KernelIdeal
import proofs.«166874_j54296976556804_1_alg».proof.ReferenceIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Hand.NormCols

open Idealize.ShloMosaic Idealize.ShloMosaic.ValueIdx

/-! ## Each operation at an index, for any extents -/

section AtIndex

variable {m n : ℕ}

/-- A reduction over the rows into the columns' shape is in particular a reduction into a shape of positive rank. -/
theorem reduces_of_reducesTo (h' : (⟨2, ![m, n]⟩ : Shape).ReducesTo [0] (⟨1, ![n]⟩ : Shape)) :
    (⟨2, ![m, n]⟩ : Shape).Reduces [0] (⟨1, ![n]⟩ : Shape) := by
  obtain ⟨h1, h2⟩ := h'
  exact ⟨h1, Nat.one_pos, h2⟩

/-- The column index t with row k put back is (k, t). -/
theorem lift_ix2 (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The host's reduce with a minimum body over axis 0, at column t: the fold of min from the initial value over the
    entries of column t only. -/
theorem hostReduce_min_col (x : FVec Ideal ⟨2, ![m, n]⟩ .f32) (init : FVec Ideal ⟨0, ![]⟩ .f32)
    (h' : (⟨2, ![m, n]⟩ : Shape).ReducesTo [0] (⟨1, ![n]⟩ : Shape)) (hu : 0 < (⟨0, ![]⟩ : Shape).numel) (t : Fin n) :
    Host.reduce (FloatOps.minimumf (F := Ideal) (φ := .f32)) x init h' hu (ix1 t)
      = (Finset.univ : Finset (Fin m)).fold min (init (Shape.Idx.first hu)) (fun k : Fin m => x (ix2 k t)) := by
  have h := reduces_of_reducesTo h'
  rw [Host.reduce_eq_fold_single FloatOps.minimumf x _ h' h hu]
  have hf : (x ∘ h.lift (ix1 t)) = fun k : Fin m => x (ix2 k t) := funext fun k => congrArg x (lift_ix2 h t k)
  exact congrArg (fun f => Finset.fold min (init (Shape.Idx.first hu)) f (Finset.univ : Finset (Fin m))) hf

/-- The host's reduce with an add body over axis 0, at column t: the initial value plus the sum of the entries of
    column t only. -/
theorem hostReduceAdd_col (x : FVec Ideal ⟨2, ![m, n]⟩ .f32) (init : FVec Ideal ⟨0, ![]⟩ .f32)
    (h' : (⟨2, ![m, n]⟩ : Shape).ReducesTo [0] (⟨1, ![n]⟩ : Shape)) (hu : 0 < (⟨0, ![]⟩ : Shape).numel) (t : Fin n) :
    Host.reduceAdd x init h' hu (ix1 t) = init (Shape.Idx.first hu) + ∑ k : Fin m, x (ix2 k t) := by
  have h := reduces_of_reducesTo h'
  rw [hostReduceAdd_apply, Ideal.hostReduceAdd_single h' h]
  exact congrArg (fun f : Fin m → EReal => init (Shape.Idx.first hu) + ∑ k : Fin m, f k)
    (funext fun k => congrArg x (lift_ix2 h t k))

/-- A vector of n entries broadcast to one row and then to m rows reads, at (r, t), entry t. -/
theorem bcastRows_apply {α : Type} (h1 : (⟨1, ![n]⟩ : Shape).BroadcastsInDim (⟨2, ![1, n]⟩ : Shape) ![1])
    (h2 : (⟨2, ![1, n]⟩ : Shape).BroadcastsInDim (⟨2, ![m, n]⟩ : Shape) ![0, 1])
    (v : (⟨1, ![n]⟩ : Shape).Idx → α) (r : Fin m) (t : Fin n) :
    broadcastInDim (⟨2, ![m, n]⟩ : Shape) ![0, 1] h2 (broadcastInDim (⟨2, ![1, n]⟩ : Shape) ![1] h1 v) (ix2 r t)
      = v (ix1 t) := by
  rw [broadcastInDim_apply ![0, 1] h2 _ (ix2 r t) (ix2 (0 : Fin 1) t) ?_,
    broadcastInDim_apply ![1] h1 v (ix2 (0 : Fin 1) t) (ix1 t) ?_]
  · intro a
    fin_cases a
    show t.val = if n = 1 then 0 else t.val
    split
    · have := t.isLt; omega
    · rfl
  · intro a
    fin_cases a
    · show (0 : ℕ) = if (1 : ℕ) = 1 then 0 else r.val
      rw [if_pos rfl]
    · show t.val = if n = 1 then 0 else t.val
      split
      · have := t.isLt; omega
      · rfl

end AtIndex

/-! ## The two chains as the programs spell them -/

section Chains

open Cert.KernelIdeal (S8192x4096 S4096 S1x4096)
open Cert.ReferenceIdeal (S8192x8192 S8192 S1x8192)

/-- The scalar shape, which both programs spell the same way. -/
local notation "S₀" => (⟨0, ![]⟩ : Shape)

variable [Cert.KernelIdeal.Facts] [Cert.ReferenceIdeal.Facts]

/-- The [8192, 4096] matrix with its column minimum subtracted and the small constant added. -/
def shiftK (X : FVec Ideal S8192x4096 .f32) : FVec Ideal S8192x4096 .f32 :=
  addf
    (subf X
      (broadcastInDim S8192x4096 ![0, 1] Cert.KernelIdeal.Facts₀.bcast_S1x4096_S8192x4096_0_1
        (broadcastInDim S1x4096 ![1] Cert.KernelIdeal.Facts₀.bcast_S4096_S1x4096_1
          (Host.reduce FloatOps.minimumf X (constant (F := Ideal) Cert.KernelIdeal.S_ .f32 0x7F800000#32)
            Cert.KernelIdeal.Facts₀.reducesTo_S8192x4096_S4096_d0 Cert.KernelIdeal.Facts₀.h_S_))))
    (broadcastInDim S8192x4096 ![] Cert.KernelIdeal.Facts₀.bcast_S_S8192x4096
      (constant (F := Ideal) Cert.KernelIdeal.S_ .f32 0x322BCC77#32))

/-- The [8192, 4096] chain: the shifted matrix divided, column by column, by its column sum. -/
def normK (X : FVec Ideal S8192x4096 .f32) : FVec Ideal S8192x4096 .f32 :=
  Host.divf (shiftK X)
    (broadcastInDim S8192x4096 ![0, 1] Cert.KernelIdeal.Facts₀.bcast_S1x4096_S8192x4096_0_1
      (broadcastInDim S1x4096 ![1] Cert.KernelIdeal.Facts₀.bcast_S4096_S1x4096_1
        (Host.reduceAdd (shiftK X) (constant (F := Ideal) Cert.KernelIdeal.S_ .f32 0x00000000#32)
          Cert.KernelIdeal.Facts₀.reducesTo_S8192x4096_S4096_d0 Cert.KernelIdeal.Facts₀.h_S_)))

/-- The [8192, 8192] matrix with its column minimum subtracted and the small constant added. -/
def shiftR (X : FVec Ideal S8192x8192 .f32) : FVec Ideal S8192x8192 .f32 :=
  addf
    (subf X
      (broadcastInDim S8192x8192 ![0, 1] Cert.ReferenceIdeal.Facts₀.bcast_S1x8192_S8192x8192_0_1
        (broadcastInDim S1x8192 ![1] Cert.ReferenceIdeal.Facts₀.bcast_S8192_S1x8192_1
          (Host.reduce FloatOps.minimumf X (constant (F := Ideal) Cert.ReferenceIdeal.S_ .f32 0x7F800000#32)
            Cert.ReferenceIdeal.Facts₀.reducesTo_S8192x8192_S8192_d0 Cert.ReferenceIdeal.Facts₀.h_S_))))
    (broadcastInDim S8192x8192 ![] Cert.ReferenceIdeal.Facts₀.bcast_S_S8192x8192
      (constant (F := Ideal) Cert.ReferenceIdeal.S_ .f32 0x322BCC77#32))

/-- The [8192, 8192] chain. -/
def normR (X : FVec Ideal S8192x8192 .f32) : FVec Ideal S8192x8192 .f32 :=
  Host.divf (shiftR X)
    (broadcastInDim S8192x8192 ![0, 1] Cert.ReferenceIdeal.Facts₀.bcast_S1x8192_S8192x8192_0_1
      (broadcastInDim S1x8192 ![1] Cert.ReferenceIdeal.Facts₀.bcast_S8192_S1x8192_1
        (Host.reduceAdd (shiftR X) (constant (F := Ideal) Cert.ReferenceIdeal.S_ .f32 0x00000000#32)
          Cert.ReferenceIdeal.Facts₀.reducesTo_S8192x8192_S8192_d0 Cert.ReferenceIdeal.Facts₀.h_S_)))

/-- The [8192, 4096] chain written out in full, operation by operation. -/
theorem normK_eq (X : FVec Ideal S8192x4096 .f32) :
    normK X
      = Host.divf
          (addf
            (subf X
              (broadcastInDim S8192x4096 ![0, 1] Cert.KernelIdeal.Facts₀.bcast_S1x4096_S8192x4096_0_1
                (broadcastInDim S1x4096 ![1] Cert.KernelIdeal.Facts₀.bcast_S4096_S1x4096_1
                  (Host.reduce FloatOps.minimumf X (constant (F := Ideal) Cert.KernelIdeal.S_ .f32 0x7F800000#32)
                    Cert.KernelIdeal.Facts₀.reducesTo_S8192x4096_S4096_d0 Cert.KernelIdeal.Facts₀.h_S_))))
            (broadcastInDim S8192x4096 ![] Cert.KernelIdeal.Facts₀.bcast_S_S8192x4096
              (constant (F := Ideal) Cert.KernelIdeal.S_ .f32 0x322BCC77#32)))
          (broadcastInDim S8192x4096 ![0, 1] Cert.KernelIdeal.Facts₀.bcast_S1x4096_S8192x4096_0_1
            (broadcastInDim S1x4096 ![1] Cert.KernelIdeal.Facts₀.bcast_S4096_S1x4096_1
              (Host.reduceAdd
                (addf
                  (subf X
                    (broadcastInDim S8192x4096 ![0, 1] Cert.KernelIdeal.Facts₀.bcast_S1x4096_S8192x4096_0_1
                      (broadcastInDim S1x4096 ![1] Cert.KernelIdeal.Facts₀.bcast_S4096_S1x4096_1
                        (Host.reduce FloatOps.minimumf X (constant (F := Ideal) Cert.KernelIdeal.S_ .f32 0x7F800000#32)
                          Cert.KernelIdeal.Facts₀.reducesTo_S8192x4096_S4096_d0 Cert.KernelIdeal.Facts₀.h_S_))))
                  (broadcastInDim S8192x4096 ![] Cert.KernelIdeal.Facts₀.bcast_S_S8192x4096
                    (constant (F := Ideal) Cert.KernelIdeal.S_ .f32 0x322BCC77#32)))
                (constant (F := Ideal) Cert.KernelIdeal.S_ .f32 0x00000000#32)
                Cert.KernelIdeal.Facts₀.reducesTo_S8192x4096_S4096_d0 Cert.KernelIdeal.Facts₀.h_S_))) := rfl

/-- The [8192, 8192] chain written out in full, operation by operation. -/
theorem normR_eq (X : FVec Ideal S8192x8192 .f32) :
    normR X
      = Host.divf
          (addf
            (subf X
              (broadcastInDim S8192x8192 ![0, 1] Cert.ReferenceIdeal.Facts₀.bcast_S1x8192_S8192x8192_0_1
                (broadcastInDim S1x8192 ![1] Cert.ReferenceIdeal.Facts₀.bcast_S8192_S1x8192_1
                  (Host.reduce FloatOps.minimumf X (constant (F := Ideal) Cert.ReferenceIdeal.S_ .f32 0x7F800000#32)
                    Cert.ReferenceIdeal.Facts₀.reducesTo_S8192x8192_S8192_d0 Cert.ReferenceIdeal.Facts₀.h_S_))))
            (broadcastInDim S8192x8192 ![] Cert.ReferenceIdeal.Facts₀.bcast_S_S8192x8192
              (constant (F := Ideal) Cert.ReferenceIdeal.S_ .f32 0x322BCC77#32)))
          (broadcastInDim S8192x8192 ![0, 1] Cert.ReferenceIdeal.Facts₀.bcast_S1x8192_S8192x8192_0_1
            (broadcastInDim S1x8192 ![1] Cert.ReferenceIdeal.Facts₀.bcast_S8192_S1x8192_1
              (Host.reduceAdd
                (addf
                  (subf X
                    (broadcastInDim S8192x8192 ![0, 1] Cert.ReferenceIdeal.Facts₀.bcast_S1x8192_S8192x8192_0_1
                      (broadcastInDim S1x8192 ![1] Cert.ReferenceIdeal.Facts₀.bcast_S8192_S1x8192_1
                        (Host.reduce FloatOps.minimumf X (constant (F := Ideal) Cert.ReferenceIdeal.S_ .f32 0x7F800000#32)
                          Cert.ReferenceIdeal.Facts₀.reducesTo_S8192x8192_S8192_d0 Cert.ReferenceIdeal.Facts₀.h_S_))))
                  (broadcastInDim S8192x8192 ![] Cert.ReferenceIdeal.Facts₀.bcast_S_S8192x8192
                    (constant (F := Ideal) Cert.ReferenceIdeal.S_ .f32 0x322BCC77#32)))
                (constant (F := Ideal) Cert.ReferenceIdeal.S_ .f32 0x00000000#32)
                Cert.ReferenceIdeal.Facts₀.reducesTo_S8192x8192_S8192_d0 Cert.ReferenceIdeal.Facts₀.h_S_))) := rfl

/-- The small constant both chains add, as an extended real. -/
def eps : EReal := Ideal.ofBits .f32 0x322BCC77#32

/-- Entry (r, s) of the shifted [8192, 4096] matrix: the entry, minus the minimum (from +∞) of column s, plus the
    constant. -/
theorem shiftK_apply (X : FVec Ideal S8192x4096 .f32) (r : Fin 8192) (s : Fin 4096) :
    shiftK X (ix2 r s)
      = X (ix2 r s)
          - (Finset.univ : Finset (Fin 8192)).fold min (Ideal.ofBits .f32 0x7F800000#32) (fun k : Fin 8192 => X (ix2 k s))
          + eps := by
  unfold shiftK
  rw [addf_apply, subf_apply, bcastRows_apply, hostReduce_min_col, broadcastInDim_scalar_apply]
  rfl

/-- Entry (r, s) of the shifted [8192, 8192] matrix. -/
theorem shiftR_apply (X : FVec Ideal S8192x8192 .f32) (r : Fin 8192) (s : Fin 8192) :
    shiftR X (ix2 r s)
      = X (ix2 r s)
          - (Finset.univ : Finset (Fin 8192)).fold min (Ideal.ofBits .f32 0x7F800000#32) (fun k : Fin 8192 => X (ix2 k s))
          + eps := by
  unfold shiftR
  rw [addf_apply, subf_apply, bcastRows_apply, hostReduce_min_col, broadcastInDim_scalar_apply]
  rfl

/-- Entry (r, s) of the [8192, 4096] chain: the shifted entry over zero plus the sum of the shifted column s. -/
theorem normK_apply (X : FVec Ideal S8192x4096 .f32) (r : Fin 8192) (s : Fin 4096) :
    normK X (ix2 r s)
      = Ideal.div (shiftK X (ix2 r s)) (Ideal.ofBits .f32 0x00000000#32 + ∑ k : Fin 8192, shiftK X (ix2 k s)) := by
  unfold normK
  rw [hostDivf_apply, bcastRows_apply, hostReduceAdd_col]
  rfl

/-- Entry (r, s) of the [8192, 8192] chain. -/
theorem normR_apply (X : FVec Ideal S8192x8192 .f32) (r : Fin 8192) (s : Fin 8192) :
    normR X (ix2 r s)
      = Ideal.div (shiftR X (ix2 r s)) (Ideal.ofBits .f32 0x00000000#32 + ∑ k : Fin 8192, shiftR X (ix2 k s)) := by
  unfold normR
  rw [hostDivf_apply, bcastRows_apply, hostReduceAdd_col]
  rfl

/-- Matrices that agree on the first 4096 columns have shifted matrices that agree there: only column s enters
    entry (r, s). -/
theorem shift_agree (X : FVec Ideal S8192x4096 .f32) (X' : FVec Ideal S8192x8192 .f32)
    (hX : ∀ (r : Fin 8192) (s : Fin 4096), X (ix2 r s) = X' (ix2 r ⟨s.val, by omega⟩))
    (r : Fin 8192) (s : Fin 4096) : shiftK X (ix2 r s) = shiftR X' (ix2 r ⟨s.val, by omega⟩) := by
  rw [shiftK_apply, shiftR_apply, hX r s]
  have hcol : (fun k : Fin 8192 => X (ix2 k s)) = fun k : Fin 8192 => X' (ix2 k ⟨s.val, by omega⟩) :=
    funext fun k => hX k s
  rw [hcol]

/-- THE AGREEMENT: if the [8192, 4096] matrix is the first 4096 columns of the [8192, 8192] one, the column-normalised
    [8192, 4096] matrix is the first 4096 columns of the column-normalised [8192, 8192] one. -/
theorem norm_agree (X : FVec Ideal S8192x4096 .f32) (X' : FVec Ideal S8192x8192 .f32)
    (hX : ∀ (r : Fin 8192) (s : Fin 4096), X (ix2 r s) = X' (ix2 r ⟨s.val, by omega⟩)) :
    ∀ (r : Fin 8192) (s : Fin 4096), normK X (ix2 r s) = normR X' (ix2 r ⟨s.val, by omega⟩) := by
  intro r s
  rw [normK_apply, normR_apply, shift_agree X X' hX r s]
  have hcol : (fun k : Fin 8192 => shiftK X (ix2 k s)) = fun k : Fin 8192 => shiftR X' (ix2 k ⟨s.val, by omega⟩) :=
    funext fun k => shift_agree X X' hX k s
  rw [hcol]

end Chains

end Cert.Hand.NormCols
-- ==== Proof.Bridge.Head.lean ====
/-
  THE HEAD OF THE COMPARISON: the column-normalised matrix as each program's host operations compute it.

  The kernel program's stretch of host operations after its second matrix product writes, into one buffer, the
  column normalisation of the product's [8192, 4096] output; the reference's stretch after its second whole product
  writes the column normalisation of its [8192, 8192] product. Each is the chain of thirteen operations of
  the column normalisation applied to the contents of the product's buffer; so if the two products agree on the
  first 4096 columns, the two normalised matrices agree there.
-/
import proofs.«166874_j54296976556804_1_alg».proof.Proof.Bridge.Defs
import proofs.«166874_j54296976556804_1_alg».proof.Proof.NormCols
import Idealize.ShloMosaic.Lib.StableHlo.Run

noncomputable section

namespace Cert.Bridge

open Idealize.ShloMosaic Idealize.SL.Sem Idealize.ShloMosaic.StableHlo Idealize.ShloMosaic.ValueIdx

set_option maxRecDepth 8192 in
/-- After the kernel program's stretch, the normalised matrix's buffer holds the [8192, 4096] chain of the product's
    buffer as it stood before the stretch. -/
theorem normK_stage (VK : KVal) :
    StableHlo.after Cert.KernelIdeal.Gen.hostOps2 VK (Proc.devRef .tc Cert.KernelIdeal.main_v16)
      = Cert.Hand.NormCols.normK (VK (Proc.devRef .tc Cert.KernelIdeal.main_v6)) := by
  simp only [Cert.KernelIdeal.Gen.hostOps2]
  after_results_simp
  rfl

set_option maxRecDepth 8192 in
/-- After the reference's stretch, the normalised matrix's buffer holds the [8192, 8192] chain of the product's
    buffer as it stood before the stretch. -/
theorem normR_stage (VR : RVal) :
    StableHlo.after Cert.ReferenceIdeal.Hand.opsB VR (Proc.devRef .tc Cert.ReferenceIdeal.main_v15)
      = Cert.Hand.NormCols.normR (VR (Proc.devRef .tc Cert.ReferenceIdeal.main_v5)) := by
  simp only [Cert.ReferenceIdeal.Hand.opsB]
  after_results_simp
  rfl

/-- If, before the two stretches, the kernel program's product buffer is the first 4096 columns of the reference's,
    then after them the kernel program's normalised matrix is the first 4096 columns of the reference's. -/
theorem head_stage (VK : KVal) (VR : RVal)
    (h6 : ∀ (r : Fin 8192) (s : Fin 4096),
      (VK (Proc.devRef .tc Cert.KernelIdeal.main_v6)) (ix2 r s)
        = (VR (Proc.devRef .tc Cert.ReferenceIdeal.main_v5)) (ix2 r ⟨s.val, by omega⟩)) :
    ∀ (r : Fin 8192) (s : Fin 4096),
      (StableHlo.after Cert.KernelIdeal.Gen.hostOps2 VK (Proc.devRef .tc Cert.KernelIdeal.main_v16)) (ix2 r s)
        = (StableHlo.after Cert.ReferenceIdeal.Hand.opsB VR (Proc.devRef .tc Cert.ReferenceIdeal.main_v15))
            (ix2 r ⟨s.val, by omega⟩) := by
  intro r s
  rw [normK_stage, normR_stage]
  exact Cert.Hand.NormCols.norm_agree _ _ h6 r s

end Cert.Bridge

end
-- ==== Proof.Bridge.Rhs1.lean ====
/-
  The right factor of the first matrix product, in the two programs.

  The kernel program slices the first 4096 rows of the user-factor matrix and transposes the slice (a [256, 4096]
  matrix); the reference transposes the whole matrix (a [256, 8192] matrix). Entry (l, s) of either, for s below 4096,
  is entry (s, l) of the user-factor matrix: the kernel's right factor is the first 4096 columns of the reference's.
-/
import proofs.«166874_j54296976556804_1_alg».proof.Proof.Bridge.Defs
import Idealize.ShloMosaic.Lib.Pipeline.Value
import Idealize.ShloMosaic.Lib.ValueLayout

noncomputable section

namespace Cert.Bridge

open Idealize.ShloMosaic Idealize.SL.Sem Idealize.ShloMosaic.ValueIdx
open Idealize.ShloMosaic.StableHlo

/-- A slice from the origin keeping the first `r` rows reads, at (i, j), the operand at (i, j). -/
theorem slice_rows_ix2_apply {α : Type} {a r b : ℕ} (x : (⟨2, ![a, b]⟩ : Shape).Idx → α)
    (h : (⟨2, ![a, b]⟩ : Shape).Slices ![0, 0] ⟨2, ![r, b]⟩) (i : Fin r) (j : Fin b) (hi : i.val < a) :
    extractStridedSlice ⟨2, ![r, b]⟩ ![0, 0] x h (ix2 i j) = x (ix2 ⟨i.val, hi⟩ j) :=
  extractStridedSlice_apply _ x h _ _ fun c => match c with
    | ⟨0, _⟩ => (Nat.zero_add _).symm
    | ⟨1, _⟩ => (Nat.zero_add _).symm

variable {VK : KVal} {VR : RVal}

/-- The kernel program's right factor of the first product is the first 4096 columns of the reference's. -/
theorem rhs1_cols (h : ArgsAgree VK VR) (l : Fin 256) (s : Fin 4096) :
    (StableHlo.after Cert.KernelIdeal.Gen.hostOps0 VK (Proc.devRef .tc Cert.KernelIdeal.main_v4) : (⟨2, ![256, 4096]⟩ : Shape).Idx → EReal) (ix2 l s)
      = (StableHlo.after Cert.ReferenceIdeal.Hand.opsA VR (Proc.devRef .tc Cert.ReferenceIdeal.main_v3) : (⟨2, ![256, 8192]⟩ : Shape).Idx → EReal) (ix2 l ⟨s.val, by omega⟩) := by
  simp only [Cert.KernelIdeal.Gen.hostOps0, Cert.ReferenceIdeal.Hand.opsA]
  after_results_simp
  rw [h.h4]
  refine (transpose_ix2_apply (a := 4096) (b := 256) _ _ l s).trans ?_
  refine (slice_rows_ix2_apply (a := 8192) (r := 4096) (b := 256) _ _ s l (by omega)).trans ?_
  exact (transpose_ix2_apply (a := 8192) (b := 256) _ _ l ⟨s.val, by omega⟩).symm

end Cert.Bridge

end
-- ==== Proof.Bridge.Products.lean ====
/-
  THE REFERENCE'S PRODUCTS READ AT AN INDEX, at the ideal float values: each whole-matrix product of the reference, at
  entry (p, q), is the sum over the contracted coordinate of the products of the entries — the same plain form the
  tiled products' output arrays are brought to. A plain M × K by K × N product's dimension numbers, whatever the proof of
  their conditions, are the library's plain record, whose reading at an index the library proves.
-/
import proofs.«166874_j54296976556804_1_alg».proof.ReferenceIdeal
import Idealize.ShloMosaic.Lib.StackMember
import Idealize.ShloMosaic.PureOps.Ideal.Laws

noncomputable section

open scoped BigOperators

namespace Cert.Bridge

open Idealize.ShloMosaic Idealize.ShloMosaic.ValueIdx
open Cert.ReferenceIdeal

/-- A plain m × k by k × n product on the host, read at (p, q): whatever the proof `w` of the dimension numbers' conditions. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (q : Fin n) :
    Host.dotGeneral (⟨[1], [0], [0], [1], [], [], w⟩ : DotDims _ _ _) prec A B (ix2 p q)
      = ∑ c : Fin k, A (ix2 p c) * B (ix2 c q) :=
  StackMember.dotGeneral_plain_apply prec A B p q

variable [Cert.ReferenceIdeal.Facts₀]

theorem dot_S4096x256_S256x8192_apply (a : S4096x256.Idx → EReal) (b : S256x8192.Idx → EReal) (p : Fin 4096) (q : Fin 8192) :
    Host.dotGeneral (F := Ideal) (φ₁ := .f32) (φ₂ := .f32) dot_S4096x256_S256x8192_S4096x8192_1_0_0_1_n_n none a b (ix2 p q) = ∑ k : Fin 256, a (ix2 p k) * b (ix2 k q) :=
  dotGeneral_plain_apply _ none a b p q

theorem dot_S8192x4096_S4096x8192_apply (a : S8192x4096.Idx → EReal) (b : S4096x8192.Idx → EReal) (p : Fin 8192) (q : Fin 8192) :
    Host.dotGeneral (F := Ideal) (φ₁ := .f32) (φ₂ := .f32) dot_S8192x4096_S4096x8192_S8192x8192_1_0_0_1_n_n none a b (ix2 p q) = ∑ k : Fin 4096, a (ix2 p k) * b (ix2 k q) :=
  dotGeneral_plain_apply _ none a b p q

theorem dot_S4096x8192_S8192x4096_apply (a : S4096x8192.Idx → EReal) (b : S8192x4096.Idx → EReal) (p : Fin 4096) (q : Fin 4096) :
    Host.dotGeneral (F := Ideal) (φ₁ := .f32) (φ₂ := .f32) dot_S4096x8192_S8192x4096_S4096x4096_1_0_0_1_n_n none a b (ix2 p q) = ∑ k : Fin 8192, a (ix2 p k) * b (ix2 k q) :=
  dotGeneral_plain_apply _ none a b p q

theorem dot_S8192x4096_S4096x4096_apply (a : S8192x4096.Idx → EReal) (b : S4096x4096.Idx → EReal) (p : Fin 8192) (q : Fin 4096) :
    Host.dotGeneral (F := Ideal) (φ₁ := .f32) (φ₂ := .f32) dot_S8192x4096_S4096x4096_S8192x4096_1_0_0_1_n_n none a b (ix2 p q) = ∑ k : Fin 4096, a (ix2 p k) * b (ix2 k q) :=
  dotGeneral_plain_apply _ none a b p q

end Cert.Bridge

end
-- ==== Proof.KI.Value0.lean ====
import proofs.«166874_j54296976556804_1_alg».proof.Proof.KI.Region0
import proofs.«166874_j54296976556804_1_alg».proof.Proof.LibKBlocks
import Idealize.ShloMosaic.Lib.Pipeline.Value
import Idealize.ShloMosaic.Lib.Decide

set_option maxRecDepth 16384
set_option Elab.async false

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Hand.KBlocks

/-
  REGION 0's VALUE at the ideal float values: the output array after the region is the whole product of the two operand
  arrays as the region finds them. One point per output block (the contracted axis is one tile): what a point leaves is
  one accumulation step from the zero splat, the product of its two tiles; the tiles are read where the output block's
  rectangle says; the output's blocks cover the array.
-/
variable (V : (c : Dev nD) → (b : Ref sig .tc) → Buf (Elt Ideal) ((c : Thread nD τ).loc b))

/-- One accumulation step from the zero splat, read at an index: the product of the two tiles there. -/
theorem pay0_apply (a : Vec Ideal S512x256 .f32) (b : Vec Ideal S256x1024 .f32) (y : S512x1024.Idx) :
    k0_pay2 a b (k0_pay1 (F := Ideal)) y = ∑ k : Fin 256, a (ix2 (y 0) k) * b (ix2 k (y 1)) := by
  obtain ⟨p, q, rfl⟩ : ∃ (p : Fin 512) (q : Fin 1024), y = ix2 p q := ⟨y 0, y 1, eq_ix2 y⟩
  unfold k0_pay2
  refine (step_cast_apply _ none _ _ _ _ a b (k0_pay1 (F := Ideal)) p q).trans ?_
  exact (congrArg (· + _) (zero_splat_apply shapeCasts_S512x1024_S512x1024 (ix2 p q))).trans (zero_add _)

theorem idx_facts0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 3 :=
  (by decide +kernel : ∀ t : Fin grid0.N, _)

theorem idx_onto0 : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The whole product of the two operand arrays. -/
abbrev prod0 (A : S4096x256.Idx → EReal) (B : S256x4096.Idx → EReal) : S4096x4096.Idx → EReal :=
  fun i => ∑ k : Fin 256, A (ix2 (i 0) k) * B (ix2 k (i 1))

/-- The region's two operand arrays as it finds them, at their literal types. -/
abbrev lhs0 (c : Dev nD) : S4096x256.Idx → EReal := V c (Pipeline.arrRef spec0 0)
abbrev rhs0 (c : Dev nD) : S256x4096.Idx → EReal := V c (Pipeline.arrRef spec0 1)

theorem flushed0_eq (c : Dev nD) (t : Fin cfg0.N) :
    (dat0 V c).flushed 2 t = ((cfg0.win 2).blk t).view.read (Elt Ideal)
      (prod0 (lhs0 V c) (rhs0 V c)) := by
  show (cfg0.win 2).cut (grid0.coords t) ((dat0 V c).after 2 t) = _
  rw [out_eq0]
  obtain ⟨e0, e1, e2, e3, e4, e5⟩ := idx_facts0 t
  funext j
  refine (pay0_apply (iblk0 V c 0 t) (iblk0 V c 1 t) ((cfg0.win 2).xinj (grid0.coords t) j)).trans ?_
  show _ = ∑ k : Fin 256, lhs0 V c (ix2 ((((cfg0.win 2).blk t).view.emb j) 0) k) * rhs0 V c (ix2 k ((((cfg0.win 2).blk t).view.emb j) 1))
  refine Finset.sum_congr rfl fun k _ => ?_
  have h0 : iblk0 V c 0 t (ix2 ((cfg0.win 2).xinj (grid0.coords t) j 0) k)
      = lhs0 V c (ix2 ((((cfg0.win 2).blk t).view.emb j) 0) k) := by
    show lhs0 V c
        (((cfg0.win 0).blk t).view.emb (ix2 ((cfg0.win 2).xinj (grid0.coords t) j 0) k)) = _
    congr 1; funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 256 + 1 * k.val = k.val; omega
  have h1 : iblk0 V c 1 t (ix2 k ((cfg0.win 2).xinj (grid0.coords t) j 1))
      = rhs0 V c (ix2 k ((((cfg0.win 2).blk t).view.emb j) 1)) := by
    show rhs0 V c
        (((cfg0.win 1).blk t).view.emb (ix2 k ((cfg0.win 2).xinj (grid0.coords t) j 1))) = _
    congr 1; funext a; apply Fin.ext
    match a with
    | ⟨0, _⟩ => show win0_1.index t (0 : Fin 2) * 256 + 1 * k.val = k.val; omega
    | ⟨1, _⟩ => show win0_1.index t (1 : Fin 2) * 1024 + 1 * (j 1).val = win0_2.index t (1 : Fin 2) * 1024 + 1 * (j 1).val; omega
  rw [h0, h1]

/-- An index of the output array is in point `t`'s block iff each coordinate is in the block's range on its axis. -/
theorem mem_blk0 (t : Fin cfg0.N) (i : S4096x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v5).slice (win0_2.rect t)).set ↔ _
  rw [View.set_slice_whole, Rect.mem_set_unit]
  exact Iff.rfl

/-- The output's blocks cover its array. -/
theorem cover0 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE OUTPUT ARRAY after the region: the whole product of the two operand arrays as the region finds them. -/
theorem final0 (c : Dev nD) : (dat0 V c).arrAt 2 cfg0.N
    = fun i => ∑ k : Fin 256, lhs0 V c (ix2 (i 0) k) * rhs0 V c (ix2 k (i 1)) :=
  (dat0 V c).arrAt_eq_of_cover 2 (prod0 (lhs0 V c) (rhs0 V c))
    (fun t _ => flushed0_eq V c t) cover0

end Cert.KernelIdeal.Hand

end
-- ==== Proof.KI.Value1.lean ====
import proofs.«166874_j54296976556804_1_alg».proof.Proof.KI.Region1
import proofs.«166874_j54296976556804_1_alg».proof.Proof.LibKBlocks
import Idealize.ShloMosaic.Lib.Pipeline.Value
import Idealize.ShloMosaic.Lib.Decide

set_option maxRecDepth 16384
set_option Elab.async false

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Hand.KBlocks

variable (V : (c : Dev nD) → (b : Ref sig .tc) → Buf (Elt Ideal) ((c : Thread nD τ).loc b))

/-
  REGION 1's VALUE at the ideal float values: the output array after the region is the whole product of the two operand
  arrays as the region finds them. The contracted axis is walked in 4 tiles of 1024, the innermost grid axis: the
  accumulator after the point at tile kb of an output block holds the sum over the tiles 0 … kb of the products of the
  two tiles (one accumulation step each, from the zero splat at tile 0), so after the last tile the whole sum by blocks;
  the tiles are read where the point's index maps say; the last points' output blocks cover the array.
-/

/-- One accumulation step read at an index: the accumulator there plus the product of the two tiles. -/
theorem pay1_apply (a : Vec Ideal S512x1024 .f32) (b : Vec Ideal S1024x1024 .f32) (acc : Vec Ideal S512x1024 .f32) (p : Fin 512) (q : Fin 1024) :
    k1_pay2 a b acc (ix2 p q) = acc (ix2 p q) + ∑ kk : Fin 1024, a (ix2 p kk) * b (ix2 kk q) := by
  unfold k1_pay2
  simp only [shapeCast_self]
  exact step_apply _ none _ a b acc p q

/-- The zero splat the first tile's step starts from. -/
theorem pay1_zero (y : S512x1024.Idx) : k1_pay1 (F := Ideal) y = 0 :=
  zero_splat_apply shapeCasts_S512x1024_S512x1024 y

/-- The printed index maps in closed form over the grid's points in order (the last axis fastest): the output block is
    (t / 16, t / 4 % 4), the tile along the contracted axis t % 4. -/
theorem idx_facts1 : ∀ t : Fin cfg1.N, win1_2.index t (0 : Fin 2) = t.val / 16 ∧ win1_2.index t (1 : Fin 2) = t.val / 4 % 4
    ∧ win1_0.index t (0 : Fin 2) = t.val / 16 ∧ win1_0.index t (1 : Fin 2) = t.val % 4
    ∧ win1_1.index t (0 : Fin 2) = t.val % 4 ∧ win1_1.index t (1 : Fin 2) = t.val / 4 % 4 :=
  (by decide +kernel : ∀ t : Fin grid1.N, _)

theorem hK1 : 4 * 1024 = 4096 := by decide

/-- The row and the column of the output array under entry (p, q) of point `t`'s output block. -/
def row1 (t : Fin cfg1.N) (p : Fin 512) : Fin 8192 :=
  ⟨t.val / 16 * 512 + p.val, by have h1 : t.val < grid1.N := t.isLt; have h2 : grid1.N = 256 := N_1; have := p.isLt; omega⟩
def col1 (t : Fin cfg1.N) (q : Fin 1024) : Fin 4096 :=
  ⟨t.val / 4 % 4 * 1024 + q.val, by have := q.isLt; omega⟩

/-- The region's two operand arrays as it finds them, at their literal types. -/
abbrev lhs1 (c : Dev nD) : S8192x4096.Idx → EReal := V c (Pipeline.arrRef spec1 0)
abbrev rhs1 (c : Dev nD) : S4096x4096.Idx → EReal := V c (Pipeline.arrRef spec1 1)

/-- Tile kb's term of entry (r, s) of the product. -/
abbrev term1 (c : Dev nD) (r : Fin 8192) (s : Fin 4096) (kb : Fin 4) : EReal :=
  ∑ kk : Fin 1024, lhs1 V c (ix2 r (bix hK1 kb kk)) * rhs1 V c (ix2 (bix hK1 kb kk) s)

/-- The two tiles at point `t`, at their literal types. -/
abbrev tileA1 (c : Dev nD) (t : Fin cfg1.N) : Vec Ideal S512x1024 .f32 := iblk1 V c 0 t
abbrev tileB1 (c : Dev nD) (t : Fin cfg1.N) : Vec Ideal S1024x1024 .f32 := iblk1 V c 1 t

/-- The left tile at point `t`, read where its index map says. -/
theorem tileA1_apply (c : Dev nD) (t : Fin cfg1.N) (p : Fin 512) (kk : Fin 1024) :
    tileA1 V c t (ix2 p kk) = lhs1 V c (ix2 (row1 t p) (bix hK1 ⟨t.val % 4, Nat.mod_lt _ (by decide)⟩ kk)) := by
  obtain ⟨e0, e1, e2, e3, e4, e5⟩ := idx_facts1 t
  show lhs1 V c (((cfg1.win 0).blk t).view.emb (ix2 p kk)) = _
  congr 1; funext a; apply Fin.ext
  match a with
  | ⟨0, _⟩ => show win1_0.index t (0 : Fin 2) * 512 + 1 * p.val = t.val / 16 * 512 + p.val; omega
  | ⟨1, _⟩ => show win1_0.index t (1 : Fin 2) * 1024 + 1 * kk.val = t.val % 4 * 1024 + kk.val; omega

/-- The right tile at point `t`, read where its index map says. -/
theorem tileB1_apply (c : Dev nD) (t : Fin cfg1.N) (kk : Fin 1024) (q : Fin 1024) :
    tileB1 V c t (ix2 kk q) = rhs1 V c (ix2 (bix hK1 ⟨t.val % 4, Nat.mod_lt _ (by decide)⟩ kk) (col1 t q)) := by
  obtain ⟨e0, e1, e2, e3, e4, e5⟩ := idx_facts1 t
  show rhs1 V c (((cfg1.win 1).blk t).view.emb (ix2 kk q)) = _
  congr 1; funext a; apply Fin.ext
  match a with
  | ⟨0, _⟩ => show win1_1.index t (0 : Fin 2) * 1024 + 1 * kk.val = t.val % 4 * 1024 + kk.val; omega
  | ⟨1, _⟩ => show win1_1.index t (1 : Fin 2) * 1024 + 1 * q.val = t.val / 4 % 4 * 1024 + q.val; omega

/-- One step's product of tiles is the tile's term of the entry. -/
theorem step1_term (c : Dev nD) (t : Fin cfg1.N) (p : Fin 512) (q : Fin 1024) :
    ∑ kk : Fin 1024, tileA1 V c t (ix2 p kk) * tileB1 V c t (ix2 kk q)
      = term1 V c (row1 t p) (col1 t q) ⟨t.val % 4, Nat.mod_lt _ (by decide)⟩ :=
  Finset.sum_congr rfl fun kk _ => by rw [tileA1_apply, tileB1_apply]

/-- THE ACCUMULATOR after point `t`: the sum of the terms of the tiles 0 … t % 4 of its output block's entries. -/
theorem acc1_eq (c : Dev nD) : ∀ (n : ℕ) (hn : n < cfg1.N) (p : Fin 512) (q : Fin 1024),
    acc1 V c ⟨n, hn⟩ (ix2 p q) = psum (term1 V c (row1 ⟨n, hn⟩ p) (col1 ⟨n, hn⟩ q)) (n % 4 + 1)
  | n, hn, p, q => by
    by_cases h0 : n % 4 = 0
    · rw [acc1_first V c ⟨n, hn⟩ h0]
      refine (pay1_apply (tileA1 V c ⟨n, hn⟩) (tileB1 V c ⟨n, hn⟩) (k1_pay1 (F := Ideal)) p q).trans ?_
      rw [pay1_zero, zero_add, step1_term]
      have e : n % 4 + 1 = 0 + 1 := by omega
      rw [e, psum_succ _ 0 (by decide), psum_zero, zero_add]
      exact congrArg _ (Fin.ext h0)
    · have hn' : n - 1 < cfg1.N := by omega
      rw [acc1_next V c ⟨n, hn⟩ h0 hn']
      refine (pay1_apply (tileA1 V c ⟨n, hn⟩) (tileB1 V c ⟨n, hn⟩) (acc1 V c ⟨n - 1, hn'⟩) p q).trans ?_
      rw [step1_term, acc1_eq c (n - 1) hn' p q]
      have hr : row1 ⟨n - 1, hn'⟩ p = row1 ⟨n, hn⟩ p := Fin.ext (by show (n - 1) / 16 * 512 + p.val = n / 16 * 512 + p.val; omega)
      have hc : col1 ⟨n - 1, hn'⟩ q = col1 ⟨n, hn⟩ q := Fin.ext (by show (n - 1) / 4 % 4 * 1024 + q.val = n / 4 % 4 * 1024 + q.val; omega)
      have e : (n - 1) % 4 + 1 = n % 4 := by omega
      rw [hr, hc, e, psum_succ _ (n % 4) (Nat.mod_lt _ (by decide))]

/-- After the last tile: the entry of the whole product. -/
theorem acc1_last (c : Dev nD) (t : Fin cfg1.N) (hl : t.val % 4 = 3) (y : S512x1024.Idx) :
    acc1 V c t y = ∑ k : Fin 4096, lhs1 V c (ix2 (row1 t (y 0)) k) * rhs1 V c (ix2 k (col1 t (y 1))) := by
  obtain ⟨p, q, rfl⟩ : ∃ (p : Fin 512) (q : Fin 1024), y = ix2 p q := ⟨y 0, y 1, eq_ix2 y⟩
  have h := acc1_eq V c t.val t.isLt p q
  have e : t.val % 4 + 1 = 4 := by omega
  rw [e, psum_all] at h
  exact h.trans (sum_bix hK1 (fun k => lhs1 V c (ix2 (row1 t p) k) * rhs1 V c (ix2 k (col1 t q)))).symm

/-- The whole product of the two operand arrays. -/
abbrev prod1 (A : S8192x4096.Idx → EReal) (B : S4096x4096.Idx → EReal) : S8192x4096.Idx → EReal :=
  fun i => ∑ k : Fin 4096, A (ix2 (i 0) k) * B (ix2 k (i 1))

/-- WHAT A LAST POINT WRITES BACK is its block of the whole product. -/
theorem flushed1_eq (c : Dev nD) (t : Fin cfg1.N) (hf : (cfg1.win 2).flush t = true) :
    (dat1 V c).flushed 2 t = ((cfg1.win 2).blk t).view.read (Elt Ideal) (prod1 (lhs1 V c) (rhs1 V c)) := by
  have hl : t.val % 4 = 3 := (flush1_2 t).mp hf
  show (cfg1.win 2).cut (grid1.coords t) ((dat1 V c).after 2 t) = _
  rw [out_eq1 V c t hl]
  obtain ⟨e0, e1, e2, e3, e4, e5⟩ := idx_facts1 t
  funext j
  refine (acc1_last V c t hl ((cfg1.win 2).xinj (grid1.coords t) j)).trans ?_
  show _ = ∑ k : Fin 4096, lhs1 V c (ix2 ((((cfg1.win 2).blk t).view.emb j) 0) k) * rhs1 V c (ix2 k ((((cfg1.win 2).blk t).view.emb j) 1))
  have hr : row1 t ((cfg1.win 2).xinj (grid1.coords t) j 0) = (((cfg1.win 2).blk t).view.emb j) 0 :=
    Fin.ext (by show t.val / 16 * 512 + (j 0).val = win1_2.index t (0 : Fin 2) * 512 + 1 * (j 0).val; omega)
  have hc : col1 t ((cfg1.win 2).xinj (grid1.coords t) j 1) = (((cfg1.win 2).blk t).view.emb j) 1 :=
    Fin.ext (by show t.val / 4 % 4 * 1024 + (j 1).val = win1_2.index t (1 : Fin 2) * 1024 + 1 * (j 1).val; omega)
  rw [hr, hc]

/-- An index of the output array is in point `t`'s block iff each coordinate is in the block's range on its axis. -/
theorem mem_blk1 (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v6).slice (win1_2.rect t)).set ↔ _
  rw [View.set_slice_whole, Rect.mem_set_unit]
  exact Iff.rfl

/-- The last points' output blocks cover the array: entry (r, s) is under the last point of block (r / 512, s / 1024). -/
theorem cover1 (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : grid1.N = 256 := N_1
  have hlt : (i 0).val / 512 * 16 + (i 1).val / 1024 * 4 + 3 < cfg1.N := by show _ < grid1.N; omega
  obtain ⟨e0, e1, e2, e3, e4, e5⟩ := idx_facts1 ⟨_, hlt⟩
  refine ⟨⟨_, hlt⟩, (flush1_2 _).mpr (by show ((i 0).val / 512 * 16 + (i 1).val / 1024 * 4 + 3) % 4 = 3; omega), ?_⟩
  rw [mem_blk1]
  intro a
  match a with
  | ⟨0, _⟩ =>
    show win1_2.index ⟨_, hlt⟩ (0 : Fin 2) * 512 ≤ (i 0).val ∧ (i 0).val < win1_2.index ⟨_, hlt⟩ (0 : Fin 2) * 512 + 512
    rw [e0]; show ((i 0).val / 512 * 16 + (i 1).val / 1024 * 4 + 3) / 16 * 512 ≤ _ ∧ _ < ((i 0).val / 512 * 16 + (i 1).val / 1024 * 4 + 3) / 16 * 512 + 512; omega
  | ⟨1, _⟩ =>
    show win1_2.index ⟨_, hlt⟩ (1 : Fin 2) * 1024 ≤ (i 1).val ∧ (i 1).val < win1_2.index ⟨_, hlt⟩ (1 : Fin 2) * 1024 + 1024
    rw [e1]; show ((i 0).val / 512 * 16 + (i 1).val / 1024 * 4 + 3) / 4 % 4 * 1024 ≤ _ ∧ _ < ((i 0).val / 512 * 16 + (i 1).val / 1024 * 4 + 3) / 4 % 4 * 1024 + 1024; omega

/-- THE OUTPUT ARRAY after the region: the whole product of the two operand arrays as the region finds them. -/
theorem final1 (c : Dev nD) : (dat1 V c).arrAt 2 cfg1.N
    = fun i => ∑ k : Fin 4096, lhs1 V c (ix2 (i 0) k) * rhs1 V c (ix2 k (i 1)) :=
  (dat1 V c).arrAt_eq_of_cover 2 (prod1 (lhs1 V c) (rhs1 V c)) (flushed1_eq V c) (cover1)

end Cert.KernelIdeal.Hand

end
-- ==== Proof.Bridge.StageA.lean ====
/-
  THE FIRST TWO PRODUCTS AGREE ON THE FIRST 4096 COLUMNS.

  The kernel program's first tiled product multiplies the scaled item factors by the transposed first 4096 user-factor
  rows; the reference's first whole product multiplies the same left factor by the transpose of all 8192 rows. Entry
  (k, s) of either, for s below 4096, is the same sum over the 256 contracted coordinates. The second product multiplies
  the first argument matrix by that result, so again entry (r, s) of the kernel program's [8192, 4096] output is entry
  (r, s) of the reference's [8192, 8192] output.
-/
import proofs.«166874_j54296976556804_1_alg».proof.Proof.Bridge.Defs
import proofs.«166874_j54296976556804_1_alg».proof.Proof.Bridge.Rhs1
import proofs.«166874_j54296976556804_1_alg».proof.Proof.Bridge.Products
import proofs.«166874_j54296976556804_1_alg».proof.Proof.KI.Run
import proofs.«166874_j54296976556804_1_alg».proof.Proof.KI.Value0
import proofs.«166874_j54296976556804_1_alg».proof.Proof.KI.Value1

set_option maxRecDepth 16384

noncomputable section

open scoped BigOperators

namespace Cert.Bridge

open Idealize.ShloMosaic Idealize.SL.Sem Idealize.ShloMosaic.ValueIdx
open Idealize.ShloMosaic.StableHlo

/-- The left factor of the first product — the item factors divided by the broadcast scale row — is computed by the
    same three operations in both programs. -/
theorem lhs1_agree {VK : KVal} {VR : RVal} (h : ArgsAgree VK VR) :
    StableHlo.after Cert.ReferenceIdeal.Hand.opsA VR (Proc.devRef .tc Cert.ReferenceIdeal.main_v2)
      = StableHlo.after Cert.KernelIdeal.Gen.hostOps0 VK (Proc.devRef .tc Cert.KernelIdeal.main_v2) := by
  simp only [Cert.KernelIdeal.Gen.hostOps0, Cert.ReferenceIdeal.Hand.opsA]
  after_results_simp
  rw [h.h5, h.h10]

/-- The reference's first product does not write the first argument matrix, nor does anything before it. -/
theorem R2_arg0 (V : RVal) :
    R2 V (Proc.devRef .tc Cert.ReferenceIdeal.main_arg0) = V (Proc.devRef .tc Cert.ReferenceIdeal.main_arg0) := by
  unfold R2 R1
  simp only [Cert.ReferenceIdeal.Hand.opsDot4, Cert.ReferenceIdeal.Hand.opsA]
  after_results_simp

section Fold

open Cert.KernelIdeal Cert.KernelIdeal.Gen Cert.KernelIdeal.Hand

variable (m : (ℓ : Loc nD τ sig) → Buf (Elt Ideal) ℓ) (ρ : Dev nD → PrngReg) (c : Dev nD) {V : RVal}

/-- THE FIRST PRODUCT: the kernel program's output array is the first 4096 columns of the reference's. -/
theorem prod0_cols (h : ArgsAgree (W0 m ρ c) V) (k : Fin 4096) (s : Fin 4096) :
    (W2 m ρ c (Proc.devRef .tc Cert.KernelIdeal.main_v5) : (⟨2, ![4096, 4096]⟩ : Shape).Idx → EReal) (ix2 k s)
      = (R2 V (Proc.devRef .tc Cert.ReferenceIdeal.main_v4) : (⟨2, ![4096, 8192]⟩ : Shape).Idx → EReal) (ix2 k ⟨s.val, by omega⟩) := by
  have hL : W2 m ρ c (Proc.devRef .tc Cert.KernelIdeal.main_v5) = (dat0 (V1 m ρ) c).arrAt 2 cfg0.N := W2_arr m ρ c 2
  have hR : R2 V (Proc.devRef .tc Cert.ReferenceIdeal.main_v4)
      = Host.dotGeneral (F := Ideal) (φ₁ := .f32) (φ₂ := .f32) Cert.ReferenceIdeal.dot_S4096x256_S256x8192_S4096x8192_1_0_0_1_n_n none
          (R1 V (Proc.devRef .tc Cert.ReferenceIdeal.main_v2)) (R1 V (Proc.devRef .tc Cert.ReferenceIdeal.main_v3)) := by
    unfold R2
    simp only [Cert.ReferenceIdeal.Hand.opsDot4]
    after_results_simp
  rw [hL, final0, hR, dot_S4096x256_S256x8192_apply]
  show @Eq EReal _ _
  refine Finset.sum_congr rfl fun j _ => ?_
  have a : lhs0 (V1 m ρ) c (ix2 k j) = (R1 V (Proc.devRef .tc Cert.ReferenceIdeal.main_v2) : (⟨2, ![4096, 256]⟩ : Shape).Idx → EReal) (ix2 k j) :=
    (congrFun (lhs1_agree h) (ix2 k j)).symm
  have b : rhs0 (V1 m ρ) c (ix2 j s) = (R1 V (Proc.devRef .tc Cert.ReferenceIdeal.main_v3) : (⟨2, ![256, 8192]⟩ : Shape).Idx → EReal) (ix2 j ⟨s.val, by omega⟩) :=
    rhs1_cols h j s
  exact congrArg₂ (· * ·) a b

/-- The first argument matrix is as launched when the second product reads it. -/
theorem W2_arg0 : W2 m ρ c (Proc.devRef .tc Cert.KernelIdeal.main_arg0) = W0 m ρ c (Proc.devRef .tc Cert.KernelIdeal.main_arg0) :=
  (W2_of_ne m ρ c main_arg0 (by decide)).trans
    (StableHlo.after_of_forall_not_mem (b := Proc.devRef .tc main_arg0) _ _ (hostOps0_keeps main_arg0 (by decide)))

/-- THE SECOND PRODUCT: the kernel program's output array is the first 4096 columns of the reference's. -/
theorem prod1_cols (h : ArgsAgree (W0 m ρ c) V) (r : Fin 8192) (s : Fin 4096) :
    (W3 m ρ c (Proc.devRef .tc Cert.KernelIdeal.main_v6) : (⟨2, ![8192, 4096]⟩ : Shape).Idx → EReal) (ix2 r s)
      = (R3 V (Proc.devRef .tc Cert.ReferenceIdeal.main_v5) : (⟨2, ![8192, 8192]⟩ : Shape).Idx → EReal) (ix2 r ⟨s.val, by omega⟩) := by
  have hL : W3 m ρ c (Proc.devRef .tc Cert.KernelIdeal.main_v6) = (dat1 (V2 m ρ) c).arrAt 2 cfg1.N := W3_arr m ρ c 2
  have hR : R3 V (Proc.devRef .tc Cert.ReferenceIdeal.main_v5)
      = Host.dotGeneral (F := Ideal) (φ₁ := .f32) (φ₂ := .f32) Cert.ReferenceIdeal.dot_S8192x4096_S4096x8192_S8192x8192_1_0_0_1_n_n none
          (R2 V (Proc.devRef .tc Cert.ReferenceIdeal.main_arg0)) (R2 V (Proc.devRef .tc Cert.ReferenceIdeal.main_v4)) := by
    unfold R3
    simp only [Cert.ReferenceIdeal.Hand.opsDot5]
    after_results_simp
  rw [hL, final1, hR, dot_S8192x4096_S4096x8192_apply]
  show @Eq EReal _ _
  refine Finset.sum_congr rfl fun j _ => ?_
  have a : lhs1 (V2 m ρ) c (ix2 r j) = (R2 V (Proc.devRef .tc Cert.ReferenceIdeal.main_arg0) : (⟨2, ![8192, 4096]⟩ : Shape).Idx → EReal) (ix2 r j) := by
    rw [R2_arg0, h.h0]
    exact congrFun (W2_arg0 m ρ c) (ix2 r j)
  have b : rhs1 (V2 m ρ) c (ix2 j s) = (R2 V (Proc.devRef .tc Cert.ReferenceIdeal.main_v4) : (⟨2, ![4096, 8192]⟩ : Shape).Idx → EReal) (ix2 j ⟨s.val, by omega⟩) :=
    prod0_cols m ρ c h j s
  exact congrArg₂ (· * ·) a b

end Fold

end Cert.Bridge

end
-- ==== Proof.KI.Value2.lean ====
import proofs.«166874_j54296976556804_1_alg».proof.Proof.KI.Region2
import proofs.«166874_j54296976556804_1_alg».proof.Proof.LibKBlocks
import Idealize.ShloMosaic.Lib.Pipeline.Value
import Idealize.ShloMosaic.Lib.Decide

set_option maxRecDepth 16384
set_option Elab.async false

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Hand.KBlocks

/-
  REGION 2's VALUE at the ideal float values: the output array after the region is the whole product of the two operand
  arrays as the region finds them. One point per output block (the contracted axis is one tile): what a point leaves is
  one accumulation step from the zero splat, the product of its two tiles; the tiles are read where the output block's
  rectangle says; the output's blocks cover the array.
-/
variable (V : (c : Dev nD) → (b : Ref sig .tc) → Buf (Elt Ideal) ((c : Thread nD τ).loc b))

/-- One accumulation step from the zero splat, read at an index: the product of the two tiles there. -/
theorem pay2_apply (a : Vec Ideal S512x256 .f32) (b : Vec Ideal S256x1024 .f32) (y : S512x1024.Idx) :
    k2_pay2 a b (k2_pay1 (F := Ideal)) y = ∑ k : Fin 256, a (ix2 (y 0) k) * b (ix2 k (y 1)) := by
  obtain ⟨p, q, rfl⟩ : ∃ (p : Fin 512) (q : Fin 1024), y = ix2 p q := ⟨y 0, y 1, eq_ix2 y⟩
  unfold k2_pay2
  refine (step_cast_apply _ none _ _ _ _ a b (k2_pay1 (F := Ideal)) p q).trans ?_
  exact (congrArg (· + _) (zero_splat_apply shapeCasts_S512x1024_S512x1024 (ix2 p q))).trans (zero_add _)

theorem idx_facts2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = win2_2.index t (1 : Fin 2)
    ∧ win2_2.index t (0 : Fin 2) ≤ 7 ∧ win2_2.index t (1 : Fin 2) ≤ 7 :=
  (by decide +kernel : ∀ t : Fin grid2.N, _)

theorem idx_onto2 : ∀ (q0 : Fin 8) (q1 : Fin 8), ∃ t : Fin cfg2.N, win2_2.index t = ![q0.val, q1.val] :=
  (by decide +kernel : ∀ (q0 : Fin 8) (q1 : Fin 8), ∃ t : Fin grid2.N, win2_2.index t = ![q0.val, q1.val])

/-- The whole product of the two operand arrays. -/
abbrev prod2 (A : S4096x256.Idx → EReal) (B : S256x8192.Idx → EReal) : S4096x8192.Idx → EReal :=
  fun i => ∑ k : Fin 256, A (ix2 (i 0) k) * B (ix2 k (i 1))

/-- The region's two operand arrays as it finds them, at their literal types. -/
abbrev lhs2 (c : Dev nD) : S4096x256.Idx → EReal := V c (Pipeline.arrRef spec2 0)
abbrev rhs2 (c : Dev nD) : S256x8192.Idx → EReal := V c (Pipeline.arrRef spec2 1)

theorem flushed2_eq (c : Dev nD) (t : Fin cfg2.N) :
    (dat2 V c).flushed 2 t = ((cfg2.win 2).blk t).view.read (Elt Ideal)
      (prod2 (lhs2 V c) (rhs2 V c)) := by
  show (cfg2.win 2).cut (grid2.coords t) ((dat2 V c).after 2 t) = _
  rw [out_eq2]
  obtain ⟨e0, e1, e2, e3, e4, e5⟩ := idx_facts2 t
  funext j
  refine (pay2_apply (iblk2 V c 0 t) (iblk2 V c 1 t) ((cfg2.win 2).xinj (grid2.coords t) j)).trans ?_
  show _ = ∑ k : Fin 256, lhs2 V c (ix2 ((((cfg2.win 2).blk t).view.emb j) 0) k) * rhs2 V c (ix2 k ((((cfg2.win 2).blk t).view.emb j) 1))
  refine Finset.sum_congr rfl fun k _ => ?_
  have h0 : iblk2 V c 0 t (ix2 ((cfg2.win 2).xinj (grid2.coords t) j 0) k)
      = lhs2 V c (ix2 ((((cfg2.win 2).blk t).view.emb j) 0) k) := by
    show lhs2 V c
        (((cfg2.win 0).blk t).view.emb (ix2 ((cfg2.win 2).xinj (grid2.coords t) j 0) k)) = _
    congr 1; funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 256 + 1 * k.val = k.val; omega
  have h1 : iblk2 V c 1 t (ix2 k ((cfg2.win 2).xinj (grid2.coords t) j 1))
      = rhs2 V c (ix2 k ((((cfg2.win 2).blk t).view.emb j) 1)) := by
    show rhs2 V c
        (((cfg2.win 1).blk t).view.emb (ix2 k ((cfg2.win 2).xinj (grid2.coords t) j 1))) = _
    congr 1; funext a; apply Fin.ext
    match a with
    | ⟨0, _⟩ => show win2_1.index t (0 : Fin 2) * 256 + 1 * k.val = k.val; omega
    | ⟨1, _⟩ => show win2_1.index t (1 : Fin 2) * 1024 + 1 * (j 1).val = win2_2.index t (1 : Fin 2) * 1024 + 1 * (j 1).val; omega
  rw [h0, h1]

/-- An index of the output array is in point `t`'s block iff each coordinate is in the block's range on its axis. -/
theorem mem_blk2 (t : Fin cfg2.N) (i : S4096x8192.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v57).slice (win2_2.rect t)).set ↔ _
  rw [View.set_slice_whole, Rect.mem_set_unit]
  exact Iff.rfl

/-- The output's blocks cover its array. -/
theorem cover2 (i : S4096x8192.Idx) : ∃ t : Fin cfg2.N, (cfg2.win 2).flush t = true ∧ i ∈ ((cfg2.win 2).blk t).view.set := by
  have hi0 : (i 0).val < 4096 := (i 0).isLt
  have hi1 : (i 1).val < 8192 := (i 1).isLt
  obtain ⟨t, ht⟩ := idx_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- THE OUTPUT ARRAY after the region: the whole product of the two operand arrays as the region finds them. -/
theorem final2 (c : Dev nD) : (dat2 V c).arrAt 2 cfg2.N
    = fun i => ∑ k : Fin 256, lhs2 V c (ix2 (i 0) k) * rhs2 V c (ix2 k (i 1)) :=
  (dat2 V c).arrAt_eq_of_cover 2 (prod2 (lhs2 V c) (rhs2 V c))
    (fun t _ => flushed2_eq V c t) cover2

end Cert.KernelIdeal.Hand

end
-- ==== Proof.KI.Value3.lean ====
import proofs.«166874_j54296976556804_1_alg».proof.Proof.KI.Region3
import proofs.«166874_j54296976556804_1_alg».proof.Proof.LibKBlocks
import Idealize.ShloMosaic.Lib.Pipeline.Value
import Idealize.ShloMosaic.Lib.Decide

set_option maxRecDepth 16384
set_option Elab.async false

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Hand.KBlocks

variable (V : (c : Dev nD) → (b : Ref sig .tc) → Buf (Elt Ideal) ((c : Thread nD τ).loc b))

/-
  REGION 3's VALUE at the ideal float values: the output array after the region is the whole product of the two operand
  arrays as the region finds them. The contracted axis is walked in 8 tiles of 1024, the innermost grid axis: the
  accumulator after the point at tile kb of an output block holds the sum over the tiles 0 … kb of the products of the
  two tiles (one accumulation step each, from the zero splat at tile 0), so after the last tile the whole sum by blocks;
  the tiles are read where the point's index maps say; the last points' output blocks cover the array.
-/

/-- One accumulation step read at an index: the accumulator there plus the product of the two tiles. -/
theorem pay3_apply (a : Vec Ideal S512x1024 .f32) (b : Vec Ideal S1024x1024 .f32) (acc : Vec Ideal S512x1024 .f32) (p : Fin 512) (q : Fin 1024) :
    k3_pay2 a b acc (ix2 p q) = acc (ix2 p q) + ∑ kk : Fin 1024, a (ix2 p kk) * b (ix2 kk q) := by
  unfold k3_pay2
  exact step_cast_apply _ none _ _ _ _ a b acc p q

/-- The zero splat the first tile's step starts from. -/
theorem pay3_zero (y : S512x1024.Idx) : k3_pay1 (F := Ideal) y = 0 :=
  zero_splat_apply shapeCasts_S512x1024_S512x1024 y

/-- The printed index maps in closed form over the grid's points in order (the last axis fastest): the output block is
    (t / 32, t / 8 % 4), the tile along the contracted axis t % 8. -/
theorem idx_facts3 : ∀ t : Fin cfg3.N, win3_2.index t (0 : Fin 2) = t.val / 32 ∧ win3_2.index t (1 : Fin 2) = t.val / 8 % 4
    ∧ win3_0.index t (0 : Fin 2) = t.val / 32 ∧ win3_0.index t (1 : Fin 2) = t.val % 8
    ∧ win3_1.index t (0 : Fin 2) = t.val % 8 ∧ win3_1.index t (1 : Fin 2) = t.val / 8 % 4 :=
  (by decide +kernel : ∀ t : Fin grid3.N, _)

theorem hK3 : 8 * 1024 = 8192 := by decide

/-- The row and the column of the output array under entry (p, q) of point `t`'s output block. -/
def row3 (t : Fin cfg3.N) (p : Fin 512) : Fin 4096 :=
  ⟨t.val / 32 * 512 + p.val, by have h1 : t.val < grid3.N := t.isLt; have h2 : grid3.N = 256 := N_3; have := p.isLt; omega⟩
def col3 (t : Fin cfg3.N) (q : Fin 1024) : Fin 4096 :=
  ⟨t.val / 8 % 4 * 1024 + q.val, by have := q.isLt; omega⟩

/-- The region's two operand arrays as it finds them, at their literal types. -/
abbrev lhs3 (c : Dev nD) : S4096x8192.Idx → EReal := V c (Pipeline.arrRef spec3 0)
abbrev rhs3 (c : Dev nD) : S8192x4096.Idx → EReal := V c (Pipeline.arrRef spec3 1)

/-- Tile kb's term of entry (r, s) of the product. -/
abbrev term3 (c : Dev nD) (r : Fin 4096) (s : Fin 4096) (kb : Fin 8) : EReal :=
  ∑ kk : Fin 1024, lhs3 V c (ix2 r (bix hK3 kb kk)) * rhs3 V c (ix2 (bix hK3 kb kk) s)

/-- The two tiles at point `t`, at their literal types. -/
abbrev tileA3 (c : Dev nD) (t : Fin cfg3.N) : Vec Ideal S512x1024 .f32 := iblk3 V c 0 t
abbrev tileB3 (c : Dev nD) (t : Fin cfg3.N) : Vec Ideal S1024x1024 .f32 := iblk3 V c 1 t

/-- The left tile at point `t`, read where its index map says. -/
theorem tileA3_apply (c : Dev nD) (t : Fin cfg3.N) (p : Fin 512) (kk : Fin 1024) :
    tileA3 V c t (ix2 p kk) = lhs3 V c (ix2 (row3 t p) (bix hK3 ⟨t.val % 8, Nat.mod_lt _ (by decide)⟩ kk)) := by
  obtain ⟨e0, e1, e2, e3, e4, e5⟩ := idx_facts3 t
  show lhs3 V c (((cfg3.win 0).blk t).view.emb (ix2 p kk)) = _
  congr 1; funext a; apply Fin.ext
  match a with
  | ⟨0, _⟩ => show win3_0.index t (0 : Fin 2) * 512 + 1 * p.val = t.val / 32 * 512 + p.val; omega
  | ⟨1, _⟩ => show win3_0.index t (1 : Fin 2) * 1024 + 1 * kk.val = t.val % 8 * 1024 + kk.val; omega

/-- The right tile at point `t`, read where its index map says. -/
theorem tileB3_apply (c : Dev nD) (t : Fin cfg3.N) (kk : Fin 1024) (q : Fin 1024) :
    tileB3 V c t (ix2 kk q) = rhs3 V c (ix2 (bix hK3 ⟨t.val % 8, Nat.mod_lt _ (by decide)⟩ kk) (col3 t q)) := by
  obtain ⟨e0, e1, e2, e3, e4, e5⟩ := idx_facts3 t
  show rhs3 V c (((cfg3.win 1).blk t).view.emb (ix2 kk q)) = _
  congr 1; funext a; apply Fin.ext
  match a with
  | ⟨0, _⟩ => show win3_1.index t (0 : Fin 2) * 1024 + 1 * kk.val = t.val % 8 * 1024 + kk.val; omega
  | ⟨1, _⟩ => show win3_1.index t (1 : Fin 2) * 1024 + 1 * q.val = t.val / 8 % 4 * 1024 + q.val; omega

/-- One step's product of tiles is the tile's term of the entry. -/
theorem step3_term (c : Dev nD) (t : Fin cfg3.N) (p : Fin 512) (q : Fin 1024) :
    ∑ kk : Fin 1024, tileA3 V c t (ix2 p kk) * tileB3 V c t (ix2 kk q)
      = term3 V c (row3 t p) (col3 t q) ⟨t.val % 8, Nat.mod_lt _ (by decide)⟩ :=
  Finset.sum_congr rfl fun kk _ => by rw [tileA3_apply, tileB3_apply]

/-- THE ACCUMULATOR after point `t`: the sum of the terms of the tiles 0 … t % 8 of its output block's entries. -/
theorem acc3_eq (c : Dev nD) : ∀ (n : ℕ) (hn : n < cfg3.N) (p : Fin 512) (q : Fin 1024),
    acc3 V c ⟨n, hn⟩ (ix2 p q) = psum (term3 V c (row3 ⟨n, hn⟩ p) (col3 ⟨n, hn⟩ q)) (n % 8 + 1)
  | n, hn, p, q => by
    by_cases h0 : n % 8 = 0
    · rw [acc3_first V c ⟨n, hn⟩ h0]
      refine (pay3_apply (tileA3 V c ⟨n, hn⟩) (tileB3 V c ⟨n, hn⟩) (k3_pay1 (F := Ideal)) p q).trans ?_
      rw [pay3_zero, zero_add, step3_term]
      have e : n % 8 + 1 = 0 + 1 := by omega
      rw [e, psum_succ _ 0 (by decide), psum_zero, zero_add]
      exact congrArg _ (Fin.ext h0)
    · have hn' : n - 1 < cfg3.N := by omega
      rw [acc3_next V c ⟨n, hn⟩ h0 hn']
      refine (pay3_apply (tileA3 V c ⟨n, hn⟩) (tileB3 V c ⟨n, hn⟩) (acc3 V c ⟨n - 1, hn'⟩) p q).trans ?_
      rw [step3_term, acc3_eq c (n - 1) hn' p q]
      have hr : row3 ⟨n - 1, hn'⟩ p = row3 ⟨n, hn⟩ p := Fin.ext (by show (n - 1) / 32 * 512 + p.val = n / 32 * 512 + p.val; omega)
      have hc : col3 ⟨n - 1, hn'⟩ q = col3 ⟨n, hn⟩ q := Fin.ext (by show (n - 1) / 8 % 4 * 1024 + q.val = n / 8 % 4 * 1024 + q.val; omega)
      have e : (n - 1) % 8 + 1 = n % 8 := by omega
      rw [hr, hc, e, psum_succ _ (n % 8) (Nat.mod_lt _ (by decide))]

/-- After the last tile: the entry of the whole product. -/
theorem acc3_last (c : Dev nD) (t : Fin cfg3.N) (hl : t.val % 8 = 7) (y : S512x1024.Idx) :
    acc3 V c t y = ∑ k : Fin 8192, lhs3 V c (ix2 (row3 t (y 0)) k) * rhs3 V c (ix2 k (col3 t (y 1))) := by
  obtain ⟨p, q, rfl⟩ : ∃ (p : Fin 512) (q : Fin 1024), y = ix2 p q := ⟨y 0, y 1, eq_ix2 y⟩
  have h := acc3_eq V c t.val t.isLt p q
  have e : t.val % 8 + 1 = 8 := by omega
  rw [e, psum_all] at h
  exact h.trans (sum_bix hK3 (fun k => lhs3 V c (ix2 (row3 t p) k) * rhs3 V c (ix2 k (col3 t q)))).symm

/-- The whole product of the two operand arrays. -/
abbrev prod3 (A : S4096x8192.Idx → EReal) (B : S8192x4096.Idx → EReal) : S4096x4096.Idx → EReal :=
  fun i => ∑ k : Fin 8192, A (ix2 (i 0) k) * B (ix2 k (i 1))

/-- WHAT A LAST POINT WRITES BACK is its block of the whole product. -/
theorem flushed3_eq (c : Dev nD) (t : Fin cfg3.N) (hf : (cfg3.win 2).flush t = true) :
    (dat3 V c).flushed 2 t = ((cfg3.win 2).blk t).view.read (Elt Ideal) (prod3 (lhs3 V c) (rhs3 V c)) := by
  have hl : t.val % 8 = 7 := (flush3_2 t).mp hf
  show (cfg3.win 2).cut (grid3.coords t) ((dat3 V c).after 2 t) = _
  rw [out_eq3 V c t hl]
  obtain ⟨e0, e1, e2, e3, e4, e5⟩ := idx_facts3 t
  funext j
  refine (acc3_last V c t hl ((cfg3.win 2).xinj (grid3.coords t) j)).trans ?_
  show _ = ∑ k : Fin 8192, lhs3 V c (ix2 ((((cfg3.win 2).blk t).view.emb j) 0) k) * rhs3 V c (ix2 k ((((cfg3.win 2).blk t).view.emb j) 1))
  have hr : row3 t ((cfg3.win 2).xinj (grid3.coords t) j 0) = (((cfg3.win 2).blk t).view.emb j) 0 :=
    Fin.ext (by show t.val / 32 * 512 + (j 0).val = win3_2.index t (0 : Fin 2) * 512 + 1 * (j 0).val; omega)
  have hc : col3 t ((cfg3.win 2).xinj (grid3.coords t) j 1) = (((cfg3.win 2).blk t).view.emb j) 1 :=
    Fin.ext (by show t.val / 8 % 4 * 1024 + (j 1).val = win3_2.index t (1 : Fin 2) * 1024 + 1 * (j 1).val; omega)
  rw [hr, hc]

/-- An index of the output array is in point `t`'s block iff each coordinate is in the block's range on its axis. -/
theorem mem_blk3 (t : Fin cfg3.N) (i : S4096x4096.Idx) :
    i ∈ ((cfg3.win 2).blk t).view.set ↔ ∀ a : Fin 2, win3_2.index t a * S512x1024.size a ≤ (i a).val ∧ (i a).val < win3_2.index t a * S512x1024.size a + S512x1024.size a := by
  show i ∈ ((View.whole main_v73).slice (win3_2.rect t)).set ↔ _
  rw [View.set_slice_whole, Rect.mem_set_unit]
  exact Iff.rfl

/-- The last points' output blocks cover the array: entry (r, s) is under the last point of block (r / 512, s / 1024). -/
theorem cover3 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  have hN : grid3.N = 256 := N_3
  have hlt : (i 0).val / 512 * 32 + (i 1).val / 1024 * 8 + 7 < cfg3.N := by show _ < grid3.N; omega
  obtain ⟨e0, e1, e2, e3, e4, e5⟩ := idx_facts3 ⟨_, hlt⟩
  refine ⟨⟨_, hlt⟩, (flush3_2 _).mpr (by show ((i 0).val / 512 * 32 + (i 1).val / 1024 * 8 + 7) % 8 = 7; omega), ?_⟩
  rw [mem_blk3]
  intro a
  match a with
  | ⟨0, _⟩ =>
    show win3_2.index ⟨_, hlt⟩ (0 : Fin 2) * 512 ≤ (i 0).val ∧ (i 0).val < win3_2.index ⟨_, hlt⟩ (0 : Fin 2) * 512 + 512
    rw [e0]; show ((i 0).val / 512 * 32 + (i 1).val / 1024 * 8 + 7) / 32 * 512 ≤ _ ∧ _ < ((i 0).val / 512 * 32 + (i 1).val / 1024 * 8 + 7) / 32 * 512 + 512; omega
  | ⟨1, _⟩ =>
    show win3_2.index ⟨_, hlt⟩ (1 : Fin 2) * 1024 ≤ (i 1).val ∧ (i 1).val < win3_2.index ⟨_, hlt⟩ (1 : Fin 2) * 1024 + 1024
    rw [e1]; show ((i 0).val / 512 * 32 + (i 1).val / 1024 * 8 + 7) / 8 % 4 * 1024 ≤ _ ∧ _ < ((i 0).val / 512 * 32 + (i 1).val / 1024 * 8 + 7) / 8 % 4 * 1024 + 1024; omega

/-- THE OUTPUT ARRAY after the region: the whole product of the two operand arrays as the region finds them. -/
theorem final3 (c : Dev nD) : (dat3 V c).arrAt 2 cfg3.N
    = fun i => ∑ k : Fin 8192, lhs3 V c (ix2 (i 0) k) * rhs3 V c (ix2 k (i 1)) :=
  (dat3 V c).arrAt_eq_of_cover 2 (prod3 (lhs3 V c) (rhs3 V c)) (flushed3_eq V c) (cover3)

end Cert.KernelIdeal.Hand

end
-- ==== Proof.KI.Value4.lean ====
import proofs.«166874_j54296976556804_1_alg».proof.Proof.KI.Region4
import proofs.«166874_j54296976556804_1_alg».proof.Proof.LibKBlocks
import Idealize.ShloMosaic.Lib.Pipeline.Value
import Idealize.ShloMosaic.Lib.Decide

set_option maxRecDepth 16384
set_option Elab.async false

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Hand.KBlocks

variable (V : (c : Dev nD) → (b : Ref sig .tc) → Buf (Elt Ideal) ((c : Thread nD τ).loc b))

/-
  REGION 4's VALUE at the ideal float values: the output array after the region is the whole product of the two operand
  arrays as the region finds them. The contracted axis is walked in 4 tiles of 1024, the innermost grid axis: the
  accumulator after the point at tile kb of an output block holds the sum over the tiles 0 … kb of the products of the
  two tiles (one accumulation step each, from the zero splat at tile 0), so after the last tile the whole sum by blocks;
  the tiles are read where the point's index maps say; the last points' output blocks cover the array.
-/

/-- One accumulation step read at an index: the accumulator there plus the product of the two tiles. -/
theorem pay4_apply (a : Vec Ideal S512x1024 .f32) (b : Vec Ideal S1024x1024 .f32) (acc : Vec Ideal S512x1024 .f32) (p : Fin 512) (q : Fin 1024) :
    k4_pay2 a b acc (ix2 p q) = acc (ix2 p q) + ∑ kk : Fin 1024, a (ix2 p kk) * b (ix2 kk q) := by
  unfold k4_pay2
  simp only [shapeCast_self]
  exact step_apply _ none _ a b acc p q

/-- The zero splat the first tile's step starts from. -/
theorem pay4_zero (y : S512x1024.Idx) : k4_pay1 (F := Ideal) y = 0 :=
  zero_splat_apply shapeCasts_S512x1024_S512x1024 y

/-- The printed index maps in closed form over the grid's points in order (the last axis fastest): the output block is
    (t / 16, t / 4 % 4), the tile along the contracted axis t % 4. -/
theorem idx_facts4 : ∀ t : Fin cfg4.N, win4_2.index t (0 : Fin 2) = t.val / 16 ∧ win4_2.index t (1 : Fin 2) = t.val / 4 % 4
    ∧ win4_0.index t (0 : Fin 2) = t.val / 16 ∧ win4_0.index t (1 : Fin 2) = t.val % 4
    ∧ win4_1.index t (0 : Fin 2) = t.val % 4 ∧ win4_1.index t (1 : Fin 2) = t.val / 4 % 4 :=
  (by decide +kernel : ∀ t : Fin grid4.N, _)

theorem hK4 : 4 * 1024 = 4096 := by decide

/-- The row and the column of the output array under entry (p, q) of point `t`'s output block. -/
def row4 (t : Fin cfg4.N) (p : Fin 512) : Fin 8192 :=
  ⟨t.val / 16 * 512 + p.val, by have h1 : t.val < grid4.N := t.isLt; have h2 : grid4.N = 256 := N_4; have := p.isLt; omega⟩
def col4 (t : Fin cfg4.N) (q : Fin 1024) : Fin 4096 :=
  ⟨t.val / 4 % 4 * 1024 + q.val, by have := q.isLt; omega⟩

/-- The region's two operand arrays as it finds them, at their literal types. -/
abbrev lhs4 (c : Dev nD) : S8192x4096.Idx → EReal := V c (Pipeline.arrRef spec4 0)
abbrev rhs4 (c : Dev nD) : S4096x4096.Idx → EReal := V c (Pipeline.arrRef spec4 1)

/-- Tile kb's term of entry (r, s) of the product. -/
abbrev term4 (c : Dev nD) (r : Fin 8192) (s : Fin 4096) (kb : Fin 4) : EReal :=
  ∑ kk : Fin 1024, lhs4 V c (ix2 r (bix hK4 kb kk)) * rhs4 V c (ix2 (bix hK4 kb kk) s)

/-- The two tiles at point `t`, at their literal types. -/
abbrev tileA4 (c : Dev nD) (t : Fin cfg4.N) : Vec Ideal S512x1024 .f32 := iblk4 V c 0 t
abbrev tileB4 (c : Dev nD) (t : Fin cfg4.N) : Vec Ideal S1024x1024 .f32 := iblk4 V c 1 t

/-- The left tile at point `t`, read where its index map says. -/
theorem tileA4_apply (c : Dev nD) (t : Fin cfg4.N) (p : Fin 512) (kk : Fin 1024) :
    tileA4 V c t (ix2 p kk) = lhs4 V c (ix2 (row4 t p) (bix hK4 ⟨t.val % 4, Nat.mod_lt _ (by decide)⟩ kk)) := by
  obtain ⟨e0, e1, e2, e3, e4, e5⟩ := idx_facts4 t
  show lhs4 V c (((cfg4.win 0).blk t).view.emb (ix2 p kk)) = _
  congr 1; funext a; apply Fin.ext
  match a with
  | ⟨0, _⟩ => show win4_0.index t (0 : Fin 2) * 512 + 1 * p.val = t.val / 16 * 512 + p.val; omega
  | ⟨1, _⟩ => show win4_0.index t (1 : Fin 2) * 1024 + 1 * kk.val = t.val % 4 * 1024 + kk.val; omega

/-- The right tile at point `t`, read where its index map says. -/
theorem tileB4_apply (c : Dev nD) (t : Fin cfg4.N) (kk : Fin 1024) (q : Fin 1024) :
    tileB4 V c t (ix2 kk q) = rhs4 V c (ix2 (bix hK4 ⟨t.val % 4, Nat.mod_lt _ (by decide)⟩ kk) (col4 t q)) := by
  obtain ⟨e0, e1, e2, e3, e4, e5⟩ := idx_facts4 t
  show rhs4 V c (((cfg4.win 1).blk t).view.emb (ix2 kk q)) = _
  congr 1; funext a; apply Fin.ext
  match a with
  | ⟨0, _⟩ => show win4_1.index t (0 : Fin 2) * 1024 + 1 * kk.val = t.val % 4 * 1024 + kk.val; omega
  | ⟨1, _⟩ => show win4_1.index t (1 : Fin 2) * 1024 + 1 * q.val = t.val / 4 % 4 * 1024 + q.val; omega

/-- One step's product of tiles is the tile's term of the entry. -/
theorem step4_term (c : Dev nD) (t : Fin cfg4.N) (p : Fin 512) (q : Fin 1024) :
    ∑ kk : Fin 1024, tileA4 V c t (ix2 p kk) * tileB4 V c t (ix2 kk q)
      = term4 V c (row4 t p) (col4 t q) ⟨t.val % 4, Nat.mod_lt _ (by decide)⟩ :=
  Finset.sum_congr rfl fun kk _ => by rw [tileA4_apply, tileB4_apply]

/-- THE ACCUMULATOR after point `t`: the sum of the terms of the tiles 0 … t % 4 of its output block's entries. -/
theorem acc4_eq (c : Dev nD) : ∀ (n : ℕ) (hn : n < cfg4.N) (p : Fin 512) (q : Fin 1024),
    acc4 V c ⟨n, hn⟩ (ix2 p q) = psum (term4 V c (row4 ⟨n, hn⟩ p) (col4 ⟨n, hn⟩ q)) (n % 4 + 1)
  | n, hn, p, q => by
    by_cases h0 : n % 4 = 0
    · rw [acc4_first V c ⟨n, hn⟩ h0]
      refine (pay4_apply (tileA4 V c ⟨n, hn⟩) (tileB4 V c ⟨n, hn⟩) (k4_pay1 (F := Ideal)) p q).trans ?_
      rw [pay4_zero, zero_add, step4_term]
      have e : n % 4 + 1 = 0 + 1 := by omega
      rw [e, psum_succ _ 0 (by decide), psum_zero, zero_add]
      exact congrArg _ (Fin.ext h0)
    · have hn' : n - 1 < cfg4.N := by omega
      rw [acc4_next V c ⟨n, hn⟩ h0 hn']
      refine (pay4_apply (tileA4 V c ⟨n, hn⟩) (tileB4 V c ⟨n, hn⟩) (acc4 V c ⟨n - 1, hn'⟩) p q).trans ?_
      rw [step4_term, acc4_eq c (n - 1) hn' p q]
      have hr : row4 ⟨n - 1, hn'⟩ p = row4 ⟨n, hn⟩ p := Fin.ext (by show (n - 1) / 16 * 512 + p.val = n / 16 * 512 + p.val; omega)
      have hc : col4 ⟨n - 1, hn'⟩ q = col4 ⟨n, hn⟩ q := Fin.ext (by show (n - 1) / 4 % 4 * 1024 + q.val = n / 4 % 4 * 1024 + q.val; omega)
      have e : (n - 1) % 4 + 1 = n % 4 := by omega
      rw [hr, hc, e, psum_succ _ (n % 4) (Nat.mod_lt _ (by decide))]

/-- After the last tile: the entry of the whole product. -/
theorem acc4_last (c : Dev nD) (t : Fin cfg4.N) (hl : t.val % 4 = 3) (y : S512x1024.Idx) :
    acc4 V c t y = ∑ k : Fin 4096, lhs4 V c (ix2 (row4 t (y 0)) k) * rhs4 V c (ix2 k (col4 t (y 1))) := by
  obtain ⟨p, q, rfl⟩ : ∃ (p : Fin 512) (q : Fin 1024), y = ix2 p q := ⟨y 0, y 1, eq_ix2 y⟩
  have h := acc4_eq V c t.val t.isLt p q
  have e : t.val % 4 + 1 = 4 := by omega
  rw [e, psum_all] at h
  exact h.trans (sum_bix hK4 (fun k => lhs4 V c (ix2 (row4 t p) k) * rhs4 V c (ix2 k (col4 t q)))).symm

/-- The whole product of the two operand arrays. -/
abbrev prod4 (A : S8192x4096.Idx → EReal) (B : S4096x4096.Idx → EReal) : S8192x4096.Idx → EReal :=
  fun i => ∑ k : Fin 4096, A (ix2 (i 0) k) * B (ix2 k (i 1))

/-- WHAT A LAST POINT WRITES BACK is its block of the whole product. -/
theorem flushed4_eq (c : Dev nD) (t : Fin cfg4.N) (hf : (cfg4.win 2).flush t = true) :
    (dat4 V c).flushed 2 t = ((cfg4.win 2).blk t).view.read (Elt Ideal) (prod4 (lhs4 V c) (rhs4 V c)) := by
  have hl : t.val % 4 = 3 := (flush4_2 t).mp hf
  show (cfg4.win 2).cut (grid4.coords t) ((dat4 V c).after 2 t) = _
  rw [out_eq4 V c t hl]
  obtain ⟨e0, e1, e2, e3, e4, e5⟩ := idx_facts4 t
  funext j
  refine (acc4_last V c t hl ((cfg4.win 2).xinj (grid4.coords t) j)).trans ?_
  show _ = ∑ k : Fin 4096, lhs4 V c (ix2 ((((cfg4.win 2).blk t).view.emb j) 0) k) * rhs4 V c (ix2 k ((((cfg4.win 2).blk t).view.emb j) 1))
  have hr : row4 t ((cfg4.win 2).xinj (grid4.coords t) j 0) = (((cfg4.win 2).blk t).view.emb j) 0 :=
    Fin.ext (by show t.val / 16 * 512 + (j 0).val = win4_2.index t (0 : Fin 2) * 512 + 1 * (j 0).val; omega)
  have hc : col4 t ((cfg4.win 2).xinj (grid4.coords t) j 1) = (((cfg4.win 2).blk t).view.emb j) 1 :=
    Fin.ext (by show t.val / 4 % 4 * 1024 + (j 1).val = win4_2.index t (1 : Fin 2) * 1024 + 1 * (j 1).val; omega)
  rw [hr, hc]

/-- An index of the output array is in point `t`'s block iff each coordinate is in the block's range on its axis. -/
theorem mem_blk4 (t : Fin cfg4.N) (i : S8192x4096.Idx) :
    i ∈ ((cfg4.win 2).blk t).view.set ↔ ∀ a : Fin 2, win4_2.index t a * S512x1024.size a ≤ (i a).val ∧ (i a).val < win4_2.index t a * S512x1024.size a + S512x1024.size a := by
  show i ∈ ((View.whole main_v74).slice (win4_2.rect t)).set ↔ _
  rw [View.set_slice_whole, Rect.mem_set_unit]
  exact Iff.rfl

/-- The last points' output blocks cover the array: entry (r, s) is under the last point of block (r / 512, s / 1024). -/
theorem cover4 (i : S8192x4096.Idx) : ∃ t : Fin cfg4.N, (cfg4.win 2).flush t = true ∧ i ∈ ((cfg4.win 2).blk t).view.set := by
  have hi0 : (i 0).val < 8192 := (i 0).isLt
  have hi1 : (i 1).val < 4096 := (i 1).isLt
  have hN : grid4.N = 256 := N_4
  have hlt : (i 0).val / 512 * 16 + (i 1).val / 1024 * 4 + 3 < cfg4.N := by show _ < grid4.N; omega
  obtain ⟨e0, e1, e2, e3, e4, e5⟩ := idx_facts4 ⟨_, hlt⟩
  refine ⟨⟨_, hlt⟩, (flush4_2 _).mpr (by show ((i 0).val / 512 * 16 + (i 1).val / 1024 * 4 + 3) % 4 = 3; omega), ?_⟩
  rw [mem_blk4]
  intro a
  match a with
  | ⟨0, _⟩ =>
    show win4_2.index ⟨_, hlt⟩ (0 : Fin 2) * 512 ≤ (i 0).val ∧ (i 0).val < win4_2.index ⟨_, hlt⟩ (0 : Fin 2) * 512 + 512
    rw [e0]; show ((i 0).val / 512 * 16 + (i 1).val / 1024 * 4 + 3) / 16 * 512 ≤ _ ∧ _ < ((i 0).val / 512 * 16 + (i 1).val / 1024 * 4 + 3) / 16 * 512 + 512; omega
  | ⟨1, _⟩ =>
    show win4_2.index ⟨_, hlt⟩ (1 : Fin 2) * 1024 ≤ (i 1).val ∧ (i 1).val < win4_2.index ⟨_, hlt⟩ (1 : Fin 2) * 1024 + 1024
    rw [e1]; show ((i 0).val / 512 * 16 + (i 1).val / 1024 * 4 + 3) / 4 % 4 * 1024 ≤ _ ∧ _ < ((i 0).val / 512 * 16 + (i 1).val / 1024 * 4 + 3) / 4 % 4 * 1024 + 1024; omega

/-- THE OUTPUT ARRAY after the region: the whole product of the two operand arrays as the region finds them. -/
theorem final4 (c : Dev nD) : (dat4 V c).arrAt 2 cfg4.N
    = fun i => ∑ k : Fin 4096, lhs4 V c (ix2 (i 0) k) * rhs4 V c (ix2 k (i 1)) :=
  (dat4 V c).arrAt_eq_of_cover 2 (prod4 (lhs4 V c) (rhs4 V c)) (flushed4_eq V c) (cover4)

end Cert.KernelIdeal.Hand

end
-- ==== Proof.Bridge.StageP.lean ====
/-
  THE LAST THREE MATRIX PRODUCTS ARE THE SAME ARRAYS in the two programs, at the ideal float values. The kernel
  program's tiled product leaves in its output array the whole product of its two operand arrays; the reference's
  whole product, read at an entry, is the same sum over the contracted coordinate; so when the operands agree the
  results do.
-/
import proofs.«166874_j54296976556804_1_alg».proof.Proof.Bridge.Defs
import proofs.«166874_j54296976556804_1_alg».proof.Proof.Bridge.Products
import proofs.«166874_j54296976556804_1_alg».proof.Proof.KI.Run
import proofs.«166874_j54296976556804_1_alg».proof.Proof.KI.Value2
import proofs.«166874_j54296976556804_1_alg».proof.Proof.KI.Value3
import proofs.«166874_j54296976556804_1_alg».proof.Proof.KI.Value4
import Idealize.ShloMosaic.Lib.StableHlo.Run

set_option maxRecDepth 16384

noncomputable section

open scoped BigOperators

namespace Cert.Bridge

open Idealize.ShloMosaic Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : RVal)

/-- The third product: where its two operands agree, its result agrees. -/
theorem prod2_stage
    (h1 : R4 V (Proc.devRef .tc Cert.ReferenceIdeal.main_v54) = Cert.KernelIdeal.Hand.W4 m ρ c (Proc.devRef .tc Cert.KernelIdeal.main_v55))
    (h2 : R4 V (Proc.devRef .tc Cert.ReferenceIdeal.main_v55) = Cert.KernelIdeal.Hand.W4 m ρ c (Proc.devRef .tc Cert.KernelIdeal.main_v56)) :
    R5 V (Proc.devRef .tc Cert.ReferenceIdeal.main_v56) = Cert.KernelIdeal.Hand.W5 m ρ c (Proc.devRef .tc Cert.KernelIdeal.main_v57) := by
  have hk : Cert.KernelIdeal.Hand.W5 m ρ c (Proc.devRef .tc Cert.KernelIdeal.main_v57) = _ :=
    (Cert.KernelIdeal.Hand.W5_arr m ρ c (2 : Fin 3)).trans (Cert.KernelIdeal.Hand.final2 (Cert.KernelIdeal.Hand.V4 m ρ) c)
  have hr : R5 V (Proc.devRef .tc Cert.ReferenceIdeal.main_v56)
      = Host.dotGeneral (F := Ideal) (φ₁ := .f32) (φ₂ := .f32) Cert.ReferenceIdeal.dot_S4096x256_S256x8192_S4096x8192_1_0_0_1_n_n none
          (R4 V (Proc.devRef .tc Cert.ReferenceIdeal.main_v54)) (R4 V (Proc.devRef .tc Cert.ReferenceIdeal.main_v55)) := by
    unfold R5
    simp only [Cert.ReferenceIdeal.Hand.opsDot56]
    after_results_simp
  rw [hk, hr]
  funext i
  obtain ⟨p, q, rfl⟩ : ∃ (p : Fin 4096) (q : Fin 8192), i = ix2 p q := ⟨i 0, i 1, eq_ix2 i⟩
  rw [dot_S4096x256_S256x8192_apply, h1, h2]
  rfl

/-- The fourth product (the third's result is its left operand): where its two operands agree, its result agrees. -/
theorem prod3_stage
    (h1 : R6 V (Proc.devRef .tc Cert.ReferenceIdeal.main_v56) = Cert.KernelIdeal.Hand.W6 m ρ c (Proc.devRef .tc Cert.KernelIdeal.main_v57))
    (h2 : R6 V (Proc.devRef .tc Cert.ReferenceIdeal.main_v71) = Cert.KernelIdeal.Hand.W6 m ρ c (Proc.devRef .tc Cert.KernelIdeal.main_v72)) :
    R7 V (Proc.devRef .tc Cert.ReferenceIdeal.main_v72) = Cert.KernelIdeal.Hand.W7 m ρ c (Proc.devRef .tc Cert.KernelIdeal.main_v73) := by
  have hk : Cert.KernelIdeal.Hand.W7 m ρ c (Proc.devRef .tc Cert.KernelIdeal.main_v73) = _ :=
    (Cert.KernelIdeal.Hand.W7_arr m ρ c (2 : Fin 3)).trans (Cert.KernelIdeal.Hand.final3 (Cert.KernelIdeal.Hand.V6 m ρ) c)
  have hr : R7 V (Proc.devRef .tc Cert.ReferenceIdeal.main_v72)
      = Host.dotGeneral (F := Ideal) (φ₁ := .f32) (φ₂ := .f32) Cert.ReferenceIdeal.dot_S4096x8192_S8192x4096_S4096x4096_1_0_0_1_n_n none
          (R6 V (Proc.devRef .tc Cert.ReferenceIdeal.main_v56)) (R6 V (Proc.devRef .tc Cert.ReferenceIdeal.main_v71)) := by
    unfold R7
    simp only [Cert.ReferenceIdeal.Hand.opsDot72]
    after_results_simp
  rw [hk, hr]
  funext i
  obtain ⟨p, q, rfl⟩ : ∃ (p : Fin 4096) (q : Fin 4096), i = ix2 p q := ⟨i 0, i 1, eq_ix2 i⟩
  rw [dot_S4096x8192_S8192x4096_apply, h1, h2]
  rfl

/-- The fifth product (the fourth's result is its right operand): where its two operands agree, its result agrees. -/
theorem prod4_stage
    (h1 : R7 V (Proc.devRef .tc Cert.ReferenceIdeal.main_arg1) = Cert.KernelIdeal.Hand.W7 m ρ c (Proc.devRef .tc Cert.KernelIdeal.main_arg1))
    (h2 : R7 V (Proc.devRef .tc Cert.ReferenceIdeal.main_v72) = Cert.KernelIdeal.Hand.W7 m ρ c (Proc.devRef .tc Cert.KernelIdeal.main_v73)) :
    R8 V (Proc.devRef .tc Cert.ReferenceIdeal.main_v73) = Cert.KernelIdeal.Hand.W8 m ρ c (Proc.devRef .tc Cert.KernelIdeal.main_v74) := by
  have hk : Cert.KernelIdeal.Hand.W8 m ρ c (Proc.devRef .tc Cert.KernelIdeal.main_v74) = _ :=
    (Cert.KernelIdeal.Hand.W8_arr m ρ c (2 : Fin 3)).trans (Cert.KernelIdeal.Hand.final4 (Cert.KernelIdeal.Hand.V7 m ρ) c)
  have hr : R8 V (Proc.devRef .tc Cert.ReferenceIdeal.main_v73)
      = Host.dotGeneral (F := Ideal) (φ₁ := .f32) (φ₂ := .f32) Cert.ReferenceIdeal.dot_S8192x4096_S4096x4096_S8192x4096_1_0_0_1_n_n none
          (R7 V (Proc.devRef .tc Cert.ReferenceIdeal.main_arg1)) (R7 V (Proc.devRef .tc Cert.ReferenceIdeal.main_v72)) := by
    unfold R8
    simp only [Cert.ReferenceIdeal.Hand.opsDot73]
    after_results_simp
  rw [hk, hr]
  funext i
  obtain ⟨p, q, rfl⟩ : ∃ (p : Fin 8192) (q : Fin 4096), i = ix2 p q := ⟨i 0, i 1, eq_ix2 i⟩
  rw [dot_S8192x4096_S4096x4096_apply, h1, h2]
  rfl

end Cert.Bridge

end
-- ==== Proof.LibGather2.lean ====
/-
  A gather of single elements from a matrix: the operand has two axes [A, B], the start indices are R pairs
  (an [R, 2] integer array, the pair along the last axis), both operand axes are collapsed with slice size one,
  and the result is the vector [R] whose entry y is the operand at (row, column) = the pair of row y, each
  component read as a signed integer and clamped into its axis. This is what indexing a matrix by two integer
  vectors lowers to. All extents are variables.
-/
import Idealize.ShloMosaic.Lib.ValueIdx

noncomputable section

namespace Cert.Hand.LibGather2

open Idealize.ShloMosaic Idealize.ShloMosaic.ValueIdx

variable {α : Type}

/-- The dimension numbers of a gather of single elements of an [A, B] operand at R index pairs; the side
    conditions are decided on a program's literal extents. -/
abbrev pairDims (A B R : Nat) (wf : GatherDims.WF ⟨2, ![A, B]⟩ ⟨2, ![R, 2]⟩ ⟨1, ![R]⟩ [] [0, 1] [] [0, 1] [] 1 ![1, 1]) :
    GatherDims ⟨2, ![A, B]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Component k of the index pair of result entry y: position (y, k) of the start indices. -/
abbrev pairIdx {R : Nat} (y : (⟨1, ![R]⟩ : Shape).Idx) (k : Fin 2) : (⟨2, ![R, 2]⟩ : Shape).Idx :=
  fun a => match a with | ⟨0, _⟩ => ⟨(y 0).val, (y 0).isLt⟩ | ⟨1, _⟩ => k

/-- Entry y of the gather is the operand at the clamped pair of row y. -/
theorem gather_pair_apply {A B R w : Nat} (hA : 0 < A) (hB : 0 < B)
    (wf : GatherDims.WF ⟨2, ![A, B]⟩ ⟨2, ![R, 2]⟩ ⟨1, ![R]⟩ [] [0, 1] [] [0, 1] [] 1 ![1, 1])
    (x : (⟨2, ![A, B]⟩ : Shape).Idx → α) (idx : IVec ⟨2, ![R, 2]⟩ w) (y : (⟨1, ![R]⟩ : Shape).Idx) :
    Host.gather (pairDims A B R wf) x idx y
      = x (ix2 ⟨min (idx (pairIdx y 0)).toInt.toNat (A - 1), by omega⟩ ⟨min (idx (pairIdx y 1)).toInt.toNat (B - 1), by omega⟩) := by
  unfold Host.gather
  congr 1
  funext a
  refine Fin.ext ?_
  show (pairDims A B R wf).start y idx a + (pairDims A B R wf).batchCoord y a + (pairDims A B R wf).offCoord y a = _
  rw [GatherDims.batchCoord_eq_zero _ _ _ List.not_mem_nil]
  have hcol : a ∈ (pairDims A B R wf).collapsedSliceDims := by
    match a with
    | ⟨0, _⟩ => exact List.mem_cons_self
    | ⟨1, _⟩ => exact List.mem_cons_of_mem _ List.mem_cons_self
  rw [GatherDims.offCoord_eq_zero _ _ _ (fun h => ((GatherDims.mem_sKept _ _).mp h).1 hcol)]
  simp only [Nat.add_zero]
  unfold GatherDims.start
  match a, hcol with
  | ⟨0, h0⟩, hcol =>
    rw [dif_pos (show (⟨0, h0⟩ : Fin 2) ∈ (pairDims A B R wf).startIndexMap from hcol)]
    have hsi : ∀ h, (pairDims A B R wf).siIdx y ⟨List.idxOf (⟨0, h0⟩ : Fin 2) (pairDims A B R wf).startIndexMap, h⟩ = pairIdx y 0 := by
      intro h
      funext b; refine Fin.ext ?_
      match b with
      | ⟨0, _⟩ => rfl
      | ⟨1, _⟩ => rfl
    rw [hsi]
    rfl
  | ⟨1, h1⟩, hcol =>
    rw [dif_pos (show (⟨1, h1⟩ : Fin 2) ∈ (pairDims A B R wf).startIndexMap from hcol)]
    have hsi : ∀ h, (pairDims A B R wf).siIdx y ⟨List.idxOf (⟨1, h1⟩ : Fin 2) (pairDims A B R wf).startIndexMap, h⟩ = pairIdx y 1 := by
      intro h
      funext b; refine Fin.ext ?_
      match b with
      | ⟨0, _⟩ => rfl
      | ⟨1, _⟩ => rfl
    rw [hsi]
    rfl

end Cert.Hand.LibGather2

end
-- ==== Proof.LibIdx.lean ====
/-
  Index facts for gathers of single matrix entries whose index vectors pass through the usual normalisation of
  negative indices (x < 0 ? x + extent : x) and are laid side by side as two columns. On index words that are
  already non-negative the normalisation is the identity; a column pair reads its two columns; a vector broadcast to a
  column reads the vector. All extents are variables.
-/
import Idealize.ShloMosaic.Lib.Pipeline.Value
import Idealize.ShloMosaic.Lib.IdealHost
import proofs.«166874_j54296976556804_1_alg».proof.Proof.LibGather2

noncomputable section

namespace Cert.Hand.LibIdx

open Idealize.ShloMosaic Idealize.ShloMosaic.ValueIdx Cert.Hand.LibGather2

variable {α : Type}

/-! ## The normalisation of a non-negative index word -/

/-- A signed comparison "x < 0" of a word whose signed value is not negative is the bit 0. -/
theorem cmpi_slt_zero_of_nonneg {w : Nat} (x : BitVec w) (hx : 0 ≤ x.toInt) : IntOp.cmpi .slt x 0#w = 0#1 := by
  have h : x.slt 0#w = false := by
    simp only [BitVec.slt, BitVec.toInt_zero, decide_eq_false_iff_not, not_lt]
    exact hx
  simp only [IntOp.cmpi, h]
  rfl

/-- The normalisation x < 0 ? x + n : x leaves a word whose signed value is not negative as it is. -/
theorem normalize_nonneg {w : Nat} (x n : BitVec w) (hx : 0 ≤ x.toInt) :
    Scalar.select (IntOp.cmpi .slt x 0#w) (IntOp.addi x n) x = x := by
  rw [cmpi_slt_zero_of_nonneg x hx]
  exact select_zero _ _

/-- The same on a whole array of words, as a program prints it: the zero and the extent are scalar constants broadcast
    to the array's shape. -/
theorem normalize_nonneg_vec {s : Shape} {w : Nat} (h : (⟨0, ![]⟩ : Shape).BroadcastsInDim s ![]) (v : IVec s w) (n : BitVec w)
    (hv : ∀ i, 0 ≤ (v i).toInt) :
    select (cmpi CmpIPredicate.slt v (broadcastInDim s ![] h (constantI ⟨0, ![]⟩ w 0#w)))
      (addi v (broadcastInDim s ![] h (constantI ⟨0, ![]⟩ w n))) v = v := by
  funext i
  exact normalize_nonneg (v i) n (hv i)

/-! ## Two columns side by side, and a vector as a column -/

/-- Two columns laid side by side read the first column at position (y, 0) … -/
theorem cat2_apply_left {R : Nat} (a b : (⟨2, ![R, 1]⟩ : Shape).Idx → α)
    (h : Shape.Concatenates [(⟨2, ![R, 1]⟩ : Shape), ⟨2, ![R, 1]⟩] ⟨2, ![R, 2]⟩ 1) (y : (⟨1, ![R]⟩ : Shape).Idx) :
    concatenate ⟨2, ![R, 2]⟩ 1 [⟨⟨2, ![R, 1]⟩, a⟩, ⟨⟨2, ![R, 1]⟩, b⟩] h (pairIdx y 0)
      = a (ix2 ⟨(y 0).val, (y 0).isLt⟩ 0) := by
  refine concatenate_pair_apply_left (t := ⟨2, ![R, 2]⟩) (s₁ := ⟨2, ![R, 1]⟩) (s₂ := ⟨2, ![R, 1]⟩) (1 : Fin 2) a b h _ rfl _ ?_
  intro c
  match c with
  | ⟨0, _⟩ => rfl
  | ⟨1, _⟩ => rfl

/-- … and the second column at position (y, 1). -/
theorem cat2_apply_right {R : Nat} (a b : (⟨2, ![R, 1]⟩ : Shape).Idx → α)
    (h : Shape.Concatenates [(⟨2, ![R, 1]⟩ : Shape), ⟨2, ![R, 1]⟩] ⟨2, ![R, 2]⟩ 1) (y : (⟨1, ![R]⟩ : Shape).Idx) :
    concatenate ⟨2, ![R, 2]⟩ 1 [⟨⟨2, ![R, 1]⟩, a⟩, ⟨⟨2, ![R, 1]⟩, b⟩] h (pairIdx y 1)
      = b (ix2 ⟨(y 0).val, (y 0).isLt⟩ 0) := by
  refine concatenate_pair_apply_right (t := ⟨2, ![R, 2]⟩) (s₁ := ⟨2, ![R, 1]⟩) (s₂ := ⟨2, ![R, 1]⟩) (1 : Fin 2) a b h _ rfl rfl _ ?_ ?_
  · intro c hc
    match c, hc with
    | ⟨0, _⟩, _ => rfl
    | ⟨1, _⟩, hc => exact absurd rfl hc
  · rfl

/-- A vector broadcast along a new trailing unit axis, read at (r, 0), is the vector at r. -/
theorem column_apply {R : Nat} (h : (⟨1, ![R]⟩ : Shape).BroadcastsInDim ⟨2, ![R, 1]⟩ ![0]) (v : (⟨1, ![R]⟩ : Shape).Idx → α)
    (r : Fin R) : broadcastInDim ⟨2, ![R, 1]⟩ ![0] h v (ix2 r 0) = v (ix1 r) := by
  refine broadcastInDim_apply ![0] h v (ix2 r 0) (ix1 r) ?_
  intro c
  match c with
  | ⟨0, _⟩ =>
    show r.val = if R = 1 then 0 else r.val
    split
    · omega
    · rfl

/-! ## Two gathers of single entries, from a matrix and from a wider matrix that agrees with it -/

section GatherEq
variable {A C C' N : Nat}

/-- Two matrix positions with equal coordinates are equal. -/
theorem ix2_congr {n0 n1 : Nat} {a a' : Fin n0} {b b' : Fin n1} (ha : a.val = a'.val) (hb : b.val = b'.val) :
    ix2 a b = ix2 a' b' := by
  obtain rfl : a = a' := Fin.ext ha
  obtain rfl : b = b' := Fin.ext hb
  rfl

/-- Entry y of a gather of single entries of an [A, C] matrix whose index pair at row y is (r, s), both in range: the
    matrix at (r, s); the gather's clamps are identities on in-range values. -/
theorem gather_pair_apply_inrange (hA : 0 < A) (hC : 0 < C)
    (wf : GatherDims.WF ⟨2, ![A, C]⟩ ⟨2, ![N, 2]⟩ ⟨1, ![N]⟩ [] [0, 1] [] [0, 1] [] 1 ![1, 1])
    (M : (⟨2, ![A, C]⟩ : Shape).Idx → α) (idx : IVec ⟨2, ![N, 2]⟩ 32) (y : (⟨1, ![N]⟩ : Shape).Idx) (r s : BitVec 32)
    (e0 : idx (pairIdx y 0) = r) (e1 : idx (pairIdx y 1) = s)
    (hr : 0 ≤ r.toInt ∧ r.toInt < A) (hs : 0 ≤ s.toInt ∧ s.toInt < C) :
    Host.gather (pairDims A C N wf) M idx y
      = M (ix2 ⟨r.toInt.toNat, by omega⟩ ⟨s.toInt.toNat, by omega⟩) := by
  subst e0 e1
  rw [gather_pair_apply hA hC]
  refine congrArg M (ix2_congr ?_ ?_)
  · show min (idx (pairIdx y 0)).toInt.toNat (A - 1) = (idx (pairIdx y 0)).toInt.toNat
    omega
  · show min (idx (pairIdx y 1)).toInt.toNat (C - 1) = (idx (pairIdx y 1)).toInt.toNat
    omega

/-- Entry y of a gather of single entries of an [A, C] matrix at the pairs (rows y, c y), both index vectors in range and
    both passed through the normalisation of negative indices and laid side by side as columns: the matrix at
    (rows y, c y). -/
theorem gather_pair_normalized_apply (hA : 0 < A) (hC : 0 < C)
    (wf : GatherDims.WF ⟨2, ![A, C]⟩ ⟨2, ![N, 2]⟩ ⟨1, ![N]⟩ [] [0, 1] [] [0, 1] [] 1 ![1, 1])
    (hs : (⟨0, ![]⟩ : Shape).BroadcastsInDim ⟨1, ![N]⟩ ![])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (M : (⟨2, ![A, C]⟩ : Shape).Idx → α) (rows c : IVec ⟨1, ![N]⟩ 32) (nA nC : BitVec 32)
    (hrows : ∀ y, 0 ≤ (rows y).toInt ∧ (rows y).toInt < A) (hc : ∀ y, 0 ≤ (c y).toInt ∧ (c y).toInt < C)
    (y : (⟨1, ![N]⟩ : Shape).Idx) :
    Host.gather (pairDims A C N wf) M
      (concatenate ⟨2, ![N, 2]⟩ 1
        [⟨⟨2, ![N, 1]⟩, broadcastInDim ⟨2, ![N, 1]⟩ ![0] hcol
            (select (cmpi CmpIPredicate.slt rows (broadcastInDim ⟨1, ![N]⟩ ![] hs (constantI ⟨0, ![]⟩ 32 0#32)))
              (addi rows (broadcastInDim ⟨1, ![N]⟩ ![] hs (constantI ⟨0, ![]⟩ 32 nA))) rows)⟩,
         ⟨⟨2, ![N, 1]⟩, broadcastInDim ⟨2, ![N, 1]⟩ ![0] hcol
            (select (cmpi CmpIPredicate.slt c (broadcastInDim ⟨1, ![N]⟩ ![] hs (constantI ⟨0, ![]⟩ 32 0#32)))
              (addi c (broadcastInDim ⟨1, ![N]⟩ ![] hs (constantI ⟨0, ![]⟩ 32 nC))) c)⟩] hcat) y
      = M (ix2 ⟨(rows y).toInt.toNat, by have := hrows y; omega⟩ ⟨(c y).toInt.toNat, by have := hc y; omega⟩) := by
  rw [normalize_nonneg_vec hs rows nA (fun i => (hrows i).1), normalize_nonneg_vec hs c nC (fun i => (hc i).1)]
  have ey : (ix1 ⟨(y 0).val, (y 0).isLt⟩ : (⟨1, ![N]⟩ : Shape).Idx) = y := (eq_ix1 y).symm
  refine gather_pair_apply_inrange hA hC wf M _ y (rows y) (c y) ?_ ?_ (hrows y) (hc y)
  · rw [cat2_apply_left, column_apply, ey]
  · rw [cat2_apply_right, column_apply, ey]

/-- THE GATHER EQUALITY. A matrix M : [A, C] and a wider one M' : [A, C'] that agrees with it on the first C columns,
    gathered at the same in-range pairs (rows y, c y) — each index vector normalised against whatever extent, the two
    laid side by side —, give the same vector. -/
theorem gather_pair_normalized_eq (hA : 0 < A) (hC : 0 < C) (hCC : C ≤ C')
    (wf : GatherDims.WF ⟨2, ![A, C]⟩ ⟨2, ![N, 2]⟩ ⟨1, ![N]⟩ [] [0, 1] [] [0, 1] [] 1 ![1, 1])
    (wf' : GatherDims.WF ⟨2, ![A, C']⟩ ⟨2, ![N, 2]⟩ ⟨1, ![N]⟩ [] [0, 1] [] [0, 1] [] 1 ![1, 1])
    (hs : (⟨0, ![]⟩ : Shape).BroadcastsInDim ⟨1, ![N]⟩ ![])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (M : (⟨2, ![A, C]⟩ : Shape).Idx → α) (M' : (⟨2, ![A, C']⟩ : Shape).Idx → α)
    (hM : ∀ (r : Fin A) (s : Fin C), M (ix2 r s) = M' (ix2 r ⟨s.val, Nat.lt_of_lt_of_le s.isLt hCC⟩))
    (rows c : IVec ⟨1, ![N]⟩ 32) (nA nC nA' nC' : BitVec 32)
    (hrows : ∀ y, 0 ≤ (rows y).toInt ∧ (rows y).toInt < A) (hc : ∀ y, 0 ≤ (c y).toInt ∧ (c y).toInt < C) :
    Host.gather (pairDims A C N wf) M
      (concatenate ⟨2, ![N, 2]⟩ 1
        [⟨⟨2, ![N, 1]⟩, broadcastInDim ⟨2, ![N, 1]⟩ ![0] hcol
            (select (cmpi CmpIPredicate.slt rows (broadcastInDim ⟨1, ![N]⟩ ![] hs (constantI ⟨0, ![]⟩ 32 0#32)))
              (addi rows (broadcastInDim ⟨1, ![N]⟩ ![] hs (constantI ⟨0, ![]⟩ 32 nA))) rows)⟩,
         ⟨⟨2, ![N, 1]⟩, broadcastInDim ⟨2, ![N, 1]⟩ ![0] hcol
            (select (cmpi CmpIPredicate.slt c (broadcastInDim ⟨1, ![N]⟩ ![] hs (constantI ⟨0, ![]⟩ 32 0#32)))
              (addi c (broadcastInDim ⟨1, ![N]⟩ ![] hs (constantI ⟨0, ![]⟩ 32 nC))) c)⟩] hcat)
    = Host.gather (pairDims A C' N wf') M'
      (concatenate ⟨2, ![N, 2]⟩ 1
        [⟨⟨2, ![N, 1]⟩, broadcastInDim ⟨2, ![N, 1]⟩ ![0] hcol
            (select (cmpi CmpIPredicate.slt rows (broadcastInDim ⟨1, ![N]⟩ ![] hs (constantI ⟨0, ![]⟩ 32 0#32)))
              (addi rows (broadcastInDim ⟨1, ![N]⟩ ![] hs (constantI ⟨0, ![]⟩ 32 nA'))) rows)⟩,
         ⟨⟨2, ![N, 1]⟩, broadcastInDim ⟨2, ![N, 1]⟩ ![0] hcol
            (select (cmpi CmpIPredicate.slt c (broadcastInDim ⟨1, ![N]⟩ ![] hs (constantI ⟨0, ![]⟩ 32 0#32)))
              (addi c (broadcastInDim ⟨1, ![N]⟩ ![] hs (constantI ⟨0, ![]⟩ 32 nC'))) c)⟩] hcat) := by
  funext y
  have hc' : ∀ y, 0 ≤ (c y).toInt ∧ (c y).toInt < C' := fun y => ⟨(hc y).1, by have := (hc y).2; omega⟩
  rw [gather_pair_normalized_apply hA hC wf hs hcol hcat M rows c nA nC hrows hc y,
    gather_pair_normalized_apply hA (Nat.lt_of_lt_of_le hC hCC) wf' hs hcol hcat M' rows c nA' nC' hrows hc' y]
  exact hM _ _

/-- The same over any two records of dimension numbers that are these (a program's own records are, by rfl). -/
theorem gather_pair_normalized_eq' (hA : 0 < A) (hC : 0 < C) (hCC : C ≤ C')
    (d : GatherDims ⟨2, ![A, C]⟩ ⟨2, ![N, 2]⟩ ⟨1, ![N]⟩) (d' : GatherDims ⟨2, ![A, C']⟩ ⟨2, ![N, 2]⟩ ⟨1, ![N]⟩)
    (wf : GatherDims.WF ⟨2, ![A, C]⟩ ⟨2, ![N, 2]⟩ ⟨1, ![N]⟩ [] [0, 1] [] [0, 1] [] 1 ![1, 1])
    (wf' : GatherDims.WF ⟨2, ![A, C']⟩ ⟨2, ![N, 2]⟩ ⟨1, ![N]⟩ [] [0, 1] [] [0, 1] [] 1 ![1, 1])
    (hd : d = pairDims A C N wf) (hd' : d' = pairDims A C' N wf')
    (hs : (⟨0, ![]⟩ : Shape).BroadcastsInDim ⟨1, ![N]⟩ ![])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (M : (⟨2, ![A, C]⟩ : Shape).Idx → α) (M' : (⟨2, ![A, C']⟩ : Shape).Idx → α)
    (hM : ∀ (r : Fin A) (s : Fin C), M (ix2 r s) = M' (ix2 r ⟨s.val, Nat.lt_of_lt_of_le s.isLt hCC⟩))
    (rows c : IVec ⟨1, ![N]⟩ 32) (nA nC nA' nC' : BitVec 32)
    (hrows : ∀ y, 0 ≤ (rows y).toInt ∧ (rows y).toInt < A) (hc : ∀ y, 0 ≤ (c y).toInt ∧ (c y).toInt < C) :
    Host.gather d M
      (concatenate ⟨2, ![N, 2]⟩ 1
        [⟨⟨2, ![N, 1]⟩, broadcastInDim ⟨2, ![N, 1]⟩ ![0] hcol
            (select (cmpi CmpIPredicate.slt rows (broadcastInDim ⟨1, ![N]⟩ ![] hs (constantI ⟨0, ![]⟩ 32 0#32)))
              (addi rows (broadcastInDim ⟨1, ![N]⟩ ![] hs (constantI ⟨0, ![]⟩ 32 nA))) rows)⟩,
         ⟨⟨2, ![N, 1]⟩, broadcastInDim ⟨2, ![N, 1]⟩ ![0] hcol
            (select (cmpi CmpIPredicate.slt c (broadcastInDim ⟨1, ![N]⟩ ![] hs (constantI ⟨0, ![]⟩ 32 0#32)))
              (addi c (broadcastInDim ⟨1, ![N]⟩ ![] hs (constantI ⟨0, ![]⟩ 32 nC))) c)⟩] hcat)
    = Host.gather d' M'
      (concatenate ⟨2, ![N, 2]⟩ 1
        [⟨⟨2, ![N, 1]⟩, broadcastInDim ⟨2, ![N, 1]⟩ ![0] hcol
            (select (cmpi CmpIPredicate.slt rows (broadcastInDim ⟨1, ![N]⟩ ![] hs (constantI ⟨0, ![]⟩ 32 0#32)))
              (addi rows (broadcastInDim ⟨1, ![N]⟩ ![] hs (constantI ⟨0, ![]⟩ 32 nA'))) rows)⟩,
         ⟨⟨2, ![N, 1]⟩, broadcastInDim ⟨2, ![N, 1]⟩ ![0] hcol
            (select (cmpi CmpIPredicate.slt c (broadcastInDim ⟨1, ![N]⟩ ![] hs (constantI ⟨0, ![]⟩ 32 0#32)))
              (addi c (broadcastInDim ⟨1, ![N]⟩ ![] hs (constantI ⟨0, ![]⟩ 32 nC'))) c)⟩] hcat) := by
  subst hd hd'
  exact gather_pair_normalized_eq hA hC hCC wf wf' hs hcol hcat M M' hM rows c nA nC nA' nC' hrows hc

end GatherEq

/-! ## Ranges of index words -/

section Ranges

/-- A natural number below 2³¹ written as a 32-bit word reads back, signed, as itself. -/
theorem toInt_ofNat_of_lt {n : Nat} (h : n < 2 ^ 31) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The entries of an iota along the one axis of a vector of N ≤ 2³¹ words are their own positions: signed, each lies
    in [0, N). -/
theorem iotaInDim_toInt {N : Nat} (hN : N ≤ 2 ^ 31) (y : (⟨1, ![N]⟩ : Shape).Idx) :
    (iotaInDim ⟨1, ![N]⟩ 32 0 y).toInt = ((y 0).val : Int) := by
  have hy : (y 0).val < N := (y 0).isLt
  exact toInt_ofNat_of_lt (by omega)

theorem iotaInDim_range {N : Nat} (hN : N ≤ 2 ^ 31) (y : (⟨1, ![N]⟩ : Shape).Idx) :
    0 ≤ (iotaInDim ⟨1, ![N]⟩ 32 0 y).toInt ∧ (iotaInDim ⟨1, ![N]⟩ 32 0 y).toInt < (N : Int) := by
  have hy : (y 0).val < N := (y 0).isLt
  rw [iotaInDim_toInt hN y]
  omega

/-- Every entry of a gather is an entry of its operand: whatever holds of all the operand's entries holds of all the
    gather's. -/
theorem gather_forall {s si t : Shape} {w : Nat} (d : GatherDims s si t) (x : s.Idx → α) (idx : IVec si w)
    (P : α → Prop) (hx : ∀ i, P (x i)) (y : t.Idx) : P (Host.gather d x idx y) := by
  unfold Host.gather
  exact hx _

end Ranges

/-! ## A gather of single entries of a vector at a column of start indices -/

section Take1
variable {N R : Nat}

/-- The dimension numbers of a gather of single entries of a vector [N] at R start indices given as a column [R, 1];
    the side conditions are decided on a program's literal extents. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry y of the gather is the operand at the start index of row y, read signed and clamped into [0, N − 1]. -/
theorem gather_take1_apply {w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 ⟨(y 0).val, (y 0).isLt⟩ 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 ⟨(y 0).val, (y 0).isLt⟩ 0 := by
    funext b; refine Fin.ext ?_
    match b with
    | ⟨0, _⟩ => rfl
    | ⟨1, _⟩ => rfl
  rw [hsi]
  rfl

end Take1

/-! ## The floored modulo of words, as a program prints it -/

section Modulo

/-- The floored modulo x mod D on 32-bit words, operation by operation: the divisor d is D, or 1 where D is 0; r is the
    truncated remainder of x by d; the result is r + d where r is not 0 and its sign differs from d's, else r. -/
def floorMod (x D : BitVec 32) : BitVec 32 :=
  Scalar.select
    (IntOp.andi
      (IntOp.cmpi .ne (IntOp.cmpi .slt (IntOp.remsi .host x (Scalar.select (IntOp.cmpi .eq D 0#32) 1#32 D)) 0#32)
        (IntOp.cmpi .slt (Scalar.select (IntOp.cmpi .eq D 0#32) 1#32 D) 0#32))
      (IntOp.cmpi .ne (IntOp.remsi .host x (Scalar.select (IntOp.cmpi .eq D 0#32) 1#32 D)) 0#32))
    (IntOp.addi (IntOp.remsi .host x (Scalar.select (IntOp.cmpi .eq D 0#32) 1#32 D)) (Scalar.select (IntOp.cmpi .eq D 0#32) 1#32 D))
    (IntOp.remsi .host x (Scalar.select (IntOp.cmpi .eq D 0#32) 1#32 D))

/-- A word whose signed value is positive is not the zero word, so the guarded divisor is the word itself. -/
theorem divisor_of_pos (D : BitVec 32) (hD : 0 < D.toInt) : Scalar.select (IntOp.cmpi .eq D 0#32) 1#32 D = D := by
  have h0 : D ≠ 0#32 := by
    rintro rfl
    simp at hD
  have h : IntOp.cmpi .eq D 0#32 = 0#1 := by
    have hb : (D == 0#32) = false := by simpa using h0
    simp only [IntOp.cmpi, hb]
    rfl
  rw [h]
  exact select_zero _ _

/-- The signed remainder by a positive word is no corner of the division: it is the truncated remainder. -/
theorem remsi_host_of_pos (x D : BitVec 32) (hD : 0 < D.toInt) : IntOp.remsi .host x D = x.srem D := by
  unfold IntOp.remsi
  rw [if_neg]
  rintro (h | ⟨_, h⟩)
  · subst h; simp at hD
  · subst h; revert hD; decide

/-- The truncated remainder of a non-negative word by a positive word is the remainder of the integers. -/
theorem toInt_srem_of_nonneg (x D : BitVec 32) (hx : 0 ≤ x.toInt) : (x.srem D).toInt = x.toInt % D.toInt := by
  rw [BitVec.toInt_srem, Int.tmod_eq_emod_of_nonneg hx]

/-- For a non-negative x and a positive D the floored modulo is the truncated remainder … -/
theorem floorMod_eq_srem (x D : BitVec 32) (hx : 0 ≤ x.toInt) (hD : 0 < D.toInt) : floorMod x D = x.srem D := by
  unfold floorMod
  rw [divisor_of_pos D hD, remsi_host_of_pos x D hD]
  have hr : 0 ≤ (x.srem D).toInt := by
    rw [toInt_srem_of_nonneg x D hx]; exact Int.emod_nonneg _ (by omega)
  rw [cmpi_slt_zero_of_nonneg _ hr, cmpi_slt_zero_of_nonneg D (by omega)]
  have hne : IntOp.cmpi .ne (0#1) (0#1) = 0#1 := by decide
  have hand : ∀ b : BitVec 1, IntOp.andi 0#1 b = 0#1 := fun b => by simp [IntOp.andi]
  rw [hne, hand]
  exact select_zero _ _

/-- … whose signed value is the integers' x mod D … -/
theorem floorMod_toInt (x D : BitVec 32) (hx : 0 ≤ x.toInt) (hD : 0 < D.toInt) :
    (floorMod x D).toInt = x.toInt % D.toInt := by
  rw [floorMod_eq_srem x D hx hD, toInt_srem_of_nonneg x D hx]

/-- … and so lies in [0, D). -/
theorem floorMod_range (x D : BitVec 32) (hx : 0 ≤ x.toInt) (hD : 0 < D.toInt) :
    0 ≤ (floorMod x D).toInt ∧ (floorMod x D).toInt < D.toInt := by
  rw [floorMod_toInt x D hx hD]
  exact ⟨Int.emod_nonneg _ (by omega), Int.emod_lt_of_pos _ hD⟩

/-- The successor of a word whose signed value is in [0, 2³¹ − 1) has the successor's signed value. -/
theorem toInt_addi_one (c : BitVec 32) (h0 : 0 ≤ c.toInt) (h1 : c.toInt < 2 ^ 31 - 1) :
    (IntOp.addi c 1#32).toInt = c.toInt + 1 := by
  unfold IntOp.addi
  rw [BitVec.toInt_add, BitVec.toInt_one (by decide)]
  have : (2 : Int) ^ 32 = 4294967296 := by norm_num
  rw [Int.bmod_eq_of_le] <;> omega

/-- THE SCALAR CORE: for a word c in [0, E) with E ≤ D and D positive (no overflow: E < 2³¹), the floored modulo of
    c + 1 by D lies in [0, D). -/
theorem floorMod_succ_range (c D : BitVec 32) (h0 : 0 ≤ c.toInt) (h1 : c.toInt < 2 ^ 31 - 1) (hD : 0 < D.toInt) :
    0 ≤ (floorMod (IntOp.addi c 1#32) D).toInt ∧ (floorMod (IntOp.addi c 1#32) D).toInt < D.toInt :=
  floorMod_range _ D (by rw [toInt_addi_one c h0 h1]; omega) hD

/-- Its value: (c + 1) mod D on the integers. -/
theorem floorMod_succ_toInt (c D : BitVec 32) (h0 : 0 ≤ c.toInt) (h1 : c.toInt < 2 ^ 31 - 1) (hD : 0 < D.toInt) :
    (floorMod (IntOp.addi c 1#32) D).toInt = (c.toInt + 1) % D.toInt := by
  rw [floorMod_toInt _ D (by rw [toInt_addi_one c h0 h1]; omega) hD, toInt_addi_one c h0 h1]

end Modulo

/-! ## The floored modulo on a whole array, as a program prints it -/

section ModuloVec
variable {s : Shape}

/-- The chain of array operations a program prints for x mod D, D a scalar constant: the guarded divisor d (a scalar),
    broadcast; the truncated remainders r; the correction r + d where r is not 0 and its sign differs from d's. -/
abbrev floorModVec (h : (⟨0, ![]⟩ : Shape).BroadcastsInDim s ![]) (x : IVec s 32) (D : BitVec 32) : IVec s 32 :=
  select
    (andi
      (cmpi CmpIPredicate.ne
        (cmpi CmpIPredicate.slt
          (Host.remsi x (broadcastInDim s ![] h
            (select (cmpi CmpIPredicate.eq (constantI ⟨0, ![]⟩ 32 D) (constantI ⟨0, ![]⟩ 32 0#32)) (constantI ⟨0, ![]⟩ 32 1#32) (constantI ⟨0, ![]⟩ 32 D))))
          (broadcastInDim s ![] h (constantI ⟨0, ![]⟩ 32 0#32)))
        (broadcastInDim s ![] h
          (cmpi CmpIPredicate.slt
            (select (cmpi CmpIPredicate.eq (constantI ⟨0, ![]⟩ 32 D) (constantI ⟨0, ![]⟩ 32 0#32)) (constantI ⟨0, ![]⟩ 32 1#32) (constantI ⟨0, ![]⟩ 32 D))
            (constantI ⟨0, ![]⟩ 32 0#32))))
      (cmpi CmpIPredicate.ne
        (Host.remsi x (broadcastInDim s ![] h
          (select (cmpi CmpIPredicate.eq (constantI ⟨0, ![]⟩ 32 D) (constantI ⟨0, ![]⟩ 32 0#32)) (constantI ⟨0, ![]⟩ 32 1#32) (constantI ⟨0, ![]⟩ 32 D))))
        (broadcastInDim s ![] h (constantI ⟨0, ![]⟩ 32 0#32))))
    (addi
      (Host.remsi x (broadcastInDim s ![] h
        (select (cmpi CmpIPredicate.eq (constantI ⟨0, ![]⟩ 32 D) (constantI ⟨0, ![]⟩ 32 0#32)) (constantI ⟨0, ![]⟩ 32 1#32) (constantI ⟨0, ![]⟩ 32 D))))
      (broadcastInDim s ![] h
        (select (cmpi CmpIPredicate.eq (constantI ⟨0, ![]⟩ 32 D) (constantI ⟨0, ![]⟩ 32 0#32)) (constantI ⟨0, ![]⟩ 32 1#32) (constantI ⟨0, ![]⟩ 32 D))))
    (Host.remsi x (broadcastInDim s ![] h
      (select (cmpi CmpIPredicate.eq (constantI ⟨0, ![]⟩ 32 D) (constantI ⟨0, ![]⟩ 32 0#32)) (constantI ⟨0, ![]⟩ 32 1#32) (constantI ⟨0, ![]⟩ 32 D))))

/-- At an index the chain is the floored modulo of the element. -/
theorem floorModVec_apply (h : (⟨0, ![]⟩ : Shape).BroadcastsInDim s ![]) (x : IVec s 32) (D : BitVec 32) (i : s.Idx) :
    floorModVec h x D i = floorMod (x i) D := rfl

/-- An array plus the broadcast scalar constant 1, at an index: the element's successor. -/
theorem addi_one_apply (h : (⟨0, ![]⟩ : Shape).BroadcastsInDim s ![]) (c : IVec s 32) (i : s.Idx) :
    addi c (broadcastInDim s ![] h (constantI ⟨0, ![]⟩ 32 1#32)) i = IntOp.addi (c i) 1#32 := rfl

/-- THE RANGE OF (c + 1) mod D: if every entry of c is a non-negative word below 2³¹ − 1 and D is positive, every entry
    of the chain applied to c + 1 lies in [0, D) … -/
theorem floorModVec_succ_range (h : (⟨0, ![]⟩ : Shape).BroadcastsInDim s ![]) (c : IVec s 32) (D : BitVec 32)
    (hD : 0 < D.toInt) (hc : ∀ i, 0 ≤ (c i).toInt ∧ (c i).toInt < 2 ^ 31 - 1) (i : s.Idx) :
    0 ≤ (floorModVec h (addi c (broadcastInDim s ![] h (constantI ⟨0, ![]⟩ 32 1#32))) D i).toInt
      ∧ (floorModVec h (addi c (broadcastInDim s ![] h (constantI ⟨0, ![]⟩ 32 1#32))) D i).toInt < D.toInt := by
  rw [floorModVec_apply, addi_one_apply]
  exact floorMod_succ_range (c i) D (hc i).1 (hc i).2 hD

/-- … and is (c + 1) mod D on the integers. -/
theorem floorModVec_succ_toInt (h : (⟨0, ![]⟩ : Shape).BroadcastsInDim s ![]) (c : IVec s 32) (D : BitVec 32)
    (hD : 0 < D.toInt) (hc : ∀ i, 0 ≤ (c i).toInt ∧ (c i).toInt < 2 ^ 31 - 1) (i : s.Idx) :
    (floorModVec h (addi c (broadcastInDim s ![] h (constantI ⟨0, ![]⟩ 32 1#32))) D i).toInt = ((c i).toInt + 1) % D.toInt := by
  rw [floorModVec_apply, addi_one_apply]
  exact floorMod_succ_toInt (c i) D (hc i).1 (hc i).2 hD

end ModuloVec

end Cert.Hand.LibIdx

end
-- ==== Proof.Bridge.Last.lean ====
/-
  The last stretch of the two programs: from the same live-in arrays — the smoothed ratings, the row numbers, the two
  selected columns, the two divisors and the has-an-entry mask — and from normalised matrices that agree on the
  kernel's 4096 columns, the two programs compute the same result. The only difference lies inside two gathers of
  single matrix entries: the reference indexes its 8192-column matrix, the kernel its first 4096 columns; on in-range
  indices both read the same entries.
-/
import proofs.«166874_j54296976556804_1_alg».proof.Proof.Bridge.Defs
import proofs.«166874_j54296976556804_1_alg».proof.Proof.LibIdx

set_option maxRecDepth 16384

noncomputable section

namespace Cert.Bridge

open Idealize.ShloMosaic Idealize.SL.Sem Idealize.ShloMosaic.ValueIdx
open Idealize.ShloMosaic.StableHlo
open Cert.Hand.LibGather2 Cert.Hand.LibIdx

/-- Two columns of 8192 words side by side, under the kernel program's record. -/
def cat2K (a b : (⟨Cert.KernelIdeal.S8192x1, .i32⟩ : BufTy).Contents (Elt Ideal)) :
    (⟨Cert.KernelIdeal.S8192x2, .i32⟩ : BufTy).Contents (Elt Ideal) :=
  concatenate Cert.KernelIdeal.S8192x2 1 [⟨Cert.KernelIdeal.S8192x1, a⟩, ⟨Cert.KernelIdeal.S8192x1, b⟩]
    Cert.KernelIdeal.Facts₀.concatenates_S8192x1_S8192x1_S8192x2_d1

theorem cat2K_eq :
    ((fun a b => concatenate Cert.KernelIdeal.S8192x2 1 [⟨Cert.KernelIdeal.S8192x1, a⟩, ⟨Cert.KernelIdeal.S8192x1, b⟩]
        Cert.KernelIdeal.Facts₀.concatenates_S8192x1_S8192x1_S8192x2_d1) :
      (⟨Cert.KernelIdeal.S8192x1, .i32⟩ : BufTy).Contents (Elt Ideal) → (⟨Cert.KernelIdeal.S8192x1, .i32⟩ : BufTy).Contents (Elt Ideal)
        → (⟨Cert.KernelIdeal.S8192x2, .i32⟩ : BufTy).Contents (Elt Ideal)) = cat2K := rfl

/-- The same under the reference program's record. -/
def cat2R (a b : (⟨Cert.ReferenceIdeal.S8192x1, .i32⟩ : BufTy).Contents (Elt Ideal)) :
    (⟨Cert.ReferenceIdeal.S8192x2, .i32⟩ : BufTy).Contents (Elt Ideal) :=
  concatenate Cert.ReferenceIdeal.S8192x2 1 [⟨Cert.ReferenceIdeal.S8192x1, a⟩, ⟨Cert.ReferenceIdeal.S8192x1, b⟩]
    Cert.ReferenceIdeal.Facts₀.concatenates_S8192x1_S8192x1_S8192x2_d1

theorem cat2R_eq :
    ((fun a b => concatenate Cert.ReferenceIdeal.S8192x2 1 [⟨Cert.ReferenceIdeal.S8192x1, a⟩, ⟨Cert.ReferenceIdeal.S8192x1, b⟩]
        Cert.ReferenceIdeal.Facts₀.concatenates_S8192x1_S8192x1_S8192x2_d1) :
      (⟨Cert.ReferenceIdeal.S8192x1, .i32⟩ : BufTy).Contents (Elt Ideal) → (⟨Cert.ReferenceIdeal.S8192x1, .i32⟩ : BufTy).Contents (Elt Ideal)
        → (⟨Cert.ReferenceIdeal.S8192x2, .i32⟩ : BufTy).Contents (Elt Ideal)) = cat2R := rfl

/-- The in-range hypotheses in the form the gather lemmas take them. -/
private theorem range_cast {N : Nat} {S : Shape} (v : IVec S 32) (B : Int) (hB : B = (N : Int))
    (h : ∀ y, 0 ≤ (v y).toInt ∧ (v y).toInt < B) : ∀ y, 0 ≤ (v y).toInt ∧ (v y).toInt < (N : Int) := by
  subst hB; exact h

set_option maxHeartbeats 16000000 in
/-- THE LAST STRETCH IS THE SAME: from equal live-in arrays and normalised matrices that agree on the first 4096
    columns, with the row numbers in [0, 8192) and both selected columns in [0, 4096), the reference's last 83 operations
    and the kernel program's last 83 leave the same result. -/
theorem last_same (VK : KVal) (VR : RVal)
    (hrating : VR (Proc.devRef .tc Cert.ReferenceIdeal.main_v73) = VK (Proc.devRef .tc Cert.KernelIdeal.main_v74))
    (hrows : VR (Proc.devRef .tc Cert.ReferenceIdeal.main_v106) = VK (Proc.devRef .tc Cert.KernelIdeal.main_v107))
    (hc1 : VR (Proc.devRef .tc Cert.ReferenceIdeal.main_v95) = VK (Proc.devRef .tc Cert.KernelIdeal.main_v96))
    (hc2 : VR (Proc.devRef .tc Cert.ReferenceIdeal.main_v105) = VK (Proc.devRef .tc Cert.KernelIdeal.main_v106))
    (hd1 : VR (Proc.devRef .tc Cert.ReferenceIdeal.main_v109) = VK (Proc.devRef .tc Cert.KernelIdeal.main_v110))
    (hd2 : VR (Proc.devRef .tc Cert.ReferenceIdeal.main_v113) = VK (Proc.devRef .tc Cert.KernelIdeal.main_v114))
    (hhas : VR (Proc.devRef .tc Cert.ReferenceIdeal.main_v79) = VK (Proc.devRef .tc Cert.KernelIdeal.main_v80))
    (hM : ∀ (r : Fin 8192) (s : Fin 4096),
      (VK (Proc.devRef .tc Cert.KernelIdeal.main_v16) : Cert.KernelIdeal.S8192x4096.Idx → Ideal .f32) (ix2 r s)
        = (VR (Proc.devRef .tc Cert.ReferenceIdeal.main_v15) : Cert.ReferenceIdeal.S8192x8192.Idx → Ideal .f32) (ix2 r ⟨s.val, by omega⟩))
    (hrowsR : ∀ y, 0 ≤ ((VK (Proc.devRef .tc Cert.KernelIdeal.main_v107) : IVec Cert.KernelIdeal.S8192 32) y).toInt
      ∧ ((VK (Proc.devRef .tc Cert.KernelIdeal.main_v107) : IVec Cert.KernelIdeal.S8192 32) y).toInt < 8192)
    (hc1R : ∀ y, 0 ≤ ((VK (Proc.devRef .tc Cert.KernelIdeal.main_v96) : IVec Cert.KernelIdeal.S8192 32) y).toInt
      ∧ ((VK (Proc.devRef .tc Cert.KernelIdeal.main_v96) : IVec Cert.KernelIdeal.S8192 32) y).toInt < 4096)
    (hc2R : ∀ y, 0 ≤ ((VK (Proc.devRef .tc Cert.KernelIdeal.main_v106) : IVec Cert.KernelIdeal.S8192 32) y).toInt
      ∧ ((VK (Proc.devRef .tc Cert.KernelIdeal.main_v106) : IVec Cert.KernelIdeal.S8192 32) y).toInt < 4096) :
    after (Cert.ReferenceIdeal.Hand.opsDlast (F := Ideal)) VR (Proc.devRef .tc Cert.ReferenceIdeal.main_v178)
      = after (Cert.KernelIdeal.Gen.hostOps5_10 (F := Ideal)) VK (Proc.devRef .tc Cert.KernelIdeal.main_v179) := by
  -- the two gathers of the kernel program are the reference's, on in-range index pairs
  have g1 := gather_pair_normalized_eq' (A := 8192) (C := 4096) (C' := 8192) (N := 8192) (α := Ideal .f32)
    (by decide) (by decide) (by decide)
    Cert.KernelIdeal.gather_S8192x4096_S8192x2_S8192_n_01_n_n_01_1_11 Cert.ReferenceIdeal.gather_S8192x8192_S8192x2_S8192_n_01_n_n_01_1_11
    Cert.KernelIdeal.Facts₀.gather_S8192x4096_S8192x2_S8192_n_01_n_n_01_1_11_wf
    Cert.ReferenceIdeal.Facts₀.gather_S8192x8192_S8192x2_S8192_n_01_n_n_01_1_11_wf rfl rfl
    Cert.KernelIdeal.Facts₀.bcast_S_S8192 Cert.KernelIdeal.Facts₀.bcast_S8192_S8192x1_0
    Cert.KernelIdeal.Facts₀.concatenates_S8192x1_S8192x1_S8192x2_d1
    (VK (Proc.devRef .tc Cert.KernelIdeal.main_v16)) (VR (Proc.devRef .tc Cert.ReferenceIdeal.main_v15)) hM
    (VK (Proc.devRef .tc Cert.KernelIdeal.main_v107)) (VK (Proc.devRef .tc Cert.KernelIdeal.main_v96))
    8192#32 4096#32 8192#32 8192#32 (range_cast _ 8192 rfl hrowsR) (range_cast _ 4096 rfl hc1R)
  have g2 := gather_pair_normalized_eq' (A := 8192) (C := 4096) (C' := 8192) (N := 8192) (α := Ideal .f32)
    (by decide) (by decide) (by decide)
    Cert.KernelIdeal.gather_S8192x4096_S8192x2_S8192_n_01_n_n_01_1_11 Cert.ReferenceIdeal.gather_S8192x8192_S8192x2_S8192_n_01_n_n_01_1_11
    Cert.KernelIdeal.Facts₀.gather_S8192x4096_S8192x2_S8192_n_01_n_n_01_1_11_wf
    Cert.ReferenceIdeal.Facts₀.gather_S8192x8192_S8192x2_S8192_n_01_n_n_01_1_11_wf rfl rfl
    Cert.KernelIdeal.Facts₀.bcast_S_S8192 Cert.KernelIdeal.Facts₀.bcast_S8192_S8192x1_0
    Cert.KernelIdeal.Facts₀.concatenates_S8192x1_S8192x1_S8192x2_d1
    (VK (Proc.devRef .tc Cert.KernelIdeal.main_v16)) (VR (Proc.devRef .tc Cert.ReferenceIdeal.main_v15)) hM
    (VK (Proc.devRef .tc Cert.KernelIdeal.main_v107)) (VK (Proc.devRef .tc Cert.KernelIdeal.main_v106))
    8192#32 4096#32 8192#32 8192#32 (range_cast _ 8192 rfl hrowsR) (range_cast _ 4096 rfl hc2R)
  -- both stretches evaluated to one expression each in their live-in arrays
  simp only [Cert.ReferenceIdeal.Hand.opsDlast, Cert.KernelIdeal.Gen.hostOps5_10, cat2K_eq, cat2R_eq]
  after_results_simp
  rw [hrating, hrows, hc1, hc2, hd1, hd2, hhas]
  -- the reference's two gathers replaced by the kernel program's; the rest is the same expression
  refine Eq.trans (congrArg (fun g => addf _ (mulf _ (Host.scatterAdd _ (Host.scatterAdd _ _ _ (mulf (Host.divf g _) _)) _ _))) g1.symm) ?_
  refine Eq.trans (congrArg (fun g => addf _ (mulf _ (Host.scatterAdd _ (Host.scatterAdd _ _ _ _) _ (mulf (Host.divf g _) _)))) g2.symm) ?_
  rfl

end Cert.Bridge

end
-- ==== Proof.Bridge.RangesA.lean ====
/-
  Two index vectors of the kernel program's last stretches are in range.

  The row numbers are an iota over [8192]: entry y is y itself, between 0 and 8192. The first selected column c1 is a
  gather of the column-index argument's words: whatever the start indices, each entry is some entry of that argument, so
  if every column index lies in [0, 4096) so does every entry of c1.
-/
import proofs.«166874_j54296976556804_1_alg».proof.Proof.Bridge.Defs
import Idealize.ShloMosaic.Lib.StableHlo.Run

set_option maxRecDepth 16384

noncomputable section

namespace Cert.Bridge

open Idealize.ShloMosaic Idealize.SL.Sem
open Idealize.ShloMosaic.StableHlo

/-- A 32-bit word made of a number below 2^31 reads back, signed, as that number. -/
theorem toInt_ofNat_small (n : ℕ) (hn : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

set_option maxHeartbeats 8000000 in
/-- The row numbers before the last stretch are the iota over [8192]. -/
theorem rows_eq (VK : KVal) :
    preTailK VK (Proc.devRef .tc Cert.KernelIdeal.main_v107) = iotaInDim Cert.KernelIdeal.S8192 32 0 := by
  unfold preTailK
  simp only [Cert.KernelIdeal.Gen.hostOps5_9, Cert.KernelIdeal.Gen.hostOps5_8, Cert.KernelIdeal.Gen.hostOps5_7, Cert.KernelIdeal.Gen.hostOps5_6,
    Cert.KernelIdeal.Gen.hostOps5_5, Cert.KernelIdeal.Gen.hostOps5_4, Cert.KernelIdeal.Gen.hostOps5_3, Cert.KernelIdeal.Gen.hostOps5_2,
    Cert.KernelIdeal.Gen.hostOps5_1, Cert.KernelIdeal.Gen.hostOps5]
  after_results_simp

/-- Each row number lies in [0, 8192). -/
theorem rows_range (VK : KVal) : ∀ y,
    0 ≤ ((preTailK VK (Proc.devRef .tc Cert.KernelIdeal.main_v107)) y).toInt
      ∧ ((preTailK VK (Proc.devRef .tc Cert.KernelIdeal.main_v107)) y).toInt < 8192 := by
  intro y
  rw [rows_eq]
  have hy : (y 0).val < 8192 := (y 0).isLt
  show 0 ≤ (BitVec.ofNat 32 (y 0).val).toInt ∧ (BitVec.ofNat 32 (y 0).val).toInt < 8192
  rw [toInt_ofNat_small _ (by omega)]
  omega

set_option maxHeartbeats 8000000 in
/-- The first selected column before the last stretch is a gather of the column-index argument. -/
theorem c1_eq (VK : KVal) : ∃ idx : IVec Cert.KernelIdeal.S8192x1 32,
    preTailK VK (Proc.devRef .tc Cert.KernelIdeal.main_v96)
      = Host.gather Cert.KernelIdeal.gather_S409600_S8192x1_S8192_n_0_n_n_0_1_1 (VK (Proc.devRef .tc Cert.KernelIdeal.main_arg7)) idx := by
  unfold preTailK
  simp only [Cert.KernelIdeal.Gen.hostOps5_9, Cert.KernelIdeal.Gen.hostOps5_8, Cert.KernelIdeal.Gen.hostOps5_7, Cert.KernelIdeal.Gen.hostOps5_6,
    Cert.KernelIdeal.Gen.hostOps5_5, Cert.KernelIdeal.Gen.hostOps5_4, Cert.KernelIdeal.Gen.hostOps5_3, Cert.KernelIdeal.Gen.hostOps5_2,
    Cert.KernelIdeal.Gen.hostOps5_1, Cert.KernelIdeal.Gen.hostOps5]
  after_results_simp
  exact ⟨_, rfl⟩

/-- Each entry of c1 lies in [0, 4096) if every column index does. -/
theorem c1_range (VK : KVal)
    (hcols : ∀ e, 0 ≤ ((VK (Proc.devRef .tc Cert.KernelIdeal.main_arg7)) e).toInt ∧ ((VK (Proc.devRef .tc Cert.KernelIdeal.main_arg7)) e).toInt < 4096) : ∀ y,
    0 ≤ ((preTailK VK (Proc.devRef .tc Cert.KernelIdeal.main_v96)) y).toInt
      ∧ ((preTailK VK (Proc.devRef .tc Cert.KernelIdeal.main_v96)) y).toInt < 4096 := by
  intro y
  obtain ⟨idx, e⟩ := c1_eq VK
  rw [e]
  exact hcols _

end Cert.Bridge

end
-- ==== Proof.Bridge.RangesC.lean ====
/-
  THE SECOND SELECTED COLUMN IS IN RANGE. The kernel program computes, per row, a column number c1 read out of the
  column-index argument (one of its entries, chosen by a start index), and c2 = (c1 + 1) mod 4096 by the floored modulo
  spelled operation by operation. Every entry of the column-index argument lies in [0, 4096); so does every entry of
  c1, being one of them; and so does every entry of c2, a floored modulo by the positive 4096 of a non-negative word.
-/
import proofs.«166874_j54296976556804_1_alg».proof.Proof.Bridge.Defs
import proofs.«166874_j54296976556804_1_alg».proof.Proof.LibIdx
import Idealize.ShloMosaic.Lib.StableHlo.Run

noncomputable section

namespace Cert.Bridge

open Idealize.ShloMosaic Idealize.SL.Sem Idealize.ShloMosaic.StableHlo Idealize.ShloMosaic.ValueIdx
open Cert.Hand.LibIdx

set_option maxRecDepth 8192 in
/-- The second selected column after the stretches that follow the last product: the floored modulo by 4096 of the
    successor of a gather of the column-index argument (at some start indices, whatever they are). -/
theorem c2_eval (VK : KVal) :
    ∃ idx : IVec Cert.KernelIdeal.S8192x1 32,
      preTailK VK (Proc.devRef .tc Cert.KernelIdeal.main_v106)
        = floorModVec Cert.KernelIdeal.Facts₀.bcast_S_S8192
            (addi (Host.gather Cert.KernelIdeal.gather_S409600_S8192x1_S8192_n_0_n_n_0_1_1
                (VK (Proc.devRef .tc Cert.KernelIdeal.main_arg7)) idx)
              (broadcastInDim Cert.KernelIdeal.S8192 ![] Cert.KernelIdeal.Facts₀.bcast_S_S8192 (constantI Cert.KernelIdeal.S_ 32 1#32)))
            4096#32 := by
  have harg : StableHlo.after Cert.KernelIdeal.Gen.hostOps5_3 (StableHlo.after Cert.KernelIdeal.Gen.hostOps5_2
      (StableHlo.after Cert.KernelIdeal.Gen.hostOps5_1 (StableHlo.after Cert.KernelIdeal.Gen.hostOps5 VK)))
        (Proc.devRef .tc Cert.KernelIdeal.main_arg7) = VK (Proc.devRef .tc Cert.KernelIdeal.main_arg7) := by
    simp only [Cert.KernelIdeal.Gen.hostOps5_3, Cert.KernelIdeal.Gen.hostOps5_2, Cert.KernelIdeal.Gen.hostOps5_1,
      Cert.KernelIdeal.Gen.hostOps5]
    after_results_simp
  unfold preTailK
  generalize StableHlo.after Cert.KernelIdeal.Gen.hostOps5_3 (StableHlo.after Cert.KernelIdeal.Gen.hostOps5_2
      (StableHlo.after Cert.KernelIdeal.Gen.hostOps5_1 (StableHlo.after Cert.KernelIdeal.Gen.hostOps5 VK))) = W at harg ⊢
  refine ⟨?w, ?h⟩
  case h =>
    simp only [Cert.KernelIdeal.Gen.hostOps5_9, Cert.KernelIdeal.Gen.hostOps5_8, Cert.KernelIdeal.Gen.hostOps5_7,
      Cert.KernelIdeal.Gen.hostOps5_6, Cert.KernelIdeal.Gen.hostOps5_5, Cert.KernelIdeal.Gen.hostOps5_4]
    after_results_simp
    simp only [StableHlo.TRef.ofBuf, StableHlo.TRef.toBuf, cast_eq]
    rw [harg]
    rfl

/-- Every entry of the second selected column lies in [0, 4096), once every entry of the column-index argument does. -/
theorem c2_range (VK : KVal)
    (hcols : ∀ e, 0 ≤ ((VK (Proc.devRef .tc Cert.KernelIdeal.main_arg7) : IVec Cert.KernelIdeal.S409600 32) e).toInt
      ∧ ((VK (Proc.devRef .tc Cert.KernelIdeal.main_arg7) : IVec Cert.KernelIdeal.S409600 32) e).toInt < 4096) :
    ∀ y, 0 ≤ ((preTailK VK (Proc.devRef .tc Cert.KernelIdeal.main_v106) : IVec Cert.KernelIdeal.S8192 32) y).toInt
      ∧ ((preTailK VK (Proc.devRef .tc Cert.KernelIdeal.main_v106) : IVec Cert.KernelIdeal.S8192 32) y).toInt < 4096 := by
  intro y
  obtain ⟨idx, h⟩ := c2_eval VK
  rw [h]
  have hD : (0 : Int) < (4096#32 : BitVec 32).toInt := by decide
  have hc : ∀ i, 0 ≤ ((Host.gather Cert.KernelIdeal.gather_S409600_S8192x1_S8192_n_0_n_n_0_1_1
      (VK (Proc.devRef .tc Cert.KernelIdeal.main_arg7)) idx : IVec Cert.KernelIdeal.S8192 32) i).toInt
      ∧ ((Host.gather Cert.KernelIdeal.gather_S409600_S8192x1_S8192_n_0_n_n_0_1_1
      (VK (Proc.devRef .tc Cert.KernelIdeal.main_arg7)) idx : IVec Cert.KernelIdeal.S8192 32) i).toInt < 2 ^ 31 - 1 :=
    fun i => gather_forall _ _ idx (fun w : BitVec 32 => 0 ≤ w.toInt ∧ w.toInt < 2 ^ 31 - 1)
      (fun e => ⟨(hcols e).1, by have := (hcols e).2; omega⟩) i
  have hr := floorModVec_succ_range Cert.KernelIdeal.Facts₀.bcast_S_S8192 _ (4096#32 : BitVec 32) hD hc y
  have h4096 : (4096#32 : BitVec 32).toInt = 4096 := by decide
  rw [h4096] at hr
  exact hr

end Cert.Bridge

end
-- ==== Proof.PreCols.lean ====
/-
  The precondition's last conjunct, decoded. The printed predicate is a conjunction (by `and` on one-bit words) of
  eleven `all`-reductions; the last says of the column-index words a7 : i32[409600] that every word w has
  0 ≤ w and w < 4096, both compared signed. From the predicate being the all-ones value we read this back
  at every index: the conjunction splits, the reduction by `and` into a one-index result gives every element,
  and a signed comparison that is 1 is the order of the words' integer readings.
-/
import proofs.«166874_j54296976556804_1_alg».proof.Pre_finite_inputs
import Idealize.ShloMosaic.Lib.ReduceAll
import Idealize.ShloMosaic.Lib.ValueIdx

noncomputable section

namespace Cert.Hand.PreCols

open Idealize.ShloMosaic Cert.Pre_finite_inputs

/-- The rank-0 shape has one index. -/
instance : Subsingleton S_.Idx := ⟨fun a b => funext fun d => d.elim0⟩

variable {F : FTy → Type} [FloatOps F] [Facts]

/-- The last conjunct of the printed predicate: the `all` over 0 ≤ a7 ∧ a7 < 4096 (signed). -/
theorem last_conjunct
    (a0 a1 : FVec F S8192x4096 .f32) (a2 : FVec F S8192x256 .f32) (a3 : FVec F S4096x256 .f32)
    (a4 : FVec F S8192x256 .f32) (a5 : FVec F S4096x256 .f32) (a6 a7 : IVec S409600 32)
    (a8 : FVec F S409600 .f32) (a9 a10 : FVec F S256 .f32)
    (h : fn (F := F) a0 a1 a2 a3 a4 a5 a6 a7 a8 a9 a10 = fun _ => 1#1) :
    Host.reduce IntOp.andi
      (andi (cmpi .sge a7 (broadcastInDim S409600 ![] Facts.bcast_S_S409600 (constantI S_ 32 0#32)))
            (cmpi .slt a7 (broadcastInDim S409600 ![] Facts.bcast_S_S409600 (constantI S_ 32 4096#32))))
      (constantI S_ 1 1#1) Facts.reducesTo_S409600_S_d0 Facts.h_S_ ValueIdx.ix0 = 1#1 := by
  have h0 := congrFun h ValueIdx.ix0
  dsimp only [fn, fn_part1, fn_part2] at h0
  exact (IntOp.andi_eq_one.1 h0).2

/-- THE PRECONDITION DECODED: every column index is in [0, 4096), read signed. -/
theorem pos_cols_range
    (a0 a1 : FVec F S8192x4096 .f32) (a2 : FVec F S8192x256 .f32) (a3 : FVec F S4096x256 .f32)
    (a4 : FVec F S8192x256 .f32) (a5 : FVec F S4096x256 .f32) (a6 a7 : IVec S409600 32)
    (a8 : FVec F S409600 .f32) (a9 a10 : FVec F S256 .f32)
    (h : fn (F := F) a0 a1 a2 a3 a4 a5 a6 a7 a8 a9 a10 = fun _ => 1#1) (e : S409600.Idx) :
    0 ≤ (a7 e).toInt ∧ (a7 e).toInt < 4096 := by
  have h1 := Host.reduce_andi_all _ _ _ _ _ (last_conjunct a0 a1 a2 a3 a4 a5 a6 a7 a8 a9 a10 h) e
  obtain ⟨hge, hlt⟩ := IntOp.andi_eq_one.1 h1
  have hge' := IntOp.cmpi_sge.1 hge
  have hlt' := IntOp.cmpi_slt.1 hlt
  have z0 : (0#32 : BitVec 32).toInt = 0 := by decide
  have z1 : (4096#32 : BitVec 32).toInt = 4096 := by decide
  exact ⟨z0 ▸ hge', z1 ▸ hlt'⟩

/-- The same, unsigned: a word in [0, 4096) signed reads below 4096 as a natural number. -/
theorem pos_cols_toNat_lt
    (a0 a1 : FVec F S8192x4096 .f32) (a2 : FVec F S8192x256 .f32) (a3 : FVec F S4096x256 .f32)
    (a4 : FVec F S8192x256 .f32) (a5 : FVec F S4096x256 .f32) (a6 a7 : IVec S409600 32)
    (a8 : FVec F S409600 .f32) (a9 a10 : FVec F S256 .f32)
    (h : fn (F := F) a0 a1 a2 a3 a4 a5 a6 a7 a8 a9 a10 = fun _ => 1#1) (e : S409600.Idx) :
    (a7 e).toNat < 4096 := by
  obtain ⟨h0, h1⟩ := pos_cols_range a0 a1 a2 a3 a4 a5 a6 a7 a8 a9 a10 h e
  have h32 := (a7 e).isLt
  unfold BitVec.toInt at h0 h1
  split at h1 <;> omega

end Cert.Hand.PreCols

end
-- ==== Proof.Bridge.Main.lean ====
/-
  The two programs' results are the same array. The comparison walks both programs cut by cut: the left factor and
  the first 4096 columns of the right factor of the first product; the first two products on those columns; the
  column-normalised matrix on those columns; the smoothed factors and their product; the dense scatter; the last two
  products; the selected columns and divisors; and the last stretch, where the two gathers from the normalised matrix
  read the same entries because the selected columns lie below 4096.
-/
import proofs.«166874_j54296976556804_1_alg».proof.Proof.Bridge.Keep
import proofs.«166874_j54296976556804_1_alg».proof.Proof.Bridge.ArgsK
import proofs.«166874_j54296976556804_1_alg».proof.Proof.Bridge.Same
import proofs.«166874_j54296976556804_1_alg».proof.Proof.Bridge.SameA
import proofs.«166874_j54296976556804_1_alg».proof.Proof.Bridge.SameD
import proofs.«166874_j54296976556804_1_alg».proof.Proof.Bridge.SameE
import proofs.«166874_j54296976556804_1_alg».proof.Proof.LibBlockOfWhole
import proofs.«166874_j54296976556804_1_alg».proof.Proof.Bridge.Head
import proofs.«166874_j54296976556804_1_alg».proof.Proof.Bridge.StageA
import proofs.«166874_j54296976556804_1_alg».proof.Proof.Bridge.StageP
import proofs.«166874_j54296976556804_1_alg».proof.Proof.Bridge.Last
import proofs.«166874_j54296976556804_1_alg».proof.Proof.Bridge.RangesA
import proofs.«166874_j54296976556804_1_alg».proof.Proof.Bridge.RangesC
import proofs.«166874_j54296976556804_1_alg».proof.Proof.PreCols
import proofs.«166874_j54296976556804_1_alg».proof.Defs
import proofs.«166874_j54296976556804_1_alg».proof.Proof.Gen.Pre_finite_inputs

set_option maxRecDepth 16384

noncomputable section

namespace Cert.Bridge

open Idealize.ShloMosaic Idealize.ShloMosaic.ValueIdx Idealize.SL.Sem
open Idealize.ShloMosaic.StableHlo

section

open Cert.KernelIdeal Cert.KernelIdeal.Gen Cert.KernelIdeal.Hand

variable (m : (ℓ : Loc nD τ sig) → Buf (Elt Ideal) ℓ) (ρ : Dev nD → PrngReg) (c : Dev nD) (V : RVal)

/-- If the kernel program's buffers VK hold the launch arguments, the reference's VR hold what its launch buffers V
    held, and V agrees with the kernel's launch memory on the arguments, then VK and VR agree on the arguments. -/
theorem agree_cut {VK : KVal} {VR : RVal}
    (hg : V (Proc.devRef .tc Cert.ReferenceIdeal.main_arg0) = m ((c.tc : Thread Cert.KernelIdeal.nD Cert.KernelIdeal.τ).loc Cert.KernelIdeal.main_arg0)
      ∧ V (Proc.devRef .tc Cert.ReferenceIdeal.main_arg1) = m ((c.tc : Thread Cert.KernelIdeal.nD Cert.KernelIdeal.τ).loc Cert.KernelIdeal.main_arg1)
      ∧ V (Proc.devRef .tc Cert.ReferenceIdeal.main_arg2) = m ((c.tc : Thread Cert.KernelIdeal.nD Cert.KernelIdeal.τ).loc Cert.KernelIdeal.main_arg2)
      ∧ V (Proc.devRef .tc Cert.ReferenceIdeal.main_arg3) = m ((c.tc : Thread Cert.KernelIdeal.nD Cert.KernelIdeal.τ).loc Cert.KernelIdeal.main_arg3)
      ∧ V (Proc.devRef .tc Cert.ReferenceIdeal.main_arg4) = m ((c.tc : Thread Cert.KernelIdeal.nD Cert.KernelIdeal.τ).loc Cert.KernelIdeal.main_arg4)
      ∧ V (Proc.devRef .tc Cert.ReferenceIdeal.main_arg5) = m ((c.tc : Thread Cert.KernelIdeal.nD Cert.KernelIdeal.τ).loc Cert.KernelIdeal.main_arg5)
      ∧ V (Proc.devRef .tc Cert.ReferenceIdeal.main_arg6) = m ((c.tc : Thread Cert.KernelIdeal.nD Cert.KernelIdeal.τ).loc Cert.KernelIdeal.main_arg6)
      ∧ V (Proc.devRef .tc Cert.ReferenceIdeal.main_arg7) = m ((c.tc : Thread Cert.KernelIdeal.nD Cert.KernelIdeal.τ).loc Cert.KernelIdeal.main_arg7)
      ∧ V (Proc.devRef .tc Cert.ReferenceIdeal.main_arg8) = m ((c.tc : Thread Cert.KernelIdeal.nD Cert.KernelIdeal.τ).loc Cert.KernelIdeal.main_arg8)
      ∧ V (Proc.devRef .tc Cert.ReferenceIdeal.main_arg9) = m ((c.tc : Thread Cert.KernelIdeal.nD Cert.KernelIdeal.τ).loc Cert.KernelIdeal.main_arg9)
      ∧ V (Proc.devRef .tc Cert.ReferenceIdeal.main_arg10) = m ((c.tc : Thread Cert.KernelIdeal.nD Cert.KernelIdeal.τ).loc Cert.KernelIdeal.main_arg10))
    (hK : VK (Proc.devRef .tc Cert.KernelIdeal.main_arg0) = m ((c.tc : Thread Cert.KernelIdeal.nD Cert.KernelIdeal.τ).loc Cert.KernelIdeal.main_arg0)
      ∧ VK (Proc.devRef .tc Cert.KernelIdeal.main_arg1) = m ((c.tc : Thread Cert.KernelIdeal.nD Cert.KernelIdeal.τ).loc Cert.KernelIdeal.main_arg1)
      ∧ VK (Proc.devRef .tc Cert.KernelIdeal.main_arg2) = m ((c.tc : Thread Cert.KernelIdeal.nD Cert.KernelIdeal.τ).loc Cert.KernelIdeal.main_arg2)
      ∧ VK (Proc.devRef .tc Cert.KernelIdeal.main_arg3) = m ((c.tc : Thread Cert.KernelIdeal.nD Cert.KernelIdeal.τ).loc Cert.KernelIdeal.main_arg3)
      ∧ VK (Proc.devRef .tc Cert.KernelIdeal.main_arg4) = m ((c.tc : Thread Cert.KernelIdeal.nD Cert.KernelIdeal.τ).loc Cert.KernelIdeal.main_arg4)
      ∧ VK (Proc.devRef .tc Cert.KernelIdeal.main_arg5) = m ((c.tc : Thread Cert.KernelIdeal.nD Cert.KernelIdeal.τ).loc Cert.KernelIdeal.main_arg5)
      ∧ VK (Proc.devRef .tc Cert.KernelIdeal.main_arg6) = m ((c.tc : Thread Cert.KernelIdeal.nD Cert.KernelIdeal.τ).loc Cert.KernelIdeal.main_arg6)
      ∧ VK (Proc.devRef .tc Cert.KernelIdeal.main_arg7) = m ((c.tc : Thread Cert.KernelIdeal.nD Cert.KernelIdeal.τ).loc Cert.KernelIdeal.main_arg7)
      ∧ VK (Proc.devRef .tc Cert.KernelIdeal.main_arg8) = m ((c.tc : Thread Cert.KernelIdeal.nD Cert.KernelIdeal.τ).loc Cert.KernelIdeal.main_arg8)
      ∧ VK (Proc.devRef .tc Cert.KernelIdeal.main_arg9) = m ((c.tc : Thread Cert.KernelIdeal.nD Cert.KernelIdeal.τ).loc Cert.KernelIdeal.main_arg9)
      ∧ VK (Proc.devRef .tc Cert.KernelIdeal.main_arg10) = m ((c.tc : Thread Cert.KernelIdeal.nD Cert.KernelIdeal.τ).loc Cert.KernelIdeal.main_arg10))
    (hR : VR (Proc.devRef .tc Cert.ReferenceIdeal.main_arg0) = V (Proc.devRef .tc Cert.ReferenceIdeal.main_arg0)
      ∧ VR (Proc.devRef .tc Cert.ReferenceIdeal.main_arg1) = V (Proc.devRef .tc Cert.ReferenceIdeal.main_arg1)
      ∧ VR (Proc.devRef .tc Cert.ReferenceIdeal.main_arg2) = V (Proc.devRef .tc Cert.ReferenceIdeal.main_arg2)
      ∧ VR (Proc.devRef .tc Cert.ReferenceIdeal.main_arg3) = V (Proc.devRef .tc Cert.ReferenceIdeal.main_arg3)
      ∧ VR (Proc.devRef .tc Cert.ReferenceIdeal.main_arg4) = V (Proc.devRef .tc Cert.ReferenceIdeal.main_arg4)
      ∧ VR (Proc.devRef .tc Cert.ReferenceIdeal.main_arg5) = V (Proc.devRef .tc Cert.ReferenceIdeal.main_arg5)
      ∧ VR (Proc.devRef .tc Cert.ReferenceIdeal.main_arg6) = V (Proc.devRef .tc Cert.ReferenceIdeal.main_arg6)
      ∧ VR (Proc.devRef .tc Cert.ReferenceIdeal.main_arg7) = V (Proc.devRef .tc Cert.ReferenceIdeal.main_arg7)
      ∧ VR (Proc.devRef .tc Cert.ReferenceIdeal.main_arg8) = V (Proc.devRef .tc Cert.ReferenceIdeal.main_arg8)
      ∧ VR (Proc.devRef .tc Cert.ReferenceIdeal.main_arg9) = V (Proc.devRef .tc Cert.ReferenceIdeal.main_arg9)
      ∧ VR (Proc.devRef .tc Cert.ReferenceIdeal.main_arg10) = V (Proc.devRef .tc Cert.ReferenceIdeal.main_arg10)) : ArgsAgree VK VR := by
  obtain ⟨g0, g1, g2, g3, g4, g5, g6, g7, g8, g9, g10⟩ := hg
  obtain ⟨k0, k1, k2, k3, k4, k5, k6, k7, k8, k9, k10⟩ := hK
  obtain ⟨r0, r1, r2, r3, r4, r5, r6, r7, r8, r9, r10⟩ := hR
  exact ⟨r0.trans (g0.trans k0.symm),
    r1.trans (g1.trans k1.symm),
    r2.trans (g2.trans k2.symm),
    r3.trans (g3.trans k3.symm),
    r4.trans (g4.trans k4.symm),
    r5.trans (g5.trans k5.symm),
    r6.trans (g6.trans k6.symm),
    r7.trans (g7.trans k7.symm),
    r8.trans (g8.trans k8.symm),
    r9.trans (g9.trans k9.symm),
    r10.trans (g10.trans k10.symm)⟩

end

section

open Cert.KernelIdeal Cert.KernelIdeal.Gen Cert.KernelIdeal.Hand

variable (m : (ℓ : Loc nD τ sig) → Buf (Elt Ideal) ℓ) (ρ : Dev nD → PrngReg) (c : Dev nD)

/-- THE RESULTS AGREE: from memories that agree on the arguments, under the precondition (finite floats, column
    indices below 4096), what the reference's line leaves in its result buffer is what the kernel program's fold of
    stretches and products leaves in its own. -/
theorem result_eq
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hg : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    StableHlo.after (Cert.ReferenceIdeal.Hand.ops (F := Ideal)) (launchContents m' c) (Proc.devRef .tc Cert.ReferenceIdeal.main_v178)
      = W19 m ρ c (Proc.devRef .tc main_v179) := by
  rw [after_ops_R10]
  generalize hV : (launchContents m' c : RVal) = V
  have hgV : V (Proc.devRef .tc Cert.ReferenceIdeal.main_arg0) = m ((c.tc : Thread Cert.KernelIdeal.nD Cert.KernelIdeal.τ).loc Cert.KernelIdeal.main_arg0) ∧ V (Proc.devRef .tc Cert.ReferenceIdeal.main_arg1) = m ((c.tc : Thread Cert.KernelIdeal.nD Cert.KernelIdeal.τ).loc Cert.KernelIdeal.main_arg1) ∧ V (Proc.devRef .tc Cert.ReferenceIdeal.main_arg2) = m ((c.tc : Thread Cert.KernelIdeal.nD Cert.KernelIdeal.τ).loc Cert.KernelIdeal.main_arg2) ∧ V (Proc.devRef .tc Cert.ReferenceIdeal.main_arg3) = m ((c.tc : Thread Cert.KernelIdeal.nD Cert.KernelIdeal.τ).loc Cert.KernelIdeal.main_arg3) ∧ V (Proc.devRef .tc Cert.ReferenceIdeal.main_arg4) = m ((c.tc : Thread Cert.KernelIdeal.nD Cert.KernelIdeal.τ).loc Cert.KernelIdeal.main_arg4) ∧ V (Proc.devRef .tc Cert.ReferenceIdeal.main_arg5) = m ((c.tc : Thread Cert.KernelIdeal.nD Cert.KernelIdeal.τ).loc Cert.KernelIdeal.main_arg5) ∧ V (Proc.devRef .tc Cert.ReferenceIdeal.main_arg6) = m ((c.tc : Thread Cert.KernelIdeal.nD Cert.KernelIdeal.τ).loc Cert.KernelIdeal.main_arg6) ∧ V (Proc.devRef .tc Cert.ReferenceIdeal.main_arg7) = m ((c.tc : Thread Cert.KernelIdeal.nD Cert.KernelIdeal.τ).loc Cert.KernelIdeal.main_arg7) ∧ V (Proc.devRef .tc Cert.ReferenceIdeal.main_arg8) = m ((c.tc : Thread Cert.KernelIdeal.nD Cert.KernelIdeal.τ).loc Cert.KernelIdeal.main_arg8) ∧ V (Proc.devRef .tc Cert.ReferenceIdeal.main_arg9) = m ((c.tc : Thread Cert.KernelIdeal.nD Cert.KernelIdeal.τ).loc Cert.KernelIdeal.main_arg9) ∧ V (Proc.devRef .tc Cert.ReferenceIdeal.main_arg10) = m ((c.tc : Thread Cert.KernelIdeal.nD Cert.KernelIdeal.τ).loc Cert.KernelIdeal.main_arg10) := by
    subst hV; exact hg
  -- the arguments at the cuts
  have A0 : ArgsAgree (W0 m ρ c) V := agree_cut m c V hgV (W0_arg m ρ c) ⟨rfl, rfl, rfl, rfl, rfl, rfl, rfl, rfl, rfl, rfl, rfl⟩
  have A3 : ArgsAgree (W3 m ρ c) (R3 V) := agree_cut m c V hgV (W3_arg m ρ c) (R3_args V)
  have A5 : ArgsAgree (W5 m ρ c) (R5 V) := agree_cut m c V hgV (W5_arg m ρ c) (R5_args V)
  have A8 : ArgsAgree (W8 m ρ c) (R8 V) := agree_cut m c V hgV (W8_arg m ρ c) (R8_args V)
  -- the first two products and the normalised matrix, on the first 4096 columns
  have s2 : ∀ (r : Fin 8192) (s : Fin 4096), (W3 m ρ c (Proc.devRef .tc main_v6)) (ix2 r s)
      = (R3 V (Proc.devRef .tc Cert.ReferenceIdeal.main_v5)) (ix2 r ⟨s.val, by omega⟩) := fun r s => prod1_cols m ρ c A0 r s
  have s3 : ∀ (r : Fin 8192) (s : Fin 4096), (W4 m ρ c (Proc.devRef .tc main_v16)) (ix2 r s)
      = (R4 V (Proc.devRef .tc Cert.ReferenceIdeal.main_v15)) (ix2 r ⟨s.val, by omega⟩) :=
    head_stage (W3 m ρ c) (R3 V) s2
  -- the smoothed factors, their product, the dense scatter, the last two products
  have s4a : R4 V (Proc.devRef .tc Cert.ReferenceIdeal.main_v54) = W4 m ρ c (Proc.devRef .tc main_v55) := lhs2_same (W3 m ρ c) (R3 V) A3
  have s4b : R4 V (Proc.devRef .tc Cert.ReferenceIdeal.main_v55) = W4 m ρ c (Proc.devRef .tc main_v56) := rhs2_same (W3 m ρ c) (R3 V) A3
  have s5 := prod2_stage m ρ c V s4a s4b
  have s6 : R6 V (Proc.devRef .tc Cert.ReferenceIdeal.main_v71) = W6 m ρ c (Proc.devRef .tc main_v72) := posdense_same (W5 m ρ c) (R5 V) A5
  have s7 := prod3_stage m ρ c V (by rw [R6_keep56, W6_keep57]; exact s5) s6
  have s8 := prod4_stage m ρ c V (by rw [R7_arg1, W7_main_arg1 m ρ c]; exact hgV.2.1) s7
  -- the selected columns and divisors, and the last stretch
  have t_rows := pretail_rows (VK := W8 m ρ c) (VR := R8 V) A8
  have t_c1 := pretail_c1_staged (W8 m ρ c) (R8 V) A8
  have t_c2 := pretail_c2_of_c1 (W8 m ρ c) (R8 V) t_c1
  have t_d1 := pretail_d1 (W8 m ρ c) (R8 V) A8
  have t_d2 := pretail_d2 (W8 m ρ c) (R8 V) A8
  have t_has := pretail_has (W8 m ρ c) (R8 V) A8
  have hM : ∀ (r : Fin 8192) (s : Fin 4096), (W18 m ρ c (Proc.devRef .tc main_v16)) (ix2 r s)
      = (R9 V (Proc.devRef .tc Cert.ReferenceIdeal.main_v15)) (ix2 r ⟨s.val, by omega⟩) := by
    intro r s
    rw [W18_eq, (preTailK_keep _).2, W8_keep16, (R9_keep V).2, R8_keep15]
    exact s3 r s
  have hrating : R9 V (Proc.devRef .tc Cert.ReferenceIdeal.main_v73) = W18 m ρ c (Proc.devRef .tc main_v74) := by
    rw [(R9_keep V).1, W18_eq, (preTailK_keep _).1]; exact s8
  have hcols : ∀ e, 0 ≤ ((W8 m ρ c (Proc.devRef .tc main_arg7)) e).toInt ∧ ((W8 m ρ c (Proc.devRef .tc main_arg7)) e).toInt < 4096 := by
    intro e
    rw [W8_main_arg7 m ρ c]
    exact Cert.Hand.PreCols.pos_cols_range _ _ _ _ _ _ _ _ _ _ _ (hpre c) e
  exact last_same (W18 m ρ c) (R9 V) hrating t_rows t_c1 t_c2 t_d1 t_d2 t_has hM
    (rows_range (W8 m ρ c)) (c1_range (W8 m ρ c) hcols) (c2_range (W8 m ρ c) hcols)

end

end Cert.Bridge

end
-- ==== Proof.lean ====
/- The two programs compute the same matrix: five tiled matrix products (each block product accumulated along the
   contraction axis) between plain array operations on one side, whole matrix products on the other, where the
   kernel's side keeps only the first 4096 columns of a column-normalised 8192-column intermediate that is later read
   at column indices below 4096 (the precondition bounds them). The frames and the two runs are proved in the
   modules imported here; this file assembles the five conjuncts. -/
import proofs.«166874_j54296976556804_1_alg».proof.Defs
import proofs.«166874_j54296976556804_1_alg».proof.Proof.Gen.Kernel
import proofs.«166874_j54296976556804_1_alg».proof.Proof.Gen.KernelIdeal
import proofs.«166874_j54296976556804_1_alg».proof.Proof.Gen.ReferenceIdeal
import proofs.«166874_j54296976556804_1_alg».proof.Proof.Gen.Pre_finite_inputs
import proofs.«166874_j54296976556804_1_alg».proof.Proof.RI.Run
import proofs.«166874_j54296976556804_1_alg».proof.Proof.KI.Run
import proofs.«166874_j54296976556804_1_alg».proof.Proof.K.Run
import proofs.«166874_j54296976556804_1_alg».proof.Proof.Bridge.Main
import Idealize.ShloMosaic.Adequacy
import Idealize.ShloMosaic.Init

noncomputable section

namespace Cert.Proof

open Idealize.ShloMosaic Idealize.SL.Sem

/-- The reference is host operations only: its run ends with every argument array as launched. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Hand.run (F := Ideal) m g)

/-- The kernel program as printed, read at the word level: the same run, every argument array as launched. -/
theorem frame_k : Cert.frame_Kernel (hKernel := Cert.Kernel.Gen.facts) (hPre_finite_inputs := Cert.Pre_finite_inputs.Gen.facts) :=
  fun m g _ => (θ_run Cert.Kernel.defs _ _).mono (fun _ h c => (h c).2) (Cert.Kernel.Hand.run_main (F := Bits) m g)

/-- The idealized kernel program's run (five tiled products between host operations) ends with every argument array
    as launched. -/
theorem frame_ki : Cert.frame_KernelIdeal (hKernelIdeal := Cert.KernelIdeal.Gen.facts) (hPre_finite_inputs := Cert.Pre_finite_inputs.Gen.facts) :=
  fun m g _ => (θ_run Cert.KernelIdeal.defs _ _).mono (fun _ h c => (h c).2) (Cert.KernelIdeal.Hand.run_main (F := Ideal) m g)

/-- From memories agreeing on the arguments, under the precondition, both idealized programs run to the end with the
    same result array: the kernel program's run names its result as the last boundary's contents of its result
    buffer, the reference's as its line's composition at its own, and the two are equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W19 m g c (Proc.devRef .tc Cert.KernelIdeal.main_v179),
    Cert.KernelIdeal.Hand.run_main (F := Ideal) m g, ?_⟩
  refine (θ_run Cert.ReferenceIdeal.defs _ _).mono (fun _ h c => ⟨(h c).1.trans ?_, (h c).2⟩)
    (Cert.ReferenceIdeal.Hand.run (F := Ideal) m' g')
  exact Cert.Bridge.result_eq m g c m' hpre (hagree c)

theorem claim : Cert.Claim := ⟨Cert.Kernel.Gen.facts, Cert.KernelIdeal.Gen.facts, Cert.ReferenceIdeal.Gen.facts, Cert.Pre_finite_inputs.Gen.facts, by
  exact ⟨frame_k, frame_ki, frame_ri, trivial, algebraic⟩⟩

end Cert.Proof

end
